-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v293) = v0 c
          ∧ r.2.mem ((c.tc : Thread Cert.ReferenceIdeal.nD Cert.ReferenceIdeal.τ).loc Cert.ReferenceIdeal.main_v292) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x128 : Shape := ⟨2, ![262144, 128]⟩
abbrev S5x64x64 : Shape := ⟨3, ![5, 64, 64]⟩
abbrev S5x64 : Shape := ⟨2, ![5, 64]⟩
abbrev S_ : Shape := ⟨0, ![]⟩

class Facts : Prop where
  bcast_S_S262144x128 : S_.BroadcastsInDim S262144x128 (![] : Fin 0 → Fin S262144x128.rank)
  reducesTo_S262144x128_S_d0_1 : S262144x128.ReducesTo [0, 1] S_
  h_S_ : 0 < S_.numel
  bcast_S_S5x64x64 : S_.BroadcastsInDim S5x64x64 (![] : Fin 0 → Fin S5x64x64.rank)
  reducesTo_S5x64x64_S_d0_1_2 : S5x64x64.ReducesTo [0, 1, 2] S_
  bcast_S_S5x64 : S_.BroadcastsInDim S5x64 (![] : Fin 0 → Fin S5x64.rank)
  reducesTo_S5x64_S_d0_1 : S5x64.ReducesTo [0, 1] S_

variable [Facts]

def fn_part3 {F : FTy → Type} [FloatOps F] (main_arg11 : FVec F S5x64x64 .f32) (main_arg12 : FVec F S5x64 .f32) (main_v48 : IVec S_ 1) (main_v49 : FVec F S5x64 .f32) (main_v50 : FVec F S5x64 .f32) : IVec S_ 1 :=
  let main_v51 : IVec S5x64 1 := cmpf .olt main_v49 main_v50
  let main_c_19 : IVec S_ 1 := constantI S_ 1 1#1
  let main_v52 : IVec S_ 1 := (fun x v => Host.reduce IntOp.andi x v reducesTo_S5x64_S_d0_1 h_S_) main_v51 main_c_19
  let main_v53 : IVec S_ 1 := andi main_v48 main_v52
  let main_v54 : FVec F S5x64x64 .f32 := Host.absf main_arg11
  let main_cst_20 : FVec F S_ .f32 := constant S_ .f32 0x7F800000#32
  let main_v55 : FVec F S5x64x64 .f32 := broadcastInDim S5x64x64 ![] bcast_S_S5x64x64 main_cst_20
  let main_v56 : IVec S5x64x64 1 := cmpf .olt main_v54 main_v55
  let main_c_21 : IVec S_ 1 := constantI S_ 1 1#1
  let main_v57 : IVec S_ 1 := (fun x v => Host.reduce IntOp.andi x v reducesTo_S5x64x64_S_d0_1_2 h_S_) main_v56 main_c_21
  let main_v58 : IVec S_ 1 := andi main_v53 main_v57
  let main_v59 : FVec F S5x64 .f32 := Host.absf main_arg12
  let main_cst_22 : FVec F S_ .f32 := constant S_ .f32 0x7F800000#32
  let main_v60 : FVec F S5x64 .f32 := broadcastInDim S5x64 ![] bcast_S_S5x64 main_cst_22
  let main_v61 : IVec S5x64 1 := cmpf .olt main_v59 main_v60
  let main_c_23 : IVec S_ 1 := constantI S_ 1 1#1
  let main_v62 : IVec S_ 1 := (fun x v => Host.reduce IntOp.andi x v reducesTo_S5x64_S_d0_1 h_S_) main_v61 main_c_23
  let main_v63 : IVec S_ 1 := andi main_v58 main_v62
  main_v63

def fn_part2 {F : FTy → Type} [FloatOps F] (main_arg7 : FVec F S5x64x64 .f32) (main_arg8 : FVec F S5x64 .f32) (main_arg9 : FVec F S5x64x64 .f32) (main_arg10 : FVec F S5x64 .f32) (main_arg11 : FVec F S5x64x64 .f32) (main_arg12 : FVec F S5x64 .f32) (main_v33 : IVec S_ 1) : IVec S_ 1 :=
  let main_v34 : FVec F S5x64x64 .f32 := Host.absf main_arg7
  let main_cst_12 : FVec F S_ .f32 := constant S_ .f32 0x7F800000#32
  let main_v35 : FVec F S5x64x64 .f32 := broadcastInDim S5x64x64 ![] bcast_S_S5x64x64 main_cst_12
  let main_v36 : IVec S5x64x64 1 := cmpf .olt main_v34 main_v35
  let main_c_13 : IVec S_ 1 := constantI S_ 1 1#1
  let main_v37 : IVec S_ 1 := (fun x v => Host.reduce IntOp.andi x v reducesTo_S5x64x64_S_d0_1_2 h_S_) main_v36 main_c_13
  let main_v38 : IVec S_ 1 := andi main_v33 main_v37
  let main_v39 : FVec F S5x64 .f32 := Host.absf main_arg8
  let main_cst_14 : FVec F S_ .f32 := constant S_ .f32 0x7F800000#32
  let main_v40 : FVec F S5x64 .f32 := broadcastInDim S5x64 ![] bcast_S_S5x64 main_cst_14
  let main_v41 : IVec S5x64 1 := cmpf .olt main_v39 main_v40
  let main_c_15 : IVec S_ 1 := constantI S_ 1 1#1
  let main_v42 : IVec S_ 1 := (fun x v => Host.reduce IntOp.andi x v reducesTo_S5x64_S_d0_1 h_S_) main_v41 main_c_15
  let main_v43 : IVec S_ 1 := andi main_v38 main_v42
  let main_v44 : FVec F S5x64x64 .f32 := Host.absf main_arg9
  let main_cst_16 : FVec F S_ .f32 := constant S_ .f32 0x7F800000#32
  let main_v45 : FVec F S5x64x64 .f32 := broadcastInDim S5x64x64 ![] bcast_S_S5x64x64 main_cst_16
  let main_v46 : IVec S5x64x64 1 := cmpf .olt main_v44 main_v45
  let main_c_17 : IVec S_ 1 := constantI S_ 1 1#1
  let main_v47 : IVec S_ 1 := (fun x v => Host.reduce IntOp.andi x v reducesTo_S5x64x64_S_d0_1_2 h_S_) main_v46 main_c_17
  let main_v48 : IVec S_ 1 := andi main_v43 main_v47
  let main_v49 : FVec F S5x64 .f32 := Host.absf main_arg10
  let main_cst_18 : FVec F S_ .f32 := constant S_ .f32 0x7F800000#32
  let main_v50 : FVec F S5x64 .f32 := broadcastInDim S5x64 ![] bcast_S_S5x64 main_cst_18
  fn_part3 (F := F) main_arg11 main_arg12 main_v48 main_v49 main_v50

def fn_part1 {F : FTy → Type} [FloatOps F] (main_arg4 : FVec F S5x64 .f32) (main_arg5 : FVec F S5x64x64 .f32) (main_arg6 : FVec F S5x64 .f32) (main_arg7 : FVec F S5x64x64 .f32) (main_arg8 : FVec F S5x64 .f32) (main_arg9 : FVec F S5x64x64 .f32) (main_arg10 : FVec F S5x64 .f32) (main_arg11 : FVec F S5x64x64 .f32) (main_arg12 : FVec F S5x64 .f32) (main_v13 : IVec S_ 1) (main_v16 : IVec S5x64x64 1) : IVec S_ 1 :=
  let main_c_5 : IVec S_ 1 := constantI S_ 1 1#1
  let main_v17 : IVec S_ 1 := (fun x v => Host.reduce IntOp.andi x v reducesTo_S5x64x64_S_d0_1_2 h_S_) main_v16 main_c_5
  let main_v18 : IVec S_ 1 := andi main_v13 main_v17
  let main_v19 : FVec F S5x64 .f32 := Host.absf main_arg4
  let main_cst_6 : FVec F S_ .f32 := constant S_ .f32 0x7F800000#32
  let main_v20 : FVec F S5x64 .f32 := broadcastInDim S5x64 ![] bcast_S_S5x64 main_cst_6
  let main_v21 : IVec S5x64 1 := cmpf .olt main_v19 main_v20
  let main_c_7 : IVec S_ 1 := constantI S_ 1 1#1
  let main_v22 : IVec S_ 1 := (fun x v => Host.reduce IntOp.andi x v reducesTo_S5x64_S_d0_1 h_S_) main_v21 main_c_7
  let main_v23 : IVec S_ 1 := andi main_v18 main_v22
  let main_v24 : FVec F S5x64x64 .f32 := Host.absf main_arg5
  let main_cst_8 : FVec F S_ .f32 := constant S_ .f32 0x7F800000#32
  let main_v25 : FVec F S5x64x64 .f32 := broadcastInDim S5x64x64 ![] bcast_S_S5x64x64 main_cst_8
  let main_v26 : IVec S5x64x64 1 := cmpf .olt main_v24 main_v25
  let main_c_9 : IVec S_ 1 := constantI S_ 1 1#1
  let main_v27 : IVec S_ 1 := (fun x v => Host.reduce IntOp.andi x v reducesTo_S5x64x64_S_d0_1_2 h_S_) main_v26 main_c_9
  let main_v28 : IVec S_ 1 := andi main_v23 main_v27
  let main_v29 : FVec F S5x64 .f32 := Host.absf main_arg6
  let main_cst_10 : FVec F S_ .f32 := constant S_ .f32 0x7F800000#32
  let main_v30 : FVec F S5x64 .f32 := broadcastInDim S5x64 ![] bcast_S_S5x64 main_cst_10
  let main_v31 : IVec S5x64 1 := cmpf .olt main_v29 main_v30
  let main_c_11 : IVec S_ 1 := constantI S_ 1 1#1
  let main_v32 : IVec S_ 1 := (fun x v => Host.reduce IntOp.andi x v reducesTo_S5x64_S_d0_1 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S262144x128 .f32) (main_arg1 : FVec F S5x64x64 .f32) (main_arg2 : FVec F S5x64 .f32) (main_arg3 : FVec F S5x64x64 .f32) (main_arg4 : FVec F S5x64 .f32) (main_arg5 : FVec F S5x64x64 .f32) (main_arg6 : FVec F S5x64 .f32) (main_arg7 : FVec F S5x64x64 .f32) (main_arg8 : FVec F S5x64 .f32) (main_arg9 : FVec F S5x64x64 .f32) (main_arg10 : FVec F S5x64 .f32) (main_arg11 : FVec F S5x64x64 .f32) (main_arg12 : FVec F S5x64 .f32) : IVec S_ 1 :=
  let main_v0 : FVec F S262144x128 .f32 := Host.absf main_arg0
  let main_cst : FVec F S_ .f32 := constant S_ .f32 0x7F800000#32
  let main_v1 : FVec F S262144x128 .f32 := broadcastInDim S262144x128 ![] bcast_S_S262144x128 main_cst
  let main_v2 : IVec S262144x128 1 := cmpf .olt main_v0 main_v1
  let main_c : IVec S_ 1 := constantI S_ 1 1#1
  let main_v3 : IVec S_ 1 := (fun x v => Host.reduce IntOp.andi x v reducesTo_S262144x128_S_d0_1 h_S_) main_v2 main_c
  let main_v4 : FVec F S5x64x64 .f32 := Host.absf main_arg1
  let main_cst_0 : FVec F S_ .f32 := constant S_ .f32 0x7F800000#32
  let main_v5 : FVec F S5x64x64 .f32 := broadcastInDim S5x64x64 ![] bcast_S_S5x64x64 main_cst_0
  let main_v6 : IVec S5x64x64 1 := cmpf .olt main_v4 main_v5
  let main_c_1 : IVec S_ 1 := constantI S_ 1 1#1
  let main_v7 : IVec S_ 1 := (fun x v => Host.reduce IntOp.andi x v reducesTo_S5x64x64_S_d0_1_2 h_S_) main_v6 main_c_1
  let main_v8 : IVec S_ 1 := andi main_v3 main_v7
  let main_v9 : FVec F S5x64 .f32 := Host.absf main_arg2
  let main_cst_2 : FVec F S_ .f32 := constant S_ .f32 0x7F800000#32
  let main_v10 : FVec F S5x64 .f32 := broadcastInDim S5x64 ![] bcast_S_S5x64 main_cst_2
  let main_v11 : IVec S5x64 1 := cmpf .olt main_v9 main_v10
  let main_c_3 : IVec S_ 1 := constantI S_ 1 1#1
  let main_v12 : IVec S_ 1 := (fun x v => Host.reduce IntOp.andi x v reducesTo_S5x64_S_d0_1 h_S_) main_v11 main_c_3
  let main_v13 : IVec S_ 1 := andi main_v8 main_v12
  let main_v14 : FVec F S5x64x64 .f32 := Host.absf main_arg3
  let main_cst_4 : FVec F S_ .f32 := constant S_ .f32 0x7F800000#32
  let main_v15 : FVec F S5x64x64 .f32 := broadcastInDim S5x64x64 ![] bcast_S_S5x64x64 main_cst_4
  let main_v16 : IVec S5x64x64 1 := cmpf .olt main_v14 main_v15
  fn_part1 (F := F) main_arg4 main_arg5 main_arg6 main_arg7 main_arg8 main_arg9 main_arg10 main_arg11 main_arg12 main_v13 main_v16
-- ==== Kernel.lean ====
abbrev S262144x128 : Shape := ⟨2, ![262144, 128]⟩
abbrev S5x64x64 : Shape := ⟨3, ![5, 64, 64]⟩
abbrev S5x64 : Shape := ⟨2, ![5, 64]⟩
abbrev S262144 : Shape := ⟨1, ![262144]⟩
abbrev S4096x128 : Shape := ⟨2, ![4096, 128]⟩
abbrev S4096 : Shape := ⟨1, ![4096]⟩
abbrev S4096x64 : Shape := ⟨2, ![4096, 64]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩

abbrev nBuf : Space → Nat
  | .hbm => 21
  | .vmem => 18
  | .smem => 0
  | _ => 0

abbrev bufTy : (tb : Table) → Fin (tcTables nBuf tb) → BufTy
  | .hbm, ⟨0, _⟩ => ⟨S262144x128, .f32⟩
  | .hbm, ⟨1, _⟩ => ⟨S5x64x64, .f32⟩
  | .hbm, ⟨2, _⟩ => ⟨S5x64, .f32⟩
  | .hbm, ⟨3, _⟩ => ⟨S5x64x64, .f32⟩
  | .hbm, ⟨4, _⟩ => ⟨S5x64, .f32⟩
  | .hbm, ⟨5, _⟩ => ⟨S5x64x64, .f32⟩
  | .hbm, ⟨6, _⟩ => ⟨S5x64, .f32⟩
  | .hbm, ⟨7, _⟩ => ⟨S5x64x64, .f32⟩
  | .hbm, ⟨8, _⟩ => ⟨S5x64, .f32⟩
  | .hbm, ⟨9, _⟩ => ⟨S5x64x64, .f32⟩
  | .hbm, ⟨10, _⟩ => ⟨S5x64, .f32⟩
  | .hbm, ⟨11, _⟩ => ⟨S5x64x64, .f32⟩
  | .hbm, ⟨12, _⟩ => ⟨S5x64, .f32⟩
  | .hbm, ⟨13, _⟩ => ⟨S5x64x64, .bf16⟩
  | .hbm, ⟨14, _⟩ => ⟨S5x64x64, .bf16⟩
  | .hbm, ⟨15, _⟩ => ⟨S5x64x64, .bf16⟩
  | .hbm, ⟨16, _⟩ => ⟨S5x64x64, .bf16⟩
  | .hbm, ⟨17, _⟩ => ⟨S5x64x64, .bf16⟩
  | .hbm, ⟨18, _⟩ => ⟨S5x64x64, .bf16⟩
  | .hbm, ⟨19, _⟩ => ⟨S262144x128, .f32⟩
  | .hbm, ⟨20, _⟩ => ⟨S262144, .f32⟩
  | .local _ .vmem, ⟨0, _⟩ => ⟨S4096x128, .f32⟩
  | .local _ .vmem, ⟨1, _⟩ => ⟨S4096x128, .f32⟩
  | .local _ .vmem, ⟨2, _⟩ => ⟨S5x64x64, .bf16⟩
  | .local _ .vmem, ⟨3, _⟩ => ⟨S5x64, .f32⟩
  | .local _ .vmem, ⟨4, _⟩ => ⟨S5x64x64, .bf16⟩
  | .local _ .vmem, ⟨5, _⟩ => ⟨S5x64, .f32⟩
  | .local _ .vmem, ⟨6, _⟩ => ⟨S5x64x64, .bf16⟩
  | .local _ .vmem, ⟨7, _⟩ => ⟨S5x64, .f32⟩
  | .local _ .vmem, ⟨8, _⟩ => ⟨S5x64x64, .bf16⟩
  | .local _ .vmem, ⟨9, _⟩ => ⟨S5x64, .f32⟩
  | .local _ .vmem, ⟨10, _⟩ => ⟨S5x64x64, .bf16⟩
  | .local _ .vmem, ⟨11, _⟩ => ⟨S5x64, .f32⟩
  | .local _ .vmem, ⟨12, _⟩ => ⟨S5x64x64, .bf16⟩
  | .local _ .vmem, ⟨13, _⟩ => ⟨S5x64, .f32⟩
  | .local _ .vmem, ⟨14, _⟩ => ⟨S4096x128, .f32⟩
  | .local _ .vmem, ⟨15, _⟩ => ⟨S4096x128, .f32⟩
  | .local _ .vmem, ⟨16, _⟩ => ⟨S4096, .f32⟩
  | .local _ .vmem, ⟨17, _⟩ => ⟨S4096, .f32⟩
  | _, _ => ⟨S262144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6_0 : Ref sig .tc := ⟨.hbm, 19, rfl⟩
abbrev main_v6_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_stg14_0 : Ref sig .tc := ⟨.vmem, 16, rfl⟩
abbrev cc0_stg14_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15
abbrev cc0_sem14_0 : DmaSem sig := 16
abbrev cc0_sem14_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5x64x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S5x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S5x64x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S5x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S5x64x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S5x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S5x64x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S5x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S5x64x64 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S5x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S5x64x64 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S5x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S4096x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S4096 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  bitsLt_bf16_f32 : FTy.bits .bf16 < FTy.bits .f32
  inb_S4096x128_S4096x128_0_0 : ∀ a, (![0, 0] : Fin 2 → Nat) a + S4096x128.size a ≤ S4096x128.size a
  h_S4096x128 : 0 < S4096x128.numel
  slices_S4096x128_o0_0_S4096x64 : S4096x128.Slices ![0, 0] S4096x64
  slices_S4096x128_o0_64_S4096x64 : S4096x128.Slices ![0, 64] S4096x64
  inb_S5x64x64_S1x64x64_0_0_0 : ∀ a, (![0, 0, 0] : Fin 3 → Nat) a + S1x64x64.size a ≤ S5x64x64.size a
  h_S1x64x64 : 0 < S1x64x64.numel
  shapeCasts_S1x64x64_S64x64 : S1x64x64.ShapeCasts S64x64
  inb_S5x64_S1x64_0_0 : ∀ a, (![0, 0] : Fin 2 → Nat) a + S1x64.size a ≤ S5x64.size a
  h_S1x64 : 0 < S1x64.numel
  shapeCasts_S1x64_S64 : S1x64.ShapeCasts S64
  shapeCasts_S64_S1x64 : S64.ShapeCasts S1x64
  broadcasts_S1x64_S4096x64 : S1x64.Broadcasts S4096x64
  reduces_S4096x64_S4096 : S4096x64.Reduces [1] S4096
  inb_S5x64x64_S1x64x64_1_0_0 : ∀ a, (![1, 0, 0] : Fin 3 → Nat) a + S1x64x64.size a ≤ S5x64x64.size a
  inb_S5x64_S1x64_1_0 : ∀ a, (![1, 0] : Fin 2 → Nat) a + S1x64.size a ≤ S5x64.size a
  inb_S5x64x64_S1x64x64_2_0_0 : ∀ a, (![2, 0, 0] : Fin 3 → Nat) a + S1x64x64.size a ≤ S5x64x64.size a
  inb_S5x64_S1x64_2_0 : ∀ a, (![2, 0] : Fin 2 → Nat) a + S1x64.size a ≤ S5x64.size a
  inb_S5x64x64_S1x64x64_3_0_0 : ∀ a, (![3, 0, 0] : Fin 3 → Nat) a + S1x64x64.size a ≤ S5x64x64.size a
  inb_S5x64_S1x64_3_0 : ∀ a, (![3, 0] : Fin 2 → Nat) a + S1x64.size a ≤ S5x64.size a
  inb_S5x64x64_S1x64x64_4_0_0 : ∀ a, (![4, 0, 0] : Fin 3 → Nat) a + S1x64x64.size a ≤ S5x64x64.size a
  inb_S5x64_S1x64_4_0 : ∀ a, (![4, 0] : Fin 2 → Nat) a + S1x64.size a ≤ S5x64.size a
  concatenates_S4096x64_S4096x64_S4096x128_d1 : Shape.Concatenates [S4096x64, S4096x64] S4096x128 1
  inb_S4096_S4096_0 : ∀ a, (![0] : Fin 1 → Nat) a + S4096.size a ≤ S4096.size a
  h_S4096 : 0 < S4096.numel
  dot_S4096x64_S64x64_S4096x64_1_0_0_1_n_n_wf : DotDims.WF S4096x64 S64x64 S4096x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S262144x128.size a
  hwx0_0 : ∀ i : grid0.Coords, EltTy.bits .f32 = 32 ∨ (Rect.block (s := S262144x128) S4096x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S5x64x64.size a ≤ S5x64x64.size a
  hwx0_1 : ∀ i : grid0.Coords, EltTy.bits .bf16 = 32 ∨ (Rect.block (s := S5x64x64) S5x64x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S5x64.size a ≤ S5x64.size a
  hwx0_2 : ∀ i : grid0.Coords, EltTy.bits .f32 = 32 ∨ (Rect.block (s := S5x64) S5x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S5x64x64.size a ≤ S5x64x64.size a
  hwx0_3 : ∀ i : grid0.Coords, EltTy.bits .bf16 = 32 ∨ (Rect.block (s := S5x64x64) S5x64x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S5x64.size a ≤ S5x64.size a
  hwx0_4 : ∀ i : grid0.Coords, EltTy.bits .f32 = 32 ∨ (Rect.block (s := S5x64) S5x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S5x64x64.size a ≤ S5x64x64.size a
  hwx0_5 : ∀ i : grid0.Coords, EltTy.bits .bf16 = 32 ∨ (Rect.block (s := S5x64x64) S5x64x64.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S5x64.size a ≤ S5x64.size a
  hwx0_6 : ∀ i : grid0.Coords, EltTy.bits .f32 = 32 ∨ (Rect.block (s := S5x64) S5x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S5x64x64.size a ≤ S5x64x64.size a
  hwx0_7 : ∀ i : grid0.Coords, EltTy.bits .bf16 = 32 ∨ (Rect.block (s := S5x64x64) S5x64x64.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S5x64.size a ≤ S5x64.size a
  hwx0_8 : ∀ i : grid0.Coords, EltTy.bits .f32 = 32 ∨ (Rect.block (s := S5x64) S5x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S5x64x64.size a ≤ S5x64x64.size a
  hwx0_9 : ∀ i : grid0.Coords, EltTy.bits .bf16 = 32 ∨ (Rect.block (s := S5x64x64) S5x64x64.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S5x64.size a ≤ S5x64.size a
  hwx0_10 : ∀ i : grid0.Coords, EltTy.bits .f32 = 32 ∨ (Rect.block (s := S5x64) S5x64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S5x64x64.size a ≤ S5x64x64.size a
  hwx0_11 : ∀ i : grid0.Coords, EltTy.bits .bf16 = 32 ∨ (Rect.block (s := S5x64x64) S5x64x64.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S5x64.size a ≤ S5x64.size a
  hwx0_12 : ∀ i : grid0.Coords, EltTy.bits .f32 = 32 ∨ (Rect.block (s := S5x64) S5x64.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S4096x128.size a ≤ S262144x128.size a
  hwx0_13 : ∀ i : grid0.Coords, EltTy.bits .f32 = 32 ∨ (Rect.block (s := S262144x128) S4096x128.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S4096.size a ≤ S262144.size a
  hwx0_14 : ∀ i : grid0.Coords, EltTy.bits .f32 = 32 ∨ (Rect.block (s := S262144) S4096.size (cc0_transform_14 i) (hinb0_14 i)).WholeWords (EltTy.packing .f32)

variable [Facts₀]

def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf

abbrev win0_0 : Pipeline.Window sig grid0 :=
  Pipeline.Window.ofSpec (Memref.whole main_arg0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S5x64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S5x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S5x64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S5x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S5x64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S5x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S5x64x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S5x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v4) S5x64x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S5x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v5) S5x64x64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S5x64.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v6_0) S4096x128.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v6_1) S4096.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S262144x128 : Shape := ⟨2, ![262144, 128]⟩
abbrev S5x64x64 : Shape := ⟨3, ![5, 64, 64]⟩
abbrev S5x64 : Shape := ⟨2, ![5, 64]⟩
abbrev S262144x64 : Shape := ⟨2, ![262144, 64]⟩
abbrev S_ : Shape := ⟨0, ![]⟩
abbrev S262144 : Shape := ⟨1, ![262144]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩

abbrev nBuf : Space → Nat
  | .hbm => 453
  | .vmem => 0
  | .smem => 0
  | _ => 0

abbrev hbmTy0_0 (i : Nat) : BufTy := match i % 128 with
  | 0 => ⟨S262144x128, .f32⟩
  | 1 => ⟨S5x64x64, .f32⟩
  | 2 => ⟨S5x64, .f32⟩
  | 3 => ⟨S5x64x64, .f32⟩
  | 4 => ⟨S5x64, .f32⟩
  | 5 => ⟨S5x64x64, .f32⟩
  | 6 => ⟨S5x64, .f32⟩
  | 7 => ⟨S5x64x64, .f32⟩
  | 8 => ⟨S5x64, .f32⟩
  | 9 => ⟨S5x64x64, .f32⟩
  | 10 => ⟨S5x64, .f32⟩
  | 11 => ⟨S5x64x64, .f32⟩
  | 12 => ⟨S5x64, .f32⟩
  | 13 => ⟨S262144x64, .f32⟩
  | 14 => ⟨S262144x64, .f32⟩
  | 15 => ⟨S_, .f32⟩
  | 16 => ⟨S262144, .f32⟩
  | 17 => ⟨S1x64x64, .f32⟩
  | 18 => ⟨S64x64, .f32⟩
  | 19 => ⟨S1x64, .f32⟩
  | 20 => ⟨S64, .f32⟩
  | 21 => ⟨S1x64x64, .f32⟩
  | 22 => ⟨S64x64, .f32⟩
  | 23 => ⟨S1x64, .f32⟩
  | 24 => ⟨S64, .f32⟩
  | 25 => ⟨S1x64x64, .f32⟩
  | 26 => ⟨S64x64, .f32⟩
  | 27 => ⟨S1x64, .f32⟩
  | 28 => ⟨S64, .f32⟩
  | 29 => ⟨S262144x64, .f32⟩
  | 30 => ⟨S1x64, .f32⟩
  | 31 => ⟨S262144x64, .f32⟩
  | 32 => ⟨S262144x64, .f32⟩
  | 33 => ⟨S_, .f32⟩
  | 34 => ⟨S_, .f32⟩
  | 35 => ⟨S262144x64, .f32⟩
  | 36 => ⟨S262144x64, .i1⟩
  | 37 => ⟨S_, .f32⟩
  | 38 => ⟨S262144x64, .f32⟩
  | 39 => ⟨S262144x64, .f32⟩
  | 40 => ⟨S262144x64, .f32⟩
  | 41 => ⟨S262144x64, .f32⟩
  | 42 => ⟨S1x64, .f32⟩
  | 43 => ⟨S262144x64, .f32⟩
  | 44 => ⟨S262144x64, .f32⟩
  | 45 => ⟨S_, .f32⟩
  | 46 => ⟨S_, .f32⟩
  | 47 => ⟨S262144x64, .f32⟩
  | 48 => ⟨S262144x64, .i1⟩
  | 49 => ⟨S_, .f32⟩
  | 50 => ⟨S262144x64, .f32⟩
  | 51 => ⟨S262144x64, .f32⟩
  | 52 => ⟨S262144x64, .f32⟩
  | 53 => ⟨S262144x64, .f32⟩
  | 54 => ⟨S1x64, .f32⟩
  | 55 => ⟨S262144x64, .f32⟩
  | 56 => ⟨S262144x64, .f32⟩
  | 57 => ⟨S262144x64, .f32⟩
  | 58 => ⟨S1x64x64, .f32⟩
  | 59 => ⟨S64x64, .f32⟩
  | 60 => ⟨S1x64, .f32⟩
  | 61 => ⟨S64, .f32⟩
  | 62 => ⟨S1x64x64, .f32⟩
  | 63 => ⟨S64x64, .f32⟩
  | 64 => ⟨S1x64, .f32⟩
  | 65 => ⟨S64, .f32⟩
  | 66 => ⟨S1x64x64, .f32⟩
  | 67 => ⟨S64x64, .f32⟩
  | 68 => ⟨S1x64, .f32⟩
  | 69 => ⟨S64, .f32⟩
  | 70 => ⟨S262144x64, .f32⟩
  | 71 => ⟨S1x64, .f32⟩
  | 72 => ⟨S262144x64, .f32⟩
  | 73 => ⟨S262144x64, .f32⟩
  | 74 => ⟨S_, .f32⟩
  | 75 => ⟨S_, .f32⟩
  | 76 => ⟨S262144x64, .f32⟩
  | 77 => ⟨S262144x64, .i1⟩
  | 78 => ⟨S_, .f32⟩
  | 79 => ⟨S262144x64, .f32⟩
  | 80 => ⟨S262144x64, .f32⟩
  | 81 => ⟨S262144x64, .f32⟩
  | 82 => ⟨S262144x64, .f32⟩
  | 83 => ⟨S1x64, .f32⟩
  | 84 => ⟨S262144x64, .f32⟩
  | 85 => ⟨S262144x64, .f32⟩
  | 86 => ⟨S_, .f32⟩
  | 87 => ⟨S_, .f32⟩
  | 88 => ⟨S262144x64, .f32⟩
  | 89 => ⟨S262144x64, .i1⟩
  | 90 => ⟨S_, .f32⟩
  | 91 => ⟨S262144x64, .f32⟩
  | 92 => ⟨S262144x64, .f32⟩
  | 93 => ⟨S262144x64, .f32⟩
  | 94 => ⟨S262144x64, .f32⟩
  | 95 => ⟨S1x64, .f32⟩
  | 96 => ⟨S262144x64, .f32⟩
  | 97 => ⟨S262144x64, .f32⟩
  | 98 => ⟨S262144x64, .f32⟩
  | 99 => ⟨S262144x64, .f32⟩
  | 100 => ⟨S262144x64, .f32⟩
  | 101 => ⟨S_, .f32⟩
  | 102 => ⟨S262144, .f32⟩
  | 103 => ⟨S262144, .f32⟩
  | 104 => ⟨S1x64x64, .f32⟩
  | 105 => ⟨S64x64, .f32⟩
  | 106 => ⟨S1x64, .f32⟩
  | 107 => ⟨S64, .f32⟩
  | 108 => ⟨S1x64x64, .f32⟩
  | 109 => ⟨S64x64, .f32⟩
  | 110 => ⟨S1x64, .f32⟩
  | 111 => ⟨S64, .f32⟩
  | 112 => ⟨S1x64x64, .f32⟩
  | 113 => ⟨S64x64, .f32⟩
  | 114 => ⟨S1x64, .f32⟩
  | 115 => ⟨S64, .f32⟩
  | 116 => ⟨S262144x64, .f32⟩
  | 117 => ⟨S1x64, .f32⟩
  | 118 => ⟨S262144x64, .f32⟩
  | 119 => ⟨S262144x64, .f32⟩
  | 120 => ⟨S_, .f32⟩
  | 121 => ⟨S_, .f32⟩
  | 122 => ⟨S262144x64, .f32⟩
  | 123 => ⟨S262144x64, .i1⟩
  | 124 => ⟨S_, .f32⟩
  | 125 => ⟨S262144x64, .f32⟩
  | 126 => ⟨S262144x64, .f32⟩
  | 127 => ⟨S262144x64, .f32⟩
  | _ => ⟨S262144x128, .f32⟩

abbrev hbmTy0_1 (i : Nat) : BufTy := match i % 128 with
  | 0 => ⟨S262144x64, .f32⟩
  | 1 => ⟨S1x64, .f32⟩
  | 2 => ⟨S262144x64, .f32⟩
  | 3 => ⟨S262144x64, .f32⟩
  | 4 => ⟨S_, .f32⟩
  | 5 => ⟨S_, .f32⟩
  | 6 => ⟨S262144x64, .f32⟩
  | 7 => ⟨S262144x64, .i1⟩
  | 8 => ⟨S_, .f32⟩
  | 9 => ⟨S262144x64, .f32⟩
  | 10 => ⟨S262144x64, .f32⟩
  | 11 => ⟨S262144x64, .f32⟩
  | 12 => ⟨S262144x64, .f32⟩
  | 13 => ⟨S1x64, .f32⟩
  | 14 => ⟨S262144x64, .f32⟩
  | 15 => ⟨S262144x64, .f32⟩
  | 16 => ⟨S262144x64, .f32⟩
  | 17 => ⟨S1x64x64, .f32⟩
  | 18 => ⟨S64x64, .f32⟩
  | 19 => ⟨S1x64, .f32⟩
  | 20 => ⟨S64, .f32⟩
  | 21 => ⟨S1x64x64, .f32⟩
  | 22 => ⟨S64x64, .f32⟩
  | 23 => ⟨S1x64, .f32⟩
  | 24 => ⟨S64, .f32⟩
  | 25 => ⟨S1x64x64, .f32⟩
  | 26 => ⟨S64x64, .f32⟩
  | 27 => ⟨S1x64, .f32⟩
  | 28 => ⟨S64, .f32⟩
  | 29 => ⟨S262144x64, .f32⟩
  | 30 => ⟨S1x64, .f32⟩
  | 31 => ⟨S262144x64, .f32⟩
  | 32 => ⟨S262144x64, .f32⟩
  | 33 => ⟨S_, .f32⟩
  | 34 => ⟨S_, .f32⟩
  | 35 => ⟨S262144x64, .f32⟩
  | 36 => ⟨S262144x64, .i1⟩
  | 37 => ⟨S_, .f32⟩
  | 38 => ⟨S262144x64, .f32⟩
  | 39 => ⟨S262144x64, .f32⟩
  | 40 => ⟨S262144x64, .f32⟩
  | 41 => ⟨S262144x64, .f32⟩
  | 42 => ⟨S1x64, .f32⟩
  | 43 => ⟨S262144x64, .f32⟩
  | 44 => ⟨S262144x64, .f32⟩
  | 45 => ⟨S_, .f32⟩
  | 46 => ⟨S_, .f32⟩
  | 47 => ⟨S262144x64, .f32⟩
  | 48 => ⟨S262144x64, .i1⟩
  | 49 => ⟨S_, .f32⟩
  | 50 => ⟨S262144x64, .f32⟩
  | 51 => ⟨S262144x64, .f32⟩
  | 52 => ⟨S262144x64, .f32⟩
  | 53 => ⟨S262144x64, .f32⟩
  | 54 => ⟨S1x64, .f32⟩
  | 55 => ⟨S262144x64, .f32⟩
  | 56 => ⟨S262144x64, .f32⟩
  | 57 => ⟨S262144x64, .f32⟩
  | 58 => ⟨S262144x64, .f32⟩
  | 59 => ⟨S262144x64, .f32⟩
  | 60 => ⟨S_, .f32⟩
  | 61 => ⟨S262144, .f32⟩
  | 62 => ⟨S262144, .f32⟩
  | 63 => ⟨S1x64x64, .f32⟩
  | 64 => ⟨S64x64, .f32⟩
  | 65 => ⟨S1x64, .f32⟩
  | 66 => ⟨S64, .f32⟩
  | 67 => ⟨S1x64x64, .f32⟩
  | 68 => ⟨S64x64, .f32⟩
  | 69 => ⟨S1x64, .f32⟩
  | 70 => ⟨S64, .f32⟩
  | 71 => ⟨S1x64x64, .f32⟩
  | 72 => ⟨S64x64, .f32⟩
  | 73 => ⟨S1x64, .f32⟩
  | 74 => ⟨S64, .f32⟩
  | 75 => ⟨S262144x64, .f32⟩
  | 76 => ⟨S1x64, .f32⟩
  | 77 => ⟨S262144x64, .f32⟩
  | 78 => ⟨S262144x64, .f32⟩
  | 79 => ⟨S_, .f32⟩
  | 80 => ⟨S_, .f32⟩
  | 81 => ⟨S262144x64, .f32⟩
  | 82 => ⟨S262144x64, .i1⟩
  | 83 => ⟨S_, .f32⟩
  | 84 => ⟨S262144x64, .f32⟩
  | 85 => ⟨S262144x64, .f32⟩
  | 86 => ⟨S262144x64, .f32⟩
  | 87 => ⟨S262144x64, .f32⟩
  | 88 => ⟨S1x64, .f32⟩
  | 89 => ⟨S262144x64, .f32⟩
  | 90 => ⟨S262144x64, .f32⟩
  | 91 => ⟨S_, .f32⟩
  | 92 => ⟨S_, .f32⟩
  | 93 => ⟨S262144x64, .f32⟩
  | 94 => ⟨S262144x64, .i1⟩
  | 95 => ⟨S_, .f32⟩
  | 96 => ⟨S262144x64, .f32⟩
  | 97 => ⟨S262144x64, .f32⟩
  | 98 => ⟨S262144x64, .f32⟩
  | 99 => ⟨S262144x64, .f32⟩
  | 100 => ⟨S1x64, .f32⟩
  | 101 => ⟨S262144x64, .f32⟩
  | 102 => ⟨S262144x64, .f32⟩
  | 103 => ⟨S262144x64, .f32⟩
  | 104 => ⟨S1x64x64, .f32⟩
  | 105 => ⟨S64x64, .f32⟩
  | 106 => ⟨S1x64, .f32⟩
  | 107 => ⟨S64, .f32⟩
  | 108 => ⟨S1x64x64, .f32⟩
  | 109 => ⟨S64x64, .f32⟩
  | 110 => ⟨S1x64, .f32⟩
  | 111 => ⟨S64, .f32⟩
  | 112 => ⟨S1x64x64, .f32⟩
  | 113 => ⟨S64x64, .f32⟩
  | 114 => ⟨S1x64, .f32⟩
  | 115 => ⟨S64, .f32⟩
  | 116 => ⟨S262144x64, .f32⟩
  | 117 => ⟨S1x64, .f32⟩
  | 118 => ⟨S262144x64, .f32⟩
  | 119 => ⟨S262144x64, .f32⟩
  | 120 => ⟨S_, .f32⟩
  | 121 => ⟨S_, .f32⟩
  | 122 => ⟨S262144x64, .f32⟩
  | 123 => ⟨S262144x64, .i1⟩
  | 124 => ⟨S_, .f32⟩
  | 125 => ⟨S262144x64, .f32⟩
  | 126 => ⟨S262144x64, .f32⟩
  | 127 => ⟨S262144x64, .f32⟩
  | _ => ⟨S262144x128, .f32⟩

abbrev hbmTy0_2 (i : Nat) : BufTy := match i % 128 with
  | 0 => ⟨S262144x64, .f32⟩
  | 1 => ⟨S1x64, .f32⟩
  | 2 => ⟨S262144x64, .f32⟩
  | 3 => ⟨S262144x64, .f32⟩
  | 4 => ⟨S_, .f32⟩
  | 5 => ⟨S_, .f32⟩
  | 6 => ⟨S262144x64, .f32⟩
  | 7 => ⟨S262144x64, .i1⟩
  | 8 => ⟨S_, .f32⟩
  | 9 => ⟨S262144x64, .f32⟩
  | 10 => ⟨S262144x64, .f32⟩
  | 11 => ⟨S262144x64, .f32⟩
  | 12 => ⟨S262144x64, .f32⟩
  | 13 => ⟨S1x64, .f32⟩
  | 14 => ⟨S262144x64, .f32⟩
  | 15 => ⟨S262144x64, .f32⟩
  | 16 => ⟨S262144x64, .f32⟩
  | 17 => ⟨S262144x64, .f32⟩
  | 18 => ⟨S262144x64, .f32⟩
  | 19 => ⟨S_, .f32⟩
  | 20 => ⟨S262144, .f32⟩
  | 21 => ⟨S262144, .f32⟩
  | 22 => ⟨S1x64x64, .f32⟩
  | 23 => ⟨S64x64, .f32⟩
  | 24 => ⟨S1x64, .f32⟩
  | 25 => ⟨S64, .f32⟩
  | 26 => ⟨S1x64x64, .f32⟩
  | 27 => ⟨S64x64, .f32⟩
  | 28 => ⟨S1x64, .f32⟩
  | 29 => ⟨S64, .f32⟩
  | 30 => ⟨S1x64x64, .f32⟩
  | 31 => ⟨S64x64, .f32⟩
  | 32 => ⟨S1x64, .f32⟩
  | 33 => ⟨S64, .f32⟩
  | 34 => ⟨S262144x64, .f32⟩
  | 35 => ⟨S1x64, .f32⟩
  | 36 => ⟨S262144x64, .f32⟩
  | 37 => ⟨S262144x64, .f32⟩
  | 38 => ⟨S_, .f32⟩
  | 39 => ⟨S_, .f32⟩
  | 40 => ⟨S262144x64, .f32⟩
  | 41 => ⟨S262144x64, .i1⟩
  | 42 => ⟨S_, .f32⟩
  | 43 => ⟨S262144x64, .f32⟩
  | 44 => ⟨S262144x64, .f32⟩
  | 45 => ⟨S262144x64, .f32⟩
  | 46 => ⟨S262144x64, .f32⟩
  | 47 => ⟨S1x64, .f32⟩
  | 48 => ⟨S262144x64, .f32⟩
  | 49 => ⟨S262144x64, .f32⟩
  | 50 => ⟨S_, .f32⟩
  | 51 => ⟨S_, .f32⟩
  | 52 => ⟨S262144x64, .f32⟩
  | 53 => ⟨S262144x64, .i1⟩
  | 54 => ⟨S_, .f32⟩
  | 55 => ⟨S262144x64, .f32⟩
  | 56 => ⟨S262144x64, .f32⟩
  | 57 => ⟨S262144x64, .f32⟩
  | 58 => ⟨S262144x64, .f32⟩
  | 59 => ⟨S1x64, .f32⟩
  | 60 => ⟨S262144x64, .f32⟩
  | 61 => ⟨S262144x64, .f32⟩
  | 62 => ⟨S262144x64, .f32⟩
  | 63 => ⟨S1x64x64, .f32⟩
  | 64 => ⟨S64x64, .f32⟩
  | 65 => ⟨S1x64, .f32⟩
  | 66 => ⟨S64, .f32⟩
  | 67 => ⟨S1x64x64, .f32⟩
  | 68 => ⟨S64x64, .f32⟩
  | 69 => ⟨S1x64, .f32⟩
  | 70 => ⟨S64, .f32⟩
  | 71 => ⟨S1x64x64, .f32⟩
  | 72 => ⟨S64x64, .f32⟩
  | 73 => ⟨S1x64, .f32⟩
  | 74 => ⟨S64, .f32⟩
  | 75 => ⟨S262144x64, .f32⟩
  | 76 => ⟨S1x64, .f32⟩
  | 77 => ⟨S262144x64, .f32⟩
  | 78 => ⟨S262144x64, .f32⟩
  | 79 => ⟨S_, .f32⟩
  | 80 => ⟨S_, .f32⟩
  | 81 => ⟨S262144x64, .f32⟩
  | 82 => ⟨S262144x64, .i1⟩
  | 83 => ⟨S_, .f32⟩
  | 84 => ⟨S262144x64, .f32⟩
  | 85 => ⟨S262144x64, .f32⟩
  | 86 => ⟨S262144x64, .f32⟩
  | 87 => ⟨S262144x64, .f32⟩
  | 88 => ⟨S1x64, .f32⟩
  | 89 => ⟨S262144x64, .f32⟩
  | 90 => ⟨S262144x64, .f32⟩
  | 91 => ⟨S_, .f32⟩
  | 92 => ⟨S_, .f32⟩
  | 93 => ⟨S262144x64, .f32⟩
  | 94 => ⟨S262144x64, .i1⟩
  | 95 => ⟨S_, .f32⟩
  | 96 => ⟨S262144x64, .f32⟩
  | 97 => ⟨S262144x64, .f32⟩
  | 98 => ⟨S262144x64, .f32⟩
  | 99 => ⟨S262144x64, .f32⟩
  | 100 => ⟨S1x64, .f32⟩
  | 101 => ⟨S262144x64, .f32⟩
  | 102 => ⟨S262144x64, .f32⟩
  | 103 => ⟨S262144x64, .f32⟩
  | 104 => ⟨S262144x64, .f32⟩
  | 105 => ⟨S262144x64, .f32⟩
  | 106 => ⟨S_, .f32⟩
  | 107 => ⟨S262144, .f32⟩
  | 108 => ⟨S262144, .f32⟩
  | 109 => ⟨S1x64x64, .f32⟩
  | 110 => ⟨S64x64, .f32⟩
  | 111 => ⟨S1x64, .f32⟩
  | 112 => ⟨S64, .f32⟩
  | 113 => ⟨S1x64x64, .f32⟩
  | 114 => ⟨S64x64, .f32⟩
  | 115 => ⟨S1x64, .f32⟩
  | 116 => ⟨S64, .f32⟩
  | 117 => ⟨S1x64x64, .f32⟩
  | 118 => ⟨S64x64, .f32⟩
  | 119 => ⟨S1x64, .f32⟩
  | 120 => ⟨S64, .f32⟩
  | 121 => ⟨S262144x64, .f32⟩
  | 122 => ⟨S1x64, .f32⟩
  | 123 => ⟨S262144x64, .f32⟩
  | 124 => ⟨S262144x64, .f32⟩
  | 125 => ⟨S_, .f32⟩
  | 126 => ⟨S_, .f32⟩
  | 127 => ⟨S262144x64, .f32⟩
  | _ => ⟨S262144x128, .f32⟩

abbrev hbmTy0_3 (i : Nat) : BufTy := match i % 128 with
  | 0 => ⟨S262144x64, .i1⟩
  | 1 => ⟨S_, .f32⟩
  | 2 => ⟨S262144x64, .f32⟩
  | 3 => ⟨S262144x64, .f32⟩
  | 4 => ⟨S262144x64, .f32⟩
  | 5 => ⟨S262144x64, .f32⟩
  | 6 => ⟨S1x64, .f32⟩
  | 7 => ⟨S262144x64, .f32⟩
  | 8 => ⟨S262144x64, .f32⟩
  | 9 => ⟨S_, .f32⟩
  | 10 => ⟨S_, .f32⟩
  | 11 => ⟨S262144x64, .f32⟩
  | 12 => ⟨S262144x64, .i1⟩
  | 13 => ⟨S_, .f32⟩
  | 14 => ⟨S262144x64, .f32⟩
  | 15 => ⟨S262144x64, .f32⟩
  | 16 => ⟨S262144x64, .f32⟩
  | 17 => ⟨S262144x64, .f32⟩
  | 18 => ⟨S1x64, .f32⟩
  | 19 => ⟨S262144x64, .f32⟩
  | 20 => ⟨S262144x64, .f32⟩
  | 21 => ⟨S262144x64, .f32⟩
  | 22 => ⟨S1x64x64, .f32⟩
  | 23 => ⟨S64x64, .f32⟩
  | 24 => ⟨S1x64, .f32⟩
  | 25 => ⟨S64, .f32⟩
  | 26 => ⟨S1x64x64, .f32⟩
  | 27 => ⟨S64x64, .f32⟩
  | 28 => ⟨S1x64, .f32⟩
  | 29 => ⟨S64, .f32⟩
  | 30 => ⟨S1x64x64, .f32⟩
  | 31 => ⟨S64x64, .f32⟩
  | 32 => ⟨S1x64, .f32⟩
  | 33 => ⟨S64, .f32⟩
  | 34 => ⟨S262144x64, .f32⟩
  | 35 => ⟨S1x64, .f32⟩
  | 36 => ⟨S262144x64, .f32⟩
  | 37 => ⟨S262144x64, .f32⟩
  | 38 => ⟨S_, .f32⟩
  | 39 => ⟨S_, .f32⟩
  | 40 => ⟨S262144x64, .f32⟩
  | 41 => ⟨S262144x64, .i1⟩
  | 42 => ⟨S_, .f32⟩
  | 43 => ⟨S262144x64, .f32⟩
  | 44 => ⟨S262144x64, .f32⟩
  | 45 => ⟨S262144x64, .f32⟩
  | 46 => ⟨S262144x64, .f32⟩
  | 47 => ⟨S1x64, .f32⟩
  | 48 => ⟨S262144x64, .f32⟩
  | 49 => ⟨S262144x64, .f32⟩
  | 50 => ⟨S_, .f32⟩
  | 51 => ⟨S_, .f32⟩
  | 52 => ⟨S262144x64, .f32⟩
  | 53 => ⟨S262144x64, .i1⟩
  | 54 => ⟨S_, .f32⟩
  | 55 => ⟨S262144x64, .f32⟩
  | 56 => ⟨S262144x64, .f32⟩
  | 57 => ⟨S262144x64, .f32⟩
  | 58 => ⟨S262144x64, .f32⟩
  | 59 => ⟨S1x64, .f32⟩
  | 60 => ⟨S262144x64, .f32⟩
  | 61 => ⟨S262144x64, .f32⟩
  | 62 => ⟨S262144x64, .f32⟩
  | 63 => ⟨S262144x64, .f32⟩
  | 64 => ⟨S262144x64, .f32⟩
  | 65 => ⟨S_, .f32⟩
  | 66 => ⟨S262144, .f32⟩
  | 67 => ⟨S262144, .f32⟩
  | 68 => ⟨S262144x128, .f32⟩
  | _ => ⟨S262144x128, .f32⟩

abbrev hbmTy (i : Nat) : BufTy := match i / 128 with
  | 0 => hbmTy0_0 i
  | 1 => hbmTy0_1 i
  | 2 => hbmTy0_2 i
  | 3 => hbmTy0_3 i
  | _ => ⟨S262144x128, .f32⟩

abbrev bufTy : (tb : Table) → Fin (tcTables nBuf tb) → BufTy
  | .hbm, ⟨i, _⟩ => hbmTy i
  | _, _ => ⟨S262144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_cst : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_0 : Ref sig .tc := ⟨.hbm, 33, rfl⟩
abbrev main_call0_cst : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_cst_1 : Ref sig .tc := ⟨.hbm, 45, rfl⟩
abbrev main_call1_cst : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_cst_2 : Ref sig .tc := ⟨.hbm, 74, rfl⟩
abbrev main_call2_cst : Ref sig .tc := ⟨.hbm, 75, rfl⟩
abbrev main_call2_v0 : Ref sig .tc := ⟨.hbm, 76, rfl⟩
abbrev main_call2_v1 : Ref sig .tc := ⟨.hbm, 77, rfl⟩
abbrev main_call2_v2 : Ref sig .tc := ⟨.hbm, 78, rfl⟩
abbrev main_call2_v3 : Ref sig .tc := ⟨.hbm, 79, rfl⟩
abbrev main_call2_v4 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_cst_3 : Ref sig .tc := ⟨.hbm, 86, rfl⟩
abbrev main_call3_cst : Ref sig .tc := ⟨.hbm, 87, rfl⟩
abbrev main_call3_v0 : Ref sig .tc := ⟨.hbm, 88, rfl⟩
abbrev main_call3_v1 : Ref sig .tc := ⟨.hbm, 89, rfl⟩
abbrev main_call3_v2 : Ref sig .tc := ⟨.hbm, 90, rfl⟩
abbrev main_call3_v3 : Ref sig .tc := ⟨.hbm, 91, rfl⟩
abbrev main_call3_v4 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_cst_4 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_cst_5 : Ref sig .tc := ⟨.hbm, 120, rfl⟩
abbrev main_call4_cst : Ref sig .tc := ⟨.hbm, 121, rfl⟩
abbrev main_call4_v0 : Ref sig .tc := ⟨.hbm, 122, rfl⟩
abbrev main_call4_v1 : Ref sig .tc := ⟨.hbm, 123, rfl⟩
abbrev main_call4_v2 : Ref sig .tc := ⟨.hbm, 124, rfl⟩
abbrev main_call4_v3 : Ref sig .tc := ⟨.hbm, 125, rfl⟩
abbrev main_call4_v4 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_cst_6 : Ref sig .tc := ⟨.hbm, 132, rfl⟩
abbrev main_call5_cst : Ref sig .tc := ⟨.hbm, 133, rfl⟩
abbrev main_call5_v0 : Ref sig .tc := ⟨.hbm, 134, rfl⟩
abbrev main_call5_v1 : Ref sig .tc := ⟨.hbm, 135, rfl⟩
abbrev main_call5_v2 : Ref sig .tc := ⟨.hbm, 136, rfl⟩
abbrev main_call5_v3 : Ref sig .tc := ⟨.hbm, 137, rfl⟩
abbrev main_call5_v4 : Ref sig .tc := ⟨.hbm, 138, rfl⟩
abbrev main_v82 : Ref sig .tc := ⟨.hbm, 139, rfl⟩
abbrev main_v83 : Ref sig .tc := ⟨.hbm, 140, rfl⟩
abbrev main_v84 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩
abbrev main_v88 : Ref sig .tc := ⟨.hbm, 145, rfl⟩
abbrev main_v89 : Ref sig .tc := ⟨.hbm, 146, rfl⟩
abbrev main_v90 : Ref sig .tc := ⟨.hbm, 147, rfl⟩
abbrev main_v91 : Ref sig .tc := ⟨.hbm, 148, rfl⟩
abbrev main_v92 : Ref sig .tc := ⟨.hbm, 149, rfl⟩
abbrev main_v93 : Ref sig .tc := ⟨.hbm, 150, rfl⟩
abbrev main_v94 : Ref sig .tc := ⟨.hbm, 151, rfl⟩
abbrev main_v95 : Ref sig .tc := ⟨.hbm, 152, rfl⟩
abbrev main_v96 : Ref sig .tc := ⟨.hbm, 153, rfl⟩
abbrev main_v97 : Ref sig .tc := ⟨.hbm, 154, rfl⟩
abbrev main_v98 : Ref sig .tc := ⟨.hbm, 155, rfl⟩
abbrev main_v99 : Ref sig .tc := ⟨.hbm, 156, rfl⟩
abbrev main_v100 : Ref sig .tc := ⟨.hbm, 157, rfl⟩
abbrev main_v101 : Ref sig .tc := ⟨.hbm, 158, rfl⟩
abbrev main_v102 : Ref sig .tc := ⟨.hbm, 159, rfl⟩
abbrev main_v103 : Ref sig .tc := ⟨.hbm, 160, rfl⟩
abbrev main_cst_7 : Ref sig .tc := ⟨.hbm, 161, rfl⟩
abbrev main_call6_cst : Ref sig .tc := ⟨.hbm, 162, rfl⟩
abbrev main_call6_v0 : Ref sig .tc := ⟨.hbm, 163, rfl⟩
abbrev main_call6_v1 : Ref sig .tc := ⟨.hbm, 164, rfl⟩
abbrev main_call6_v2 : Ref sig .tc := ⟨.hbm, 165, rfl⟩
abbrev main_call6_v3 : Ref sig .tc := ⟨.hbm, 166, rfl⟩
abbrev main_call6_v4 : Ref sig .tc := ⟨.hbm, 167, rfl⟩
abbrev main_v104 : Ref sig .tc := ⟨.hbm, 168, rfl⟩
abbrev main_v105 : Ref sig .tc := ⟨.hbm, 169, rfl⟩
abbrev main_v106 : Ref sig .tc := ⟨.hbm, 170, rfl⟩
abbrev main_v107 : Ref sig .tc := ⟨.hbm, 171, rfl⟩
abbrev main_v108 : Ref sig .tc := ⟨.hbm, 172, rfl⟩
abbrev main_cst_8 : Ref sig .tc := ⟨.hbm, 173, rfl⟩
abbrev main_call7_cst : Ref sig .tc := ⟨.hbm, 174, rfl⟩
abbrev main_call7_v0 : Ref sig .tc := ⟨.hbm, 175, rfl⟩
abbrev main_call7_v1 : Ref sig .tc := ⟨.hbm, 176, rfl⟩
abbrev main_call7_v2 : Ref sig .tc := ⟨.hbm, 177, rfl⟩
abbrev main_call7_v3 : Ref sig .tc := ⟨.hbm, 178, rfl⟩
abbrev main_call7_v4 : Ref sig .tc := ⟨.hbm, 179, rfl⟩
abbrev main_v109 : Ref sig .tc := ⟨.hbm, 180, rfl⟩
abbrev main_v110 : Ref sig .tc := ⟨.hbm, 181, rfl⟩
abbrev main_v111 : Ref sig .tc := ⟨.hbm, 182, rfl⟩
abbrev main_v112 : Ref sig .tc := ⟨.hbm, 183, rfl⟩
abbrev main_v113 : Ref sig .tc := ⟨.hbm, 184, rfl⟩
abbrev main_v114 : Ref sig .tc := ⟨.hbm, 185, rfl⟩
abbrev main_v115 : Ref sig .tc := ⟨.hbm, 186, rfl⟩
abbrev main_v116 : Ref sig .tc := ⟨.hbm, 187, rfl⟩
abbrev main_cst_9 : Ref sig .tc := ⟨.hbm, 188, rfl⟩
abbrev main_v117 : Ref sig .tc := ⟨.hbm, 189, rfl⟩
abbrev main_v118 : Ref sig .tc := ⟨.hbm, 190, rfl⟩
abbrev main_v119 : Ref sig .tc := ⟨.hbm, 191, rfl⟩
abbrev main_v120 : Ref sig .tc := ⟨.hbm, 192, rfl⟩
abbrev main_v121 : Ref sig .tc := ⟨.hbm, 193, rfl⟩
abbrev main_v122 : Ref sig .tc := ⟨.hbm, 194, rfl⟩
abbrev main_v123 : Ref sig .tc := ⟨.hbm, 195, rfl⟩
abbrev main_v124 : Ref sig .tc := ⟨.hbm, 196, rfl⟩
abbrev main_v125 : Ref sig .tc := ⟨.hbm, 197, rfl⟩
abbrev main_v126 : Ref sig .tc := ⟨.hbm, 198, rfl⟩
abbrev main_v127 : Ref sig .tc := ⟨.hbm, 199, rfl⟩
abbrev main_v128 : Ref sig .tc := ⟨.hbm, 200, rfl⟩
abbrev main_v129 : Ref sig .tc := ⟨.hbm, 201, rfl⟩
abbrev main_v130 : Ref sig .tc := ⟨.hbm, 202, rfl⟩
abbrev main_v131 : Ref sig .tc := ⟨.hbm, 203, rfl⟩
abbrev main_v132 : Ref sig .tc := ⟨.hbm, 204, rfl⟩
abbrev main_v133 : Ref sig .tc := ⟨.hbm, 205, rfl⟩
abbrev main_v134 : Ref sig .tc := ⟨.hbm, 206, rfl⟩
abbrev main_cst_10 : Ref sig .tc := ⟨.hbm, 207, rfl⟩
abbrev main_call8_cst : Ref sig .tc := ⟨.hbm, 208, rfl⟩
abbrev main_call8_v0 : Ref sig .tc := ⟨.hbm, 209, rfl⟩
abbrev main_call8_v1 : Ref sig .tc := ⟨.hbm, 210, rfl⟩
abbrev main_call8_v2 : Ref sig .tc := ⟨.hbm, 211, rfl⟩
abbrev main_call8_v3 : Ref sig .tc := ⟨.hbm, 212, rfl⟩
abbrev main_call8_v4 : Ref sig .tc := ⟨.hbm, 213, rfl⟩
abbrev main_v135 : Ref sig .tc := ⟨.hbm, 214, rfl⟩
abbrev main_v136 : Ref sig .tc := ⟨.hbm, 215, rfl⟩
abbrev main_v137 : Ref sig .tc := ⟨.hbm, 216, rfl⟩
abbrev main_v138 : Ref sig .tc := ⟨.hbm, 217, rfl⟩
abbrev main_v139 : Ref sig .tc := ⟨.hbm, 218, rfl⟩
abbrev main_cst_11 : Ref sig .tc := ⟨.hbm, 219, rfl⟩
abbrev main_call9_cst : Ref sig .tc := ⟨.hbm, 220, rfl⟩
abbrev main_call9_v0 : Ref sig .tc := ⟨.hbm, 221, rfl⟩
abbrev main_call9_v1 : Ref sig .tc := ⟨.hbm, 222, rfl⟩
abbrev main_call9_v2 : Ref sig .tc := ⟨.hbm, 223, rfl⟩
abbrev main_call9_v3 : Ref sig .tc := ⟨.hbm, 224, rfl⟩
abbrev main_call9_v4 : Ref sig .tc := ⟨.hbm, 225, rfl⟩
abbrev main_v140 : Ref sig .tc := ⟨.hbm, 226, rfl⟩
abbrev main_v141 : Ref sig .tc := ⟨.hbm, 227, rfl⟩
abbrev main_v142 : Ref sig .tc := ⟨.hbm, 228, rfl⟩
abbrev main_v143 : Ref sig .tc := ⟨.hbm, 229, rfl⟩
abbrev main_v144 : Ref sig .tc := ⟨.hbm, 230, rfl⟩
abbrev main_v145 : Ref sig .tc := ⟨.hbm, 231, rfl⟩
abbrev main_v146 : Ref sig .tc := ⟨.hbm, 232, rfl⟩
abbrev main_v147 : Ref sig .tc := ⟨.hbm, 233, rfl⟩
abbrev main_v148 : Ref sig .tc := ⟨.hbm, 234, rfl⟩
abbrev main_v149 : Ref sig .tc := ⟨.hbm, 235, rfl⟩
abbrev main_v150 : Ref sig .tc := ⟨.hbm, 236, rfl⟩
abbrev main_v151 : Ref sig .tc := ⟨.hbm, 237, rfl⟩
abbrev main_v152 : Ref sig .tc := ⟨.hbm, 238, rfl⟩
abbrev main_v153 : Ref sig .tc := ⟨.hbm, 239, rfl⟩
abbrev main_v154 : Ref sig .tc := ⟨.hbm, 240, rfl⟩
abbrev main_v155 : Ref sig .tc := ⟨.hbm, 241, rfl⟩
abbrev main_v156 : Ref sig .tc := ⟨.hbm, 242, rfl⟩
abbrev main_v157 : Ref sig .tc := ⟨.hbm, 243, rfl⟩
abbrev main_v158 : Ref sig .tc := ⟨.hbm, 244, rfl⟩
abbrev main_v159 : Ref sig .tc := ⟨.hbm, 245, rfl⟩
abbrev main_v160 : Ref sig .tc := ⟨.hbm, 246, rfl⟩
abbrev main_v161 : Ref sig .tc := ⟨.hbm, 247, rfl⟩
abbrev main_cst_12 : Ref sig .tc := ⟨.hbm, 248, rfl⟩
abbrev main_call10_cst : Ref sig .tc := ⟨.hbm, 249, rfl⟩
abbrev main_call10_v0 : Ref sig .tc := ⟨.hbm, 250, rfl⟩
abbrev main_call10_v1 : Ref sig .tc := ⟨.hbm, 251, rfl⟩
abbrev main_call10_v2 : Ref sig .tc := ⟨.hbm, 252, rfl⟩
abbrev main_call10_v3 : Ref sig .tc := ⟨.hbm, 253, rfl⟩
abbrev main_call10_v4 : Ref sig .tc := ⟨.hbm, 254, rfl⟩
abbrev main_v162 : Ref sig .tc := ⟨.hbm, 255, rfl⟩
abbrev main_v163 : Ref sig .tc := ⟨.hbm, 256, rfl⟩
abbrev main_v164 : Ref sig .tc := ⟨.hbm, 257, rfl⟩
abbrev main_v165 : Ref sig .tc := ⟨.hbm, 258, rfl⟩
abbrev main_v166 : Ref sig .tc := ⟨.hbm, 259, rfl⟩
abbrev main_cst_13 : Ref sig .tc := ⟨.hbm, 260, rfl⟩
abbrev main_call11_cst : Ref sig .tc := ⟨.hbm, 261, rfl⟩
abbrev main_call11_v0 : Ref sig .tc := ⟨.hbm, 262, rfl⟩
abbrev main_call11_v1 : Ref sig .tc := ⟨.hbm, 263, rfl⟩
abbrev main_call11_v2 : Ref sig .tc := ⟨.hbm, 264, rfl⟩
abbrev main_call11_v3 : Ref sig .tc := ⟨.hbm, 265, rfl⟩
abbrev main_call11_v4 : Ref sig .tc := ⟨.hbm, 266, rfl⟩
abbrev main_v167 : Ref sig .tc := ⟨.hbm, 267, rfl⟩
abbrev main_v168 : Ref sig .tc := ⟨.hbm, 268, rfl⟩
abbrev main_v169 : Ref sig .tc := ⟨.hbm, 269, rfl⟩
abbrev main_v170 : Ref sig .tc := ⟨.hbm, 270, rfl⟩
abbrev main_v171 : Ref sig .tc := ⟨.hbm, 271, rfl⟩
abbrev main_v172 : Ref sig .tc := ⟨.hbm, 272, rfl⟩
abbrev main_v173 : Ref sig .tc := ⟨.hbm, 273, rfl⟩
abbrev main_v174 : Ref sig .tc := ⟨.hbm, 274, rfl⟩
abbrev main_cst_14 : Ref sig .tc := ⟨.hbm, 275, rfl⟩
abbrev main_v175 : Ref sig .tc := ⟨.hbm, 276, rfl⟩
abbrev main_v176 : Ref sig .tc := ⟨.hbm, 277, rfl⟩
abbrev main_v177 : Ref sig .tc := ⟨.hbm, 278, rfl⟩
abbrev main_v178 : Ref sig .tc := ⟨.hbm, 279, rfl⟩
abbrev main_v179 : Ref sig .tc := ⟨.hbm, 280, rfl⟩
abbrev main_v180 : Ref sig .tc := ⟨.hbm, 281, rfl⟩
abbrev main_v181 : Ref sig .tc := ⟨.hbm, 282, rfl⟩
abbrev main_v182 : Ref sig .tc := ⟨.hbm, 283, rfl⟩
abbrev main_v183 : Ref sig .tc := ⟨.hbm, 284, rfl⟩
abbrev main_v184 : Ref sig .tc := ⟨.hbm, 285, rfl⟩
abbrev main_v185 : Ref sig .tc := ⟨.hbm, 286, rfl⟩
abbrev main_v186 : Ref sig .tc := ⟨.hbm, 287, rfl⟩
abbrev main_v187 : Ref sig .tc := ⟨.hbm, 288, rfl⟩
abbrev main_v188 : Ref sig .tc := ⟨.hbm, 289, rfl⟩
abbrev main_v189 : Ref sig .tc := ⟨.hbm, 290, rfl⟩
abbrev main_v190 : Ref sig .tc := ⟨.hbm, 291, rfl⟩
abbrev main_v191 : Ref sig .tc := ⟨.hbm, 292, rfl⟩
abbrev main_v192 : Ref sig .tc := ⟨.hbm, 293, rfl⟩
abbrev main_cst_15 : Ref sig .tc := ⟨.hbm, 294, rfl⟩
abbrev main_call12_cst : Ref sig .tc := ⟨.hbm, 295, rfl⟩
abbrev main_call12_v0 : Ref sig .tc := ⟨.hbm, 296, rfl⟩
abbrev main_call12_v1 : Ref sig .tc := ⟨.hbm, 297, rfl⟩
abbrev main_call12_v2 : Ref sig .tc := ⟨.hbm, 298, rfl⟩
abbrev main_call12_v3 : Ref sig .tc := ⟨.hbm, 299, rfl⟩
abbrev main_call12_v4 : Ref sig .tc := ⟨.hbm, 300, rfl⟩
abbrev main_v193 : Ref sig .tc := ⟨.hbm, 301, rfl⟩
abbrev main_v194 : Ref sig .tc := ⟨.hbm, 302, rfl⟩
abbrev main_v195 : Ref sig .tc := ⟨.hbm, 303, rfl⟩
abbrev main_v196 : Ref sig .tc := ⟨.hbm, 304, rfl⟩
abbrev main_v197 : Ref sig .tc := ⟨.hbm, 305, rfl⟩
abbrev main_cst_16 : Ref sig .tc := ⟨.hbm, 306, rfl⟩
abbrev main_call13_cst : Ref sig .tc := ⟨.hbm, 307, rfl⟩
abbrev main_call13_v0 : Ref sig .tc := ⟨.hbm, 308, rfl⟩
abbrev main_call13_v1 : Ref sig .tc := ⟨.hbm, 309, rfl⟩
abbrev main_call13_v2 : Ref sig .tc := ⟨.hbm, 310, rfl⟩
abbrev main_call13_v3 : Ref sig .tc := ⟨.hbm, 311, rfl⟩
abbrev main_call13_v4 : Ref sig .tc := ⟨.hbm, 312, rfl⟩
abbrev main_v198 : Ref sig .tc := ⟨.hbm, 313, rfl⟩
abbrev main_v199 : Ref sig .tc := ⟨.hbm, 314, rfl⟩
abbrev main_v200 : Ref sig .tc := ⟨.hbm, 315, rfl⟩
abbrev main_v201 : Ref sig .tc := ⟨.hbm, 316, rfl⟩
abbrev main_v202 : Ref sig .tc := ⟨.hbm, 317, rfl⟩
abbrev main_v203 : Ref sig .tc := ⟨.hbm, 318, rfl⟩
abbrev main_v204 : Ref sig .tc := ⟨.hbm, 319, rfl⟩
abbrev main_v205 : Ref sig .tc := ⟨.hbm, 320, rfl⟩
abbrev main_v206 : Ref sig .tc := ⟨.hbm, 321, rfl⟩
abbrev main_v207 : Ref sig .tc := ⟨.hbm, 322, rfl⟩
abbrev main_v208 : Ref sig .tc := ⟨.hbm, 323, rfl⟩
abbrev main_v209 : Ref sig .tc := ⟨.hbm, 324, rfl⟩
abbrev main_v210 : Ref sig .tc := ⟨.hbm, 325, rfl⟩
abbrev main_v211 : Ref sig .tc := ⟨.hbm, 326, rfl⟩
abbrev main_v212 : Ref sig .tc := ⟨.hbm, 327, rfl⟩
abbrev main_v213 : Ref sig .tc := ⟨.hbm, 328, rfl⟩
abbrev main_v214 : Ref sig .tc := ⟨.hbm, 329, rfl⟩
abbrev main_v215 : Ref sig .tc := ⟨.hbm, 330, rfl⟩
abbrev main_v216 : Ref sig .tc := ⟨.hbm, 331, rfl⟩
abbrev main_v217 : Ref sig .tc := ⟨.hbm, 332, rfl⟩
abbrev main_v218 : Ref sig .tc := ⟨.hbm, 333, rfl⟩
abbrev main_v219 : Ref sig .tc := ⟨.hbm, 334, rfl⟩
abbrev main_cst_17 : Ref sig .tc := ⟨.hbm, 335, rfl⟩
abbrev main_call14_cst : Ref sig .tc := ⟨.hbm, 336, rfl⟩
abbrev main_call14_v0 : Ref sig .tc := ⟨.hbm, 337, rfl⟩
abbrev main_call14_v1 : Ref sig .tc := ⟨.hbm, 338, rfl⟩
abbrev main_call14_v2 : Ref sig .tc := ⟨.hbm, 339, rfl⟩
abbrev main_call14_v3 : Ref sig .tc := ⟨.hbm, 340, rfl⟩
abbrev main_call14_v4 : Ref sig .tc := ⟨.hbm, 341, rfl⟩
abbrev main_v220 : Ref sig .tc := ⟨.hbm, 342, rfl⟩
abbrev main_v221 : Ref sig .tc := ⟨.hbm, 343, rfl⟩
abbrev main_v222 : Ref sig .tc := ⟨.hbm, 344, rfl⟩
abbrev main_v223 : Ref sig .tc := ⟨.hbm, 345, rfl⟩
abbrev main_v224 : Ref sig .tc := ⟨.hbm, 346, rfl⟩
abbrev main_cst_18 : Ref sig .tc := ⟨.hbm, 347, rfl⟩
abbrev main_call15_cst : Ref sig .tc := ⟨.hbm, 348, rfl⟩
abbrev main_call15_v0 : Ref sig .tc := ⟨.hbm, 349, rfl⟩
abbrev main_call15_v1 : Ref sig .tc := ⟨.hbm, 350, rfl⟩
abbrev main_call15_v2 : Ref sig .tc := ⟨.hbm, 351, rfl⟩
abbrev main_call15_v3 : Ref sig .tc := ⟨.hbm, 352, rfl⟩
abbrev main_call15_v4 : Ref sig .tc := ⟨.hbm, 353, rfl⟩
abbrev main_v225 : Ref sig .tc := ⟨.hbm, 354, rfl⟩
abbrev main_v226 : Ref sig .tc := ⟨.hbm, 355, rfl⟩
abbrev main_v227 : Ref sig .tc := ⟨.hbm, 356, rfl⟩
abbrev main_v228 : Ref sig .tc := ⟨.hbm, 357, rfl⟩
abbrev main_v229 : Ref sig .tc := ⟨.hbm, 358, rfl⟩
abbrev main_v230 : Ref sig .tc := ⟨.hbm, 359, rfl⟩
abbrev main_v231 : Ref sig .tc := ⟨.hbm, 360, rfl⟩
abbrev main_v232 : Ref sig .tc := ⟨.hbm, 361, rfl⟩
abbrev main_cst_19 : Ref sig .tc := ⟨.hbm, 362, rfl⟩
abbrev main_v233 : Ref sig .tc := ⟨.hbm, 363, rfl⟩
abbrev main_v234 : Ref sig .tc := ⟨.hbm, 364, rfl⟩
abbrev main_v235 : Ref sig .tc := ⟨.hbm, 365, rfl⟩
abbrev main_v236 : Ref sig .tc := ⟨.hbm, 366, rfl⟩
abbrev main_v237 : Ref sig .tc := ⟨.hbm, 367, rfl⟩
abbrev main_v238 : Ref sig .tc := ⟨.hbm, 368, rfl⟩
abbrev main_v239 : Ref sig .tc := ⟨.hbm, 369, rfl⟩
abbrev main_v240 : Ref sig .tc := ⟨.hbm, 370, rfl⟩
abbrev main_v241 : Ref sig .tc := ⟨.hbm, 371, rfl⟩
abbrev main_v242 : Ref sig .tc := ⟨.hbm, 372, rfl⟩
abbrev main_v243 : Ref sig .tc := ⟨.hbm, 373, rfl⟩
abbrev main_v244 : Ref sig .tc := ⟨.hbm, 374, rfl⟩
abbrev main_v245 : Ref sig .tc := ⟨.hbm, 375, rfl⟩
abbrev main_v246 : Ref sig .tc := ⟨.hbm, 376, rfl⟩
abbrev main_v247 : Ref sig .tc := ⟨.hbm, 377, rfl⟩
abbrev main_v248 : Ref sig .tc := ⟨.hbm, 378, rfl⟩
abbrev main_v249 : Ref sig .tc := ⟨.hbm, 379, rfl⟩
abbrev main_v250 : Ref sig .tc := ⟨.hbm, 380, rfl⟩
abbrev main_cst_20 : Ref sig .tc := ⟨.hbm, 381, rfl⟩
abbrev main_call16_cst : Ref sig .tc := ⟨.hbm, 382, rfl⟩
abbrev main_call16_v0 : Ref sig .tc := ⟨.hbm, 383, rfl⟩
abbrev main_call16_v1 : Ref sig .tc := ⟨.hbm, 384, rfl⟩
abbrev main_call16_v2 : Ref sig .tc := ⟨.hbm, 385, rfl⟩
abbrev main_call16_v3 : Ref sig .tc := ⟨.hbm, 386, rfl⟩
abbrev main_call16_v4 : Ref sig .tc := ⟨.hbm, 387, rfl⟩
abbrev main_v251 : Ref sig .tc := ⟨.hbm, 388, rfl⟩
abbrev main_v252 : Ref sig .tc := ⟨.hbm, 389, rfl⟩
abbrev main_v253 : Ref sig .tc := ⟨.hbm, 390, rfl⟩
abbrev main_v254 : Ref sig .tc := ⟨.hbm, 391, rfl⟩
abbrev main_v255 : Ref sig .tc := ⟨.hbm, 392, rfl⟩
abbrev main_cst_21 : Ref sig .tc := ⟨.hbm, 393, rfl⟩
abbrev main_call17_cst : Ref sig .tc := ⟨.hbm, 394, rfl⟩
abbrev main_call17_v0 : Ref sig .tc := ⟨.hbm, 395, rfl⟩
abbrev main_call17_v1 : Ref sig .tc := ⟨.hbm, 396, rfl⟩
abbrev main_call17_v2 : Ref sig .tc := ⟨.hbm, 397, rfl⟩
abbrev main_call17_v3 : Ref sig .tc := ⟨.hbm, 398, rfl⟩
abbrev main_call17_v4 : Ref sig .tc := ⟨.hbm, 399, rfl⟩
abbrev main_v256 : Ref sig .tc := ⟨.hbm, 400, rfl⟩
abbrev main_v257 : Ref sig .tc := ⟨.hbm, 401, rfl⟩
abbrev main_v258 : Ref sig .tc := ⟨.hbm, 402, rfl⟩
abbrev main_v259 : Ref sig .tc := ⟨.hbm, 403, rfl⟩
abbrev main_v260 : Ref sig .tc := ⟨.hbm, 404, rfl⟩
abbrev main_v261 : Ref sig .tc := ⟨.hbm, 405, rfl⟩
abbrev main_v262 : Ref sig .tc := ⟨.hbm, 406, rfl⟩
abbrev main_v263 : Ref sig .tc := ⟨.hbm, 407, rfl⟩
abbrev main_v264 : Ref sig .tc := ⟨.hbm, 408, rfl⟩
abbrev main_v265 : Ref sig .tc := ⟨.hbm, 409, rfl⟩
abbrev main_v266 : Ref sig .tc := ⟨.hbm, 410, rfl⟩
abbrev main_v267 : Ref sig .tc := ⟨.hbm, 411, rfl⟩
abbrev main_v268 : Ref sig .tc := ⟨.hbm, 412, rfl⟩
abbrev main_v269 : Ref sig .tc := ⟨.hbm, 413, rfl⟩
abbrev main_v270 : Ref sig .tc := ⟨.hbm, 414, rfl⟩
abbrev main_v271 : Ref sig .tc := ⟨.hbm, 415, rfl⟩
abbrev main_v272 : Ref sig .tc := ⟨.hbm, 416, rfl⟩
abbrev main_v273 : Ref sig .tc := ⟨.hbm, 417, rfl⟩
abbrev main_v274 : Ref sig .tc := ⟨.hbm, 418, rfl⟩
abbrev main_v275 : Ref sig .tc := ⟨.hbm, 419, rfl⟩
abbrev main_v276 : Ref sig .tc := ⟨.hbm, 420, rfl⟩
abbrev main_v277 : Ref sig .tc := ⟨.hbm, 421, rfl⟩
abbrev main_cst_22 : Ref sig .tc := ⟨.hbm, 422, rfl⟩
abbrev main_call18_cst : Ref sig .tc := ⟨.hbm, 423, rfl⟩
abbrev main_call18_v0 : Ref sig .tc := ⟨.hbm, 424, rfl⟩
abbrev main_call18_v1 : Ref sig .tc := ⟨.hbm, 425, rfl⟩
abbrev main_call18_v2 : Ref sig .tc := ⟨.hbm, 426, rfl⟩
abbrev main_call18_v3 : Ref sig .tc := ⟨.hbm, 427, rfl⟩
abbrev main_call18_v4 : Ref sig .tc := ⟨.hbm, 428, rfl⟩
abbrev main_v278 : Ref sig .tc := ⟨.hbm, 429, rfl⟩
abbrev main_v279 : Ref sig .tc := ⟨.hbm, 430, rfl⟩
abbrev main_v280 : Ref sig .tc := ⟨.hbm, 431, rfl⟩
abbrev main_v281 : Ref sig .tc := ⟨.hbm, 432, rfl⟩
abbrev main_v282 : Ref sig .tc := ⟨.hbm, 433, rfl⟩
abbrev main_cst_23 : Ref sig .tc := ⟨.hbm, 434, rfl⟩
abbrev main_call19_cst : Ref sig .tc := ⟨.hbm, 435, rfl⟩
abbrev main_call19_v0 : Ref sig .tc := ⟨.hbm, 436, rfl⟩
abbrev main_call19_v1 : Ref sig .tc := ⟨.hbm, 437, rfl⟩
abbrev main_call19_v2 : Ref sig .tc := ⟨.hbm, 438, rfl⟩
abbrev main_call19_v3 : Ref sig .tc := ⟨.hbm, 439, rfl⟩
abbrev main_call19_v4 : Ref sig .tc := ⟨.hbm, 440, rfl⟩
abbrev main_v283 : Ref sig .tc := ⟨.hbm, 441, rfl⟩
abbrev main_v284 : Ref sig .tc := ⟨.hbm, 442, rfl⟩
abbrev main_v285 : Ref sig .tc := ⟨.hbm, 443, rfl⟩
abbrev main_v286 : Ref sig .tc := ⟨.hbm, 444, rfl⟩
abbrev main_v287 : Ref sig .tc := ⟨.hbm, 445, rfl⟩
abbrev main_v288 : Ref sig .tc := ⟨.hbm, 446, rfl⟩
abbrev main_v289 : Ref sig .tc := ⟨.hbm, 447, rfl⟩
abbrev main_v290 : Ref sig .tc := ⟨.hbm, 448, rfl⟩
abbrev main_cst_24 : Ref sig .tc := ⟨.hbm, 449, rfl⟩
abbrev main_v291 : Ref sig .tc := ⟨.hbm, 450, rfl⟩
abbrev main_v292 : Ref sig .tc := ⟨.hbm, 451, rfl⟩
abbrev main_v293 : Ref sig .tc := ⟨.hbm, 452, rfl⟩

abbrev nD : Nat := 1
abbrev τ : Topo := Topo.v7x

variable {F : FTy → Type} [FloatOps F]

class Facts₀ : Prop where
  slices_S262144x128_S262144x64_0_0 : S262144x128.Slices ![0, 0] S262144x64
  slices_S262144x128_S262144x64_0_64 : S262144x128.Slices ![0, 64] S262144x64
  bcast_S_S262144 : S_.BroadcastsInDim S262144 (![] : Fin 0 → Fin S262144.rank)
  slices_S5x64x64_S1x64x64_0_0_0 : S5x64x64.Slices ![0, 0, 0] S1x64x64
  shapeCasts_S1x64x64_S64x64 : S1x64x64.ShapeCasts S64x64
  slices_S5x64_S1x64_0_0 : S5x64.Slices ![0, 0] S1x64
  shapeCasts_S1x64_S64 : S1x64.ShapeCasts S64
  bcast_S64_S1x64_1 : S64.BroadcastsInDim S1x64 (![1] : Fin 1 → Fin S1x64.rank)
  bcast_S1x64_S262144x64_0_1 : S1x64.BroadcastsInDim S262144x64 (![0, 1] : Fin 2 → Fin S262144x64.rank)
  bcast_S_S262144x64 : S_.BroadcastsInDim S262144x64 (![] : Fin 0 → Fin S262144x64.rank)
  reducesTo_S262144x64_S262144_d1 : S262144x64.ReducesTo [1] S262144
  h_S_ : 0 < S_.numel
  slices_S5x64x64_S1x64x64_1_0_0 : S5x64x64.Slices ![1, 0, 0] S1x64x64
  slices_S5x64_S1x64_1_0 : S5x64.Slices ![1, 0] S1x64
  slices_S5x64x64_S1x64x64_2_0_0 : S5x64x64.Slices ![2, 0, 0] S1x64x64
  slices_S5x64_S1x64_2_0 : S5x64.Slices ![2, 0] S1x64
  slices_S5x64x64_S1x64x64_3_0_0 : S5x64x64.Slices ![3, 0, 0] S1x64x64
  slices_S5x64_S1x64_3_0 : S5x64.Slices ![3, 0] S1x64
  slices_S5x64x64_S1x64x64_4_0_0 : S5x64x64.Slices ![4, 0, 0] S1x64x64
  slices_S5x64_S1x64_4_0 : S5x64.Slices ![4, 0] S1x64
  concatenates_S262144x64_S262144x64_S262144x128_d1 : Shape.Concatenates [S262144x64, S262144x64] S262144x128 1
  dot_S262144x64_S64x64_S262144x64_1_0_0_1_n_n_wf : DotDims.WF S262144x64 S64x64 S262144x64 [1] [0] [0] [1] [] []

variable [Facts₀]

def dot_S262144x64_S64x64_S262144x64_1_0_0_1_n_n : DotDims S262144x64 S64x64 S262144x64 where
  lhsContracting := [1]
  rhsContracting := [0]
  lhsNonContracting := [0]
  rhsNonContracting := [1]
  lhsBatch := []
  rhsBatch := []
  wf := dot_S262144x64_S64x64_S262144x64_1_0_0_1_n_n_wf

class Facts : Prop extends Facts₀ where

variable [Facts]
-- ==== Proof.KernelFlow.lean ====
/-
  The kernel body's computation on one block of 4096 rows, as one function of the blocks it loads.

  The body treats its block x = [x0 | x1] of rows exactly as the flow treats the whole batch: x0 (columns 0 … 63) drives,
  in each of five layers, two networks of three dense layers (a product with a 64×64 page of a stacked weight array into
  a zero accumulator, plus a bias row) with the leaky rectifier between them, the operands of each product narrowed to
  bfloat16; s = tanh of the first network, t the second, x1 ← x1 · exp s + t, and the row sums of s are added up. The
  definitions below spell each step with the kernel's operations exactly as the body prints them, so the body's stored
  values unfold to these terms.
-/
import proofs.«154327_j3710851744111_2_alg».proof.Proof.Gen.KernelIdeal

noncomputable section

namespace Cert.KernelIdeal.KerFlow

open Cert.KernelIdeal Cert.KernelIdeal.Gen Idealize.ShloMosaic

variable {F : FTy → Type} [FloatOps F]

/-- One dense layer on the block: x·W into the zero accumulator, plus the bias laid along every row. -/
def dense (x : FVec F S4096x64 .bf16) (W : FVec F S64x64 .bf16) (b : FVec F S64 .f32) : FVec F S4096x64 .f32 :=
  addf (matmul dot_S4096x64_S64x64_S4096x64_1_0_0_1_n_n none x W (constant S4096x64 .f32 0x00000000#32))
    (broadcastTo S4096x64 (shapeCast S1x64 b shapeCasts_S64_S1x64) broadcasts_S1x64_S4096x64)

/-- The leaky rectifier h ↦ (h ≥ 0 ? h : c·h) with the slope c the binary32 word 0x3C23D70A. -/
def leaky (h : FVec F S4096x64 .f32) : FVec F S4096x64 .f32 :=
  select (cmpf .oge h (broadcast S4096x64 (Scalar.ofBits .f32 0x00000000#32))) h
    (mulf (broadcast S4096x64 (Scalar.ofBits .f32 0x3C23D70A#32)) h)

/-- Three dense layers with the rectifier between them, each product's left operand narrowed to bfloat16. -/
def mlp (x : FVec F S4096x64 .bf16) (W1 : FVec F S64x64 .bf16) (b1 : FVec F S64 .f32) (W2 : FVec F S64x64 .bf16)
    (b2 : FVec F S64 .f32) (W3 : FVec F S64x64 .bf16) (b3 : FVec F S64 .f32) : FVec F S4096x64 .f32 :=
  dense (truncf .bf16 (leaky (dense (truncf .bf16 (leaky (dense x W1 b1)) bitsLt_bf16_f32) W2 b2)) bitsLt_bf16_f32) W3 b3

/-- A loaded page [1, 64, 64] as a matrix. -/
def page (v : Vec F S1x64x64 .bf16) : FVec F S64x64 .bf16 := shapeCast S64x64 v shapeCasts_S1x64x64_S64x64

/-- A loaded bias row [1, 64] as a vector. -/
def rowOf (v : Vec F S1x64 .f32) : FVec F S64 .f32 := shapeCast S64 v shapeCasts_S1x64_S64

/-- A three-layer network over the six loaded parameter pieces of one layer. -/
def net (x : FVec F S4096x64 .bf16) (w1 : Vec F S1x64x64 .bf16) (b1 : Vec F S1x64 .f32) (w2 : Vec F S1x64x64 .bf16)
    (b2 : Vec F S1x64 .f32) (w3 : Vec F S1x64x64 .bf16) (b3 : Vec F S1x64 .f32) : FVec F S4096x64 .f32 :=
  mlp x (page w1) (rowOf b1) (page w2) (rowOf b2) (page w3) (rowOf b3)

/-- The unchanged half of the block: columns 0 … 63. -/
def half0 (v0 : Vec F S4096x128 .f32) : FVec F S4096x64 .f32 :=
  extractStridedSlice S4096x64 ![0, 0] v0 slices_S4096x128_o0_0_S4096x64

/-- The transformed half before the first layer: columns 64 … 127. -/
def half1 (v0 : Vec F S4096x128 .f32) : FVec F S4096x64 .f32 :=
  extractStridedSlice S4096x64 ![0, 64] v0 slices_S4096x128_o0_64_S4096x64

/-- The unchanged half narrowed to bfloat16: the left operand of every layer's first product. -/
def half0b (v0 : Vec F S4096x128 .f32) : FVec F S4096x64 .bf16 := truncf .bf16 (half0 v0) bitsLt_bf16_f32

/-- The log-determinant before the first layer: zero on every row of the block. -/
def ld0 : FVec F S4096 .f32 := broadcast S4096 (Scalar.ofBits .f32 0x00000000#32)

/-- One layer's update of the transformed half: x1 · exp s + t. -/
def stepX (x1 s t : FVec F S4096x64 .f32) : FVec F S4096x64 .f32 := addf (mulf x1 (exp s)) t

/-- One layer's update of the log-determinant: logdet + Σ_columns s. -/
def stepL (ld : FVec F S4096 .f32) (s : FVec F S4096x64 .f32) : FVec F S4096 .f32 :=
  addf ld (multiReduction .add [1] S4096 s 0x00000000#32 reduces_S4096x64_S4096 (.inl rfl) rfl)

end Cert.KernelIdeal.KerFlow

end
-- ==== Proof.KernelPayload.lean ====
/-
  What the kernel body leaves in its two output blocks, over the block computation's own terms.

  Each layer loads its six s-parameters and six t-parameters as page l of the staged stacks (a [1, 64, 64] or [1, 64]
  rectangle at offset l) and the body stores, once, z = [x0 | x1 after the five layers] into the first output block
  and the accumulated row sums into the second. The two theorems say that the stored values, which the generated frame
  states over the body's own intermediate values, are these terms: both sides unfold to one and the same expression.
-/
import proofs.«154327_j3710851744111_2_alg».proof.Proof.Gen.KernelIdeal.Frame
import proofs.«154327_j3710851744111_2_alg».proof.Proof.KernelFlow

noncomputable section

namespace Cert.KernelIdeal.KerFlow

open Cert.KernelIdeal Cert.KernelIdeal.Gen Idealize.ShloMosaic

variable {F : FTy → Type} [FloatOps F]

/-- One layer's scale s = tanh (net_s x0) from the block and the layer's six loaded s-parameter pieces. -/
def sOf (v : Vec F S4096x128 .f32) (w1 : Vec F S1x64x64 .bf16) (b1 : Vec F S1x64 .f32) (w2 : Vec F S1x64x64 .bf16)
    (b2 : Vec F S1x64 .f32) (w3 : Vec F S1x64x64 .bf16) (b3 : Vec F S1x64 .f32) : FVec F S4096x64 .f32 :=
  tanh (net (half0b v) w1 b1 w2 b2 w3 b3)

/-- One layer's shift t = net_t x0 from the block and the layer's six loaded t-parameter pieces. -/
def tOf (v : Vec F S4096x128 .f32) (w1 : Vec F S1x64x64 .bf16) (b1 : Vec F S1x64 .f32) (w2 : Vec F S1x64x64 .bf16)
    (b2 : Vec F S1x64 .f32) (w3 : Vec F S1x64x64 .bf16) (b3 : Vec F S1x64 .f32) : FVec F S4096x64 .f32 :=
  net (half0b v) w1 b1 w2 b2 w3 b3

section Block

variable (x0 : Vec F S4096x128 .f32) (x1 : Vec F S5x64x64 .bf16) (x2 : Vec F S5x64 .f32) (x3 : Vec F S5x64x64 .bf16) (x4 : Vec F S5x64 .f32) (x5 : Vec F S5x64x64 .bf16) (x6 : Vec F S5x64 .f32) (x7 : Vec F S5x64x64 .bf16) (x8 : Vec F S5x64 .f32) (x9 : Vec F S5x64x64 .bf16) (x10 : Vec F S5x64 .f32) (x11 : Vec F S5x64x64 .bf16) (x12 : Vec F S5x64 .f32)

/-- The transformed half of the block after the five layers. -/
def x1Out : FVec F S4096x64 .f32 :=
  (stepX (stepX (stepX (stepX (stepX (half1 (View.ld x0 r0_0))
      (sOf (View.ld x0 r0_0) (View.ld x1 r0_1) (View.ld x2 r0_2) (View.ld x3 r0_1) (View.ld x4 r0_2) (View.ld x5 r0_1) (View.ld x6 r0_2))
      (tOf (View.ld x0 r0_0) (View.ld x7 r0_1) (View.ld x8 r0_2) (View.ld x9 r0_1) (View.ld x10 r0_2) (View.ld x11 r0_1) (View.ld x12 r0_2)))
      (sOf (View.ld x0 r0_0) (View.ld x1 r0_3) (View.ld x2 r0_4) (View.ld x3 r0_3) (View.ld x4 r0_4) (View.ld x5 r0_3) (View.ld x6 r0_4))
      (tOf (View.ld x0 r0_0) (View.ld x7 r0_3) (View.ld x8 r0_4) (View.ld x9 r0_3) (View.ld x10 r0_4) (View.ld x11 r0_3) (View.ld x12 r0_4)))
      (sOf (View.ld x0 r0_0) (View.ld x1 r0_5) (View.ld x2 r0_6) (View.ld x3 r0_5) (View.ld x4 r0_6) (View.ld x5 r0_5) (View.ld x6 r0_6))
      (tOf (View.ld x0 r0_0) (View.ld x7 r0_5) (View.ld x8 r0_6) (View.ld x9 r0_5) (View.ld x10 r0_6) (View.ld x11 r0_5) (View.ld x12 r0_6)))
      (sOf (View.ld x0 r0_0) (View.ld x1 r0_7) (View.ld x2 r0_8) (View.ld x3 r0_7) (View.ld x4 r0_8) (View.ld x5 r0_7) (View.ld x6 r0_8))
      (tOf (View.ld x0 r0_0) (View.ld x7 r0_7) (View.ld x8 r0_8) (View.ld x9 r0_7) (View.ld x10 r0_8) (View.ld x11 r0_7) (View.ld x12 r0_8)))
      (sOf (View.ld x0 r0_0) (View.ld x1 r0_9) (View.ld x2 r0_10) (View.ld x3 r0_9) (View.ld x4 r0_10) (View.ld x5 r0_9) (View.ld x6 r0_10))
      (tOf (View.ld x0 r0_0) (View.ld x7 r0_9) (View.ld x8 r0_10) (View.ld x9 r0_9) (View.ld x10 r0_10) (View.ld x11 r0_9) (View.ld x12 r0_10)))

/-- The first output block: z = [x0 | x1 after the five layers]. -/
def blockZ : FVec F S4096x128 .f32 :=
  concatenate S4096x128 1 [⟨S4096x64, half0 (View.ld x0 r0_0)⟩, ⟨S4096x64, x1Out x0 x1 x2 x3 x4 x5 x6 x7 x8 x9 x10 x11 x12⟩]
    concatenates_S4096x64_S4096x64_S4096x128_d1

/-- The second output block: the five layers' row sums of s added up from zero. -/
def blockL : FVec F S4096 .f32 :=
  (stepL (stepL (stepL (stepL (stepL (ld0 (F := F))
      (sOf (View.ld x0 r0_0) (View.ld x1 r0_1) (View.ld x2 r0_2) (View.ld x3 r0_1) (View.ld x4 r0_2) (View.ld x5 r0_1) (View.ld x6 r0_2)))
      (sOf (View.ld x0 r0_0) (View.ld x1 r0_3) (View.ld x2 r0_4) (View.ld x3 r0_3) (View.ld x4 r0_4) (View.ld x5 r0_3) (View.ld x6 r0_4)))
      (sOf (View.ld x0 r0_0) (View.ld x1 r0_5) (View.ld x2 r0_6) (View.ld x3 r0_5) (View.ld x4 r0_6) (View.ld x5 r0_5) (View.ld x6 r0_6)))
      (sOf (View.ld x0 r0_0) (View.ld x1 r0_7) (View.ld x2 r0_8) (View.ld x3 r0_7) (View.ld x4 r0_8) (View.ld x5 r0_7) (View.ld x6 r0_8)))
      (sOf (View.ld x0 r0_0) (View.ld x1 r0_9) (View.ld x2 r0_10) (View.ld x3 r0_9) (View.ld x4 r0_10) (View.ld x5 r0_9) (View.ld x6 r0_10)))

set_option maxRecDepth 16384 in
set_option maxHeartbeats 4000000 in
/-- The body's one store into the first output block holds `blockZ`. -/
theorem out13_eq : out0_13 x0 x1 x2 x3 x4 x5 x6 x7 x8 x9 x10 x11 x12 = View.canon [⟨r0_0, blockZ x0 x1 x2 x3 x4 x5 x6 x7 x8 x9 x10 x11 x12⟩] := by
  unfold out0_13 blockZ x1Out
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, stepX, sOf, tOf, net, mlp, dense, leaky, page, rowOf, half0, half1, half0b]

set_option maxRecDepth 16384 in
set_option maxHeartbeats 4000000 in
/-- The body's one store into the second output block holds `blockL`. -/
theorem out14_eq : out0_14 x0 x1 x2 x3 x4 x5 x6 x7 x8 x9 x10 x11 x12 = View.canon [⟨r0_11, blockL x0 x1 x2 x3 x4 x5 x6⟩] := by
  unfold out0_14 blockL
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, stepL, ld0, sOf, net, mlp, dense, leaky, page, rowOf, half0, half0b]

end Block

end Cert.KernelIdeal.KerFlow

end
-- ==== Proof.HostFlow.lean ====
/-
  The reference computation as one function of its thirteen argument arrays.

  A flow of five affine coupling layers over a batch of rows x = [x0 | x1] (64 + 64 columns). The first half x0 is never
  changed; it drives, in every layer l, two small networks of three dense layers each (weights W1, W2, W3 : 64×64 and
  biases b1, b2, b3 : 64, page l of the stacked parameter arrays) with the leaky rectifier between them:
    s_l = tanh (net_s,l x0),   t_l = net_t,l x0,   x1 ← x1 · exp s_l + t_l,   logdet ← logdet + Σ_columns s_l.
  The results are z = [x0 | x1 after layer 5] and logdet. The definitions below spell each step with the host's
  operations exactly as the reference program prints them, so the program's run reads back as these terms.
-/
import proofs.«154327_j3710851744111_2_alg».proof.Proof.Gen.ReferenceIdeal

noncomputable section

namespace Cert.ReferenceIdeal.RefFlow

open Cert.ReferenceIdeal Cert.ReferenceIdeal.Gen Idealize.ShloMosaic

variable {F : FTy → Type} [FloatOps F]

/-- One dense layer on the whole batch: x·W + b, the bias laid along every row. -/
def dense (x : FVec F S262144x64 .f32) (W : FVec F S64x64 .f32) (b : FVec F S64 .f32) : FVec F S262144x64 .f32 :=
  addf (Host.dotGeneral dot_S262144x64_S64x64_S262144x64_1_0_0_1_n_n none x W)
    (broadcastInDim S262144x64 ![0, 1] bcast_S1x64_S262144x64_0_1 (broadcastInDim S1x64 ![1] bcast_S64_S1x64_1 b))

/-- The leaky rectifier h ↦ (h ≥ 0 ? h : c·h) with the slope c the binary32 word 0x3C23D70A. -/
def leaky (h : FVec F S262144x64 .f32) : FVec F S262144x64 .f32 :=
  select (cmpf .oge h (broadcastInDim S262144x64 ![] bcast_S_S262144x64 (constant S_ .f32 0x00000000#32))) h
    (mulf (broadcastInDim S262144x64 ![] bcast_S_S262144x64 (id (constant S_ .f32 0x3C23D70A#32))) h)

/-- Three dense layers with the rectifier between them. -/
def mlp (x : FVec F S262144x64 .f32) (W1 : FVec F S64x64 .f32) (b1 : FVec F S64 .f32) (W2 : FVec F S64x64 .f32)
    (b2 : FVec F S64 .f32) (W3 : FVec F S64x64 .f32) (b3 : FVec F S64 .f32) : FVec F S262144x64 .f32 :=
  dense (leaky (dense (leaky (dense x W1 b1)) W2 b2)) W3 b3

/-- One page of a stack of five 64×64 matrices, as a matrix. -/
def page (W : FVec F S5x64x64 .f32) (o : Fin 3 → Nat) (h : S5x64x64.Slices o S1x64x64) : FVec F S64x64 .f32 :=
  shapeCast S64x64 (extractStridedSlice S1x64x64 o W h) shapeCasts_S1x64x64_S64x64

/-- One row of a stack of five bias vectors, as a vector. -/
def rowOf (b : FVec F S5x64 .f32) (o : Fin 2 → Nat) (h : S5x64.Slices o S1x64) : FVec F S64 .f32 :=
  shapeCast S64 (extractStridedSlice S1x64 o b h) shapeCasts_S1x64_S64

/-- A three-layer network whose parameters are page `o3` / row `o2` of six stacked arrays. -/
def netAt (x0 : FVec F S262144x64 .f32) (W1 : FVec F S5x64x64 .f32) (b1 : FVec F S5x64 .f32) (W2 : FVec F S5x64x64 .f32)
    (b2 : FVec F S5x64 .f32) (W3 : FVec F S5x64x64 .f32) (b3 : FVec F S5x64 .f32)
    (o3 : Fin 3 → Nat) (o2 : Fin 2 → Nat) (h3 : S5x64x64.Slices o3 S1x64x64) (h2 : S5x64.Slices o2 S1x64) :
    FVec F S262144x64 .f32 :=
  mlp x0 (page W1 o3 h3) (rowOf b1 o2 h2) (page W2 o3 h3) (rowOf b2 o2 h2) (page W3 o3 h3) (rowOf b3 o2 h2)

/-- The unchanged half: columns 0 … 63. -/
def x0 (x : FVec F S262144x128 .f32) : FVec F S262144x64 .f32 :=
  extractStridedSlice S262144x64 ![0, 0] x slices_S262144x128_S262144x64_0_0

/-- The transformed half before the first layer: columns 64 … 127. -/
def x1 (x : FVec F S262144x128 .f32) : FVec F S262144x64 .f32 :=
  extractStridedSlice S262144x64 ![0, 64] x slices_S262144x128_S262144x64_0_64

/-- The log-determinant before the first layer: zero on every row. -/
def ld0 : FVec F S262144 .f32 := broadcastInDim S262144 ![] bcast_S_S262144 (constant S_ .f32 0x00000000#32)

/-- One layer's update of the transformed half: x1 · exp s + t. -/
def stepX (x1 s t : FVec F S262144x64 .f32) : FVec F S262144x64 .f32 := addf (mulf x1 (Host.exp s)) t

/-- One layer's update of the log-determinant: logdet + Σ_columns s. -/
def stepL (ld : FVec F S262144 .f32) (s : FVec F S262144x64 .f32) : FVec F S262144 .f32 :=
  addf ld (Host.reduceAdd s (constant S_ .f32 0x00000000#32) reducesTo_S262144x64_S262144_d1 h_S_)

section Whole

variable (x : FVec F S262144x128 .f32)
  (a1 : FVec F S5x64x64 .f32) (a2 : FVec F S5x64 .f32) (a3 : FVec F S5x64x64 .f32) (a4 : FVec F S5x64 .f32)
  (a5 : FVec F S5x64x64 .f32) (a6 : FVec F S5x64 .f32) (a7 : FVec F S5x64x64 .f32) (a8 : FVec F S5x64 .f32)
  (a9 : FVec F S5x64x64 .f32) (a10 : FVec F S5x64 .f32) (a11 : FVec F S5x64x64 .f32) (a12 : FVec F S5x64 .f32)

/-- Layer `o`'s scale s = tanh (net_s x0), from the six s-parameter stacks. -/
def sAt (o3 : Fin 3 → Nat) (o2 : Fin 2 → Nat) (h3 : S5x64x64.Slices o3 S1x64x64) (h2 : S5x64.Slices o2 S1x64) :
    FVec F S262144x64 .f32 :=
  Host.tanh (netAt (x0 x) a1 a2 a3 a4 a5 a6 o3 o2 h3 h2)

/-- Layer `o`'s shift t = net_t x0, from the six t-parameter stacks. -/
def tAt (o3 : Fin 3 → Nat) (o2 : Fin 2 → Nat) (h3 : S5x64x64.Slices o3 S1x64x64) (h2 : S5x64.Slices o2 S1x64) :
    FVec F S262144x64 .f32 :=
  netAt (x0 x) a7 a8 a9 a10 a11 a12 o3 o2 h3 h2

/-- The transformed half after the five layers. -/
def x1Out : FVec F S262144x64 .f32 :=
  stepX (stepX (stepX (stepX (stepX (x1 x)
    (sAt x a1 a2 a3 a4 a5 a6 ![0, 0, 0] ![0, 0] slices_S5x64x64_S1x64x64_0_0_0 slices_S5x64_S1x64_0_0)
    (tAt x a7 a8 a9 a10 a11 a12 ![0, 0, 0] ![0, 0] slices_S5x64x64_S1x64x64_0_0_0 slices_S5x64_S1x64_0_0))
    (sAt x a1 a2 a3 a4 a5 a6 ![1, 0, 0] ![1, 0] slices_S5x64x64_S1x64x64_1_0_0 slices_S5x64_S1x64_1_0)
    (tAt x a7 a8 a9 a10 a11 a12 ![1, 0, 0] ![1, 0] slices_S5x64x64_S1x64x64_1_0_0 slices_S5x64_S1x64_1_0))
    (sAt x a1 a2 a3 a4 a5 a6 ![2, 0, 0] ![2, 0] slices_S5x64x64_S1x64x64_2_0_0 slices_S5x64_S1x64_2_0)
    (tAt x a7 a8 a9 a10 a11 a12 ![2, 0, 0] ![2, 0] slices_S5x64x64_S1x64x64_2_0_0 slices_S5x64_S1x64_2_0))
    (sAt x a1 a2 a3 a4 a5 a6 ![3, 0, 0] ![3, 0] slices_S5x64x64_S1x64x64_3_0_0 slices_S5x64_S1x64_3_0)
    (tAt x a7 a8 a9 a10 a11 a12 ![3, 0, 0] ![3, 0] slices_S5x64x64_S1x64x64_3_0_0 slices_S5x64_S1x64_3_0))
    (sAt x a1 a2 a3 a4 a5 a6 ![4, 0, 0] ![4, 0] slices_S5x64x64_S1x64x64_4_0_0 slices_S5x64_S1x64_4_0)
    (tAt x a7 a8 a9 a10 a11 a12 ![4, 0, 0] ![4, 0] slices_S5x64x64_S1x64x64_4_0_0 slices_S5x64_S1x64_4_0)

/-- The first result: z = [x0 | x1 after the five layers]. -/
def refZ : FVec F S262144x128 .f32 :=
  concatenate S262144x128 1 [⟨S262144x64, x0 x⟩, ⟨S262144x64, x1Out x a1 a2 a3 a4 a5 a6 a7 a8 a9 a10 a11 a12⟩]
    concatenates_S262144x64_S262144x64_S262144x128_d1

/-- The second result: the log-determinant, the five layers' column sums of s added up from zero. -/
def refL : FVec F S262144 .f32 :=
  stepL (stepL (stepL (stepL (stepL ld0
    (sAt x a1 a2 a3 a4 a5 a6 ![0, 0, 0] ![0, 0] slices_S5x64x64_S1x64x64_0_0_0 slices_S5x64_S1x64_0_0))
    (sAt x a1 a2 a3 a4 a5 a6 ![1, 0, 0] ![1, 0] slices_S5x64x64_S1x64x64_1_0_0 slices_S5x64_S1x64_1_0))
    (sAt x a1 a2 a3 a4 a5 a6 ![2, 0, 0] ![2, 0] slices_S5x64x64_S1x64x64_2_0_0 slices_S5x64_S1x64_2_0))
    (sAt x a1 a2 a3 a4 a5 a6 ![3, 0, 0] ![3, 0] slices_S5x64x64_S1x64x64_3_0_0 slices_S5x64_S1x64_3_0))
    (sAt x a1 a2 a3 a4 a5 a6 ![4, 0, 0] ![4, 0] slices_S5x64x64_S1x64x64_4_0_0 slices_S5x64_S1x64_4_0)

end Whole

end Cert.ReferenceIdeal.RefFlow

end
-- ==== Proof.LibRowBlockDot.lean ====
/-
  A block of rows of a matrix product, at the extended reals.

  Row i of X·W depends on row i of X alone. So the product of a block of rows of X (any choice of rows, given by a map
  `row` from the block's row numbers to the matrix's) with W is the same block of rows of X·W: entry (a, b) of the
  one and entry (row a, b) of the other are the same sum over the contracted coordinate of the same products. Stated
  for a kernel's product accumulated into the zero block against the host's product of the whole matrices, generic in
  the four extents, the operand formats and the precision keys. Nothing of real arithmetic is used beyond 0 + x = x,
  so it holds at the infinities too.
-/
import Idealize.ShloMosaic.Lib.StackMember
import Idealize.ShloMosaic.Lib.KernelVsHost

noncomputable section

namespace Cert.LibRowBlockDot

open Idealize.ShloMosaic Idealize.ShloMosaic.ValueIdx

/-- Entry (a, b) of a kernel's plain product `A·B` into the zero accumulator, where `A` is the rows `row a` of a
    matrix `X` and `B` is `W` entry by entry, is entry (`row a`, b) of the host's plain product `X·W`. -/
theorem matmul_rowBlock_apply {M m K N : Nat} {φ₁ φ₂ ψ₁ ψ₂ : FTy} (prec prec' : Option ContractPrecision)
    (X : FVec Ideal ⟨2, ![M, K]⟩ φ₁) (W : FVec Ideal ⟨2, ![K, N]⟩ φ₂)
    (A : FVec Ideal ⟨2, ![m, K]⟩ ψ₁) (B : FVec Ideal ⟨2, ![K, N]⟩ ψ₂) (row : Fin m → Fin M)
    (hA : ∀ a c, A (ix2 a c) = X (ix2 (row a) c)) (hB : ∀ c b, B (ix2 c b) = W (ix2 c b)) (a : Fin m) (b : Fin N) :
    matmul (DotDims.plain m K N) prec A B (constant (F := Ideal) ⟨2, ![m, N]⟩ .f32 0x00000000#32) (ix2 a b)
      = Host.dotGeneral (DotDims.plain M K N) prec' X W (ix2 (row a) b) := by
  rw [matmul_zero_eq_dotGeneral, StackMember.dotGeneral_plain_apply, StackMember.dotGeneral_plain_apply]
  exact Finset.sum_congr rfl fun c _ => by rw [hA, hB]

/-- The same with the two entries given by their coordinates: `j` in the block and `i` in the whole product, `i`'s
    row being the row the block's row `j 0` stands for and the columns equal. -/
theorem matmul_rowBlock_apply_idx {M m K N : Nat} {φ₁ φ₂ ψ₁ ψ₂ : FTy} (prec prec' : Option ContractPrecision)
    (X : FVec Ideal ⟨2, ![M, K]⟩ φ₁) (W : FVec Ideal ⟨2, ![K, N]⟩ φ₂)
    (A : FVec Ideal ⟨2, ![m, K]⟩ ψ₁) (B : FVec Ideal ⟨2, ![K, N]⟩ ψ₂) (row : Fin m → Fin M)
    (hA : ∀ a c, A (ix2 a c) = X (ix2 (row a) c)) (hB : ∀ c b, B (ix2 c b) = W (ix2 c b))
    (j : (⟨2, ![m, N]⟩ : Shape).Idx) (i : (⟨2, ![M, N]⟩ : Shape).Idx)
    (h0 : (i 0).val = (row (j 0)).val) (h1 : (i 1).val = (j 1).val) :
    matmul (DotDims.plain m K N) prec A B (constant (F := Ideal) ⟨2, ![m, N]⟩ .f32 0x00000000#32) j
      = Host.dotGeneral (DotDims.plain M K N) prec' X W i := by
  have hj : j = ix2 (j 0) (j 1) := eq_ix2 j
  have hi : i = ix2 (row (j 0)) (j 1) := by
    rw [eq_ix2 i]
    exact congrArg₂ ix2 (Fin.ext h0) (Fin.ext h1)
  rw [hj, hi]
  exact matmul_rowBlock_apply prec prec' X W A B row hA hB (j 0) (j 1)

end Cert.LibRowBlockDot

end
-- ==== Proof.LibHostReads.lean ====
/-
  Host-side array operations read at an index, on the extended reals.

  The reads that plain array code needs again and again: a plain matrix product [m,k]·[k,n] at (a, b) is the finite sum
  Σ_c L(a,c)·R(c,b), whatever name the product's dimension record was printed under, as long as it is the plain one; a
  scalar broadcast to any shape reads the scalar; a bias vector [n] broadcast to one row [1,n] and then down m rows reads,
  at (r, c), the bias at c; a vector [m] made a column [m,1] reads, at (r, ·), the vector at r; and a column [m,1]
  repeated along n columns reads, at (r, d), the column at r. Generic in the extents (an extent that must not be the unit
  extent says so) and, for the layout reads, in the element type; the indices are written by coordinates (ix1, ix2), so
  each lemma applies to a printed operation by unification.
-/
import Idealize.ShloMosaic.Lib.StackMember
import Idealize.ShloMosaic.Lib.Pipeline.Value
import Idealize.ShloMosaic.Lib.ValueIdx

noncomputable section

open scoped BigOperators

namespace Cert.LibHostReads

open Idealize.ShloMosaic Idealize.ShloMosaic.ValueIdx

variable {α : Type}

/-- A plain m×k by k×n product read at (a, b): Σ_c L(a,c)·R(c,b). -/
theorem dot_apply {m k n : Nat} (D : DotDims ⟨2, ![m, k]⟩ ⟨2, ![k, n]⟩ ⟨2, ![m, n]⟩) (hD : D = DotDims.plain m k n)
    (L : FVec Ideal ⟨2, ![m, k]⟩ .f32) (R : FVec Ideal ⟨2, ![k, n]⟩ .f32) (a : Fin m) (b : Fin n) :
    Host.dotGeneral D none L R (ix2 a b) = ∑ c : Fin k, L (ix2 a c) * R (ix2 c b) := by
  subst hD
  exact StackMember.dotGeneral_plain_apply none L R a b

/-- A scalar broadcast to any shape reads the scalar everywhere. -/
theorem splat_apply {t : Shape} (h : (⟨0, ![]⟩ : Shape).BroadcastsInDim t ![]) (y : (⟨0, ![]⟩ : Shape).Idx → α) (j : t.Idx) :
    broadcastInDim t ![] h y j = y ix0 :=
  broadcastInDim_apply _ h y j ix0 (fun a => a.elim0)

/-- A vector of length n broadcast to one row and then to m rows reads, at (r, c), the vector at c. -/
theorem rowBias_apply {m n : Nat} (hn : n ≠ 1)
    (h1 : (⟨1, ![n]⟩ : Shape).BroadcastsInDim ⟨2, ![1, n]⟩ ![1])
    (h2 : (⟨2, ![1, n]⟩ : Shape).BroadcastsInDim ⟨2, ![m, n]⟩ ![0, 1])
    (b : (⟨1, ![n]⟩ : Shape).Idx → α) (r : Fin m) (c : Fin n) :
    broadcastInDim ⟨2, ![m, n]⟩ ![0, 1] h2 (broadcastInDim ⟨2, ![1, n]⟩ ![1] h1 b) (ix2 r c) = b (ix1 c) := by
  rw [broadcastInDim_apply _ h2 _ (ix2 r c) (ix2 (0 : Fin 1) c) (fun a => match a with
      | ⟨0, _⟩ => by show 0 = if (1 : Nat) = 1 then 0 else r.val; rw [if_pos rfl]
      | ⟨1, _⟩ => by show c.val = if n = 1 then 0 else c.val; rw [if_neg hn]),
    broadcastInDim_apply _ h1 b (ix2 (0 : Fin 1) c) (ix1 c) (fun a => match a with
      | ⟨0, _⟩ => by show c.val = if n = 1 then 0 else c.val; rw [if_neg hn])]

/-- A vector of length m as a column reads, at (r, z), the vector at r. -/
theorem col_apply {m : Nat} (hm : m ≠ 1) (h1 : (⟨1, ![m]⟩ : Shape).BroadcastsInDim ⟨2, ![m, 1]⟩ ![0])
    (v : (⟨1, ![m]⟩ : Shape).Idx → α) (r : Fin m) (z : Fin 1) :
    broadcastInDim ⟨2, ![m, 1]⟩ ![0] h1 v (ix2 r z) = v (ix1 r) :=
  broadcastInDim_apply _ h1 v (ix2 r z) (ix1 r) (fun a => match a with
    | ⟨0, _⟩ => by show r.val = if m = 1 then 0 else r.val; rw [if_neg hm])

/-- A column broadcast along its rows reads, at (r, d), the column at r. -/
theorem colBcast_apply {m n : Nat} (hm : m ≠ 1) (h2 : (⟨2, ![m, 1]⟩ : Shape).BroadcastsInDim ⟨2, ![m, n]⟩ ![0, 1])
    (Y : (⟨2, ![m, 1]⟩ : Shape).Idx → α) (r : Fin m) (d : Fin n) :
    broadcastInDim ⟨2, ![m, n]⟩ ![0, 1] h2 Y (ix2 r d) = Y (ix2 r (0 : Fin 1)) :=
  broadcastInDim_apply _ h2 Y (ix2 r d) (ix2 r (0 : Fin 1)) (fun a => match a with
    | ⟨0, _⟩ => by show r.val = if m = 1 then 0 else r.val; rw [if_neg hm]
    | ⟨1, _⟩ => by show 0 = if (1 : Nat) = 1 then 0 else d.val; rw [if_pos rfl])

end Cert.LibHostReads

end
-- ==== Proof.LibKeepdims.lean ====
/-
  Row reductions that keep their axis, read at an index.

  A kernel's `jnp.max(x, axis=-1, keepdims=True)` or `jnp.sum(…, keepdims=True)` on an `[a, b]` array prints as a lane
  reduction to `[a]`, a shape cast to the column `[a, 1]` and a broadcast of the column back to `[a, b]`.  Read at
  `(r, c)` each step names one index of its operand: the broadcast reads the column at `(r, 0)`, the cast reads the vector
  at `r`, and the reduction at `r` runs over the row `k ↦ (r, k)` — as a fold of `max` from the accumulator's value for a
  maximum, as a plain sum for an addition.  All at any extents `a`, `b` and any float format; the indices are written by
  coordinates (`ix1`, `ix2`), so each lemma applies to a printed operation by unification.
-/
import Idealize.ShloMosaic.Lib.ValueLayout
import Idealize.ShloMosaic.PureOps.Ideal.Laws

namespace Idealize.ShloMosaic.ValueIdx

open Idealize.ShloMosaic

variable {α : Type}

/-- An `[a]` vector cast to the column `[a, 1]` reads, at `(i, u)`, the vector at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- Over a reduction of `[a, b]` along its last axis, the source index above `r` with `k` on the dropped axis is `(r, k)`. -/
theorem lift_row {a b : ℕ} (h : (⟨2, ![a, b]⟩ : Shape).Reduces [(1 : Fin 2)] ⟨1, ![a]⟩) (r : Fin a) (k : Fin b) :
    h.lift (ix1 r) k = ix2 r k :=
  funext fun c => Fin.ext (by match c with | ⟨0, _⟩ => rfl | ⟨1, _⟩ => rfl)

variable {φ : FTy}

/-- A lane maximum of an `[a, b]` array at row `r`, at the exact values: the fold of `max` from the accumulator's value over the row. -/
theorem multiReduction_maximumf_row {a b : ℕ} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.maximumf.neutral φ hφ) (r : Fin a) :
    multiReduction .maximumf [(1 : Fin 2)] ⟨1, ![a]⟩ src acc h hφ hacc (ix1 r)
      = (Finset.univ : Finset (Fin b)).fold max (Ideal.ofBits φ acc) (fun k => src (ix2 r k)) := by
  refine (Ideal.multiReduction_maximumf_single src acc h hφ hacc (ix1 r)).trans ?_
  exact congrArg (Finset.fold max (Ideal.ofBits φ acc) · (Finset.univ : Finset (Fin b))) (funext fun k => congrArg src (lift_row h r k))

/-- A lane sum of an `[a, b]` array at row `r`, at the exact values: the sum over the row. -/
theorem multiReduction_add_row {a b : ℕ} (src : FVec Ideal ⟨2, ![a, b]⟩ φ) (acc : BitVec φ.bits)
    (h : (⟨2, ![a, b]⟩ : Shape).Reduces [(1 : Fin 2)] ⟨1, ![a]⟩) (hφ : FKind.Formats φ) (hacc : acc = FKind.add.neutral φ hφ) (r : Fin a) :
    multiReduction .add [(1 : Fin 2)] ⟨1, ![a]⟩ src acc h hφ hacc (ix1 r) = ∑ k : Fin b, src (ix2 r k) := by
  refine (Ideal.multiReduction_add_single src acc h hφ hacc (ix1 r)).trans ?_
  exact Finset.sum_congr rfl fun k _ => congrArg src (lift_row h r k)

end Idealize.ShloMosaic.ValueIdx
-- ==== Proof.LibRowwise.lean ====
/-
  Row-wise array code on a block of rows, at the extended reals.

  Much array code treats the rows of a matrix independently: row r of the result is a function of row r of the operand
  (and of small parameter arrays) alone. A dense layer x·W + b, a pointwise map, a sum along each row and a
  concatenation of columns are all of this kind. For such code, running it on a BLOCK of rows of X — any selection of
  rows, given by a map `row` from the block's row numbers to the matrix's — gives the same block of rows of the result of
  running it on the whole of X. This file states that, operation by operation, for a kernel's spelling of each
  operation on the block against the host's spelling on the whole matrix, as the closure of one relation: `RowsOf row A X`
  says entry (a, b) of the block A is entry (row a, b) of X. Nothing of real arithmetic is used beyond 0 + x = x, so
  every statement holds at the infinities too. Generic in the extents and the float formats.
-/
import Idealize.ShloMosaic.Lib.StackMember
import Idealize.ShloMosaic.Lib.KernelVsHost
import Idealize.ShloMosaic.Lib.ValueLayout
import Idealize.ShloMosaic.Lib.Pipeline.Value
import Idealize.ShloMosaic.PureOps.Ideal.Laws
import proofs.«154327_j3710851744111_2_alg».proof.Proof.LibRowBlockDot
import proofs.«154327_j3710851744111_2_alg».proof.Proof.LibHostReads
import proofs.«154327_j3710851744111_2_alg».proof.Proof.LibKeepdims

noncomputable section

open scoped BigOperators

namespace Cert.LibRowwise

open Idealize.ShloMosaic Idealize.ShloMosaic.ValueIdx

variable {m M n : Nat} {φ ψ : FTy}

/-- Entry (a, b) of the block `A` is entry (`row a`, b) of `X`: the block holds the rows `row` of `X`. -/
def RowsOf (row : Fin m → Fin M) (A : FVec Ideal ⟨2, ![m, n]⟩ φ) (X : FVec Ideal ⟨2, ![M, n]⟩ ψ) : Prop :=
  ∀ (a : Fin m) (b : Fin n), A (ix2 a b) = X (ix2 (row a) b)

/-- Entry a of the vector `u` is entry `row a` of `U`: one number per row, the same selection of rows. -/
def RowsOf1 (row : Fin m → Fin M) (u : FVec Ideal ⟨1, ![m]⟩ φ) (U : FVec Ideal ⟨1, ![M]⟩ ψ) : Prop :=
  ∀ a : Fin m, u (ix1 a) = U (ix1 (row a))

/-- A change of float format is the identity on the extended reals: the narrowed block still holds the rows. -/
theorem RowsOf.truncf {row : Fin m → Fin M} {A : FVec Ideal ⟨2, ![m, n]⟩ φ} {X : FVec Ideal ⟨2, ![M, n]⟩ ψ} {χ : FTy}
    (h : RowsOf row A X) (hb : χ.bits < φ.bits) : RowsOf row (truncf χ A hb) X :=
  fun a b => h a b

/-- A dense layer: the block's product with the weights into the zero accumulator plus the bias laid along every row,
    against the host's product of the whole matrix plus the bias broadcast to one row and then down the rows. The
    weights and the bias agree entry by entry; the two products' dimension records are the plain ones. -/
theorem RowsOf.dense {K N : Nat} {φ₁ φ₂ ψ₁ ψ₂ : FTy} {row : Fin m → Fin M}
    (D : DotDims ⟨2, ![m, K]⟩ ⟨2, ![K, N]⟩ ⟨2, ![m, N]⟩) (hD : D = DotDims.plain m K N)
    (D' : DotDims ⟨2, ![M, K]⟩ ⟨2, ![K, N]⟩ ⟨2, ![M, N]⟩) (hD' : D' = DotDims.plain M K N)
    (prec prec' : Option ContractPrecision)
    {A : FVec Ideal ⟨2, ![m, K]⟩ ψ₁} {X : FVec Ideal ⟨2, ![M, K]⟩ φ₁} (hA : RowsOf row A X)
    {B : FVec Ideal ⟨2, ![K, N]⟩ ψ₂} {W : FVec Ideal ⟨2, ![K, N]⟩ φ₂} (hB : ∀ c b, B (ix2 c b) = W (ix2 c b))
    {bk bh : FVec Ideal ⟨1, ![N]⟩ .f32} (hb : ∀ q, bk (ix1 q) = bh (ix1 q)) (hN : N ≠ 1)
    (h1 : (⟨1, ![N]⟩ : Shape).ShapeCasts ⟨2, ![1, N]⟩) (h2 : (⟨2, ![1, N]⟩ : Shape).Broadcasts ⟨2, ![m, N]⟩)
    (g1 : (⟨1, ![N]⟩ : Shape).BroadcastsInDim ⟨2, ![1, N]⟩ ![1])
    (g2 : (⟨2, ![1, N]⟩ : Shape).BroadcastsInDim ⟨2, ![M, N]⟩ ![0, 1]) :
    RowsOf row
      (addf (matmul D prec A B (constant (F := Ideal) ⟨2, ![m, N]⟩ .f32 0x00000000#32))
        (broadcastTo ⟨2, ![m, N]⟩ (shapeCast ⟨2, ![1, N]⟩ bk h1) h2))
      (addf (Host.dotGeneral D' prec' X W)
        (broadcastInDim ⟨2, ![M, N]⟩ ![0, 1] g2 (broadcastInDim ⟨2, ![1, N]⟩ ![1] g1 bh))) := by
  subst hD hD'
  intro a b
  rw [addf_apply, addf_apply,
    Cert.LibRowBlockDot.matmul_rowBlock_apply prec prec' X W A B row hA hB a b,
    broadcastTo_1b_ab_apply, shapeCast_a_1a_apply, Cert.LibHostReads.rowBias_apply hN g1 g2 bh (row a) b, hb b]

/-- The leaky rectifier x ↦ (x ≥ z ? x : c·x), the kernel's with its two scalars broadcast, the host's with the two
    scalars as rank-0 constants broadcast to the matrix (the slope through an identity conversion). -/
theorem RowsOf.leaky {row : Fin m → Fin M} {A : FVec Ideal ⟨2, ![m, n]⟩ .f32} {X : FVec Ideal ⟨2, ![M, n]⟩ .f32}
    (h : RowsOf row A X) (z c : BitVec 32)
    (g : (⟨0, ![]⟩ : Shape).BroadcastsInDim ⟨2, ![M, n]⟩ ![]) :
    RowsOf row
      (select (cmpf .oge A (broadcast ⟨2, ![m, n]⟩ (Scalar.ofBits (F := Ideal) .f32 z))) A
        (mulf (broadcast ⟨2, ![m, n]⟩ (Scalar.ofBits (F := Ideal) .f32 c)) A))
      (select (cmpf .oge X (broadcastInDim ⟨2, ![M, n]⟩ ![] g (constant (F := Ideal) ⟨0, ![]⟩ .f32 z))) X
        (mulf (broadcastInDim ⟨2, ![M, n]⟩ ![] g (id (constant (F := Ideal) ⟨0, ![]⟩ .f32 c))) X)) := by
  intro a b
  rw [select_apply, select_apply, cmpf_apply, cmpf_apply, mulf_apply, mulf_apply, broadcast_apply, broadcast_apply,
    Cert.LibHostReads.splat_apply, Cert.LibHostReads.splat_apply, h a b]
  rfl

/-- The hyperbolic tangent, entry by entry: the kernel's and the host's are one function of an extended real. -/
theorem RowsOf.tanh {row : Fin m → Fin M} {A : FVec Ideal ⟨2, ![m, n]⟩ φ} {X : FVec Ideal ⟨2, ![M, n]⟩ φ}
    (h : RowsOf row A X) : RowsOf row (tanh A) (Host.tanh X) :=
  fun a b => congrArg Ideal.tanh (h a b)

/-- The exponential, entry by entry: the kernel's and the host's are one function of an extended real. -/
theorem RowsOf.exp {row : Fin m → Fin M} {A : FVec Ideal ⟨2, ![m, n]⟩ φ} {X : FVec Ideal ⟨2, ![M, n]⟩ φ}
    (h : RowsOf row A X) : RowsOf row (exp A) (Host.exp X) :=
  fun a b => congrArg Ideal.exp (h a b)

/-- A product, entry by entry. -/
theorem RowsOf.mulf {row : Fin m → Fin M} {A B : FVec Ideal ⟨2, ![m, n]⟩ φ} {X Y : FVec Ideal ⟨2, ![M, n]⟩ φ}
    (hA : RowsOf row A X) (hB : RowsOf row B Y) : RowsOf row (mulf A B) (mulf X Y) :=
  fun a b => congrArg₂ (· * ·) (hA a b) (hB a b)

/-- A sum, entry by entry. -/
theorem RowsOf.addf {row : Fin m → Fin M} {A B : FVec Ideal ⟨2, ![m, n]⟩ φ} {X Y : FVec Ideal ⟨2, ![M, n]⟩ φ}
    (hA : RowsOf row A X) (hB : RowsOf row B Y) : RowsOf row (addf A B) (addf X Y) :=
  fun a b => congrArg₂ (· + ·) (hA a b) (hB a b)

/-- The columns from `o` on, `k` of them: the same cut of the block and of the matrix. -/
theorem RowsOf.cols {k : Nat} {row : Fin m → Fin M} {A : FVec Ideal ⟨2, ![m, n]⟩ φ} {X : FVec Ideal ⟨2, ![M, n]⟩ ψ}
    (h : RowsOf row A X) (o : Nat)
    (hs : (⟨2, ![m, n]⟩ : Shape).Slices ![0, o] ⟨2, ![m, k]⟩) (hs' : (⟨2, ![M, n]⟩ : Shape).Slices ![0, o] ⟨2, ![M, k]⟩) :
    RowsOf row (extractStridedSlice ⟨2, ![m, k]⟩ ![0, o] A hs) (extractStridedSlice ⟨2, ![M, k]⟩ ![0, o] X hs') := by
  intro a b
  rw [slice2_axis1_eq o A hs a b, slice2_axis1_eq o X hs' (row a) b]
  exact h a _

/-- The sum along each row: the kernel's lane reduction from the neutral accumulator against the host's reduction
    from an initial value that is zero. -/
theorem RowsOf.rowSum {row : Fin m → Fin M} {A : FVec Ideal ⟨2, ![m, n]⟩ φ} {X : FVec Ideal ⟨2, ![M, n]⟩ φ}
    (h : RowsOf row A X) (acc : BitVec φ.bits)
    (hr : (⟨2, ![m, n]⟩ : Shape).Reduces [(1 : Fin 2)] ⟨1, ![m]⟩) (hφ : FKind.Formats φ) (hacc : acc = FKind.add.neutral φ hφ)
    {u : Shape} (init : u.Idx → Ideal φ) (hr' : (⟨2, ![M, n]⟩ : Shape).ReducesTo [(1 : Fin 2)] ⟨1, ![M]⟩)
    (hR : (⟨2, ![M, n]⟩ : Shape).Reduces [(1 : Fin 2)] ⟨1, ![M]⟩) (hu : 0 < u.numel)
    (h0 : init (Shape.Idx.first hu) = 0) :
    RowsOf1 row (multiReduction .add [(1 : Fin 2)] ⟨1, ![m]⟩ A acc hr hφ hacc) (Host.reduceAdd X init hr' hu) := by
  intro a
  rw [multiReduction_add_row A acc hr hφ hacc a]
  show _ = Ideal.hostReduceAdd hr' X (init (Shape.Idx.first hu)) (ix1 (row a))
  rw [Ideal.hostReduceAdd_single hr' hR, h0, zero_add]
  exact Finset.sum_congr rfl fun k _ => by rw [lift_row hR (row a) k]; exact h a k

/-- A sum of two per-row vectors, entry by entry. -/
theorem RowsOf1.addf {row : Fin m → Fin M} {u v : FVec Ideal ⟨1, ![m]⟩ φ} {U V : FVec Ideal ⟨1, ![M]⟩ φ}
    (hu : RowsOf1 row u U) (hv : RowsOf1 row v V) : RowsOf1 row (addf u v) (addf U V) :=
  fun a => congrArg₂ (· + ·) (hu a) (hv a)

/-- A scalar laid along the rows: the kernel's broadcast of a scalar word against the host's rank-0 constant
    broadcast to the vector. -/
theorem RowsOf1.splat (row : Fin m → Fin M) (z : BitVec 32) (g : (⟨0, ![]⟩ : Shape).BroadcastsInDim ⟨1, ![M]⟩ ![]) :
    RowsOf1 row (broadcast ⟨1, ![m]⟩ (Scalar.ofBits (F := Ideal) .f32 z))
      (broadcastInDim ⟨1, ![M]⟩ ![] g (constant (F := Ideal) ⟨0, ![]⟩ .f32 z)) := by
  intro a
  rw [broadcast_apply, Cert.LibHostReads.splat_apply]
  rfl

/-- Two blocks set side by side along the columns: the concatenation of the blocks holds the rows of the
    concatenation of the matrices. -/
theorem RowsOf.concat {n₁ n₂ : Nat} {row : Fin m → Fin M}
    {A₁ : FVec Ideal ⟨2, ![m, n₁]⟩ φ} {X₁ : FVec Ideal ⟨2, ![M, n₁]⟩ φ} (h₁ : RowsOf row A₁ X₁)
    {A₂ : FVec Ideal ⟨2, ![m, n₂]⟩ φ} {X₂ : FVec Ideal ⟨2, ![M, n₂]⟩ φ} (h₂ : RowsOf row A₂ X₂)
    (hc : Shape.Concatenates [(⟨2, ![m, n₁]⟩ : Shape), ⟨2, ![m, n₂]⟩] ⟨2, ![m, n]⟩ (1 : Fin 2))
    (hc' : Shape.Concatenates [(⟨2, ![M, n₁]⟩ : Shape), ⟨2, ![M, n₂]⟩] ⟨2, ![M, n]⟩ (1 : Fin 2)) :
    RowsOf row (concatenate ⟨2, ![m, n]⟩ (1 : Fin 2) [⟨⟨2, ![m, n₁]⟩, A₁⟩, ⟨⟨2, ![m, n₂]⟩, A₂⟩] hc)
      (concatenate ⟨2, ![M, n]⟩ (1 : Fin 2) [⟨⟨2, ![M, n₁]⟩, X₁⟩, ⟨⟨2, ![M, n₂]⟩, X₂⟩] hc') := by
  intro a b
  by_cases hb : b.val < n₁
  · rw [concatenate_pair_apply_left (1 : Fin 2) A₁ A₂ hc (ix2 a b) rfl (ix2 a ⟨b.val, hb⟩)
        (fun c => by match c with | ⟨0, _⟩ => rfl | ⟨1, _⟩ => rfl),
      concatenate_pair_apply_left (1 : Fin 2) X₁ X₂ hc' (ix2 (row a) b) rfl (ix2 (row a) ⟨b.val, hb⟩)
        (fun c => by match c with | ⟨0, _⟩ => rfl | ⟨1, _⟩ => rfl)]
    exact h₁ a _
  · have hn : n₁ + n₂ = n := by have e := hc.2.2; simpa using e
    have hb2 : b.val - n₁ < n₂ := by have := b.isLt; omega
    rw [concatenate_pair_apply_right (1 : Fin 2) A₁ A₂ hc (ix2 a b) rfl rfl (ix2 a ⟨b.val - n₁, hb2⟩)
        (fun c hne => by match c with | ⟨0, _⟩ => rfl | ⟨1, _⟩ => exact absurd rfl hne)
        (by show b.val - n₁ + n₁ = b.val; omega),
      concatenate_pair_apply_right (1 : Fin 2) X₁ X₂ hc' (ix2 (row a) b) rfl rfl (ix2 (row a) ⟨b.val - n₁, hb2⟩)
        (fun c hne => by match c with | ⟨0, _⟩ => rfl | ⟨1, _⟩ => exact absurd rfl hne)
        (by show b.val - n₁ + n₁ = b.val; omega)]
    exact h₂ a _

end Cert.LibRowwise

end
-- ==== Proof.Bridge.lean ====
/-
  The kernel's block results are the rows of the reference's results.

  Fix a grid point's block of 4096 rows inside the batch of 262144: block row a is batch row `row a`. Every step of the
  flow is row-wise, so if the block the kernel loads holds those rows of the batch, and the parameter stacks the kernel
  stages agree entry by entry with the reference's (the staged copies differ only by a change of float format, which is
  the identity on the extended reals), then the block of z the kernel stores holds the same rows of the reference's z,
  and the block of log-determinants the same entries of the reference's. The proof walks the two computations side by
  side: a dense layer by the row-block law of a matrix product, the rectifier, tanh, exp, products and sums entry by
  entry, a row sum term by term.
-/
import proofs.«154327_j3710851744111_2_alg».proof.Proof.KernelPayload
import proofs.«154327_j3710851744111_2_alg».proof.Proof.HostFlow
import proofs.«154327_j3710851744111_2_alg».proof.Proof.LibRowwise

noncomputable section

namespace Cert.Bridge

open Idealize.ShloMosaic Idealize.ShloMosaic.ValueIdx Cert.LibRowwise

/-! ## The parameter pieces at an entry -/

/-- A [1, 64, 64] page loaded from a staged stack through the unit rectangle at offset (l, 0, 0), as a matrix, reads
    the stack at (l, c, b). -/
theorem kpage_apply (x : Vec Ideal Cert.KernelIdeal.S5x64x64 .bf16) (l : Fin 5) (off : Fin 3 → Nat)
    (h0 : off 0 = l.val) (h1 : off 1 = 0) (h2 : off 2 = 0)
    (inb : ∀ a, off a + Cert.KernelIdeal.S1x64x64.size a ≤ Cert.KernelIdeal.S5x64x64.size a) (c b : Fin 64) :
    Cert.KernelIdeal.KerFlow.page (View.ld x (Rect.unit (s := Cert.KernelIdeal.S5x64x64) off Cert.KernelIdeal.S1x64x64.size inb)) (ix2 c b)
      = x (ix3 l c b) := by
  unfold Cert.KernelIdeal.KerFlow.page
  refine (shapeCast_1ab_ab_apply _ _ c b).trans ?_
  show x ((Rect.unit (s := Cert.KernelIdeal.S5x64x64) off Cert.KernelIdeal.S1x64x64.size inb).idx (ix3 (0 : Fin 1) c b)) = x (ix3 l c b)
  refine congrArg x (funext fun a => Fin.ext ?_)
  match a with
  | ⟨0, _⟩ => show off 0 + 1 * 0 = l.val; omega
  | ⟨1, _⟩ => show off 1 + 1 * c.val = c.val; omega
  | ⟨2, _⟩ => show off 2 + 1 * b.val = b.val; omega

/-- A [1, 64] bias row loaded from a staged stack through the unit rectangle at offset (l, 0), as a vector, reads the
    stack at (l, q). -/
theorem krow_apply (x : Vec Ideal Cert.KernelIdeal.S5x64 .f32) (l : Fin 5) (off : Fin 2 → Nat)
    (h0 : off 0 = l.val) (h1 : off 1 = 0)
    (inb : ∀ a, off a + Cert.KernelIdeal.S1x64.size a ≤ Cert.KernelIdeal.S5x64.size a) (q : Fin 64) :
    Cert.KernelIdeal.KerFlow.rowOf (View.ld x (Rect.unit (s := Cert.KernelIdeal.S5x64) off Cert.KernelIdeal.S1x64.size inb)) (ix1 q)
      = x (ix2 l q) := by
  unfold Cert.KernelIdeal.KerFlow.rowOf
  refine (shapeCast_1a_a_apply _ _ q).trans ?_
  show x ((Rect.unit (s := Cert.KernelIdeal.S5x64) off Cert.KernelIdeal.S1x64.size inb).idx (ix2 (0 : Fin 1) q)) = x (ix2 l q)
  refine congrArg x (funext fun a => Fin.ext ?_)
  match a with
  | ⟨0, _⟩ => show off 0 + 1 * 0 = l.val; omega
  | ⟨1, _⟩ => show off 1 + 1 * q.val = q.val; omega

/-- Page l of a stack of five matrices on the host, as a matrix, reads the stack at (l, c, b). -/
theorem hpage_apply (W : FVec Ideal Cert.ReferenceIdeal.S5x64x64 .f32) (l : Fin 5) (o : Fin 3 → Nat)
    (h0 : o 0 = l.val) (h1 : o 1 = 0) (h2 : o 2 = 0) (h : Cert.ReferenceIdeal.S5x64x64.Slices o Cert.ReferenceIdeal.S1x64x64) (c b : Fin 64) :
    Cert.ReferenceIdeal.RefFlow.page W o h (ix2 c b) = W (ix3 l c b) := by
  unfold Cert.ReferenceIdeal.RefFlow.page
  refine (shapeCast_1ab_ab_apply _ _ c b).trans ?_
  refine extractStridedSlice_apply o W h _ (ix3 l c b) fun a => ?_
  match a with
  | ⟨0, _⟩ => show l.val = o 0 + 0; omega
  | ⟨1, _⟩ => show c.val = o 1 + c.val; omega
  | ⟨2, _⟩ => show b.val = o 2 + b.val; omega

/-- Row l of a stack of five bias vectors on the host, as a vector, reads the stack at (l, q). -/
theorem hrow_apply (B : FVec Ideal Cert.ReferenceIdeal.S5x64 .f32) (l : Fin 5) (o : Fin 2 → Nat)
    (h0 : o 0 = l.val) (h1 : o 1 = 0) (h : Cert.ReferenceIdeal.S5x64.Slices o Cert.ReferenceIdeal.S1x64) (q : Fin 64) :
    Cert.ReferenceIdeal.RefFlow.rowOf B o h (ix1 q) = B (ix2 l q) := by
  unfold Cert.ReferenceIdeal.RefFlow.rowOf
  refine (shapeCast_1a_a_apply _ _ q).trans ?_
  refine extractStridedSlice_apply o B h _ (ix2 l q) fun a => ?_
  match a with
  | ⟨0, _⟩ => show l.val = o 0 + 0; omega
  | ⟨1, _⟩ => show q.val = o 1 + q.val; omega

/-! ## One network, one layer -/

variable {row : Fin 4096 → Fin 262144}

/-- The two programs' product records are the plain 4096×64·64×64 and 262144×64·64×64 ones. -/
theorem kdot_plain : Cert.KernelIdeal.dot_S4096x64_S64x64_S4096x64_1_0_0_1_n_n = DotDims.plain 4096 64 64 := rfl
theorem hdot_plain : Cert.ReferenceIdeal.dot_S262144x64_S64x64_S262144x64_1_0_0_1_n_n = DotDims.plain 262144 64 64 := rfl

/-- One dense layer of the block against one dense layer of the batch. -/
theorem dense_rows {A : FVec Ideal Cert.KernelIdeal.S4096x64 .bf16} {X : FVec Ideal Cert.ReferenceIdeal.S262144x64 .f32} (hA : RowsOf row A X)
    {B : FVec Ideal Cert.KernelIdeal.S64x64 .bf16} {W : FVec Ideal Cert.ReferenceIdeal.S64x64 .f32} (hB : ∀ c b, B (ix2 c b) = W (ix2 c b))
    {bk : FVec Ideal Cert.KernelIdeal.S64 .f32} {bh : FVec Ideal Cert.ReferenceIdeal.S64 .f32} (hb : ∀ q, bk (ix1 q) = bh (ix1 q)) :
    RowsOf row (Cert.KernelIdeal.KerFlow.dense A B bk) (Cert.ReferenceIdeal.RefFlow.dense X W bh) :=
  RowsOf.dense _ kdot_plain _ hdot_plain none none hA hB hb (by decide) _ _ _ _

/-- The rectifier of the block against the rectifier of the batch. -/
theorem leaky_rows {A : FVec Ideal Cert.KernelIdeal.S4096x64 .f32} {X : FVec Ideal Cert.ReferenceIdeal.S262144x64 .f32} (h : RowsOf row A X) :
    RowsOf row (Cert.KernelIdeal.KerFlow.leaky A) (Cert.ReferenceIdeal.RefFlow.leaky X) :=
  RowsOf.leaky h 0x00000000#32 0x3C23D70A#32 _

/-- A three-layer network of the block against the same network of the batch, the six parameter pieces agreeing
    entry by entry. -/
theorem mlp_rows {A : FVec Ideal Cert.KernelIdeal.S4096x64 .bf16} {X : FVec Ideal Cert.ReferenceIdeal.S262144x64 .f32} (hA : RowsOf row A X)
    {W1 W2 W3 : FVec Ideal Cert.KernelIdeal.S64x64 .bf16} {V1 V2 V3 : FVec Ideal Cert.ReferenceIdeal.S64x64 .f32}
    {b1 b2 b3 : FVec Ideal Cert.KernelIdeal.S64 .f32} {c1 c2 c3 : FVec Ideal Cert.ReferenceIdeal.S64 .f32}
    (hW1 : ∀ c b, W1 (ix2 c b) = V1 (ix2 c b)) (hb1 : ∀ q, b1 (ix1 q) = c1 (ix1 q))
    (hW2 : ∀ c b, W2 (ix2 c b) = V2 (ix2 c b)) (hb2 : ∀ q, b2 (ix1 q) = c2 (ix1 q))
    (hW3 : ∀ c b, W3 (ix2 c b) = V3 (ix2 c b)) (hb3 : ∀ q, b3 (ix1 q) = c3 (ix1 q)) :
    RowsOf row (Cert.KernelIdeal.KerFlow.mlp A W1 b1 W2 b2 W3 b3) (Cert.ReferenceIdeal.RefFlow.mlp X V1 c1 V2 c2 V3 c3) :=
  dense_rows ((leaky_rows (dense_rows ((leaky_rows (dense_rows hA hW1 hb1)).truncf _) hW2 hb2)).truncf _) hW3 hb3

/-! ## The block against the batch -/

theorem zero2 : (![0, 0] : Fin 2 → Nat) = fun _ => 0 := funext fun a => by fin_cases a <;> rfl

/-- The word 0x00000000 denotes the real number zero. -/
theorem zero_word : Ideal.ofBits .f32 0x00000000#32 = 0 := Ideal.ofBits_zero_f32

section Block

variable (x0 : Vec Ideal Cert.KernelIdeal.S4096x128 .f32) (x1 : Vec Ideal Cert.KernelIdeal.S5x64x64 .bf16) (x2 : Vec Ideal Cert.KernelIdeal.S5x64 .f32) (x3 : Vec Ideal Cert.KernelIdeal.S5x64x64 .bf16) (x4 : Vec Ideal Cert.KernelIdeal.S5x64 .f32) (x5 : Vec Ideal Cert.KernelIdeal.S5x64x64 .bf16) (x6 : Vec Ideal Cert.KernelIdeal.S5x64 .f32) (x7 : Vec Ideal Cert.KernelIdeal.S5x64x64 .bf16) (x8 : Vec Ideal Cert.KernelIdeal.S5x64 .f32) (x9 : Vec Ideal Cert.KernelIdeal.S5x64x64 .bf16) (x10 : Vec Ideal Cert.KernelIdeal.S5x64 .f32) (x11 : Vec Ideal Cert.KernelIdeal.S5x64x64 .bf16) (x12 : Vec Ideal Cert.KernelIdeal.S5x64 .f32)
  (X : FVec Ideal Cert.ReferenceIdeal.S262144x128 .f32) (a1 : FVec Ideal Cert.ReferenceIdeal.S5x64x64 .f32) (a2 : FVec Ideal Cert.ReferenceIdeal.S5x64 .f32) (a3 : FVec Ideal Cert.ReferenceIdeal.S5x64x64 .f32) (a4 : FVec Ideal Cert.ReferenceIdeal.S5x64 .f32) (a5 : FVec Ideal Cert.ReferenceIdeal.S5x64x64 .f32) (a6 : FVec Ideal Cert.ReferenceIdeal.S5x64 .f32) (a7 : FVec Ideal Cert.ReferenceIdeal.S5x64x64 .f32) (a8 : FVec Ideal Cert.ReferenceIdeal.S5x64 .f32) (a9 : FVec Ideal Cert.ReferenceIdeal.S5x64x64 .f32) (a10 : FVec Ideal Cert.ReferenceIdeal.S5x64 .f32) (a11 : FVec Ideal Cert.ReferenceIdeal.S5x64x64 .f32) (a12 : FVec Ideal Cert.ReferenceIdeal.S5x64 .f32)

/-- The unchanged half of the block holds the rows of the unchanged half of the batch. -/
theorem x0_rows (hx : ∀ (a : Fin 4096) (b : Fin 128), x0 (ix2 a b) = X (ix2 (row a) b)) :
    RowsOf row (Cert.KernelIdeal.KerFlow.half0 (View.ld x0 Cert.KernelIdeal.Gen.r0_0)) (Cert.ReferenceIdeal.RefFlow.x0 X) := by
  rw [View.ld_unit_zero zero2]
  exact RowsOf.cols (φ := .f32) (ψ := .f32) (A := x0) (X := X) hx 0 _ _

/-- The same, narrowed to bfloat16. -/
theorem x0b_rows (hx : ∀ (a : Fin 4096) (b : Fin 128), x0 (ix2 a b) = X (ix2 (row a) b)) :
    RowsOf row (Cert.KernelIdeal.KerFlow.half0b (View.ld x0 Cert.KernelIdeal.Gen.r0_0)) (Cert.ReferenceIdeal.RefFlow.x0 X) :=
  (x0_rows x0 X hx).truncf _

/-- The other half of the block holds the rows of the other half of the batch. -/
theorem x1_rows (hx : ∀ (a : Fin 4096) (b : Fin 128), x0 (ix2 a b) = X (ix2 (row a) b)) :
    RowsOf row (Cert.KernelIdeal.KerFlow.half1 (View.ld x0 Cert.KernelIdeal.Gen.r0_0)) (Cert.ReferenceIdeal.RefFlow.x1 X) := by
  rw [View.ld_unit_zero zero2]
  exact RowsOf.cols (φ := .f32) (ψ := .f32) (A := x0) (X := X) hx 64 _ _

/-- One layer's update x1 · exp s + t of the block against the batch. -/
theorem stepX_rows {A s t : FVec Ideal Cert.KernelIdeal.S4096x64 .f32} {Y S T : FVec Ideal Cert.ReferenceIdeal.S262144x64 .f32}
    (hA : RowsOf row A Y) (hs : RowsOf row s S) (ht : RowsOf row t T) :
    RowsOf row (Cert.KernelIdeal.KerFlow.stepX A s t) (Cert.ReferenceIdeal.RefFlow.stepX Y S T) :=
  (hA.mulf hs.exp).addf ht

/-- One layer's update logdet + Σ_columns s of the block against the batch. -/
theorem stepL_rows {u : FVec Ideal Cert.KernelIdeal.S4096 .f32} {U : FVec Ideal Cert.ReferenceIdeal.S262144 .f32}
    {s : FVec Ideal Cert.KernelIdeal.S4096x64 .f32} {S : FVec Ideal Cert.ReferenceIdeal.S262144x64 .f32}
    (hu : RowsOf1 row u U) (hs : RowsOf row s S) :
    RowsOf1 row (Cert.KernelIdeal.KerFlow.stepL u s) (Cert.ReferenceIdeal.RefFlow.stepL U S) :=
  hu.addf (hs.rowSum _ _ _ _ _ _ (by decide) _ zero_word)

/-- Layer l's scale: the block's s holds the rows of the batch's s, the six staged s-parameter stacks agreeing with
    the reference's entry by entry. -/
theorem sOf_rows (hx : ∀ (a : Fin 4096) (b : Fin 128), x0 (ix2 a b) = X (ix2 (row a) b))
  (h1 : ∀ (l : Fin 5) (c b : Fin 64), x1 (ix3 l c b) = a1 (ix3 l c b))
  (h2 : ∀ (l : Fin 5) (q : Fin 64), x2 (ix2 l q) = a2 (ix2 l q))
  (h3 : ∀ (l : Fin 5) (c b : Fin 64), x3 (ix3 l c b) = a3 (ix3 l c b))
  (h4 : ∀ (l : Fin 5) (q : Fin 64), x4 (ix2 l q) = a4 (ix2 l q))
  (h5 : ∀ (l : Fin 5) (c b : Fin 64), x5 (ix3 l c b) = a5 (ix3 l c b))
  (h6 : ∀ (l : Fin 5) (q : Fin 64), x6 (ix2 l q) = a6 (ix2 l q))
    (l : Fin 5) (offW : Fin 3 → Nat) (hW0 : offW 0 = l.val) (hW1 : offW 1 = 0) (hW2 : offW 2 = 0)
    (inbW : ∀ a, offW a + Cert.KernelIdeal.S1x64x64.size a ≤ Cert.KernelIdeal.S5x64x64.size a)
    (offb : Fin 2 → Nat) (hb0 : offb 0 = l.val) (hb1 : offb 1 = 0)
    (inbb : ∀ a, offb a + Cert.KernelIdeal.S1x64.size a ≤ Cert.KernelIdeal.S5x64.size a)
    (o3 : Fin 3 → Nat) (ho0 : o3 0 = l.val) (ho1 : o3 1 = 0) (ho2 : o3 2 = 0) (g3 : Cert.ReferenceIdeal.S5x64x64.Slices o3 Cert.ReferenceIdeal.S1x64x64)
    (o2 : Fin 2 → Nat) (hp0 : o2 0 = l.val) (hp1 : o2 1 = 0) (g2 : Cert.ReferenceIdeal.S5x64.Slices o2 Cert.ReferenceIdeal.S1x64) :
    RowsOf row (Cert.KernelIdeal.KerFlow.sOf (View.ld x0 Cert.KernelIdeal.Gen.r0_0) (View.ld x1 (Rect.unit (s := Cert.KernelIdeal.S5x64x64) offW Cert.KernelIdeal.S1x64x64.size inbW)) (View.ld x2 (Rect.unit (s := Cert.KernelIdeal.S5x64) offb Cert.KernelIdeal.S1x64.size inbb)) (View.ld x3 (Rect.unit (s := Cert.KernelIdeal.S5x64x64) offW Cert.KernelIdeal.S1x64x64.size inbW)) (View.ld x4 (Rect.unit (s := Cert.KernelIdeal.S5x64) offb Cert.KernelIdeal.S1x64.size inbb)) (View.ld x5 (Rect.unit (s := Cert.KernelIdeal.S5x64x64) offW Cert.KernelIdeal.S1x64x64.size inbW)) (View.ld x6 (Rect.unit (s := Cert.KernelIdeal.S5x64) offb Cert.KernelIdeal.S1x64.size inbb)))
      (Cert.ReferenceIdeal.RefFlow.sAt X a1 a2 a3 a4 a5 a6 o3 o2 g3 g2) :=
  RowsOf.tanh (mlp_rows (x0b_rows x0 X hx) (fun c b => (kpage_apply x1 l offW hW0 hW1 hW2 inbW c b).trans ((h1 l c b).trans (hpage_apply a1 l o3 ho0 ho1 ho2 g3 c b).symm)) (fun q => (krow_apply x2 l offb hb0 hb1 inbb q).trans ((h2 l q).trans (hrow_apply a2 l o2 hp0 hp1 g2 q).symm))
      (fun c b => (kpage_apply x3 l offW hW0 hW1 hW2 inbW c b).trans ((h3 l c b).trans (hpage_apply a3 l o3 ho0 ho1 ho2 g3 c b).symm)) (fun q => (krow_apply x4 l offb hb0 hb1 inbb q).trans ((h4 l q).trans (hrow_apply a4 l o2 hp0 hp1 g2 q).symm))
      (fun c b => (kpage_apply x5 l offW hW0 hW1 hW2 inbW c b).trans ((h5 l c b).trans (hpage_apply a5 l o3 ho0 ho1 ho2 g3 c b).symm)) (fun q => (krow_apply x6 l offb hb0 hb1 inbb q).trans ((h6 l q).trans (hrow_apply a6 l o2 hp0 hp1 g2 q).symm)))

/-- Layer l's shift: the same for t and the six t-parameter stacks. -/
theorem tOf_rows (hx : ∀ (a : Fin 4096) (b : Fin 128), x0 (ix2 a b) = X (ix2 (row a) b))
    (h7 : ∀ (l : Fin 5) (c b : Fin 64), x7 (ix3 l c b) = a7 (ix3 l c b))
  (h8 : ∀ (l : Fin 5) (q : Fin 64), x8 (ix2 l q) = a8 (ix2 l q))
  (h9 : ∀ (l : Fin 5) (c b : Fin 64), x9 (ix3 l c b) = a9 (ix3 l c b))
  (h10 : ∀ (l : Fin 5) (q : Fin 64), x10 (ix2 l q) = a10 (ix2 l q))
  (h11 : ∀ (l : Fin 5) (c b : Fin 64), x11 (ix3 l c b) = a11 (ix3 l c b))
  (h12 : ∀ (l : Fin 5) (q : Fin 64), x12 (ix2 l q) = a12 (ix2 l q))
    (l : Fin 5) (offW : Fin 3 → Nat) (hW0 : offW 0 = l.val) (hW1 : offW 1 = 0) (hW2 : offW 2 = 0)
    (inbW : ∀ a, offW a + Cert.KernelIdeal.S1x64x64.size a ≤ Cert.KernelIdeal.S5x64x64.size a)
    (offb : Fin 2 → Nat) (hb0 : offb 0 = l.val) (hb1 : offb 1 = 0)
    (inbb : ∀ a, offb a + Cert.KernelIdeal.S1x64.size a ≤ Cert.KernelIdeal.S5x64.size a)
    (o3 : Fin 3 → Nat) (ho0 : o3 0 = l.val) (ho1 : o3 1 = 0) (ho2 : o3 2 = 0) (g3 : Cert.ReferenceIdeal.S5x64x64.Slices o3 Cert.ReferenceIdeal.S1x64x64)
    (o2 : Fin 2 → Nat) (hp0 : o2 0 = l.val) (hp1 : o2 1 = 0) (g2 : Cert.ReferenceIdeal.S5x64.Slices o2 Cert.ReferenceIdeal.S1x64) :
    RowsOf row (Cert.KernelIdeal.KerFlow.tOf (View.ld x0 Cert.KernelIdeal.Gen.r0_0) (View.ld x7 (Rect.unit (s := Cert.KernelIdeal.S5x64x64) offW Cert.KernelIdeal.S1x64x64.size inbW)) (View.ld x8 (Rect.unit (s := Cert.KernelIdeal.S5x64) offb Cert.KernelIdeal.S1x64.size inbb)) (View.ld x9 (Rect.unit (s := Cert.KernelIdeal.S5x64x64) offW Cert.KernelIdeal.S1x64x64.size inbW)) (View.ld x10 (Rect.unit (s := Cert.KernelIdeal.S5x64) offb Cert.KernelIdeal.S1x64.size inbb)) (View.ld x11 (Rect.unit (s := Cert.KernelIdeal.S5x64x64) offW Cert.KernelIdeal.S1x64x64.size inbW)) (View.ld x12 (Rect.unit (s := Cert.KernelIdeal.S5x64) offb Cert.KernelIdeal.S1x64.size inbb)))
      (Cert.ReferenceIdeal.RefFlow.tAt X a7 a8 a9 a10 a11 a12 o3 o2 g3 g2) :=
  mlp_rows (x0b_rows x0 X hx) (fun c b => (kpage_apply x7 l offW hW0 hW1 hW2 inbW c b).trans ((h7 l c b).trans (hpage_apply a7 l o3 ho0 ho1 ho2 g3 c b).symm)) (fun q => (krow_apply x8 l offb hb0 hb1 inbb q).trans ((h8 l q).trans (hrow_apply a8 l o2 hp0 hp1 g2 q).symm))
      (fun c b => (kpage_apply x9 l offW hW0 hW1 hW2 inbW c b).trans ((h9 l c b).trans (hpage_apply a9 l o3 ho0 ho1 ho2 g3 c b).symm)) (fun q => (krow_apply x10 l offb hb0 hb1 inbb q).trans ((h10 l q).trans (hrow_apply a10 l o2 hp0 hp1 g2 q).symm))
      (fun c b => (kpage_apply x11 l offW hW0 hW1 hW2 inbW c b).trans ((h11 l c b).trans (hpage_apply a11 l o3 ho0 ho1 ho2 g3 c b).symm)) (fun q => (krow_apply x12 l offb hb0 hb1 inbb q).trans ((h12 l q).trans (hrow_apply a12 l o2 hp0 hp1 g2 q).symm))

variable (hx : ∀ (a : Fin 4096) (b : Fin 128), x0 (ix2 a b) = X (ix2 (row a) b))
  (h1 : ∀ (l : Fin 5) (c b : Fin 64), x1 (ix3 l c b) = a1 (ix3 l c b))
  (h2 : ∀ (l : Fin 5) (q : Fin 64), x2 (ix2 l q) = a2 (ix2 l q))
  (h3 : ∀ (l : Fin 5) (c b : Fin 64), x3 (ix3 l c b) = a3 (ix3 l c b))
  (h4 : ∀ (l : Fin 5) (q : Fin 64), x4 (ix2 l q) = a4 (ix2 l q))
  (h5 : ∀ (l : Fin 5) (c b : Fin 64), x5 (ix3 l c b) = a5 (ix3 l c b))
  (h6 : ∀ (l : Fin 5) (q : Fin 64), x6 (ix2 l q) = a6 (ix2 l q))
  (h7 : ∀ (l : Fin 5) (c b : Fin 64), x7 (ix3 l c b) = a7 (ix3 l c b))
  (h8 : ∀ (l : Fin 5) (q : Fin 64), x8 (ix2 l q) = a8 (ix2 l q))
  (h9 : ∀ (l : Fin 5) (c b : Fin 64), x9 (ix3 l c b) = a9 (ix3 l c b))
  (h10 : ∀ (l : Fin 5) (q : Fin 64), x10 (ix2 l q) = a10 (ix2 l q))
  (h11 : ∀ (l : Fin 5) (c b : Fin 64), x11 (ix3 l c b) = a11 (ix3 l c b))
  (h12 : ∀ (l : Fin 5) (q : Fin 64), x12 (ix2 l q) = a12 (ix2 l q))

include hx h1 h2 h3 h4 h5 h6 h7 h8 h9 h10 h11 h12

/-- THE FIRST RESULT: the block of z the body stores holds the rows of the reference's z. -/
theorem blockZ_rows : RowsOf row (Cert.KernelIdeal.KerFlow.blockZ x0 x1 x2 x3 x4 x5 x6 x7 x8 x9 x10 x11 x12) (Cert.ReferenceIdeal.RefFlow.refZ X a1 a2 a3 a4 a5 a6 a7 a8 a9 a10 a11 a12) :=
  RowsOf.concat (x0_rows x0 X hx)
    (stepX_rows (stepX_rows (stepX_rows (stepX_rows (stepX_rows (x1_rows x0 X hx)
      (sOf_rows x0 x1 x2 x3 x4 x5 x6 X a1 a2 a3 a4 a5 a6 hx h1 h2 h3 h4 h5 h6 (0 : Fin 5) ![0, 0, 0] rfl rfl rfl _ ![0, 0] rfl rfl _ ![0, 0, 0] rfl rfl rfl _ ![0, 0] rfl rfl _)
      (tOf_rows x0 x7 x8 x9 x10 x11 x12 X a7 a8 a9 a10 a11 a12 hx h7 h8 h9 h10 h11 h12 (0 : Fin 5) ![0, 0, 0] rfl rfl rfl _ ![0, 0] rfl rfl _ ![0, 0, 0] rfl rfl rfl _ ![0, 0] rfl rfl _))
      (sOf_rows x0 x1 x2 x3 x4 x5 x6 X a1 a2 a3 a4 a5 a6 hx h1 h2 h3 h4 h5 h6 (1 : Fin 5) ![1, 0, 0] rfl rfl rfl _ ![1, 0] rfl rfl _ ![1, 0, 0] rfl rfl rfl _ ![1, 0] rfl rfl _)
      (tOf_rows x0 x7 x8 x9 x10 x11 x12 X a7 a8 a9 a10 a11 a12 hx h7 h8 h9 h10 h11 h12 (1 : Fin 5) ![1, 0, 0] rfl rfl rfl _ ![1, 0] rfl rfl _ ![1, 0, 0] rfl rfl rfl _ ![1, 0] rfl rfl _))
      (sOf_rows x0 x1 x2 x3 x4 x5 x6 X a1 a2 a3 a4 a5 a6 hx h1 h2 h3 h4 h5 h6 (2 : Fin 5) ![2, 0, 0] rfl rfl rfl _ ![2, 0] rfl rfl _ ![2, 0, 0] rfl rfl rfl _ ![2, 0] rfl rfl _)
      (tOf_rows x0 x7 x8 x9 x10 x11 x12 X a7 a8 a9 a10 a11 a12 hx h7 h8 h9 h10 h11 h12 (2 : Fin 5) ![2, 0, 0] rfl rfl rfl _ ![2, 0] rfl rfl _ ![2, 0, 0] rfl rfl rfl _ ![2, 0] rfl rfl _))
      (sOf_rows x0 x1 x2 x3 x4 x5 x6 X a1 a2 a3 a4 a5 a6 hx h1 h2 h3 h4 h5 h6 (3 : Fin 5) ![3, 0, 0] rfl rfl rfl _ ![3, 0] rfl rfl _ ![3, 0, 0] rfl rfl rfl _ ![3, 0] rfl rfl _)
      (tOf_rows x0 x7 x8 x9 x10 x11 x12 X a7 a8 a9 a10 a11 a12 hx h7 h8 h9 h10 h11 h12 (3 : Fin 5) ![3, 0, 0] rfl rfl rfl _ ![3, 0] rfl rfl _ ![3, 0, 0] rfl rfl rfl _ ![3, 0] rfl rfl _))
      (sOf_rows x0 x1 x2 x3 x4 x5 x6 X a1 a2 a3 a4 a5 a6 hx h1 h2 h3 h4 h5 h6 (4 : Fin 5) ![4, 0, 0] rfl rfl rfl _ ![4, 0] rfl rfl _ ![4, 0, 0] rfl rfl rfl _ ![4, 0] rfl rfl _)
      (tOf_rows x0 x7 x8 x9 x10 x11 x12 X a7 a8 a9 a10 a11 a12 hx h7 h8 h9 h10 h11 h12 (4 : Fin 5) ![4, 0, 0] rfl rfl rfl _ ![4, 0] rfl rfl _ ![4, 0, 0] rfl rfl rfl _ ![4, 0] rfl rfl _))
    _ _

omit h7 h8 h9 h10 h11 h12 in
/-- THE SECOND RESULT: the block of log-determinants the body stores holds the same entries of the reference's. -/
theorem blockL_rows : RowsOf1 row (Cert.KernelIdeal.KerFlow.blockL x0 x1 x2 x3 x4 x5 x6) (Cert.ReferenceIdeal.RefFlow.refL X a1 a2 a3 a4 a5 a6) :=
  (stepL_rows (stepL_rows (stepL_rows (stepL_rows (stepL_rows (RowsOf1.splat row 0x00000000#32 _)
      (sOf_rows x0 x1 x2 x3 x4 x5 x6 X a1 a2 a3 a4 a5 a6 hx h1 h2 h3 h4 h5 h6 (0 : Fin 5) ![0, 0, 0] rfl rfl rfl _ ![0, 0] rfl rfl _ ![0, 0, 0] rfl rfl rfl _ ![0, 0] rfl rfl _))
      (sOf_rows x0 x1 x2 x3 x4 x5 x6 X a1 a2 a3 a4 a5 a6 hx h1 h2 h3 h4 h5 h6 (1 : Fin 5) ![1, 0, 0] rfl rfl rfl _ ![1, 0] rfl rfl _ ![1, 0, 0] rfl rfl rfl _ ![1, 0] rfl rfl _))
      (sOf_rows x0 x1 x2 x3 x4 x5 x6 X a1 a2 a3 a4 a5 a6 hx h1 h2 h3 h4 h5 h6 (2 : Fin 5) ![2, 0, 0] rfl rfl rfl _ ![2, 0] rfl rfl _ ![2, 0, 0] rfl rfl rfl _ ![2, 0] rfl rfl _))
      (sOf_rows x0 x1 x2 x3 x4 x5 x6 X a1 a2 a3 a4 a5 a6 hx h1 h2 h3 h4 h5 h6 (3 : Fin 5) ![3, 0, 0] rfl rfl rfl _ ![3, 0] rfl rfl _ ![3, 0, 0] rfl rfl rfl _ ![3, 0] rfl rfl _))
      (sOf_rows x0 x1 x2 x3 x4 x5 x6 X a1 a2 a3 a4 a5 a6 hx h1 h2 h3 h4 h5 h6 (4 : Fin 5) ![4, 0, 0] rfl rfl rfl _ ![4, 0] rfl rfl _ ![4, 0, 0] rfl rfl rfl _ ![4, 0] rfl rfl _))

end Block

end Cert.Bridge

end
-- ==== Proof.KernelValue.lean ====
/-
  From the kernel's blocks to its two result arrays.

  The grid has 64 points; point t stages rows 4096·t … 4096·t + 4095 of the batch (all 128 columns) and the whole of every
  parameter stack, and writes back the same rows of z and the same entries of the log-determinant. The blocks of the 64
  points tile both result arrays. So each result array, after the run, is ONE function of the argument arrays: the
  reference's function, because the block a point stores holds exactly the rows of that function's value that the point
  writes (the row-block correspondence), whatever the point.
-/
import proofs.«154327_j3710851744111_2_alg».proof.Proof.Gen.KernelIdeal.Value
import proofs.«154327_j3710851744111_2_alg».proof.Proof.Bridge

set_option maxRecDepth 16384

noncomputable section

namespace Cert.KernelIdeal.KerValue

open Cert.KernelIdeal Cert.KernelIdeal.Gen Cert.KernelIdeal.Value Idealize.ShloMosaic Idealize.ShloMosaic.TcCoe
open Idealize.SL.Sem Idealize.ShloMosaic.ValueIdx Cert.LibRowwise
open Idealize.ShloMosaic.Pipeline (Dat)

variable (m : (ℓ : Loc nD τ sig) → Buf (Elt Ideal) ℓ) (ρ : Dev nD → PrngReg)

/-- The first result as a function of the argument arrays: the reference's z. -/
def zOf (c : Dev nD) : S262144x128.Idx → Elt Ideal .f32 :=
  Cert.ReferenceIdeal.RefFlow.refZ (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))

/-- The second result as a function of the argument arrays: the reference's log-determinant. -/
def lOf (c : Dev nD) : S262144.Idx → Elt Ideal .f32 :=
  Cert.ReferenceIdeal.RefFlow.refL (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))

/-! ## The grid -/

/-- The printed index maps, decided over the 64 points: windows 0, 13 and 14 move one block of rows per point, every
    other window stays at block 0. -/
theorem idx_facts : ∀ t : Fin cfg0.N, win0_0.index t (0 : Fin 2) = t.val
    ∧ win0_0.index t (1 : Fin 2) = 0
    ∧ win0_13.index t (0 : Fin 2) = t.val
    ∧ win0_13.index t (1 : Fin 2) = 0
    ∧ win0_14.index t (0 : Fin 1) = t.val
    ∧ (∀ a : Fin 3, win0_1.index t a = 0)
    ∧ (∀ a : Fin 3, win0_3.index t a = 0)
    ∧ (∀ a : Fin 3, win0_5.index t a = 0)
    ∧ (∀ a : Fin 3, win0_7.index t a = 0)
    ∧ (∀ a : Fin 3, win0_9.index t a = 0)
    ∧ (∀ a : Fin 3, win0_11.index t a = 0)
    ∧ (∀ a : Fin 2, win0_2.index t a = 0)
    ∧ (∀ a : Fin 2, win0_4.index t a = 0)
    ∧ (∀ a : Fin 2, win0_6.index t a = 0)
    ∧ (∀ a : Fin 2, win0_8.index t a = 0)
    ∧ (∀ a : Fin 2, win0_10.index t a = 0)
    ∧ (∀ a : Fin 2, win0_12.index t a = 0) :=
  (by decide +kernel : ∀ t : Fin grid0.N, _)

theorem N64 : cfg0.N = 64 := N_0

/-- Batch row of block row a at point t: 4096·t + a. -/
def rowAt (t : Fin cfg0.N) (a : Fin 4096) : Fin 262144 :=
  ⟨t.val * 4096 + a.val, by have ht : t.val < 64 := lt_of_lt_of_eq t.isLt N64; have := a.isLt; omega⟩

/-! ## The windows' blocks at an entry -/

/-- Window 0's block at point t is rows 4096·t … of the batch. -/
theorem iblk0_apply (c : Dev nD) (t : Fin cfg0.N) (a : Fin 4096) (b : Fin 128) :
    (iblk m c 0 t : Vec Ideal S4096x128 .f32) (ix2 a b) = m ((c : Thread nD τ).loc main_arg0) (ix2 (rowAt t a) b) := by
  obtain ⟨h0, h1, -⟩ := idx_facts t
  show V m c main_arg0 (((cfg0.win 0).blk t).view.emb (ix2 a b)) = _
  rw [V_main_arg0]
  refine congrArg _ (funext fun ax => Fin.ext ?_)
  match ax with
  | ⟨0, _⟩ => show win0_0.index t (0 : Fin 2) * 4096 + 1 * a.val = t.val * 4096 + a.val; rw [h0]; omega
  | ⟨1, _⟩ => show win0_0.index t (1 : Fin 2) * 128 + 1 * b.val = b.val; rw [h1]; omega

/-- Window 1 stages the whole of its stack (a change of float format of argument 1, the identity here) at every
    point: its block read at (l, i, j) is the argument at (l, i, j). -/
theorem iblk1_apply (c : Dev nD) (t : Fin cfg0.N) (l : Fin 5) (i j : Fin 64) :
    (iblk m c 1 t : Vec Ideal S5x64x64 .bf16) (ix3 l i j) = m ((c : Thread nD τ).loc main_arg1) (ix3 l i j) := by
  have e : (V m c main_v0 : S5x64x64.Idx → EReal)
      = (truncf (F := Ideal) .bf16 (show FVec Ideal S5x64x64 .f32 from m ((c : Thread nD τ).loc main_arg1)) bitsLt_bf16_f32 : S5x64x64.Idx → EReal) := by
    dsimp only [Gen.V, Gen.hostOps0]; after_results
  obtain ⟨-, -, -, -, -, hw, -, -, -, -, -, -, -, -, -, -, -⟩ := idx_facts t
  show V m c main_v0 (((cfg0.win 1).blk t).view.emb (ix3 l i j)) = _
  rw [e]
  show m ((c : Thread nD τ).loc main_arg1) (((cfg0.win 1).blk t).view.emb (ix3 l i j)) = _
  refine congrArg _ (funext fun a => Fin.ext ?_)
  match a with
  | ⟨0, _⟩ => show win0_1.index t (0 : Fin 3) * 5 + 1 * l.val = l.val; rw [hw 0]; omega
  | ⟨1, _⟩ => show win0_1.index t (1 : Fin 3) * 64 + 1 * i.val = i.val; rw [hw 1]; omega
  | ⟨2, _⟩ => show win0_1.index t (2 : Fin 3) * 64 + 1 * j.val = j.val; rw [hw 2]; omega

/-- Window 3 stages the whole of its stack (a change of float format of argument 3, the identity here) at every
    point: its block read at (l, i, j) is the argument at (l, i, j). -/
theorem iblk3_apply (c : Dev nD) (t : Fin cfg0.N) (l : Fin 5) (i j : Fin 64) :
    (iblk m c 3 t : Vec Ideal S5x64x64 .bf16) (ix3 l i j) = m ((c : Thread nD τ).loc main_arg3) (ix3 l i j) := by
  have e : (V m c main_v1 : S5x64x64.Idx → EReal)
      = (truncf (F := Ideal) .bf16 (show FVec Ideal S5x64x64 .f32 from m ((c : Thread nD τ).loc main_arg3)) bitsLt_bf16_f32 : S5x64x64.Idx → EReal) := by
    dsimp only [Gen.V, Gen.hostOps0]; after_results
  obtain ⟨-, -, -, -, -, -, hw, -, -, -, -, -, -, -, -, -, -⟩ := idx_facts t
  show V m c main_v1 (((cfg0.win 3).blk t).view.emb (ix3 l i j)) = _
  rw [e]
  show m ((c : Thread nD τ).loc main_arg3) (((cfg0.win 3).blk t).view.emb (ix3 l i j)) = _
  refine congrArg _ (funext fun a => Fin.ext ?_)
  match a with
  | ⟨0, _⟩ => show win0_3.index t (0 : Fin 3) * 5 + 1 * l.val = l.val; rw [hw 0]; omega
  | ⟨1, _⟩ => show win0_3.index t (1 : Fin 3) * 64 + 1 * i.val = i.val; rw [hw 1]; omega
  | ⟨2, _⟩ => show win0_3.index t (2 : Fin 3) * 64 + 1 * j.val = j.val; rw [hw 2]; omega

/-- Window 5 stages the whole of its stack (a change of float format of argument 5, the identity here) at every
    point: its block read at (l, i, j) is the argument at (l, i, j). -/
theorem iblk5_apply (c : Dev nD) (t : Fin cfg0.N) (l : Fin 5) (i j : Fin 64) :
    (iblk m c 5 t : Vec Ideal S5x64x64 .bf16) (ix3 l i j) = m ((c : Thread nD τ).loc main_arg5) (ix3 l i j) := by
  have e : (V m c main_v2 : S5x64x64.Idx → EReal)
      = (truncf (F := Ideal) .bf16 (show FVec Ideal S5x64x64 .f32 from m ((c : Thread nD τ).loc main_arg5)) bitsLt_bf16_f32 : S5x64x64.Idx → EReal) := by
    dsimp only [Gen.V, Gen.hostOps0]; after_results
  obtain ⟨-, -, -, -, -, -, -, hw, -, -, -, -, -, -, -, -, -⟩ := idx_facts t
  show V m c main_v2 (((cfg0.win 5).blk t).view.emb (ix3 l i j)) = _
  rw [e]
  show m ((c : Thread nD τ).loc main_arg5) (((cfg0.win 5).blk t).view.emb (ix3 l i j)) = _
  refine congrArg _ (funext fun a => Fin.ext ?_)
  match a with
  | ⟨0, _⟩ => show win0_5.index t (0 : Fin 3) * 5 + 1 * l.val = l.val; rw [hw 0]; omega
  | ⟨1, _⟩ => show win0_5.index t (1 : Fin 3) * 64 + 1 * i.val = i.val; rw [hw 1]; omega
  | ⟨2, _⟩ => show win0_5.index t (2 : Fin 3) * 64 + 1 * j.val = j.val; rw [hw 2]; omega

/-- Window 7 stages the whole of its stack (a change of float format of argument 7, the identity here) at every
    point: its block read at (l, i, j) is the argument at (l, i, j). -/
theorem iblk7_apply (c : Dev nD) (t : Fin cfg0.N) (l : Fin 5) (i j : Fin 64) :
    (iblk m c 7 t : Vec Ideal S5x64x64 .bf16) (ix3 l i j) = m ((c : Thread nD τ).loc main_arg7) (ix3 l i j) := by
  have e : (V m c main_v3 : S5x64x64.Idx → EReal)
      = (truncf (F := Ideal) .bf16 (show FVec Ideal S5x64x64 .f32 from m ((c : Thread nD τ).loc main_arg7)) bitsLt_bf16_f32 : S5x64x64.Idx → EReal) := by
    dsimp only [Gen.V, Gen.hostOps0]; after_results
  obtain ⟨-, -, -, -, -, -, -, -, hw, -, -, -, -, -, -, -, -⟩ := idx_facts t
  show V m c main_v3 (((cfg0.win 7).blk t).view.emb (ix3 l i j)) = _
  rw [e]
  show m ((c : Thread nD τ).loc main_arg7) (((cfg0.win 7).blk t).view.emb (ix3 l i j)) = _
  refine congrArg _ (funext fun a => Fin.ext ?_)
  match a with
  | ⟨0, _⟩ => show win0_7.index t (0 : Fin 3) * 5 + 1 * l.val = l.val; rw [hw 0]; omega
  | ⟨1, _⟩ => show win0_7.index t (1 : Fin 3) * 64 + 1 * i.val = i.val; rw [hw 1]; omega
  | ⟨2, _⟩ => show win0_7.index t (2 : Fin 3) * 64 + 1 * j.val = j.val; rw [hw 2]; omega

/-- Window 9 stages the whole of its stack (a change of float format of argument 9, the identity here) at every
    point: its block read at (l, i, j) is the argument at (l, i, j). -/
theorem iblk9_apply (c : Dev nD) (t : Fin cfg0.N) (l : Fin 5) (i j : Fin 64) :
    (iblk m c 9 t : Vec Ideal S5x64x64 .bf16) (ix3 l i j) = m ((c : Thread nD τ).loc main_arg9) (ix3 l i j) := by
  have e : (V m c main_v4 : S5x64x64.Idx → EReal)
      = (truncf (F := Ideal) .bf16 (show FVec Ideal S5x64x64 .f32 from m ((c : Thread nD τ).loc main_arg9)) bitsLt_bf16_f32 : S5x64x64.Idx → EReal) := by
    dsimp only [Gen.V, Gen.hostOps0]; after_results
  obtain ⟨-, -, -, -, -, -, -, -, -, hw, -, -, -, -, -, -, -⟩ := idx_facts t
  show V m c main_v4 (((cfg0.win 9).blk t).view.emb (ix3 l i j)) = _
  rw [e]
  show m ((c : Thread nD τ).loc main_arg9) (((cfg0.win 9).blk t).view.emb (ix3 l i j)) = _
  refine congrArg _ (funext fun a => Fin.ext ?_)
  match a with
  | ⟨0, _⟩ => show win0_9.index t (0 : Fin 3) * 5 + 1 * l.val = l.val; rw [hw 0]; omega
  | ⟨1, _⟩ => show win0_9.index t (1 : Fin 3) * 64 + 1 * i.val = i.val; rw [hw 1]; omega
  | ⟨2, _⟩ => show win0_9.index t (2 : Fin 3) * 64 + 1 * j.val = j.val; rw [hw 2]; omega

/-- Window 11 stages the whole of its stack (a change of float format of argument 11, the identity here) at every
    point: its block read at (l, i, j) is the argument at (l, i, j). -/
theorem iblk11_apply (c : Dev nD) (t : Fin cfg0.N) (l : Fin 5) (i j : Fin 64) :
    (iblk m c 11 t : Vec Ideal S5x64x64 .bf16) (ix3 l i j) = m ((c : Thread nD τ).loc main_arg11) (ix3 l i j) := by
  have e : (V m c main_v5 : S5x64x64.Idx → EReal)
      = (truncf (F := Ideal) .bf16 (show FVec Ideal S5x64x64 .f32 from m ((c : Thread nD τ).loc main_arg11)) bitsLt_bf16_f32 : S5x64x64.Idx → EReal) := by
    dsimp only [Gen.V, Gen.hostOps0]; after_results
  obtain ⟨-, -, -, -, -, -, -, -, -, -, hw, -, -, -, -, -, -⟩ := idx_facts t
  show V m c main_v5 (((cfg0.win 11).blk t).view.emb (ix3 l i j)) = _
  rw [e]
  show m ((c : Thread nD τ).loc main_arg11) (((cfg0.win 11).blk t).view.emb (ix3 l i j)) = _
  refine congrArg _ (funext fun a => Fin.ext ?_)
  match a with
  | ⟨0, _⟩ => show win0_11.index t (0 : Fin 3) * 5 + 1 * l.val = l.val; rw [hw 0]; omega
  | ⟨1, _⟩ => show win0_11.index t (1 : Fin 3) * 64 + 1 * i.val = i.val; rw [hw 1]; omega
  | ⟨2, _⟩ => show win0_11.index t (2 : Fin 3) * 64 + 1 * j.val = j.val; rw [hw 2]; omega

/-- Window 2 stages the whole of argument 2 at every point: its block read at (l, q) is the argument at (l, q). -/
theorem iblk2_apply (c : Dev nD) (t : Fin cfg0.N) (l : Fin 5) (q : Fin 64) :
    (iblk m c 2 t : Vec Ideal S5x64 .f32) (ix2 l q) = m ((c : Thread nD τ).loc main_arg2) (ix2 l q) := by
  obtain ⟨-, -, -, -, -, -, -, -, -, -, -, hw, -, -, -, -, -⟩ := idx_facts t
  show V m c main_arg2 (((cfg0.win 2).blk t).view.emb (ix2 l q)) = _
  rw [V_main_arg2]
  refine congrArg _ (funext fun a => Fin.ext ?_)
  match a with
  | ⟨0, _⟩ => show win0_2.index t (0 : Fin 2) * 5 + 1 * l.val = l.val; rw [hw 0]; omega
  | ⟨1, _⟩ => show win0_2.index t (1 : Fin 2) * 64 + 1 * q.val = q.val; rw [hw 1]; omega

/-- Window 4 stages the whole of argument 4 at every point: its block read at (l, q) is the argument at (l, q). -/
theorem iblk4_apply (c : Dev nD) (t : Fin cfg0.N) (l : Fin 5) (q : Fin 64) :
    (iblk m c 4 t : Vec Ideal S5x64 .f32) (ix2 l q) = m ((c : Thread nD τ).loc main_arg4) (ix2 l q) := by
  obtain ⟨-, -, -, -, -, -, -, -, -, -, -, -, hw, -, -, -, -⟩ := idx_facts t
  show V m c main_arg4 (((cfg0.win 4).blk t).view.emb (ix2 l q)) = _
  rw [V_main_arg4]
  refine congrArg _ (funext fun a => Fin.ext ?_)
  match a with
  | ⟨0, _⟩ => show win0_4.index t (0 : Fin 2) * 5 + 1 * l.val = l.val; rw [hw 0]; omega
  | ⟨1, _⟩ => show win0_4.index t (1 : Fin 2) * 64 + 1 * q.val = q.val; rw [hw 1]; omega

/-- Window 6 stages the whole of argument 6 at every point: its block read at (l, q) is the argument at (l, q). -/
theorem iblk6_apply (c : Dev nD) (t : Fin cfg0.N) (l : Fin 5) (q : Fin 64) :
    (iblk m c 6 t : Vec Ideal S5x64 .f32) (ix2 l q) = m ((c : Thread nD τ).loc main_arg6) (ix2 l q) := by
  obtain ⟨-, -, -, -, -, -, -, -, -, -, -, -, -, hw, -, -, -⟩ := idx_facts t
  show V m c main_arg6 (((cfg0.win 6).blk t).view.emb (ix2 l q)) = _
  rw [V_main_arg6]
  refine congrArg _ (funext fun a => Fin.ext ?_)
  match a with
  | ⟨0, _⟩ => show win0_6.index t (0 : Fin 2) * 5 + 1 * l.val = l.val; rw [hw 0]; omega
  | ⟨1, _⟩ => show win0_6.index t (1 : Fin 2) * 64 + 1 * q.val = q.val; rw [hw 1]; omega

/-- Window 8 stages the whole of argument 8 at every point: its block read at (l, q) is the argument at (l, q). -/
theorem iblk8_apply (c : Dev nD) (t : Fin cfg0.N) (l : Fin 5) (q : Fin 64) :
    (iblk m c 8 t : Vec Ideal S5x64 .f32) (ix2 l q) = m ((c : Thread nD τ).loc main_arg8) (ix2 l q) := by
  obtain ⟨-, -, -, -, -, -, -, -, -, -, -, -, -, -, hw, -, -⟩ := idx_facts t
  show V m c main_arg8 (((cfg0.win 8).blk t).view.emb (ix2 l q)) = _
  rw [V_main_arg8]
  refine congrArg _ (funext fun a => Fin.ext ?_)
  match a with
  | ⟨0, _⟩ => show win0_8.index t (0 : Fin 2) * 5 + 1 * l.val = l.val; rw [hw 0]; omega
  | ⟨1, _⟩ => show win0_8.index t (1 : Fin 2) * 64 + 1 * q.val = q.val; rw [hw 1]; omega

/-- Window 10 stages the whole of argument 10 at every point: its block read at (l, q) is the argument at (l, q). -/
theorem iblk10_apply (c : Dev nD) (t : Fin cfg0.N) (l : Fin 5) (q : Fin 64) :
    (iblk m c 10 t : Vec Ideal S5x64 .f32) (ix2 l q) = m ((c : Thread nD τ).loc main_arg10) (ix2 l q) := by
  obtain ⟨-, -, -, -, -, -, -, -, -, -, -, -, -, -, -, hw, -⟩ := idx_facts t
  show V m c main_arg10 (((cfg0.win 10).blk t).view.emb (ix2 l q)) = _
  rw [V_main_arg10]
  refine congrArg _ (funext fun a => Fin.ext ?_)
  match a with
  | ⟨0, _⟩ => show win0_10.index t (0 : Fin 2) * 5 + 1 * l.val = l.val; rw [hw 0]; omega
  | ⟨1, _⟩ => show win0_10.index t (1 : Fin 2) * 64 + 1 * q.val = q.val; rw [hw 1]; omega

/-- Window 12 stages the whole of argument 12 at every point: its block read at (l, q) is the argument at (l, q). -/
theorem iblk12_apply (c : Dev nD) (t : Fin cfg0.N) (l : Fin 5) (q : Fin 64) :
    (iblk m c 12 t : Vec Ideal S5x64 .f32) (ix2 l q) = m ((c : Thread nD τ).loc main_arg12) (ix2 l q) := by
  obtain ⟨-, -, -, -, -, -, -, -, -, -, -, -, -, -, -, -, hw⟩ := idx_facts t
  show V m c main_arg12 (((cfg0.win 12).blk t).view.emb (ix2 l q)) = _
  rw [V_main_arg12]
  refine congrArg _ (funext fun a => Fin.ext ?_)
  match a with
  | ⟨0, _⟩ => show win0_12.index t (0 : Fin 2) * 5 + 1 * l.val = l.val; rw [hw 0]; omega
  | ⟨1, _⟩ => show win0_12.index t (1 : Fin 2) * 64 + 1 * q.val = q.val; rw [hw 1]; omega

/-! ## What a point writes back -/

/-- Point t writes back block t of the reference's z of the argument arrays. -/
theorem flushed13_eq (c : Dev nD) (t : Fin cfg0.N) :
    (dats m 0 c).flushed 13 t = ((cfg0.win 13).blk t).view.read (Elt Ideal) (zOf m c) := by
  obtain ⟨-, -, h0, h1, -⟩ := idx_facts t
  rw [flushed13, Cert.KernelIdeal.KerFlow.out13_eq, View.canon_unit_zero Cert.Bridge.zero2]
  funext y
  have hy := Cert.Bridge.blockZ_rows (row := rowAt t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
      (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))
      (iblk0_apply m c t) (iblk1_apply m c t) (iblk2_apply m c t) (iblk3_apply m c t) (iblk4_apply m c t) (iblk5_apply m c t) (iblk6_apply m c t) (iblk7_apply m c t) (iblk8_apply m c t) (iblk9_apply m c t) (iblk10_apply m c t) (iblk11_apply m c t) (iblk12_apply m c t) (y 0) (y 1)
  show Cert.KernelIdeal.KerFlow.blockZ (F := Ideal) _ _ _ _ _ _ _ _ _ _ _ _ _ y = zOf m c (((cfg0.win 13).blk t).view.emb y)
  rw [eq_ix2 y]
  refine hy.trans (congrArg _ (funext fun ax => Fin.ext ?_))
  match ax with
  | ⟨0, _⟩ => show t.val * 4096 + (y 0).val = win0_13.index t (0 : Fin 2) * 4096 + 1 * (y 0).val; rw [h0]; omega
  | ⟨1, _⟩ => show (y 1).val = win0_13.index t (1 : Fin 2) * 128 + 1 * (y 1).val; rw [h1]; omega

theorem zero1 : (![0] : Fin 1 → Nat) = fun _ => 0 := funext fun a => by fin_cases a; rfl

/-- Point t writes back block t of the reference's log-determinant of the argument arrays. -/
theorem flushed14_eq (c : Dev nD) (t : Fin cfg0.N) :
    (dats m 0 c).flushed 14 t = ((cfg0.win 14).blk t).view.read (Elt Ideal) (lOf m c) := by
  obtain ⟨-, -, -, -, h0, -⟩ := idx_facts t
  rw [flushed14, Cert.KernelIdeal.KerFlow.out14_eq, View.canon_unit_zero zero1]
  funext y
  have hy := Cert.Bridge.blockL_rows (row := rowAt t) (iblk m c 0 t) (iblk m c 1 t) (iblk m c 2 t) (iblk m c 3 t) (iblk m c 4 t) (iblk m c 5 t) (iblk m c 6 t)
      (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      (iblk0_apply m c t) (iblk1_apply m c t) (iblk2_apply m c t) (iblk3_apply m c t) (iblk4_apply m c t) (iblk5_apply m c t) (iblk6_apply m c t) (y 0)
  show Cert.KernelIdeal.KerFlow.blockL (F := Ideal) _ _ _ _ _ _ _ y = lOf m c (((cfg0.win 14).blk t).view.emb y)
  rw [eq_ix1 y]
  refine hy.trans (congrArg _ (funext fun ax => Fin.ext ?_))
  match ax with
  | ⟨0, _⟩ => show t.val * 4096 + (y 0).val = win0_14.index t (0 : Fin 1) * 4096 + 1 * (y 0).val; rw [h0]; omega

/-! ## The blocks tile the arrays -/

/-- An index of z is in point t's block iff each coordinate is in the block's range on its axis. -/
theorem mem_blk13 (t : Fin cfg0.N) (i : S262144x128.Idx) :
    i ∈ ((cfg0.win 13).blk t).view.set ↔ ∀ a : Fin 2, win0_13.index t a * S4096x128.size a ≤ (i a).val ∧ (i a).val < win0_13.index t a * S4096x128.size a + S4096x128.size a := by
  show i ∈ ((View.whole main_v6_0).slice (win0_13.rect t)).set ↔ _
  rw [View.set_slice_whole, Rect.mem_set_unit]
  exact Iff.rfl

/-- An index of the log-determinant is in point t's block iff it is in the block's range. -/
theorem mem_blk14 (t : Fin cfg0.N) (i : S262144.Idx) :
    i ∈ ((cfg0.win 14).blk t).view.set ↔ ∀ a : Fin 1, win0_14.index t a * S4096.size a ≤ (i a).val ∧ (i a).val < win0_14.index t a * S4096.size a + S4096.size a := by
  show i ∈ ((View.whole main_v6_1).slice (win0_14.rect t)).set ↔ _
  rw [View.set_slice_whole, Rect.mem_set_unit]
  exact Iff.rfl

/-- Row r of z is in the block of point r / 4096. -/
theorem cover13 (i : S262144x128.Idx) :
    ∃ t : Fin cfg0.N, (cfg0.win 13).flush t = true ∧ i ∈ ((cfg0.win 13).blk t).view.set := by
  have hi0 : (i 0).val < 262144 := (i 0).isLt
  have hi1 : (i 1).val < 128 := (i 1).isLt
  have ht : (i 0).val / 4096 < cfg0.N := by rw [N64]; omega
  obtain ⟨-, -, h0, h1, -⟩ := idx_facts ⟨(i 0).val / 4096, ht⟩
  refine ⟨⟨(i 0).val / 4096, ht⟩, flush0_13 _, ?_⟩
  rw [mem_blk13]
  intro a
  match a with
  | ⟨0, _⟩ =>
    show win0_13.index ⟨(i 0).val / 4096, ht⟩ (0 : Fin 2) * 4096 ≤ (i 0).val ∧ (i 0).val < win0_13.index ⟨(i 0).val / 4096, ht⟩ (0 : Fin 2) * 4096 + 4096
    rw [h0]; show (i 0).val / 4096 * 4096 ≤ (i 0).val ∧ (i 0).val < (i 0).val / 4096 * 4096 + 4096; omega
  | ⟨1, _⟩ =>
    show win0_13.index ⟨(i 0).val / 4096, ht⟩ (1 : Fin 2) * 128 ≤ (i 1).val ∧ (i 1).val < win0_13.index ⟨(i 0).val / 4096, ht⟩ (1 : Fin 2) * 128 + 128
    rw [h1]; omega

/-- Entry r of the log-determinant is in the block of point r / 4096. -/
theorem cover14 (i : S262144.Idx) :
    ∃ t : Fin cfg0.N, (cfg0.win 14).flush t = true ∧ i ∈ ((cfg0.win 14).blk t).view.set := by
  have hi0 : (i 0).val < 262144 := (i 0).isLt
  have ht : (i 0).val / 4096 < cfg0.N := by rw [N64]; omega
  obtain ⟨-, -, -, -, h0, -⟩ := idx_facts ⟨(i 0).val / 4096, ht⟩
  refine ⟨⟨(i 0).val / 4096, ht⟩, flush0_14 _, ?_⟩
  rw [mem_blk14]
  intro a
  match a with
  | ⟨0, _⟩ =>
    show win0_14.index ⟨(i 0).val / 4096, ht⟩ (0 : Fin 1) * 4096 ≤ (i 0).val ∧ (i 0).val < win0_14.index ⟨(i 0).val / 4096, ht⟩ (0 : Fin 1) * 4096 + 4096
    rw [h0]; show (i 0).val / 4096 * 4096 ≤ (i 0).val ∧ (i 0).val < (i 0).val / 4096 * 4096 + 4096; omega

/-! ## The two arrays after the run, and the run -/

/-- After the run z is the reference's z of the argument arrays. -/
theorem final13 (c : Dev nD) : (dats m 0 c).arrAt 13 cfg0.N = zOf m c :=
  (dats m 0 c).arrAt_eq_of_cover 13 (zOf m c) (fun t _ => flushed13_eq m c t) cover13

/-- After the run the log-determinant is the reference's of the argument arrays. -/
theorem final14 (c : Dev nD) : (dats m 0 c).arrAt 14 cfg0.N = lOf m c :=
  (dats m 0 c).arrAt_eq_of_cover 14 (lOf m c) (fun t _ => flushed14_eq m c t) cover14

/-- The kernel's run, read: every weakly fair execution terminates with the two results at the reference's two
    functions of the argument arrays, the arguments unchanged. -/
theorem run : θ_run defs (onTc (τ := τ) (main (F := Ideal))) ⟨m, fun _ => 0, ρ⟩ fun r => ∀ c : Dev nD,
      r.2.mem ((c : Thread nD τ).loc main_v6_0) = zOf m c
      ∧ r.2.mem ((c : Thread nD τ).loc main_v6_1) = lOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun r h c => ⟨(h c).1.trans (final13 m c), (h c).2.1.trans (final14 m c), (h c).2.2⟩)
    (run_blocks m ρ)

end Cert.KernelIdeal.KerValue

end
-- ==== Proof.RefOps0.lean ====
/- Window 0 of the reference program's @main as the list of its 84 host operations, in order: each entry is the
   printed line's operation; a call of the leaky-ReLU function stands for the seven operations of its body (the zero
   constant, its broadcast, the comparison x ≥ 0, the slope's conversion and broadcast, the product slope·x, and the
   selection between x and slope·x that the inner call makes), over the call's own buffers. -/
import proofs.«154327_j3710851744111_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of window 0, in order. -/
abbrev ops_part0 : List (HloOp τ sig (Elt F)) :=
  [ unary main_arg0 main_v0 ((extractStridedSlice S262144x64 ![0, 0] · slices_S262144x128_S262144x64_0_0) : (⟨S262144x128, .f32⟩ : BufTy).Contents (Elt F) → (⟨S262144x64, .f32⟩ : BufTy).Contents (Elt F)),
    unary main_arg0 main_v1 ((extractStridedSlice S262144x64 ![0, 64] · slices_S262144x128_S262144x64_0_64) : (⟨S262144x128, .f32⟩ : BufTy).Contents (Elt F) → (⟨S262144x64, .f32⟩ : BufTy).Contents (Elt F)),
    nullary main_cst (constant S_ .f32 0x00000000#32),
    unary main_cst main_v2 (broadcastInDim S262144 ![] bcast_S_S262144 : (⟨S_, .f32⟩ : BufTy).Contents (Elt F) → (⟨S262144, .f32⟩ : BufTy).Contents (Elt F)),
    unary main_arg1 main_v3 ((extractStridedSlice S1x64x64 ![0, 0, 0] · slices_S5x64x64_S1x64x64_0_0_0) : (⟨S5x64x64, .f32⟩ : BufTy).Contents (Elt F) → (⟨S1x64x64, .f32⟩ : BufTy).Contents (Elt F)),
    reshape main_v3 main_v4 rfl shapeCasts_S1x64x64_S64x64,
    unary main_arg2 main_v5 ((extractStridedSlice S1x64 ![0, 0] · slices_S5x64_S1x64_0_0) : (⟨S5x64, .f32⟩ : BufTy).Contents (Elt F) → (⟨S1x64, .f32⟩ : BufTy).Contents (Elt F)),
    reshape main_v5 main_v6 rfl shapeCasts_S1x64_S64,
    unary main_arg3 main_v7 ((extractStridedSlice S1x64x64 ![0, 0, 0] · slices_S5x64x64_S1x64x64_0_0_0) : (⟨S5x64x64, .f32⟩ : BufTy).Contents (Elt F) → (⟨S1x64x64, .f32⟩ : BufTy).Contents (Elt F)),
    reshape main_v7 main_v8 rfl shapeCasts_S1x64x64_S64x64,
    unary main_arg4 main_v9 ((extractStridedSlice S1x64 ![0, 0] · slices_S5x64_S1x64_0_0) : (⟨S5x64, .f32⟩ : BufTy).Contents (Elt F) → (⟨S1x64, .f32⟩ : BufTy).Contents (Elt F)),
    reshape main_v9 main_v10 rfl shapeCasts_S1x64_S64,
    unary main_arg5 main_v11 ((extractStridedSlice S1x64x64 ![0, 0, 0] · slices_S5x64x64_S1x64x64_0_0_0) : (⟨S5x64x64, .f32⟩ : BufTy).Contents (Elt F) → (⟨S1x64x64, .f32⟩ : BufTy).Contents (Elt F)),
    reshape main_v11 main_v12 rfl shapeCasts_S1x64x64_S64x64,
    unary main_arg6 main_v13 ((extractStridedSlice S1x64 ![0, 0] · slices_S5x64_S1x64_0_0) : (⟨S5x64, .f32⟩ : BufTy).Contents (Elt F) → (⟨S1x64, .f32⟩ : BufTy).Contents (Elt F)),
    reshape main_v13 main_v14 rfl shapeCasts_S1x64_S64,
    binary main_v0 main_v4 main_v15 ((fun l r => Host.dotGeneral dot_S262144x64_S64x64_S262144x64_1_0_0_1_n_n none l r) : (⟨S262144x64, .f32⟩ : BufTy).Contents (Elt F) → (⟨S64x64, .f32⟩ : BufTy).Contents (Elt F) → (⟨S262144x64, .f32⟩ : BufTy).Contents (Elt F)),
    unary main_v6 main_v16 (broadcastInDim S1x64 ![1] bcast_S64_S1x64_1 : (⟨S64, .f32⟩ : BufTy).Contents (Elt F) → (⟨S1x64, .f32⟩ : BufTy).Contents (Elt F)),
    unary main_v16 main_v17 (broadcastInDim S262144x64 ![0, 1] bcast_S1x64_S262144x64_0_1 : (⟨S1x64, .f32⟩ : BufTy).Contents (Elt F) → (⟨S262144x64, .f32⟩ : BufTy).Contents (Elt F)),
    binary main_v15 main_v17 main_v18 (addf : (⟨S262144x64, .f32⟩ : BufTy).Contents (Elt F) → (⟨S262144x64, .f32⟩ : BufTy).Contents (Elt F) → (⟨S262144x64, .f32⟩ : BufTy).Contents (Elt F)),
    nullary main_cst_0 (constant S_ .f32 0x3C23D70A#32),
    TRef.nullary main_call0.cst (constant S_ .f32 0x00000000#32),
    TRef.unary main_call0.cst main_call0.v0 (broadcastInDim S262144x64 ![] bcast_S_S262144x64),
    TRef.binary (.of main_v18 : StableHlo.TRef sig ⟨S262144x64, .f32⟩) main_call0.v0 main_call0.v1 (cmpf .oge),
    TRef.unary (.of main_cst_0 : StableHlo.TRef sig ⟨S_, .f32⟩) main_call0.v2 id,
    TRef.unary main_call0.v2 main_call0.v3 (broadcastInDim S262144x64 ![] bcast_S_S262144x64),
    TRef.binary main_call0.v3 (.of main_v18 : StableHlo.TRef sig ⟨S262144x64, .f32⟩) main_call0.v4 mulf,
    TRef.ternary main_call0.v1 (.of main_v18 : StableHlo.TRef sig ⟨S262144x64, .f32⟩) main_call0.v4 main_call0.call0.v0 select,
    binary main_v19 main_v8 main_v20 ((fun l r => Host.dotGeneral dot_S262144x64_S64x64_S262144x64_1_0_0_1_n_n none l r) : (⟨S262144x64, .f32⟩ : BufTy).Contents (Elt F) → (⟨S64x64, .f32⟩ : BufTy).Contents (Elt F) → (⟨S262144x64, .f32⟩ : BufTy).Contents (Elt F)),
    unary main_v10 main_v21 (broadcastInDim S1x64 ![1] bcast_S64_S1x64_1 : (⟨S64, .f32⟩ : BufTy).Contents (Elt F) → (⟨S1x64, .f32⟩ : BufTy).Contents (Elt F)),
    unary main_v21 main_v22 (broadcastInDim S262144x64 ![0, 1] bcast_S1x64_S262144x64_0_1 : (⟨S1x64, .f32⟩ : BufTy).Contents (Elt F) → (⟨S262144x64, .f32⟩ : BufTy).Contents (Elt F)),
    binary main_v20 main_v22 main_v23 (addf : (⟨S262144x64, .f32⟩ : BufTy).Contents (Elt F) → (⟨S262144x64, .f32⟩ : BufTy).Contents (Elt F) → (⟨S262144x64, .f32⟩ : BufTy).Contents (Elt F)),
    nullary main_cst_1 (constant S_ .f32 0x3C23D70A#32),
    TRef.nullary main_call1.cst (constant S_ .f32 0x00000000#32),
    TRef.unary main_call1.cst main_call1.v0 (broadcastInDim S262144x64 ![] bcast_S_S262144x64),
    TRef.binary (.of main_v23 : StableHlo.TRef sig ⟨S262144x64, .f32⟩) main_call1.v0 main_call1.v1 (cmpf .oge),
    TRef.unary (.of main_cst_1 : StableHlo.TRef sig ⟨S_, .f32⟩) main_call1.v2 id,
    TRef.unary main_call1.v2 main_call1.v3 (broadcastInDim S262144x64 ![] bcast_S_S262144x64),
    TRef.binary main_call1.v3 (.of main_v23 : StableHlo.TRef sig ⟨S262144x64, .f32⟩) main_call1.v4 mulf,
    TRef.ternary main_call1.v1 (.of main_v23 : StableHlo.TRef sig ⟨S262144x64, .f32⟩) main_call1.v4 main_call1.call0.v0 select,
    binary main_v24 main_v12 main_v25 ((fun l r => Host.dotGeneral dot_S262144x64_S64x64_S262144x64_1_0_0_1_n_n none l r) : (⟨S262144x64, .f32⟩ : BufTy).Contents (Elt F) → (⟨S64x64, .f32⟩ : BufTy).Contents (Elt F) → (⟨S262144x64, .f32⟩ : BufTy).Contents (Elt F)),
    unary main_v14 main_v26 (broadcastInDim S1x64 ![1] bcast_S64_S1x64_1 : (⟨S64, .f32⟩ : BufTy).Contents (Elt F) → (⟨S1x64, .f32⟩ : BufTy).Contents (Elt F)),
    unary main_v26 main_v27 (broadcastInDim S262144x64 ![0, 1] bcast_S1x64_S262144x64_0_1 : (⟨S1x64, .f32⟩ : BufTy).Contents (Elt F) → (⟨S262144x64, .f32⟩ : BufTy).Contents (Elt F)),
    binary main_v25 main_v27 main_v28 (addf : (⟨S262144x64, .f32⟩ : BufTy).Contents (Elt F) → (⟨S262144x64, .f32⟩ : BufTy).Contents (Elt F) → (⟨S262144x64, .f32⟩ : BufTy).Contents (Elt F)),
    unary main_v28 main_v29 (Host.tanh : (⟨S262144x64, .f32⟩ : BufTy).Contents (Elt F) → (⟨S262144x64, .f32⟩ : BufTy).Contents (Elt F)),
    unary main_arg7 main_v30 ((extractStridedSlice S1x64x64 ![0, 0, 0] · slices_S5x64x64_S1x64x64_0_0_0) : (⟨S5x64x64, .f32⟩ : BufTy).Contents (Elt F) → (⟨S1x64x64, .f32⟩ : BufTy).Contents (Elt F)),
    reshape main_v30 main_v31 rfl shapeCasts_S1x64x64_S64x64,
    unary main_arg8 main_v32 ((extractStridedSlice S1x64 ![0, 0] · slices_S5x64_S1x64_0_0) : (⟨S5x64, .f32⟩ : BufTy).Contents (Elt F) → (⟨S1x64, .f32⟩ : BufTy).Contents (Elt F)),
    reshape main_v32 main_v33 rfl shapeCasts_S1x64_S64,
    unary main_arg9 main_v34 ((extractStridedSlice S1x64x64 ![0, 0, 0] · slices_S5x64x64_S1x64x64_0_0_0) : (⟨S5x64x64, .f32⟩ : BufTy).Contents (Elt F) → (⟨S1x64x64, .f32⟩ : BufTy).Contents (Elt F)),
    reshape main_v34 main_v35 rfl shapeCasts_S1x64x64_S64x64,
    unary main_arg10 main_v36 ((extractStridedSlice S1x64 ![0, 0] · slices_S5x64_S1x64_0_0) : (⟨S5x64, .f32⟩ : BufTy).Contents (Elt F) → (⟨S1x64, .f32⟩ : BufTy).Contents (Elt F)),
    reshape main_v36 main_v37 rfl shapeCasts_S1x64_S64,
    unary main_arg11 main_v38 ((extractStridedSlice S1x64x64 ![0, 0, 0] · slices_S5x64x64_S1x64x64_0_0_0) : (⟨S5x64x64, .f32⟩ : BufTy).Contents (Elt F) → (⟨S1x64x64, .f32⟩ : BufTy).Contents (Elt F)),
    reshape main_v38 main_v39 rfl shapeCasts_S1x64x64_S64x64,
    unary main_arg12 main_v40 ((extractStridedSlice S1x64 ![0, 0] · slices_S5x64_S1x64_0_0) : (⟨S5x64, .f32⟩ : BufTy).Contents (Elt F) → (⟨S1x64, .f32⟩ : BufTy).Contents (Elt F)),
    reshape main_v40 main_v41 rfl shapeCasts_S1x64_S64,
    binary main_v0 main_v31 main_v42 ((fun l r => Host.dotGeneral dot_S262144x64_S64x64_S262144x64_1_0_0_1_n_n none l r) : (⟨S262144x64, .f32⟩ : BufTy).Contents (Elt F) → (⟨S64x64, .f32⟩ : BufTy).Contents (Elt F) → (⟨S262144x64, .f32⟩ : BufTy).Contents (Elt F)),
    unary main_v33 main_v43 (broadcastInDim S1x64 ![1] bcast_S64_S1x64_1 : (⟨S64, .f32⟩ : BufTy).Contents (Elt F) → (⟨S1x64, .f32⟩ : BufTy).Contents (Elt F)),
    unary main_v43 main_v44 (broadcastInDim S262144x64 ![0, 1] bcast_S1x64_S262144x64_0_1 : (⟨S1x64, .f32⟩ : BufTy).Contents (Elt F) → (⟨S262144x64, .f32⟩ : BufTy).Contents (Elt F)),
    binary main_v42 main_v44 main_v45 (addf : (⟨S262144x64, .f32⟩ : BufTy).Contents (Elt F) → (⟨S262144x64, .f32⟩ : BufTy).Contents (Elt F) → (⟨S262144x64, .f32⟩ : BufTy).Contents (Elt F)),
    nullary main_cst_2 (constant S_ .f32 0x3C23D70A#32),
    TRef.nullary main_call2.cst (constant S_ .f32 0x00000000#32),
    TRef.unary main_call2.cst main_call2.v0 (broadcastInDim S262144x64 ![] bcast_S_S262144x64),
    TRef.binary (.of main_v45 : StableHlo.TRef sig ⟨S262144x64, .f32⟩) main_call2.v0 main_call2.v1 (cmpf .oge),
    TRef.unary (.of main_cst_2 : StableHlo.TRef sig ⟨S_, .f32⟩) main_call2.v2 id,
    TRef.unary main_call2.v2 main_call2.v3 (broadcastInDim S262144x64 ![] bcast_S_S262144x64),
    TRef.binary main_call2.v3 (.of main_v45 : StableHlo.TRef sig ⟨S262144x64, .f32⟩) main_call2.v4 mulf,
    TRef.ternary main_call2.v1 (.of main_v45 : StableHlo.TRef sig ⟨S262144x64, .f32⟩) main_call2.v4 main_call2.call0.v0 select,
    binary main_v46 main_v35 main_v47 ((fun l r => Host.dotGeneral dot_S262144x64_S64x64_S262144x64_1_0_0_1_n_n none l r) : (⟨S262144x64, .f32⟩ : BufTy).Contents (Elt F) → (⟨S64x64, .f32⟩ : BufTy).Contents (Elt F) → (⟨S262144x64, .f32⟩ : BufTy).Contents (Elt F)),
    unary main_v37 main_v48 (broadcastInDim S1x64 ![1] bcast_S64_S1x64_1 : (⟨S64, .f32⟩ : BufTy).Contents (Elt F) → (⟨S1x64, .f32⟩ : BufTy).Contents (Elt F)),
    unary main_v48 main_v49 (broadcastInDim S262144x64 ![0, 1] bcast_S1x64_S262144x64_0_1 : (⟨S1x64, .f32⟩ : BufTy).Contents (Elt F) → (⟨S262144x64, .f32⟩ : BufTy).Contents (Elt F)),
    binary main_v47 main_v49 main_v50 (addf : (⟨S262144x64, .f32⟩ : BufTy).Contents (Elt F) → (⟨S262144x64, .f32⟩ : BufTy).Contents (Elt F) → (⟨S262144x64, .f32⟩ : BufTy).Contents (Elt F)),
    nullary main_cst_3 (constant S_ .f32 0x3C23D70A#32),
    TRef.nullary main_call3.cst (constant S_ .f32 0x00000000#32),
    TRef.unary main_call3.cst main_call3.v0 (broadcastInDim S262144x64 ![] bcast_S_S262144x64),
    TRef.binary (.of main_v50 : StableHlo.TRef sig ⟨S262144x64, .f32⟩) main_call3.v0 main_call3.v1 (cmpf .oge),
    TRef.unary (.of main_cst_3 : StableHlo.TRef sig ⟨S_, .f32⟩) main_call3.v2 id,
    TRef.unary main_call3.v2 main_call3.v3 (broadcastInDim S262144x64 ![] bcast_S_S262144x64),
    TRef.binary main_call3.v3 (.of main_v50 : StableHlo.TRef sig ⟨S262144x64, .f32⟩) main_call3.v4 mulf,
    TRef.ternary main_call3.v1 (.of main_v50 : StableHlo.TRef sig ⟨S262144x64, .f32⟩) main_call3.v4 main_call3.call0.v0 select,
    binary main_v51 main_v39 main_v52 ((fun l r => Host.dotGeneral dot_S262144x64_S64x64_S262144x64_1_0_0_1_n_n none l r) : (⟨S262144x64, .f32⟩ : BufTy).Contents (Elt F) → (⟨S64x64, .f32⟩ : BufTy).Contents (Elt F) → (⟨S262144x64, .f32⟩ : BufTy).Contents (Elt F)),
    unary main_v41 main_v53 (broadcastInDim S1x64 ![1] bcast_S64_S1x64_1 : (⟨S64, .f32⟩ : BufTy).Contents (Elt F) → (⟨S1x64, .f32⟩ : BufTy).Contents (Elt F)),
    unary main_v53 main_v54 (broadcastInDim S262144x64 ![0, 1] bcast_S1x64_S262144x64_0_1 : (⟨S1x64, .f32⟩ : BufTy).Contents (Elt F) → (⟨S262144x64, .f32⟩ : BufTy).Contents (Elt F)) ]

end Cert.ReferenceIdeal.RefRun

end
-- ==== Proof.RefWin0.lean ====
/- Window 0 of the reference program's @main is the straight line of its listed operations; each listed operation
   reads and writes TensorCore buffers only, and each determines the contents it writes. -/
import proofs.«154327_j3710851744111_2_alg».proof.Proof.RefOps0

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
/-- The window is that line. A call of the leaky-ReLU function is its body's six operations followed by the inner
    call's selection; with both bodies unfolded at each call and the sequencing reassociated (a step's continuation
    bound once more, a pure return bound away), the two sides are the same chain of steps. -/
theorem main_part0_eq (c : Dev nD) : main_part0 (F := F) c = seq ops_part0 := by
  simp only [main_part0, fn_leaky_relu.body, fn_where.body, seq, bind_assoc, pure_bind] <;> rfl

set_option maxRecDepth 8192 in
/-- Every operation of the window touches TensorCore references only: each is one of the builders (no operand, one,
    two, three, or a reshape), whose buffers are its operands' and its result's. -/
theorem ops_part0_sub : (ops_part0 : List (HloOp τ sig (Elt F))).Forall fun op => op.bufs ⊆ tcRefs τ sig := by
  simp only [List.Forall, nullary_bufs_sub, unary_bufs_sub, binary_bufs_sub, ternary_bufs_sub, reshape_bufs_sub, and_self]

set_option maxRecDepth 8192 in
/-- Every operation of the window determines what it writes (none allocates a buffer with unspecified contents): by
    cases on which entry of the list it is. -/
theorem ops_part0_fresh : ∀ op ∈ (ops_part0 : List (HloOp τ sig (Elt F))), op.fresh = ∅ := by
  intro _ h
  repeat (cases h with | head => rfl | tail _ h => ?_)
  exact nomatch h

end Cert.ReferenceIdeal.RefRun

end
-- ==== Proof.RefOps1.lean ====
/- Window 1 of the reference program's @main as the list of its 84 host operations, in order: each entry is the
   printed line's operation; a call of the leaky-ReLU function stands for the seven operations of its body (the zero
   constant, its broadcast, the comparison x ≥ 0, the slope's conversion and broadcast, the product slope·x, and the
   selection between x and slope·x that the inner call makes), over the call's own buffers. -/
import proofs.«154327_j3710851744111_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of window 1, in order. -/
abbrev ops_part1 : List (HloOp τ sig (Elt F)) :=
  [ binary main_v52 main_v54 main_v55 (addf : (⟨S262144x64, .f32⟩ : BufTy).Contents (Elt F) → (⟨S262144x64, .f32⟩ : BufTy).Contents (Elt F) → (⟨S262144x64, .f32⟩ : BufTy).Contents (Elt F)),
    unary main_v29 main_v56 (Host.exp : (⟨S262144x64, .f32⟩ : BufTy).Contents (Elt F) → (⟨S262144x64, .f32⟩ : BufTy).Contents (Elt F)),
    binary main_v1 main_v56 main_v57 (mulf : (⟨S262144x64, .f32⟩ : BufTy).Contents (Elt F) → (⟨S262144x64, .f32⟩ : BufTy).Contents (Elt F) → (⟨S262144x64, .f32⟩ : BufTy).Contents (Elt F)),
    binary main_v57 main_v55 main_v58 (addf : (⟨S262144x64, .f32⟩ : BufTy).Contents (Elt F) → (⟨S262144x64, .f32⟩ : BufTy).Contents (Elt F) → (⟨S262144x64, .f32⟩ : BufTy).Contents (Elt F)),
    nullary main_cst_4 (constant S_ .f32 0x00000000#32),
    binary main_v29 main_cst_4 main_v59 ((fun x v => Host.reduceAdd x v reducesTo_S262144x64_S262144_d1 h_S_) : (⟨S262144x64, .f32⟩ : BufTy).Contents (Elt F) → (⟨S_, .f32⟩ : BufTy).Contents (Elt F) → (⟨S262144, .f32⟩ : BufTy).Contents (Elt F)),
    binary main_v2 main_v59 main_v60 (addf : (⟨S262144, .f32⟩ : BufTy).Contents (Elt F) → (⟨S262144, .f32⟩ : BufTy).Contents (Elt F) → (⟨S262144, .f32⟩ : BufTy).Contents (Elt F)),
    unary main_arg1 main_v61 ((extractStridedSlice S1x64x64 ![1, 0, 0] · slices_S5x64x64_S1x64x64_1_0_0) : (⟨S5x64x64, .f32⟩ : BufTy).Contents (Elt F) → (⟨S1x64x64, .f32⟩ : BufTy).Contents (Elt F)),
    reshape main_v61 main_v62 rfl shapeCasts_S1x64x64_S64x64,
    unary main_arg2 main_v63 ((extractStridedSlice S1x64 ![1, 0] · slices_S5x64_S1x64_1_0) : (⟨S5x64, .f32⟩ : BufTy).Contents (Elt F) → (⟨S1x64, .f32⟩ : BufTy).Contents (Elt F)),
    reshape main_v63 main_v64 rfl shapeCasts_S1x64_S64,
    unary main_arg3 main_v65 ((extractStridedSlice S1x64x64 ![1, 0, 0] · slices_S5x64x64_S1x64x64_1_0_0) : (⟨S5x64x64, .f32⟩ : BufTy).Contents (Elt F) → (⟨S1x64x64, .f32⟩ : BufTy).Contents (Elt F)),
    reshape main_v65 main_v66 rfl shapeCasts_S1x64x64_S64x64,
    unary main_arg4 main_v67 ((extractStridedSlice S1x64 ![1, 0] · slices_S5x64_S1x64_1_0) : (⟨S5x64, .f32⟩ : BufTy).Contents (Elt F) → (⟨S1x64, .f32⟩ : BufTy).Contents (Elt F)),
    reshape main_v67 main_v68 rfl shapeCasts_S1x64_S64,
    unary main_arg5 main_v69 ((extractStridedSlice S1x64x64 ![1, 0, 0] · slices_S5x64x64_S1x64x64_1_0_0) : (⟨S5x64x64, .f32⟩ : BufTy).Contents (Elt F) → (⟨S1x64x64, .f32⟩ : BufTy).Contents (Elt F)),
    reshape main_v69 main_v70 rfl shapeCasts_S1x64x64_S64x64,
    unary main_arg6 main_v71 ((extractStridedSlice S1x64 ![1, 0] · slices_S5x64_S1x64_1_0) : (⟨S5x64, .f32⟩ : BufTy).Contents (Elt F) → (⟨S1x64, .f32⟩ : BufTy).Contents (Elt F)),
    reshape main_v71 main_v72 rfl shapeCasts_S1x64_S64,
    binary main_v0 main_v62 main_v73 ((fun l r => Host.dotGeneral dot_S262144x64_S64x64_S262144x64_1_0_0_1_n_n none l r) : (⟨S262144x64, .f32⟩ : BufTy).Contents (Elt F) → (⟨S64x64, .f32⟩ : BufTy).Contents (Elt F) → (⟨S262144x64, .f32⟩ : BufTy).Contents (Elt F)),
    unary main_v64 main_v74 (broadcastInDim S1x64 ![1] bcast_S64_S1x64_1 : (⟨S64, .f32⟩ : BufTy).Contents (Elt F) → (⟨S1x64, .f32⟩ : BufTy).Contents (Elt F)),
    unary main_v74 main_v75 (broadcastInDim S262144x64 ![0, 1] bcast_S1x64_S262144x64_0_1 : (⟨S1x64, .f32⟩ : BufTy).Contents (Elt F) → (⟨S262144x64, .f32⟩ : BufTy).Contents (Elt F)),
    binary main_v73 main_v75 main_v76 (addf : (⟨S262144x64, .f32⟩ : BufTy).Contents (Elt F) → (⟨S262144x64, .f32⟩ : BufTy).Contents (Elt F) → (⟨S262144x64, .f32⟩ : BufTy).Contents (Elt F)),
    nullary main_cst_5 (constant S_ .f32 0x3C23D70A#32),
    TRef.nullary main_call4.cst (constant S_ .f32 0x00000000#32),
    TRef.unary main_call4.cst main_call4.v0 (broadcastInDim S262144x64 ![] bcast_S_S262144x64),
    TRef.binary (.of main_v76 : StableHlo.TRef sig ⟨S262144x64, .f32⟩) main_call4.v0 main_call4.v1 (cmpf .oge),
    TRef.unary (.of main_cst_5 : StableHlo.TRef sig ⟨S_, .f32⟩) main_call4.v2 id,
    TRef.unary main_call4.v2 main_call4.v3 (broadcastInDim S262144x64 ![] bcast_S_S262144x64),
    TRef.binary main_call4.v3 (.of main_v76 : StableHlo.TRef sig ⟨S262144x64, .f32⟩) main_call4.v4 mulf,
    TRef.ternary main_call4.v1 (.of main_v76 : StableHlo.TRef sig ⟨S262144x64, .f32⟩) main_call4.v4 main_call4.call0.v0 select,
    binary main_v77 main_v66 main_v78 ((fun l r => Host.dotGeneral dot_S262144x64_S64x64_S262144x64_1_0_0_1_n_n none l r) : (⟨S262144x64, .f32⟩ : BufTy).Contents (Elt F) → (⟨S64x64, .f32⟩ : BufTy).Contents (Elt F) → (⟨S262144x64, .f32⟩ : BufTy).Contents (Elt F)),
    unary main_v68 main_v79 (broadcastInDim S1x64 ![1] bcast_S64_S1x64_1 : (⟨S64, .f32⟩ : BufTy).Contents (Elt F) → (⟨S1x64, .f32⟩ : BufTy).Contents (Elt F)),
    unary main_v79 main_v80 (broadcastInDim S262144x64 ![0, 1] bcast_S1x64_S262144x64_0_1 : (⟨S1x64, .f32⟩ : BufTy).Contents (Elt F) → (⟨S262144x64, .f32⟩ : BufTy).Contents (Elt F)),
    binary main_v78 main_v80 main_v81 (addf : (⟨S262144x64, .f32⟩ : BufTy).Contents (Elt F) → (⟨S262144x64, .f32⟩ : BufTy).Contents (Elt F) → (⟨S262144x64, .f32⟩ : BufTy).Contents (Elt F)),
    nullary main_cst_6 (constant S_ .f32 0x3C23D70A#32),
    TRef.nullary main_call5.cst (constant S_ .f32 0x00000000#32),
    TRef.unary main_call5.cst main_call5.v0 (broadcastInDim S262144x64 ![] bcast_S_S262144x64),
    TRef.binary (.of main_v81 : StableHlo.TRef sig ⟨S262144x64, .f32⟩) main_call5.v0 main_call5.v1 (cmpf .oge),
    TRef.unary (.of main_cst_6 : StableHlo.TRef sig ⟨S_, .f32⟩) main_call5.v2 id,
    TRef.unary main_call5.v2 main_call5.v3 (broadcastInDim S262144x64 ![] bcast_S_S262144x64),
    TRef.binary main_call5.v3 (.of main_v81 : StableHlo.TRef sig ⟨S262144x64, .f32⟩) main_call5.v4 mulf,
    TRef.ternary main_call5.v1 (.of main_v81 : StableHlo.TRef sig ⟨S262144x64, .f32⟩) main_call5.v4 main_call5.call0.v0 select,
    binary main_v82 main_v70 main_v83 ((fun l r => Host.dotGeneral dot_S262144x64_S64x64_S262144x64_1_0_0_1_n_n none l r) : (⟨S262144x64, .f32⟩ : BufTy).Contents (Elt F) → (⟨S64x64, .f32⟩ : BufTy).Contents (Elt F) → (⟨S262144x64, .f32⟩ : BufTy).Contents (Elt F)),
    unary main_v72 main_v84 (broadcastInDim S1x64 ![1] bcast_S64_S1x64_1 : (⟨S64, .f32⟩ : BufTy).Contents (Elt F) → (⟨S1x64, .f32⟩ : BufTy).Contents (Elt F)),
    unary main_v84 main_v85 (broadcastInDim S262144x64 ![0, 1] bcast_S1x64_S262144x64_0_1 : (⟨S1x64, .f32⟩ : BufTy).Contents (Elt F) → (⟨S262144x64, .f32⟩ : BufTy).Contents (Elt F)),
    binary main_v83 main_v85 main_v86 (addf : (⟨S262144x64, .f32⟩ : BufTy).Contents (Elt F) → (⟨S262144x64, .f32⟩ : BufTy).Contents (Elt F) → (⟨S262144x64, .f32⟩ : BufTy).Contents (Elt F)),
    unary main_v86 main_v87 (Host.tanh : (⟨S262144x64, .f32⟩ : BufTy).Contents (Elt F) → (⟨S262144x64, .f32⟩ : BufTy).Contents (Elt F)),
    unary main_arg7 main_v88 ((extractStridedSlice S1x64x64 ![1, 0, 0] · slices_S5x64x64_S1x64x64_1_0_0) : (⟨S5x64x64, .f32⟩ : BufTy).Contents (Elt F) → (⟨S1x64x64, .f32⟩ : BufTy).Contents (Elt F)),
    reshape main_v88 main_v89 rfl shapeCasts_S1x64x64_S64x64,
    unary main_arg8 main_v90 ((extractStridedSlice S1x64 ![1, 0] · slices_S5x64_S1x64_1_0) : (⟨S5x64, .f32⟩ : BufTy).Contents (Elt F) → (⟨S1x64, .f32⟩ : BufTy).Contents (Elt F)),
    reshape main_v90 main_v91 rfl shapeCasts_S1x64_S64,
    unary main_arg9 main_v92 ((extractStridedSlice S1x64x64 ![1, 0, 0] · slices_S5x64x64_S1x64x64_1_0_0) : (⟨S5x64x64, .f32⟩ : BufTy).Contents (Elt F) → (⟨S1x64x64, .f32⟩ : BufTy).Contents (Elt F)),
    reshape main_v92 main_v93 rfl shapeCasts_S1x64x64_S64x64,
    unary main_arg10 main_v94 ((extractStridedSlice S1x64 ![1, 0] · slices_S5x64_S1x64_1_0) : (⟨S5x64, .f32⟩ : BufTy).Contents (Elt F) → (⟨S1x64, .f32⟩ : BufTy).Contents (Elt F)),
    reshape main_v94 main_v95 rfl shapeCasts_S1x64_S64,
    unary main_arg11 main_v96 ((extractStridedSlice S1x64x64 ![1, 0, 0] · slices_S5x64x64_S1x64x64_1_0_0) : (⟨S5x64x64, .f32⟩ : BufTy).Contents (Elt F) → (⟨S1x64x64, .f32⟩ : BufTy).Contents (Elt F)),
    reshape main_v96 main_v97 rfl shapeCasts_S1x64x64_S64x64,
    unary main_arg12 main_v98 ((extractStridedSlice S1x64 ![1, 0] · slices_S5x64_S1x64_1_0) : (⟨S5x64, .f32⟩ : BufTy).Contents (Elt F) → (⟨S1x64, .f32⟩ : BufTy).Contents (Elt F)),
    reshape main_v98 main_v99 rfl shapeCasts_S1x64_S64,
    binary main_v0 main_v89 main_v100 ((fun l r => Host.dotGeneral dot_S262144x64_S64x64_S262144x64_1_0_0_1_n_n none l r) : (⟨S262144x64, .f32⟩ : BufTy).Contents (Elt F) → (⟨S64x64, .f32⟩ : BufTy).Contents (Elt F) → (⟨S262144x64, .f32⟩ : BufTy).Contents (Elt F)),
    unary main_v91 main_v101 (broadcastInDim S1x64 ![1] bcast_S64_S1x64_1 : (⟨S64, .f32⟩ : BufTy).Contents (Elt F) → (⟨S1x64, .f32⟩ : BufTy).Contents (Elt F)),
    unary main_v101 main_v102 (broadcastInDim S262144x64 ![0, 1] bcast_S1x64_S262144x64_0_1 : (⟨S1x64, .f32⟩ : BufTy).Contents (Elt F) → (⟨S262144x64, .f32⟩ : BufTy).Contents (Elt F)),
    binary main_v100 main_v102 main_v103 (addf : (⟨S262144x64, .f32⟩ : BufTy).Contents (Elt F) → (⟨S262144x64, .f32⟩ : BufTy).Contents (Elt F) → (⟨S262144x64, .f32⟩ : BufTy).Contents (Elt F)),
    nullary main_cst_7 (constant S_ .f32 0x3C23D70A#32),
    TRef.nullary main_call6.cst (constant S_ .f32 0x00000000#32),
    TRef.unary main_call6.cst main_call6.v0 (broadcastInDim S262144x64 ![] bcast_S_S262144x64),
    TRef.binary (.of main_v103 : StableHlo.TRef sig ⟨S262144x64, .f32⟩) main_call6.v0 main_call6.v1 (cmpf .oge),
    TRef.unary (.of main_cst_7 : StableHlo.TRef sig ⟨S_, .f32⟩) main_call6.v2 id,
    TRef.unary main_call6.v2 main_call6.v3 (broadcastInDim S262144x64 ![] bcast_S_S262144x64),
    TRef.binary main_call6.v3 (.of main_v103 : StableHlo.TRef sig ⟨S262144x64, .f32⟩) main_call6.v4 mulf,
    TRef.ternary main_call6.v1 (.of main_v103 : StableHlo.TRef sig ⟨S262144x64, .f32⟩) main_call6.v4 main_call6.call0.v0 select,
    binary main_v104 main_v93 main_v105 ((fun l r => Host.dotGeneral dot_S262144x64_S64x64_S262144x64_1_0_0_1_n_n none l r) : (⟨S262144x64, .f32⟩ : BufTy).Contents (Elt F) → (⟨S64x64, .f32⟩ : BufTy).Contents (Elt F) → (⟨S262144x64, .f32⟩ : BufTy).Contents (Elt F)),
    unary main_v95 main_v106 (broadcastInDim S1x64 ![1] bcast_S64_S1x64_1 : (⟨S64, .f32⟩ : BufTy).Contents (Elt F) → (⟨S1x64, .f32⟩ : BufTy).Contents (Elt F)),
    unary main_v106 main_v107 (broadcastInDim S262144x64 ![0, 1] bcast_S1x64_S262144x64_0_1 : (⟨S1x64, .f32⟩ : BufTy).Contents (Elt F) → (⟨S262144x64, .f32⟩ : BufTy).Contents (Elt F)),
    binary main_v105 main_v107 main_v108 (addf : (⟨S262144x64, .f32⟩ : BufTy).Contents (Elt F) → (⟨S262144x64, .f32⟩ : BufTy).Contents (Elt F) → (⟨S262144x64, .f32⟩ : BufTy).Contents (Elt F)),
    nullary main_cst_8 (constant S_ .f32 0x3C23D70A#32),
    TRef.nullary main_call7.cst (constant S_ .f32 0x00000000#32),
    TRef.unary main_call7.cst main_call7.v0 (broadcastInDim S262144x64 ![] bcast_S_S262144x64),
    TRef.binary (.of main_v108 : StableHlo.TRef sig ⟨S262144x64, .f32⟩) main_call7.v0 main_call7.v1 (cmpf .oge),
    TRef.unary (.of main_cst_8 : StableHlo.TRef sig ⟨S_, .f32⟩) main_call7.v2 id,
    TRef.unary main_call7.v2 main_call7.v3 (broadcastInDim S262144x64 ![] bcast_S_S262144x64),
    TRef.binary main_call7.v3 (.of main_v108 : StableHlo.TRef sig ⟨S262144x64, .f32⟩) main_call7.v4 mulf,
    TRef.ternary main_call7.v1 (.of main_v108 : StableHlo.TRef sig ⟨S262144x64, .f32⟩) main_call7.v4 main_call7.call0.v0 select ]

end Cert.ReferenceIdeal.RefRun

end
-- ==== Proof.RefWin1.lean ====
/- Window 1 of the reference program's @main is the straight line of its listed operations; each listed operation
   reads and writes TensorCore buffers only, and each determines the contents it writes. -/
import proofs.«154327_j3710851744111_2_alg».proof.Proof.RefOps1

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
/-- The window is that line. A call of the leaky-ReLU function is its body's six operations followed by the inner
    call's selection; with both bodies unfolded at each call and the sequencing reassociated (a step's continuation
    bound once more, a pure return bound away), the two sides are the same chain of steps. -/
theorem main_part1_eq (c : Dev nD) : main_part1 (F := F) c = seq ops_part1 := by
  simp only [main_part1, fn_leaky_relu.body, fn_where.body, seq, bind_assoc, pure_bind] <;> rfl

set_option maxRecDepth 8192 in
/-- Every operation of the window touches TensorCore references only: each is one of the builders (no operand, one,
    two, three, or a reshape), whose buffers are its operands' and its result's. -/
theorem ops_part1_sub : (ops_part1 : List (HloOp τ sig (Elt F))).Forall fun op => op.bufs ⊆ tcRefs τ sig := by
  simp only [List.Forall, nullary_bufs_sub, unary_bufs_sub, binary_bufs_sub, ternary_bufs_sub, reshape_bufs_sub, and_self]

set_option maxRecDepth 8192 in
/-- Every operation of the window determines what it writes (none allocates a buffer with unspecified contents): by
    cases on which entry of the list it is. -/
theorem ops_part1_fresh : ∀ op ∈ (ops_part1 : List (HloOp τ sig (Elt F))), op.fresh = ∅ := by
  intro _ h
  repeat (cases h with | head => rfl | tail _ h => ?_)
  exact nomatch h

end Cert.ReferenceIdeal.RefRun

end
-- ==== Proof.RefOps2.lean ====
/- Window 2 of the reference program's @main as the list of its 78 host operations, in order: each entry is the
   printed line's operation; a call of the leaky-ReLU function stands for the seven operations of its body (the zero
   constant, its broadcast, the comparison x ≥ 0, the slope's conversion and broadcast, the product slope·x, and the
   selection between x and slope·x that the inner call makes), over the call's own buffers. -/
import proofs.«154327_j3710851744111_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of window 2, in order. -/
abbrev ops_part2 : List (HloOp τ sig (Elt F)) :=
  [ binary main_v109 main_v97 main_v110 ((fun l r => Host.dotGeneral dot_S262144x64_S64x64_S262144x64_1_0_0_1_n_n none l r) : (⟨S262144x64, .f32⟩ : BufTy).Contents (Elt F) → (⟨S64x64, .f32⟩ : BufTy).Contents (Elt F) → (⟨S262144x64, .f32⟩ : BufTy).Contents (Elt F)),
    unary main_v99 main_v111 (broadcastInDim S1x64 ![1] bcast_S64_S1x64_1 : (⟨S64, .f32⟩ : BufTy).Contents (Elt F) → (⟨S1x64, .f32⟩ : BufTy).Contents (Elt F)),
    unary main_v111 main_v112 (broadcastInDim S262144x64 ![0, 1] bcast_S1x64_S262144x64_0_1 : (⟨S1x64, .f32⟩ : BufTy).Contents (Elt F) → (⟨S262144x64, .f32⟩ : BufTy).Contents (Elt F)),
    binary main_v110 main_v112 main_v113 (addf : (⟨S262144x64, .f32⟩ : BufTy).Contents (Elt F) → (⟨S262144x64, .f32⟩ : BufTy).Contents (Elt F) → (⟨S262144x64, .f32⟩ : BufTy).Contents (Elt F)),
    unary main_v87 main_v114 (Host.exp : (⟨S262144x64, .f32⟩ : BufTy).Contents (Elt F) → (⟨S262144x64, .f32⟩ : BufTy).Contents (Elt F)),
    binary main_v58 main_v114 main_v115 (mulf : (⟨S262144x64, .f32⟩ : BufTy).Contents (Elt F) → (⟨S262144x64, .f32⟩ : BufTy).Contents (Elt F) → (⟨S262144x64, .f32⟩ : BufTy).Contents (Elt F)),
    binary main_v115 main_v113 main_v116 (addf : (⟨S262144x64, .f32⟩ : BufTy).Contents (Elt F) → (⟨S262144x64, .f32⟩ : BufTy).Contents (Elt F) → (⟨S262144x64, .f32⟩ : BufTy).Contents (Elt F)),
    nullary main_cst_9 (constant S_ .f32 0x00000000#32),
    binary main_v87 main_cst_9 main_v117 ((fun x v => Host.reduceAdd x v reducesTo_S262144x64_S262144_d1 h_S_) : (⟨S262144x64, .f32⟩ : BufTy).Contents (Elt F) → (⟨S_, .f32⟩ : BufTy).Contents (Elt F) → (⟨S262144, .f32⟩ : BufTy).Contents (Elt F)),
    binary main_v60 main_v117 main_v118 (addf : (⟨S262144, .f32⟩ : BufTy).Contents (Elt F) → (⟨S262144, .f32⟩ : BufTy).Contents (Elt F) → (⟨S262144, .f32⟩ : BufTy).Contents (Elt F)),
    unary main_arg1 main_v119 ((extractStridedSlice S1x64x64 ![2, 0, 0] · slices_S5x64x64_S1x64x64_2_0_0) : (⟨S5x64x64, .f32⟩ : BufTy).Contents (Elt F) → (⟨S1x64x64, .f32⟩ : BufTy).Contents (Elt F)),
    reshape main_v119 main_v120 rfl shapeCasts_S1x64x64_S64x64,
    unary main_arg2 main_v121 ((extractStridedSlice S1x64 ![2, 0] · slices_S5x64_S1x64_2_0) : (⟨S5x64, .f32⟩ : BufTy).Contents (Elt F) → (⟨S1x64, .f32⟩ : BufTy).Contents (Elt F)),
    reshape main_v121 main_v122 rfl shapeCasts_S1x64_S64,
    unary main_arg3 main_v123 ((extractStridedSlice S1x64x64 ![2, 0, 0] · slices_S5x64x64_S1x64x64_2_0_0) : (⟨S5x64x64, .f32⟩ : BufTy).Contents (Elt F) → (⟨S1x64x64, .f32⟩ : BufTy).Contents (Elt F)),
    reshape main_v123 main_v124 rfl shapeCasts_S1x64x64_S64x64,
    unary main_arg4 main_v125 ((extractStridedSlice S1x64 ![2, 0] · slices_S5x64_S1x64_2_0) : (⟨S5x64, .f32⟩ : BufTy).Contents (Elt F) → (⟨S1x64, .f32⟩ : BufTy).Contents (Elt F)),
    reshape main_v125 main_v126 rfl shapeCasts_S1x64_S64,
    unary main_arg5 main_v127 ((extractStridedSlice S1x64x64 ![2, 0, 0] · slices_S5x64x64_S1x64x64_2_0_0) : (⟨S5x64x64, .f32⟩ : BufTy).Contents (Elt F) → (⟨S1x64x64, .f32⟩ : BufTy).Contents (Elt F)),
    reshape main_v127 main_v128 rfl shapeCasts_S1x64x64_S64x64,
    unary main_arg6 main_v129 ((extractStridedSlice S1x64 ![2, 0] · slices_S5x64_S1x64_2_0) : (⟨S5x64, .f32⟩ : BufTy).Contents (Elt F) → (⟨S1x64, .f32⟩ : BufTy).Contents (Elt F)),
    reshape main_v129 main_v130 rfl shapeCasts_S1x64_S64,
    binary main_v0 main_v120 main_v131 ((fun l r => Host.dotGeneral dot_S262144x64_S64x64_S262144x64_1_0_0_1_n_n none l r) : (⟨S262144x64, .f32⟩ : BufTy).Contents (Elt F) → (⟨S64x64, .f32⟩ : BufTy).Contents (Elt F) → (⟨S262144x64, .f32⟩ : BufTy).Contents (Elt F)),
    unary main_v122 main_v132 (broadcastInDim S1x64 ![1] bcast_S64_S1x64_1 : (⟨S64, .f32⟩ : BufTy).Contents (Elt F) → (⟨S1x64, .f32⟩ : BufTy).Contents (Elt F)),
    unary main_v132 main_v133 (broadcastInDim S262144x64 ![0, 1] bcast_S1x64_S262144x64_0_1 : (⟨S1x64, .f32⟩ : BufTy).Contents (Elt F) → (⟨S262144x64, .f32⟩ : BufTy).Contents (Elt F)),
    binary main_v131 main_v133 main_v134 (addf : (⟨S262144x64, .f32⟩ : BufTy).Contents (Elt F) → (⟨S262144x64, .f32⟩ : BufTy).Contents (Elt F) → (⟨S262144x64, .f32⟩ : BufTy).Contents (Elt F)),
    nullary main_cst_10 (constant S_ .f32 0x3C23D70A#32),
    TRef.nullary main_call8.cst (constant S_ .f32 0x00000000#32),
    TRef.unary main_call8.cst main_call8.v0 (broadcastInDim S262144x64 ![] bcast_S_S262144x64),
    TRef.binary (.of main_v134 : StableHlo.TRef sig ⟨S262144x64, .f32⟩) main_call8.v0 main_call8.v1 (cmpf .oge),
    TRef.unary (.of main_cst_10 : StableHlo.TRef sig ⟨S_, .f32⟩) main_call8.v2 id,
    TRef.unary main_call8.v2 main_call8.v3 (broadcastInDim S262144x64 ![] bcast_S_S262144x64),
    TRef.binary main_call8.v3 (.of main_v134 : StableHlo.TRef sig ⟨S262144x64, .f32⟩) main_call8.v4 mulf,
    TRef.ternary main_call8.v1 (.of main_v134 : StableHlo.TRef sig ⟨S262144x64, .f32⟩) main_call8.v4 main_call8.call0.v0 select,
    binary main_v135 main_v124 main_v136 ((fun l r => Host.dotGeneral dot_S262144x64_S64x64_S262144x64_1_0_0_1_n_n none l r) : (⟨S262144x64, .f32⟩ : BufTy).Contents (Elt F) → (⟨S64x64, .f32⟩ : BufTy).Contents (Elt F) → (⟨S262144x64, .f32⟩ : BufTy).Contents (Elt F)),
    unary main_v126 main_v137 (broadcastInDim S1x64 ![1] bcast_S64_S1x64_1 : (⟨S64, .f32⟩ : BufTy).Contents (Elt F) → (⟨S1x64, .f32⟩ : BufTy).Contents (Elt F)),
    unary main_v137 main_v138 (broadcastInDim S262144x64 ![0, 1] bcast_S1x64_S262144x64_0_1 : (⟨S1x64, .f32⟩ : BufTy).Contents (Elt F) → (⟨S262144x64, .f32⟩ : BufTy).Contents (Elt F)),
    binary main_v136 main_v138 main_v139 (addf : (⟨S262144x64, .f32⟩ : BufTy).Contents (Elt F) → (⟨S262144x64, .f32⟩ : BufTy).Contents (Elt F) → (⟨S262144x64, .f32⟩ : BufTy).Contents (Elt F)),
    nullary main_cst_11 (constant S_ .f32 0x3C23D70A#32),
    TRef.nullary main_call9.cst (constant S_ .f32 0x00000000#32),
    TRef.unary main_call9.cst main_call9.v0 (broadcastInDim S262144x64 ![] bcast_S_S262144x64),
    TRef.binary (.of main_v139 : StableHlo.TRef sig ⟨S262144x64, .f32⟩) main_call9.v0 main_call9.v1 (cmpf .oge),
    TRef.unary (.of main_cst_11 : StableHlo.TRef sig ⟨S_, .f32⟩) main_call9.v2 id,
    TRef.unary main_call9.v2 main_call9.v3 (broadcastInDim S262144x64 ![] bcast_S_S262144x64),
    TRef.binary main_call9.v3 (.of main_v139 : StableHlo.TRef sig ⟨S262144x64, .f32⟩) main_call9.v4 mulf,
    TRef.ternary main_call9.v1 (.of main_v139 : StableHlo.TRef sig ⟨S262144x64, .f32⟩) main_call9.v4 main_call9.call0.v0 select,
    binary main_v140 main_v128 main_v141 ((fun l r => Host.dotGeneral dot_S262144x64_S64x64_S262144x64_1_0_0_1_n_n none l r) : (⟨S262144x64, .f32⟩ : BufTy).Contents (Elt F) → (⟨S64x64, .f32⟩ : BufTy).Contents (Elt F) → (⟨S262144x64, .f32⟩ : BufTy).Contents (Elt F)),
    unary main_v130 main_v142 (broadcastInDim S1x64 ![1] bcast_S64_S1x64_1 : (⟨S64, .f32⟩ : BufTy).Contents (Elt F) → (⟨S1x64, .f32⟩ : BufTy).Contents (Elt F)),
    unary main_v142 main_v143 (broadcastInDim S262144x64 ![0, 1] bcast_S1x64_S262144x64_0_1 : (⟨S1x64, .f32⟩ : BufTy).Contents (Elt F) → (⟨S262144x64, .f32⟩ : BufTy).Contents (Elt F)),
    binary main_v141 main_v143 main_v144 (addf : (⟨S262144x64, .f32⟩ : BufTy).Contents (Elt F) → (⟨S262144x64, .f32⟩ : BufTy).Contents (Elt F) → (⟨S262144x64, .f32⟩ : BufTy).Contents (Elt F)),
    unary main_v144 main_v145 (Host.tanh : (⟨S262144x64, .f32⟩ : BufTy).Contents (Elt F) → (⟨S262144x64, .f32⟩ : BufTy).Contents (Elt F)),
    unary main_arg7 main_v146 ((extractStridedSlice S1x64x64 ![2, 0, 0] · slices_S5x64x64_S1x64x64_2_0_0) : (⟨S5x64x64, .f32⟩ : BufTy).Contents (Elt F) → (⟨S1x64x64, .f32⟩ : BufTy).Contents (Elt F)),
    reshape main_v146 main_v147 rfl shapeCasts_S1x64x64_S64x64,
    unary main_arg8 main_v148 ((extractStridedSlice S1x64 ![2, 0] · slices_S5x64_S1x64_2_0) : (⟨S5x64, .f32⟩ : BufTy).Contents (Elt F) → (⟨S1x64, .f32⟩ : BufTy).Contents (Elt F)),
    reshape main_v148 main_v149 rfl shapeCasts_S1x64_S64,
    unary main_arg9 main_v150 ((extractStridedSlice S1x64x64 ![2, 0, 0] · slices_S5x64x64_S1x64x64_2_0_0) : (⟨S5x64x64, .f32⟩ : BufTy).Contents (Elt F) → (⟨S1x64x64, .f32⟩ : BufTy).Contents (Elt F)),
    reshape main_v150 main_v151 rfl shapeCasts_S1x64x64_S64x64,
    unary main_arg10 main_v152 ((extractStridedSlice S1x64 ![2, 0] · slices_S5x64_S1x64_2_0) : (⟨S5x64, .f32⟩ : BufTy).Contents (Elt F) → (⟨S1x64, .f32⟩ : BufTy).Contents (Elt F)),
    reshape main_v152 main_v153 rfl shapeCasts_S1x64_S64,
    unary main_arg11 main_v154 ((extractStridedSlice S1x64x64 ![2, 0, 0] · slices_S5x64x64_S1x64x64_2_0_0) : (⟨S5x64x64, .f32⟩ : BufTy).Contents (Elt F) → (⟨S1x64x64, .f32⟩ : BufTy).Contents (Elt F)),
    reshape main_v154 main_v155 rfl shapeCasts_S1x64x64_S64x64,
    unary main_arg12 main_v156 ((extractStridedSlice S1x64 ![2, 0] · slices_S5x64_S1x64_2_0) : (⟨S5x64, .f32⟩ : BufTy).Contents (Elt F) → (⟨S1x64, .f32⟩ : BufTy).Contents (Elt F)),
    reshape main_v156 main_v157 rfl shapeCasts_S1x64_S64,
    binary main_v0 main_v147 main_v158 ((fun l r => Host.dotGeneral dot_S262144x64_S64x64_S262144x64_1_0_0_1_n_n none l r) : (⟨S262144x64, .f32⟩ : BufTy).Contents (Elt F) → (⟨S64x64, .f32⟩ : BufTy).Contents (Elt F) → (⟨S262144x64, .f32⟩ : BufTy).Contents (Elt F)),
    unary main_v149 main_v159 (broadcastInDim S1x64 ![1] bcast_S64_S1x64_1 : (⟨S64, .f32⟩ : BufTy).Contents (Elt F) → (⟨S1x64, .f32⟩ : BufTy).Contents (Elt F)),
    unary main_v159 main_v160 (broadcastInDim S262144x64 ![0, 1] bcast_S1x64_S262144x64_0_1 : (⟨S1x64, .f32⟩ : BufTy).Contents (Elt F) → (⟨S262144x64, .f32⟩ : BufTy).Contents (Elt F)),
    binary main_v158 main_v160 main_v161 (addf : (⟨S262144x64, .f32⟩ : BufTy).Contents (Elt F) → (⟨S262144x64, .f32⟩ : BufTy).Contents (Elt F) → (⟨S262144x64, .f32⟩ : BufTy).Contents (Elt F)),
    nullary main_cst_12 (constant S_ .f32 0x3C23D70A#32),
    TRef.nullary main_call10.cst (constant S_ .f32 0x00000000#32),
    TRef.unary main_call10.cst main_call10.v0 (broadcastInDim S262144x64 ![] bcast_S_S262144x64),
    TRef.binary (.of main_v161 : StableHlo.TRef sig ⟨S262144x64, .f32⟩) main_call10.v0 main_call10.v1 (cmpf .oge),
    TRef.unary (.of main_cst_12 : StableHlo.TRef sig ⟨S_, .f32⟩) main_call10.v2 id,
    TRef.unary main_call10.v2 main_call10.v3 (broadcastInDim S262144x64 ![] bcast_S_S262144x64),
    TRef.binary main_call10.v3 (.of main_v161 : StableHlo.TRef sig ⟨S262144x64, .f32⟩) main_call10.v4 mulf,
    TRef.ternary main_call10.v1 (.of main_v161 : StableHlo.TRef sig ⟨S262144x64, .f32⟩) main_call10.v4 main_call10.call0.v0 select,
    binary main_v162 main_v151 main_v163 ((fun l r => Host.dotGeneral dot_S262144x64_S64x64_S262144x64_1_0_0_1_n_n none l r) : (⟨S262144x64, .f32⟩ : BufTy).Contents (Elt F) → (⟨S64x64, .f32⟩ : BufTy).Contents (Elt F) → (⟨S262144x64, .f32⟩ : BufTy).Contents (Elt F)),
    unary main_v153 main_v164 (broadcastInDim S1x64 ![1] bcast_S64_S1x64_1 : (⟨S64, .f32⟩ : BufTy).Contents (Elt F) → (⟨S1x64, .f32⟩ : BufTy).Contents (Elt F)),
    unary main_v164 main_v165 (broadcastInDim S262144x64 ![0, 1] bcast_S1x64_S262144x64_0_1 : (⟨S1x64, .f32⟩ : BufTy).Contents (Elt F) → (⟨S262144x64, .f32⟩ : BufTy).Contents (Elt F)) ]

end Cert.ReferenceIdeal.RefRun

end
-- ==== Proof.RefWin2.lean ====
/- Window 2 of the reference program's @main is the straight line of its listed operations; each listed operation
   reads and writes TensorCore buffers only, and each determines the contents it writes. -/
import proofs.«154327_j3710851744111_2_alg».proof.Proof.RefOps2

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
/-- The window is that line. A call of the leaky-ReLU function is its body's six operations followed by the inner
    call's selection; with both bodies unfolded at each call and the sequencing reassociated (a step's continuation
    bound once more, a pure return bound away), the two sides are the same chain of steps. -/
theorem main_part2_eq (c : Dev nD) : main_part2 (F := F) c = seq ops_part2 := by
  simp only [main_part2, fn_leaky_relu.body, fn_where.body, seq, bind_assoc, pure_bind] <;> rfl

set_option maxRecDepth 8192 in
/-- Every operation of the window touches TensorCore references only: each is one of the builders (no operand, one,
    two, three, or a reshape), whose buffers are its operands' and its result's. -/
theorem ops_part2_sub : (ops_part2 : List (HloOp τ sig (Elt F))).Forall fun op => op.bufs ⊆ tcRefs τ sig := by
  simp only [List.Forall, nullary_bufs_sub, unary_bufs_sub, binary_bufs_sub, ternary_bufs_sub, reshape_bufs_sub, and_self]

set_option maxRecDepth 8192 in
/-- Every operation of the window determines what it writes (none allocates a buffer with unspecified contents): by
    cases on which entry of the list it is. -/
theorem ops_part2_fresh : ∀ op ∈ (ops_part2 : List (HloOp τ sig (Elt F))), op.fresh = ∅ := by
  intro _ h
  repeat (cases h with | head => rfl | tail _ h => ?_)
  exact nomatch h

end Cert.ReferenceIdeal.RefRun

end
-- ==== Proof.RefOps3.lean ====
/- Window 3 of the reference program's @main as the list of its 84 host operations, in order: each entry is the
   printed line's operation; a call of the leaky-ReLU function stands for the seven operations of its body (the zero
   constant, its broadcast, the comparison x ≥ 0, the slope's conversion and broadcast, the product slope·x, and the
   selection between x and slope·x that the inner call makes), over the call's own buffers. -/
import proofs.«154327_j3710851744111_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of window 3, in order. -/
abbrev ops_part3 : List (HloOp τ sig (Elt F)) :=
  [ binary main_v163 main_v165 main_v166 (addf : (⟨S262144x64, .f32⟩ : BufTy).Contents (Elt F) → (⟨S262144x64, .f32⟩ : BufTy).Contents (Elt F) → (⟨S262144x64, .f32⟩ : BufTy).Contents (Elt F)),
    nullary main_cst_13 (constant S_ .f32 0x3C23D70A#32),
    TRef.nullary main_call11.cst (constant S_ .f32 0x00000000#32),
    TRef.unary main_call11.cst main_call11.v0 (broadcastInDim S262144x64 ![] bcast_S_S262144x64),
    TRef.binary (.of main_v166 : StableHlo.TRef sig ⟨S262144x64, .f32⟩) main_call11.v0 main_call11.v1 (cmpf .oge),
    TRef.unary (.of main_cst_13 : StableHlo.TRef sig ⟨S_, .f32⟩) main_call11.v2 id,
    TRef.unary main_call11.v2 main_call11.v3 (broadcastInDim S262144x64 ![] bcast_S_S262144x64),
    TRef.binary main_call11.v3 (.of main_v166 : StableHlo.TRef sig ⟨S262144x64, .f32⟩) main_call11.v4 mulf,
    TRef.ternary main_call11.v1 (.of main_v166 : StableHlo.TRef sig ⟨S262144x64, .f32⟩) main_call11.v4 main_call11.call0.v0 select,
    binary main_v167 main_v155 main_v168 ((fun l r => Host.dotGeneral dot_S262144x64_S64x64_S262144x64_1_0_0_1_n_n none l r) : (⟨S262144x64, .f32⟩ : BufTy).Contents (Elt F) → (⟨S64x64, .f32⟩ : BufTy).Contents (Elt F) → (⟨S262144x64, .f32⟩ : BufTy).Contents (Elt F)),
    unary main_v157 main_v169 (broadcastInDim S1x64 ![1] bcast_S64_S1x64_1 : (⟨S64, .f32⟩ : BufTy).Contents (Elt F) → (⟨S1x64, .f32⟩ : BufTy).Contents (Elt F)),
    unary main_v169 main_v170 (broadcastInDim S262144x64 ![0, 1] bcast_S1x64_S262144x64_0_1 : (⟨S1x64, .f32⟩ : BufTy).Contents (Elt F) → (⟨S262144x64, .f32⟩ : BufTy).Contents (Elt F)),
    binary main_v168 main_v170 main_v171 (addf : (⟨S262144x64, .f32⟩ : BufTy).Contents (Elt F) → (⟨S262144x64, .f32⟩ : BufTy).Contents (Elt F) → (⟨S262144x64, .f32⟩ : BufTy).Contents (Elt F)),
    unary main_v145 main_v172 (Host.exp : (⟨S262144x64, .f32⟩ : BufTy).Contents (Elt F) → (⟨S262144x64, .f32⟩ : BufTy).Contents (Elt F)),
    binary main_v116 main_v172 main_v173 (mulf : (⟨S262144x64, .f32⟩ : BufTy).Contents (Elt F) → (⟨S262144x64, .f32⟩ : BufTy).Contents (Elt F) → (⟨S262144x64, .f32⟩ : BufTy).Contents (Elt F)),
    binary main_v173 main_v171 main_v174 (addf : (⟨S262144x64, .f32⟩ : BufTy).Contents (Elt F) → (⟨S262144x64, .f32⟩ : BufTy).Contents (Elt F) → (⟨S262144x64, .f32⟩ : BufTy).Contents (Elt F)),
    nullary main_cst_14 (constant S_ .f32 0x00000000#32),
    binary main_v145 main_cst_14 main_v175 ((fun x v => Host.reduceAdd x v reducesTo_S262144x64_S262144_d1 h_S_) : (⟨S262144x64, .f32⟩ : BufTy).Contents (Elt F) → (⟨S_, .f32⟩ : BufTy).Contents (Elt F) → (⟨S262144, .f32⟩ : BufTy).Contents (Elt F)),
    binary main_v118 main_v175 main_v176 (addf : (⟨S262144, .f32⟩ : BufTy).Contents (Elt F) → (⟨S262144, .f32⟩ : BufTy).Contents (Elt F) → (⟨S262144, .f32⟩ : BufTy).Contents (Elt F)),
    unary main_arg1 main_v177 ((extractStridedSlice S1x64x64 ![3, 0, 0] · slices_S5x64x64_S1x64x64_3_0_0) : (⟨S5x64x64, .f32⟩ : BufTy).Contents (Elt F) → (⟨S1x64x64, .f32⟩ : BufTy).Contents (Elt F)),
    reshape main_v177 main_v178 rfl shapeCasts_S1x64x64_S64x64,
    unary main_arg2 main_v179 ((extractStridedSlice S1x64 ![3, 0] · slices_S5x64_S1x64_3_0) : (⟨S5x64, .f32⟩ : BufTy).Contents (Elt F) → (⟨S1x64, .f32⟩ : BufTy).Contents (Elt F)),
    reshape main_v179 main_v180 rfl shapeCasts_S1x64_S64,
    unary main_arg3 main_v181 ((extractStridedSlice S1x64x64 ![3, 0, 0] · slices_S5x64x64_S1x64x64_3_0_0) : (⟨S5x64x64, .f32⟩ : BufTy).Contents (Elt F) → (⟨S1x64x64, .f32⟩ : BufTy).Contents (Elt F)),
    reshape main_v181 main_v182 rfl shapeCasts_S1x64x64_S64x64,
    unary main_arg4 main_v183 ((extractStridedSlice S1x64 ![3, 0] · slices_S5x64_S1x64_3_0) : (⟨S5x64, .f32⟩ : BufTy).Contents (Elt F) → (⟨S1x64, .f32⟩ : BufTy).Contents (Elt F)),
    reshape main_v183 main_v184 rfl shapeCasts_S1x64_S64,
    unary main_arg5 main_v185 ((extractStridedSlice S1x64x64 ![3, 0, 0] · slices_S5x64x64_S1x64x64_3_0_0) : (⟨S5x64x64, .f32⟩ : BufTy).Contents (Elt F) → (⟨S1x64x64, .f32⟩ : BufTy).Contents (Elt F)),
    reshape main_v185 main_v186 rfl shapeCasts_S1x64x64_S64x64,
    unary main_arg6 main_v187 ((extractStridedSlice S1x64 ![3, 0] · slices_S5x64_S1x64_3_0) : (⟨S5x64, .f32⟩ : BufTy).Contents (Elt F) → (⟨S1x64, .f32⟩ : BufTy).Contents (Elt F)),
    reshape main_v187 main_v188 rfl shapeCasts_S1x64_S64,
    binary main_v0 main_v178 main_v189 ((fun l r => Host.dotGeneral dot_S262144x64_S64x64_S262144x64_1_0_0_1_n_n none l r) : (⟨S262144x64, .f32⟩ : BufTy).Contents (Elt F) → (⟨S64x64, .f32⟩ : BufTy).Contents (Elt F) → (⟨S262144x64, .f32⟩ : BufTy).Contents (Elt F)),
    unary main_v180 main_v190 (broadcastInDim S1x64 ![1] bcast_S64_S1x64_1 : (⟨S64, .f32⟩ : BufTy).Contents (Elt F) → (⟨S1x64, .f32⟩ : BufTy).Contents (Elt F)),
    unary main_v190 main_v191 (broadcastInDim S262144x64 ![0, 1] bcast_S1x64_S262144x64_0_1 : (⟨S1x64, .f32⟩ : BufTy).Contents (Elt F) → (⟨S262144x64, .f32⟩ : BufTy).Contents (Elt F)),
    binary main_v189 main_v191 main_v192 (addf : (⟨S262144x64, .f32⟩ : BufTy).Contents (Elt F) → (⟨S262144x64, .f32⟩ : BufTy).Contents (Elt F) → (⟨S262144x64, .f32⟩ : BufTy).Contents (Elt F)),
    nullary main_cst_15 (constant S_ .f32 0x3C23D70A#32),
    TRef.nullary main_call12.cst (constant S_ .f32 0x00000000#32),
    TRef.unary main_call12.cst main_call12.v0 (broadcastInDim S262144x64 ![] bcast_S_S262144x64),
    TRef.binary (.of main_v192 : StableHlo.TRef sig ⟨S262144x64, .f32⟩) main_call12.v0 main_call12.v1 (cmpf .oge),
    TRef.unary (.of main_cst_15 : StableHlo.TRef sig ⟨S_, .f32⟩) main_call12.v2 id,
    TRef.unary main_call12.v2 main_call12.v3 (broadcastInDim S262144x64 ![] bcast_S_S262144x64),
    TRef.binary main_call12.v3 (.of main_v192 : StableHlo.TRef sig ⟨S262144x64, .f32⟩) main_call12.v4 mulf,
    TRef.ternary main_call12.v1 (.of main_v192 : StableHlo.TRef sig ⟨S262144x64, .f32⟩) main_call12.v4 main_call12.call0.v0 select,
    binary main_v193 main_v182 main_v194 ((fun l r => Host.dotGeneral dot_S262144x64_S64x64_S262144x64_1_0_0_1_n_n none l r) : (⟨S262144x64, .f32⟩ : BufTy).Contents (Elt F) → (⟨S64x64, .f32⟩ : BufTy).Contents (Elt F) → (⟨S262144x64, .f32⟩ : BufTy).Contents (Elt F)),
    unary main_v184 main_v195 (broadcastInDim S1x64 ![1] bcast_S64_S1x64_1 : (⟨S64, .f32⟩ : BufTy).Contents (Elt F) → (⟨S1x64, .f32⟩ : BufTy).Contents (Elt F)),
    unary main_v195 main_v196 (broadcastInDim S262144x64 ![0, 1] bcast_S1x64_S262144x64_0_1 : (⟨S1x64, .f32⟩ : BufTy).Contents (Elt F) → (⟨S262144x64, .f32⟩ : BufTy).Contents (Elt F)),
    binary main_v194 main_v196 main_v197 (addf : (⟨S262144x64, .f32⟩ : BufTy).Contents (Elt F) → (⟨S262144x64, .f32⟩ : BufTy).Contents (Elt F) → (⟨S262144x64, .f32⟩ : BufTy).Contents (Elt F)),
    nullary main_cst_16 (constant S_ .f32 0x3C23D70A#32),
    TRef.nullary main_call13.cst (constant S_ .f32 0x00000000#32),
    TRef.unary main_call13.cst main_call13.v0 (broadcastInDim S262144x64 ![] bcast_S_S262144x64),
    TRef.binary (.of main_v197 : StableHlo.TRef sig ⟨S262144x64, .f32⟩) main_call13.v0 main_call13.v1 (cmpf .oge),
    TRef.unary (.of main_cst_16 : StableHlo.TRef sig ⟨S_, .f32⟩) main_call13.v2 id,
    TRef.unary main_call13.v2 main_call13.v3 (broadcastInDim S262144x64 ![] bcast_S_S262144x64),
    TRef.binary main_call13.v3 (.of main_v197 : StableHlo.TRef sig ⟨S262144x64, .f32⟩) main_call13.v4 mulf,
    TRef.ternary main_call13.v1 (.of main_v197 : StableHlo.TRef sig ⟨S262144x64, .f32⟩) main_call13.v4 main_call13.call0.v0 select,
    binary main_v198 main_v186 main_v199 ((fun l r => Host.dotGeneral dot_S262144x64_S64x64_S262144x64_1_0_0_1_n_n none l r) : (⟨S262144x64, .f32⟩ : BufTy).Contents (Elt F) → (⟨S64x64, .f32⟩ : BufTy).Contents (Elt F) → (⟨S262144x64, .f32⟩ : BufTy).Contents (Elt F)),
    unary main_v188 main_v200 (broadcastInDim S1x64 ![1] bcast_S64_S1x64_1 : (⟨S64, .f32⟩ : BufTy).Contents (Elt F) → (⟨S1x64, .f32⟩ : BufTy).Contents (Elt F)),
    unary main_v200 main_v201 (broadcastInDim S262144x64 ![0, 1] bcast_S1x64_S262144x64_0_1 : (⟨S1x64, .f32⟩ : BufTy).Contents (Elt F) → (⟨S262144x64, .f32⟩ : BufTy).Contents (Elt F)),
    binary main_v199 main_v201 main_v202 (addf : (⟨S262144x64, .f32⟩ : BufTy).Contents (Elt F) → (⟨S262144x64, .f32⟩ : BufTy).Contents (Elt F) → (⟨S262144x64, .f32⟩ : BufTy).Contents (Elt F)),
    unary main_v202 main_v203 (Host.tanh : (⟨S262144x64, .f32⟩ : BufTy).Contents (Elt F) → (⟨S262144x64, .f32⟩ : BufTy).Contents (Elt F)),
    unary main_arg7 main_v204 ((extractStridedSlice S1x64x64 ![3, 0, 0] · slices_S5x64x64_S1x64x64_3_0_0) : (⟨S5x64x64, .f32⟩ : BufTy).Contents (Elt F) → (⟨S1x64x64, .f32⟩ : BufTy).Contents (Elt F)),
    reshape main_v204 main_v205 rfl shapeCasts_S1x64x64_S64x64,
    unary main_arg8 main_v206 ((extractStridedSlice S1x64 ![3, 0] · slices_S5x64_S1x64_3_0) : (⟨S5x64, .f32⟩ : BufTy).Contents (Elt F) → (⟨S1x64, .f32⟩ : BufTy).Contents (Elt F)),
    reshape main_v206 main_v207 rfl shapeCasts_S1x64_S64,
    unary main_arg9 main_v208 ((extractStridedSlice S1x64x64 ![3, 0, 0] · slices_S5x64x64_S1x64x64_3_0_0) : (⟨S5x64x64, .f32⟩ : BufTy).Contents (Elt F) → (⟨S1x64x64, .f32⟩ : BufTy).Contents (Elt F)),
    reshape main_v208 main_v209 rfl shapeCasts_S1x64x64_S64x64,
    unary main_arg10 main_v210 ((extractStridedSlice S1x64 ![3, 0] · slices_S5x64_S1x64_3_0) : (⟨S5x64, .f32⟩ : BufTy).Contents (Elt F) → (⟨S1x64, .f32⟩ : BufTy).Contents (Elt F)),
    reshape main_v210 main_v211 rfl shapeCasts_S1x64_S64,
    unary main_arg11 main_v212 ((extractStridedSlice S1x64x64 ![3, 0, 0] · slices_S5x64x64_S1x64x64_3_0_0) : (⟨S5x64x64, .f32⟩ : BufTy).Contents (Elt F) → (⟨S1x64x64, .f32⟩ : BufTy).Contents (Elt F)),
    reshape main_v212 main_v213 rfl shapeCasts_S1x64x64_S64x64,
    unary main_arg12 main_v214 ((extractStridedSlice S1x64 ![3, 0] · slices_S5x64_S1x64_3_0) : (⟨S5x64, .f32⟩ : BufTy).Contents (Elt F) → (⟨S1x64, .f32⟩ : BufTy).Contents (Elt F)),
    reshape main_v214 main_v215 rfl shapeCasts_S1x64_S64,
    binary main_v0 main_v205 main_v216 ((fun l r => Host.dotGeneral dot_S262144x64_S64x64_S262144x64_1_0_0_1_n_n none l r) : (⟨S262144x64, .f32⟩ : BufTy).Contents (Elt F) → (⟨S64x64, .f32⟩ : BufTy).Contents (Elt F) → (⟨S262144x64, .f32⟩ : BufTy).Contents (Elt F)),
    unary main_v207 main_v217 (broadcastInDim S1x64 ![1] bcast_S64_S1x64_1 : (⟨S64, .f32⟩ : BufTy).Contents (Elt F) → (⟨S1x64, .f32⟩ : BufTy).Contents (Elt F)),
    unary main_v217 main_v218 (broadcastInDim S262144x64 ![0, 1] bcast_S1x64_S262144x64_0_1 : (⟨S1x64, .f32⟩ : BufTy).Contents (Elt F) → (⟨S262144x64, .f32⟩ : BufTy).Contents (Elt F)),
    binary main_v216 main_v218 main_v219 (addf : (⟨S262144x64, .f32⟩ : BufTy).Contents (Elt F) → (⟨S262144x64, .f32⟩ : BufTy).Contents (Elt F) → (⟨S262144x64, .f32⟩ : BufTy).Contents (Elt F)),
    nullary main_cst_17 (constant S_ .f32 0x3C23D70A#32),
    TRef.nullary main_call14.cst (constant S_ .f32 0x00000000#32),
    TRef.unary main_call14.cst main_call14.v0 (broadcastInDim S262144x64 ![] bcast_S_S262144x64),
    TRef.binary (.of main_v219 : StableHlo.TRef sig ⟨S262144x64, .f32⟩) main_call14.v0 main_call14.v1 (cmpf .oge),
    TRef.unary (.of main_cst_17 : StableHlo.TRef sig ⟨S_, .f32⟩) main_call14.v2 id,
    TRef.unary main_call14.v2 main_call14.v3 (broadcastInDim S262144x64 ![] bcast_S_S262144x64),
    TRef.binary main_call14.v3 (.of main_v219 : StableHlo.TRef sig ⟨S262144x64, .f32⟩) main_call14.v4 mulf,
    TRef.ternary main_call14.v1 (.of main_v219 : StableHlo.TRef sig ⟨S262144x64, .f32⟩) main_call14.v4 main_call14.call0.v0 select ]

end Cert.ReferenceIdeal.RefRun

end
-- ==== Proof.RefWin3.lean ====
/- Window 3 of the reference program's @main is the straight line of its listed operations; each listed operation
   reads and writes TensorCore buffers only, and each determines the contents it writes. -/
import proofs.«154327_j3710851744111_2_alg».proof.Proof.RefOps3

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
/-- The window is that line. A call of the leaky-ReLU function is its body's six operations followed by the inner
    call's selection; with both bodies unfolded at each call and the sequencing reassociated (a step's continuation
    bound once more, a pure return bound away), the two sides are the same chain of steps. -/
theorem main_part3_eq (c : Dev nD) : main_part3 (F := F) c = seq ops_part3 := by
  simp only [main_part3, fn_leaky_relu.body, fn_where.body, seq, bind_assoc, pure_bind] <;> rfl

set_option maxRecDepth 8192 in
/-- Every operation of the window touches TensorCore references only: each is one of the builders (no operand, one,
    two, three, or a reshape), whose buffers are its operands' and its result's. -/
theorem ops_part3_sub : (ops_part3 : List (HloOp τ sig (Elt F))).Forall fun op => op.bufs ⊆ tcRefs τ sig := by
  simp only [List.Forall, nullary_bufs_sub, unary_bufs_sub, binary_bufs_sub, ternary_bufs_sub, reshape_bufs_sub, and_self]

set_option maxRecDepth 8192 in
/-- Every operation of the window determines what it writes (none allocates a buffer with unspecified contents): by
    cases on which entry of the list it is. -/
theorem ops_part3_fresh : ∀ op ∈ (ops_part3 : List (HloOp τ sig (Elt F))), op.fresh = ∅ := by
  intro _ h
  repeat (cases h with | head => rfl | tail _ h => ?_)
  exact nomatch h

end Cert.ReferenceIdeal.RefRun

end
-- ==== Proof.RefOps4.lean ====
/- Window 4 of the reference program's @main as the list of its 78 host operations, in order: each entry is the
   printed line's operation; a call of the leaky-ReLU function stands for the seven operations of its body (the zero
   constant, its broadcast, the comparison x ≥ 0, the slope's conversion and broadcast, the product slope·x, and the
   selection between x and slope·x that the inner call makes), over the call's own buffers. -/
import proofs.«154327_j3710851744111_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of window 4, in order. -/
abbrev ops_part4 : List (HloOp τ sig (Elt F)) :=
  [ binary main_v220 main_v209 main_v221 ((fun l r => Host.dotGeneral dot_S262144x64_S64x64_S262144x64_1_0_0_1_n_n none l r) : (⟨S262144x64, .f32⟩ : BufTy).Contents (Elt F) → (⟨S64x64, .f32⟩ : BufTy).Contents (Elt F) → (⟨S262144x64, .f32⟩ : BufTy).Contents (Elt F)),
    unary main_v211 main_v222 (broadcastInDim S1x64 ![1] bcast_S64_S1x64_1 : (⟨S64, .f32⟩ : BufTy).Contents (Elt F) → (⟨S1x64, .f32⟩ : BufTy).Contents (Elt F)),
    unary main_v222 main_v223 (broadcastInDim S262144x64 ![0, 1] bcast_S1x64_S262144x64_0_1 : (⟨S1x64, .f32⟩ : BufTy).Contents (Elt F) → (⟨S262144x64, .f32⟩ : BufTy).Contents (Elt F)),
    binary main_v221 main_v223 main_v224 (addf : (⟨S262144x64, .f32⟩ : BufTy).Contents (Elt F) → (⟨S262144x64, .f32⟩ : BufTy).Contents (Elt F) → (⟨S262144x64, .f32⟩ : BufTy).Contents (Elt F)),
    nullary main_cst_18 (constant S_ .f32 0x3C23D70A#32),
    TRef.nullary main_call15.cst (constant S_ .f32 0x00000000#32),
    TRef.unary main_call15.cst main_call15.v0 (broadcastInDim S262144x64 ![] bcast_S_S262144x64),
    TRef.binary (.of main_v224 : StableHlo.TRef sig ⟨S262144x64, .f32⟩) main_call15.v0 main_call15.v1 (cmpf .oge),
    TRef.unary (.of main_cst_18 : StableHlo.TRef sig ⟨S_, .f32⟩) main_call15.v2 id,
    TRef.unary main_call15.v2 main_call15.v3 (broadcastInDim S262144x64 ![] bcast_S_S262144x64),
    TRef.binary main_call15.v3 (.of main_v224 : StableHlo.TRef sig ⟨S262144x64, .f32⟩) main_call15.v4 mulf,
    TRef.ternary main_call15.v1 (.of main_v224 : StableHlo.TRef sig ⟨S262144x64, .f32⟩) main_call15.v4 main_call15.call0.v0 select,
    binary main_v225 main_v213 main_v226 ((fun l r => Host.dotGeneral dot_S262144x64_S64x64_S262144x64_1_0_0_1_n_n none l r) : (⟨S262144x64, .f32⟩ : BufTy).Contents (Elt F) → (⟨S64x64, .f32⟩ : BufTy).Contents (Elt F) → (⟨S262144x64, .f32⟩ : BufTy).Contents (Elt F)),
    unary main_v215 main_v227 (broadcastInDim S1x64 ![1] bcast_S64_S1x64_1 : (⟨S64, .f32⟩ : BufTy).Contents (Elt F) → (⟨S1x64, .f32⟩ : BufTy).Contents (Elt F)),
    unary main_v227 main_v228 (broadcastInDim S262144x64 ![0, 1] bcast_S1x64_S262144x64_0_1 : (⟨S1x64, .f32⟩ : BufTy).Contents (Elt F) → (⟨S262144x64, .f32⟩ : BufTy).Contents (Elt F)),
    binary main_v226 main_v228 main_v229 (addf : (⟨S262144x64, .f32⟩ : BufTy).Contents (Elt F) → (⟨S262144x64, .f32⟩ : BufTy).Contents (Elt F) → (⟨S262144x64, .f32⟩ : BufTy).Contents (Elt F)),
    unary main_v203 main_v230 (Host.exp : (⟨S262144x64, .f32⟩ : BufTy).Contents (Elt F) → (⟨S262144x64, .f32⟩ : BufTy).Contents (Elt F)),
    binary main_v174 main_v230 main_v231 (mulf : (⟨S262144x64, .f32⟩ : BufTy).Contents (Elt F) → (⟨S262144x64, .f32⟩ : BufTy).Contents (Elt F) → (⟨S262144x64, .f32⟩ : BufTy).Contents (Elt F)),
    binary main_v231 main_v229 main_v232 (addf : (⟨S262144x64, .f32⟩ : BufTy).Contents (Elt F) → (⟨S262144x64, .f32⟩ : BufTy).Contents (Elt F) → (⟨S262144x64, .f32⟩ : BufTy).Contents (Elt F)),
    nullary main_cst_19 (constant S_ .f32 0x00000000#32),
    binary main_v203 main_cst_19 main_v233 ((fun x v => Host.reduceAdd x v reducesTo_S262144x64_S262144_d1 h_S_) : (⟨S262144x64, .f32⟩ : BufTy).Contents (Elt F) → (⟨S_, .f32⟩ : BufTy).Contents (Elt F) → (⟨S262144, .f32⟩ : BufTy).Contents (Elt F)),
    binary main_v176 main_v233 main_v234 (addf : (⟨S262144, .f32⟩ : BufTy).Contents (Elt F) → (⟨S262144, .f32⟩ : BufTy).Contents (Elt F) → (⟨S262144, .f32⟩ : BufTy).Contents (Elt F)),
    unary main_arg1 main_v235 ((extractStridedSlice S1x64x64 ![4, 0, 0] · slices_S5x64x64_S1x64x64_4_0_0) : (⟨S5x64x64, .f32⟩ : BufTy).Contents (Elt F) → (⟨S1x64x64, .f32⟩ : BufTy).Contents (Elt F)),
    reshape main_v235 main_v236 rfl shapeCasts_S1x64x64_S64x64,
    unary main_arg2 main_v237 ((extractStridedSlice S1x64 ![4, 0] · slices_S5x64_S1x64_4_0) : (⟨S5x64, .f32⟩ : BufTy).Contents (Elt F) → (⟨S1x64, .f32⟩ : BufTy).Contents (Elt F)),
    reshape main_v237 main_v238 rfl shapeCasts_S1x64_S64,
    unary main_arg3 main_v239 ((extractStridedSlice S1x64x64 ![4, 0, 0] · slices_S5x64x64_S1x64x64_4_0_0) : (⟨S5x64x64, .f32⟩ : BufTy).Contents (Elt F) → (⟨S1x64x64, .f32⟩ : BufTy).Contents (Elt F)),
    reshape main_v239 main_v240 rfl shapeCasts_S1x64x64_S64x64,
    unary main_arg4 main_v241 ((extractStridedSlice S1x64 ![4, 0] · slices_S5x64_S1x64_4_0) : (⟨S5x64, .f32⟩ : BufTy).Contents (Elt F) → (⟨S1x64, .f32⟩ : BufTy).Contents (Elt F)),
    reshape main_v241 main_v242 rfl shapeCasts_S1x64_S64,
    unary main_arg5 main_v243 ((extractStridedSlice S1x64x64 ![4, 0, 0] · slices_S5x64x64_S1x64x64_4_0_0) : (⟨S5x64x64, .f32⟩ : BufTy).Contents (Elt F) → (⟨S1x64x64, .f32⟩ : BufTy).Contents (Elt F)),
    reshape main_v243 main_v244 rfl shapeCasts_S1x64x64_S64x64,
    unary main_arg6 main_v245 ((extractStridedSlice S1x64 ![4, 0] · slices_S5x64_S1x64_4_0) : (⟨S5x64, .f32⟩ : BufTy).Contents (Elt F) → (⟨S1x64, .f32⟩ : BufTy).Contents (Elt F)),
    reshape main_v245 main_v246 rfl shapeCasts_S1x64_S64,
    binary main_v0 main_v236 main_v247 ((fun l r => Host.dotGeneral dot_S262144x64_S64x64_S262144x64_1_0_0_1_n_n none l r) : (⟨S262144x64, .f32⟩ : BufTy).Contents (Elt F) → (⟨S64x64, .f32⟩ : BufTy).Contents (Elt F) → (⟨S262144x64, .f32⟩ : BufTy).Contents (Elt F)),
    unary main_v238 main_v248 (broadcastInDim S1x64 ![1] bcast_S64_S1x64_1 : (⟨S64, .f32⟩ : BufTy).Contents (Elt F) → (⟨S1x64, .f32⟩ : BufTy).Contents (Elt F)),
    unary main_v248 main_v249 (broadcastInDim S262144x64 ![0, 1] bcast_S1x64_S262144x64_0_1 : (⟨S1x64, .f32⟩ : BufTy).Contents (Elt F) → (⟨S262144x64, .f32⟩ : BufTy).Contents (Elt F)),
    binary main_v247 main_v249 main_v250 (addf : (⟨S262144x64, .f32⟩ : BufTy).Contents (Elt F) → (⟨S262144x64, .f32⟩ : BufTy).Contents (Elt F) → (⟨S262144x64, .f32⟩ : BufTy).Contents (Elt F)),
    nullary main_cst_20 (constant S_ .f32 0x3C23D70A#32),
    TRef.nullary main_call16.cst (constant S_ .f32 0x00000000#32),
    TRef.unary main_call16.cst main_call16.v0 (broadcastInDim S262144x64 ![] bcast_S_S262144x64),
    TRef.binary (.of main_v250 : StableHlo.TRef sig ⟨S262144x64, .f32⟩) main_call16.v0 main_call16.v1 (cmpf .oge),
    TRef.unary (.of main_cst_20 : StableHlo.TRef sig ⟨S_, .f32⟩) main_call16.v2 id,
    TRef.unary main_call16.v2 main_call16.v3 (broadcastInDim S262144x64 ![] bcast_S_S262144x64),
    TRef.binary main_call16.v3 (.of main_v250 : StableHlo.TRef sig ⟨S262144x64, .f32⟩) main_call16.v4 mulf,
    TRef.ternary main_call16.v1 (.of main_v250 : StableHlo.TRef sig ⟨S262144x64, .f32⟩) main_call16.v4 main_call16.call0.v0 select,
    binary main_v251 main_v240 main_v252 ((fun l r => Host.dotGeneral dot_S262144x64_S64x64_S262144x64_1_0_0_1_n_n none l r) : (⟨S262144x64, .f32⟩ : BufTy).Contents (Elt F) → (⟨S64x64, .f32⟩ : BufTy).Contents (Elt F) → (⟨S262144x64, .f32⟩ : BufTy).Contents (Elt F)),
    unary main_v242 main_v253 (broadcastInDim S1x64 ![1] bcast_S64_S1x64_1 : (⟨S64, .f32⟩ : BufTy).Contents (Elt F) → (⟨S1x64, .f32⟩ : BufTy).Contents (Elt F)),
    unary main_v253 main_v254 (broadcastInDim S262144x64 ![0, 1] bcast_S1x64_S262144x64_0_1 : (⟨S1x64, .f32⟩ : BufTy).Contents (Elt F) → (⟨S262144x64, .f32⟩ : BufTy).Contents (Elt F)),
    binary main_v252 main_v254 main_v255 (addf : (⟨S262144x64, .f32⟩ : BufTy).Contents (Elt F) → (⟨S262144x64, .f32⟩ : BufTy).Contents (Elt F) → (⟨S262144x64, .f32⟩ : BufTy).Contents (Elt F)),
    nullary main_cst_21 (constant S_ .f32 0x3C23D70A#32),
    TRef.nullary main_call17.cst (constant S_ .f32 0x00000000#32),
    TRef.unary main_call17.cst main_call17.v0 (broadcastInDim S262144x64 ![] bcast_S_S262144x64),
    TRef.binary (.of main_v255 : StableHlo.TRef sig ⟨S262144x64, .f32⟩) main_call17.v0 main_call17.v1 (cmpf .oge),
    TRef.unary (.of main_cst_21 : StableHlo.TRef sig ⟨S_, .f32⟩) main_call17.v2 id,
    TRef.unary main_call17.v2 main_call17.v3 (broadcastInDim S262144x64 ![] bcast_S_S262144x64),
    TRef.binary main_call17.v3 (.of main_v255 : StableHlo.TRef sig ⟨S262144x64, .f32⟩) main_call17.v4 mulf,
    TRef.ternary main_call17.v1 (.of main_v255 : StableHlo.TRef sig ⟨S262144x64, .f32⟩) main_call17.v4 main_call17.call0.v0 select,
    binary main_v256 main_v244 main_v257 ((fun l r => Host.dotGeneral dot_S262144x64_S64x64_S262144x64_1_0_0_1_n_n none l r) : (⟨S262144x64, .f32⟩ : BufTy).Contents (Elt F) → (⟨S64x64, .f32⟩ : BufTy).Contents (Elt F) → (⟨S262144x64, .f32⟩ : BufTy).Contents (Elt F)),
    unary main_v246 main_v258 (broadcastInDim S1x64 ![1] bcast_S64_S1x64_1 : (⟨S64, .f32⟩ : BufTy).Contents (Elt F) → (⟨S1x64, .f32⟩ : BufTy).Contents (Elt F)),
    unary main_v258 main_v259 (broadcastInDim S262144x64 ![0, 1] bcast_S1x64_S262144x64_0_1 : (⟨S1x64, .f32⟩ : BufTy).Contents (Elt F) → (⟨S262144x64, .f32⟩ : BufTy).Contents (Elt F)),
    binary main_v257 main_v259 main_v260 (addf : (⟨S262144x64, .f32⟩ : BufTy).Contents (Elt F) → (⟨S262144x64, .f32⟩ : BufTy).Contents (Elt F) → (⟨S262144x64, .f32⟩ : BufTy).Contents (Elt F)),
    unary main_v260 main_v261 (Host.tanh : (⟨S262144x64, .f32⟩ : BufTy).Contents (Elt F) → (⟨S262144x64, .f32⟩ : BufTy).Contents (Elt F)),
    unary main_arg7 main_v262 ((extractStridedSlice S1x64x64 ![4, 0, 0] · slices_S5x64x64_S1x64x64_4_0_0) : (⟨S5x64x64, .f32⟩ : BufTy).Contents (Elt F) → (⟨S1x64x64, .f32⟩ : BufTy).Contents (Elt F)),
    reshape main_v262 main_v263 rfl shapeCasts_S1x64x64_S64x64,
    unary main_arg8 main_v264 ((extractStridedSlice S1x64 ![4, 0] · slices_S5x64_S1x64_4_0) : (⟨S5x64, .f32⟩ : BufTy).Contents (Elt F) → (⟨S1x64, .f32⟩ : BufTy).Contents (Elt F)),
    reshape main_v264 main_v265 rfl shapeCasts_S1x64_S64,
    unary main_arg9 main_v266 ((extractStridedSlice S1x64x64 ![4, 0, 0] · slices_S5x64x64_S1x64x64_4_0_0) : (⟨S5x64x64, .f32⟩ : BufTy).Contents (Elt F) → (⟨S1x64x64, .f32⟩ : BufTy).Contents (Elt F)),
    reshape main_v266 main_v267 rfl shapeCasts_S1x64x64_S64x64,
    unary main_arg10 main_v268 ((extractStridedSlice S1x64 ![4, 0] · slices_S5x64_S1x64_4_0) : (⟨S5x64, .f32⟩ : BufTy).Contents (Elt F) → (⟨S1x64, .f32⟩ : BufTy).Contents (Elt F)),
    reshape main_v268 main_v269 rfl shapeCasts_S1x64_S64,
    unary main_arg11 main_v270 ((extractStridedSlice S1x64x64 ![4, 0, 0] · slices_S5x64x64_S1x64x64_4_0_0) : (⟨S5x64x64, .f32⟩ : BufTy).Contents (Elt F) → (⟨S1x64x64, .f32⟩ : BufTy).Contents (Elt F)),
    reshape main_v270 main_v271 rfl shapeCasts_S1x64x64_S64x64,
    unary main_arg12 main_v272 ((extractStridedSlice S1x64 ![4, 0] · slices_S5x64_S1x64_4_0) : (⟨S5x64, .f32⟩ : BufTy).Contents (Elt F) → (⟨S1x64, .f32⟩ : BufTy).Contents (Elt F)),
    reshape main_v272 main_v273 rfl shapeCasts_S1x64_S64,
    binary main_v0 main_v263 main_v274 ((fun l r => Host.dotGeneral dot_S262144x64_S64x64_S262144x64_1_0_0_1_n_n none l r) : (⟨S262144x64, .f32⟩ : BufTy).Contents (Elt F) → (⟨S64x64, .f32⟩ : BufTy).Contents (Elt F) → (⟨S262144x64, .f32⟩ : BufTy).Contents (Elt F)),
    unary main_v265 main_v275 (broadcastInDim S1x64 ![1] bcast_S64_S1x64_1 : (⟨S64, .f32⟩ : BufTy).Contents (Elt F) → (⟨S1x64, .f32⟩ : BufTy).Contents (Elt F)),
    unary main_v275 main_v276 (broadcastInDim S262144x64 ![0, 1] bcast_S1x64_S262144x64_0_1 : (⟨S1x64, .f32⟩ : BufTy).Contents (Elt F) → (⟨S262144x64, .f32⟩ : BufTy).Contents (Elt F)) ]

end Cert.ReferenceIdeal.RefRun

end
-- ==== Proof.RefWin4.lean ====
/- Window 4 of the reference program's @main is the straight line of its listed operations; each listed operation
   reads and writes TensorCore buffers only, and each determines the contents it writes. -/
import proofs.«154327_j3710851744111_2_alg».proof.Proof.RefOps4

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
/-- The window is that line. A call of the leaky-ReLU function is its body's six operations followed by the inner
    call's selection; with both bodies unfolded at each call and the sequencing reassociated (a step's continuation
    bound once more, a pure return bound away), the two sides are the same chain of steps. -/
theorem main_part4_eq (c : Dev nD) : main_part4 (F := F) c = seq ops_part4 := by
  simp only [main_part4, fn_leaky_relu.body, fn_where.body, seq, bind_assoc, pure_bind] <;> rfl

set_option maxRecDepth 8192 in
/-- Every operation of the window touches TensorCore references only: each is one of the builders (no operand, one,
    two, three, or a reshape), whose buffers are its operands' and its result's. -/
theorem ops_part4_sub : (ops_part4 : List (HloOp τ sig (Elt F))).Forall fun op => op.bufs ⊆ tcRefs τ sig := by
  simp only [List.Forall, nullary_bufs_sub, unary_bufs_sub, binary_bufs_sub, ternary_bufs_sub, reshape_bufs_sub, and_self]

set_option maxRecDepth 8192 in
/-- Every operation of the window determines what it writes (none allocates a buffer with unspecified contents): by
    cases on which entry of the list it is. -/
theorem ops_part4_fresh : ∀ op ∈ (ops_part4 : List (HloOp τ sig (Elt F))), op.fresh = ∅ := by
  intro _ h
  repeat (cases h with | head => rfl | tail _ h => ?_)
  exact nomatch h

end Cert.ReferenceIdeal.RefRun

end
-- ==== Proof.RefOps5.lean ====
/- Window 5 of the reference program's @main as the list of its 32 host operations, in order: each entry is the
   printed line's operation; a call of the leaky-ReLU function stands for the seven operations of its body (the zero
   constant, its broadcast, the comparison x ≥ 0, the slope's conversion and broadcast, the product slope·x, and the
   selection between x and slope·x that the inner call makes), over the call's own buffers. -/
import proofs.«154327_j3710851744111_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of window 5, in order. -/
abbrev ops_part5 : List (HloOp τ sig (Elt F)) :=
  [ binary main_v274 main_v276 main_v277 (addf : (⟨S262144x64, .f32⟩ : BufTy).Contents (Elt F) → (⟨S262144x64, .f32⟩ : BufTy).Contents (Elt F) → (⟨S262144x64, .f32⟩ : BufTy).Contents (Elt F)),
    nullary main_cst_22 (constant S_ .f32 0x3C23D70A#32),
    TRef.nullary main_call18.cst (constant S_ .f32 0x00000000#32),
    TRef.unary main_call18.cst main_call18.v0 (broadcastInDim S262144x64 ![] bcast_S_S262144x64),
    TRef.binary (.of main_v277 : StableHlo.TRef sig ⟨S262144x64, .f32⟩) main_call18.v0 main_call18.v1 (cmpf .oge),
    TRef.unary (.of main_cst_22 : StableHlo.TRef sig ⟨S_, .f32⟩) main_call18.v2 id,
    TRef.unary main_call18.v2 main_call18.v3 (broadcastInDim S262144x64 ![] bcast_S_S262144x64),
    TRef.binary main_call18.v3 (.of main_v277 : StableHlo.TRef sig ⟨S262144x64, .f32⟩) main_call18.v4 mulf,
    TRef.ternary main_call18.v1 (.of main_v277 : StableHlo.TRef sig ⟨S262144x64, .f32⟩) main_call18.v4 main_call18.call0.v0 select,
    binary main_v278 main_v267 main_v279 ((fun l r => Host.dotGeneral dot_S262144x64_S64x64_S262144x64_1_0_0_1_n_n none l r) : (⟨S262144x64, .f32⟩ : BufTy).Contents (Elt F) → (⟨S64x64, .f32⟩ : BufTy).Contents (Elt F) → (⟨S262144x64, .f32⟩ : BufTy).Contents (Elt F)),
    unary main_v269 main_v280 (broadcastInDim S1x64 ![1] bcast_S64_S1x64_1 : (⟨S64, .f32⟩ : BufTy).Contents (Elt F) → (⟨S1x64, .f32⟩ : BufTy).Contents (Elt F)),
    unary main_v280 main_v281 (broadcastInDim S262144x64 ![0, 1] bcast_S1x64_S262144x64_0_1 : (⟨S1x64, .f32⟩ : BufTy).Contents (Elt F) → (⟨S262144x64, .f32⟩ : BufTy).Contents (Elt F)),
    binary main_v279 main_v281 main_v282 (addf : (⟨S262144x64, .f32⟩ : BufTy).Contents (Elt F) → (⟨S262144x64, .f32⟩ : BufTy).Contents (Elt F) → (⟨S262144x64, .f32⟩ : BufTy).Contents (Elt F)),
    nullary main_cst_23 (constant S_ .f32 0x3C23D70A#32),
    TRef.nullary main_call19.cst (constant S_ .f32 0x00000000#32),
    TRef.unary main_call19.cst main_call19.v0 (broadcastInDim S262144x64 ![] bcast_S_S262144x64),
    TRef.binary (.of main_v282 : StableHlo.TRef sig ⟨S262144x64, .f32⟩) main_call19.v0 main_call19.v1 (cmpf .oge),
    TRef.unary (.of main_cst_23 : StableHlo.TRef sig ⟨S_, .f32⟩) main_call19.v2 id,
    TRef.unary main_call19.v2 main_call19.v3 (broadcastInDim S262144x64 ![] bcast_S_S262144x64),
    TRef.binary main_call19.v3 (.of main_v282 : StableHlo.TRef sig ⟨S262144x64, .f32⟩) main_call19.v4 mulf,
    TRef.ternary main_call19.v1 (.of main_v282 : StableHlo.TRef sig ⟨S262144x64, .f32⟩) main_call19.v4 main_call19.call0.v0 select,
    binary main_v283 main_v271 main_v284 ((fun l r => Host.dotGeneral dot_S262144x64_S64x64_S262144x64_1_0_0_1_n_n none l r) : (⟨S262144x64, .f32⟩ : BufTy).Contents (Elt F) → (⟨S64x64, .f32⟩ : BufTy).Contents (Elt F) → (⟨S262144x64, .f32⟩ : BufTy).Contents (Elt F)),
    unary main_v273 main_v285 (broadcastInDim S1x64 ![1] bcast_S64_S1x64_1 : (⟨S64, .f32⟩ : BufTy).Contents (Elt F) → (⟨S1x64, .f32⟩ : BufTy).Contents (Elt F)),
    unary main_v285 main_v286 (broadcastInDim S262144x64 ![0, 1] bcast_S1x64_S262144x64_0_1 : (⟨S1x64, .f32⟩ : BufTy).Contents (Elt F) → (⟨S262144x64, .f32⟩ : BufTy).Contents (Elt F)),
    binary main_v284 main_v286 main_v287 (addf : (⟨S262144x64, .f32⟩ : BufTy).Contents (Elt F) → (⟨S262144x64, .f32⟩ : BufTy).Contents (Elt F) → (⟨S262144x64, .f32⟩ : BufTy).Contents (Elt F)),
    unary main_v261 main_v288 (Host.exp : (⟨S262144x64, .f32⟩ : BufTy).Contents (Elt F) → (⟨S262144x64, .f32⟩ : BufTy).Contents (Elt F)),
    binary main_v232 main_v288 main_v289 (mulf : (⟨S262144x64, .f32⟩ : BufTy).Contents (Elt F) → (⟨S262144x64, .f32⟩ : BufTy).Contents (Elt F) → (⟨S262144x64, .f32⟩ : BufTy).Contents (Elt F)),
    binary main_v289 main_v287 main_v290 (addf : (⟨S262144x64, .f32⟩ : BufTy).Contents (Elt F) → (⟨S262144x64, .f32⟩ : BufTy).Contents (Elt F) → (⟨S262144x64, .f32⟩ : BufTy).Contents (Elt F)),
    nullary main_cst_24 (constant S_ .f32 0x00000000#32),
    binary main_v261 main_cst_24 main_v291 ((fun x v => Host.reduceAdd x v reducesTo_S262144x64_S262144_d1 h_S_) : (⟨S262144x64, .f32⟩ : BufTy).Contents (Elt F) → (⟨S_, .f32⟩ : BufTy).Contents (Elt F) → (⟨S262144, .f32⟩ : BufTy).Contents (Elt F)),
    binary main_v234 main_v291 main_v292 (addf : (⟨S262144, .f32⟩ : BufTy).Contents (Elt F) → (⟨S262144, .f32⟩ : BufTy).Contents (Elt F) → (⟨S262144, .f32⟩ : BufTy).Contents (Elt F)),
    binary main_v0 main_v290 main_v293 ((fun a b => concatenate S262144x128 1 [⟨S262144x64, a⟩, ⟨S262144x64, b⟩] concatenates_S262144x64_S262144x64_S262144x128_d1) : (⟨S262144x64, .f32⟩ : BufTy).Contents (Elt F) → (⟨S262144x64, .f32⟩ : BufTy).Contents (Elt F) → (⟨S262144x128, .f32⟩ : BufTy).Contents (Elt F)) ]

end Cert.ReferenceIdeal.RefRun

end
-- ==== Proof.RefWin5.lean ====
/- Window 5 of the reference program's @main is the straight line of its listed operations; each listed operation
   reads and writes TensorCore buffers only, and each determines the contents it writes. -/
import proofs.«154327_j3710851744111_2_alg».proof.Proof.RefOps5

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
/-- The window is that line. A call of the leaky-ReLU function is its body's six operations followed by the inner
    call's selection; with both bodies unfolded at each call and the sequencing reassociated (a step's continuation
    bound once more, a pure return bound away), the two sides are the same chain of steps. -/
theorem main_part5_eq (c : Dev nD) : main_part5 (F := F) c = seq ops_part5 := by
  simp only [main_part5, fn_leaky_relu.body, fn_where.body, seq, bind_assoc, pure_bind] <;> rfl

set_option maxRecDepth 8192 in
/-- Every operation of the window touches TensorCore references only: each is one of the builders (no operand, one,
    two, three, or a reshape), whose buffers are its operands' and its result's. -/
theorem ops_part5_sub : (ops_part5 : List (HloOp τ sig (Elt F))).Forall fun op => op.bufs ⊆ tcRefs τ sig := by
  simp only [List.Forall, nullary_bufs_sub, unary_bufs_sub, binary_bufs_sub, ternary_bufs_sub, reshape_bufs_sub, and_self]

set_option maxRecDepth 8192 in
/-- Every operation of the window determines what it writes (none allocates a buffer with unspecified contents): by
    cases on which entry of the list it is. -/
theorem ops_part5_fresh : ∀ op ∈ (ops_part5 : List (HloOp τ sig (Elt F))), op.fresh = ∅ := by
  intro _ h
  repeat (cases h with | head => rfl | tail _ h => ?_)
  exact nomatch h

end Cert.ReferenceIdeal.RefRun

end
-- ==== Proof.RefRun.lean ====
/- The reference program's @main as one straight line of its 440 host operations (the six windows' lists in order, a
   call of the leaky-ReLU function standing for the seven operations it runs), and what a run of it leaves: every
   TensorCore buffer at the fold of the operations' results over the buffer contents at launch. -/
import proofs.«154327_j3710851744111_2_alg».proof.Proof.RefWin0
import proofs.«154327_j3710851744111_2_alg».proof.Proof.RefWin1
import proofs.«154327_j3710851744111_2_alg».proof.Proof.RefWin2
import proofs.«154327_j3710851744111_2_alg».proof.Proof.RefWin3
import proofs.«154327_j3710851744111_2_alg».proof.Proof.RefWin4
import proofs.«154327_j3710851744111_2_alg».proof.Proof.RefWin5

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations, in order: the windows' lists one after the other. -/
abbrev ops : List (HloOp τ sig (Elt F)) :=
  ops_part0 ++ (ops_part1 ++ (ops_part2 ++ (ops_part3 ++ (ops_part4 ++ ops_part5))))

/-- @main runs its six windows in order, each the line of its list; lines run one after the other are their
    concatenation run as one. -/
theorem main_eq (c : Dev nD) : main (F := F) c = seq ops := by
  simp only [ops, seq_append, ← main_part0_eq c, ← main_part1_eq c, ← main_part2_eq c, ← main_part3_eq c,
    ← main_part4_eq c, ← main_part5_eq c]
  rfl

/-- The signature scopes no buffer: every buffer is a tensor value's, in HBM. -/
theorem scopedRefs_eq : (Finset.univ.filter fun b : Ref sig .tc => b.isScoped) = ∅ := by decide
/-- The signature has no semaphore, so none is scoped. -/
theorem scopedSems_eq : (Finset.univ.filter fun sm : SemLoc sig => sm.isScoped .tc) = ∅ := by decide

/-- An operation of the whole line is an operation of one of the windows. -/
theorem mem_ops {op : HloOp τ sig (Elt F)} (h : op ∈ (ops : List (HloOp τ sig (Elt F)))) :
    op ∈ (ops_part0 : List (HloOp τ sig (Elt F))) ∨ op ∈ (ops_part1 : List (HloOp τ sig (Elt F)))
      ∨ op ∈ (ops_part2 : List (HloOp τ sig (Elt F))) ∨ op ∈ (ops_part3 : List (HloOp τ sig (Elt F)))
      ∨ op ∈ (ops_part4 : List (HloOp τ sig (Elt F))) ∨ op ∈ (ops_part5 : List (HloOp τ sig (Elt F))) := by
  simpa only [ops, List.mem_append] using h

/-- Every operation of the line touches TensorCore references only: each window's do. -/
theorem ops_sub : (ops : List (HloOp τ sig (Elt F))).Forall fun op => op.bufs ⊆ tcRefs τ sig :=
  List.forall_iff_forall_mem.mpr fun op h => by
    rcases mem_ops h with h | h | h | h | h | h
    exacts [List.forall_iff_forall_mem.mp ops_part0_sub op h, List.forall_iff_forall_mem.mp ops_part1_sub op h,
      List.forall_iff_forall_mem.mp ops_part2_sub op h, List.forall_iff_forall_mem.mp ops_part3_sub op h,
      List.forall_iff_forall_mem.mp ops_part4_sub op h, List.forall_iff_forall_mem.mp ops_part5_sub op h]

/-- Every operation of the line determines what it writes: each window's do. -/
theorem ops_fresh : ∀ op ∈ (ops : List (HloOp τ sig (Elt F))), op.fresh = ∅ := fun op h => by
  rcases mem_ops h with h | h | h | h | h | h
  exacts [ops_part0_fresh op h, ops_part1_fresh op h, ops_part2_fresh op h, ops_part3_fresh op h,
    ops_part4_fresh op h, ops_part5_fresh op h]

/-- On every device, for any float values, from any memory with zero counters: every weakly fair execution of @main
    on the TensorCores terminates, and every final state has each TensorCore buffer at the fold of the operations'
    results over the contents at launch. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.RefRun

end
-- ==== Proof.RefW.lean ====
/- Per window of the reference program's @main, the buffers its operations write, in the operations' order: each
   operation writes exactly one buffer, its result's. -/
import proofs.«154327_j3710851744111_2_alg».proof.Proof.Gen.ReferenceIdeal

namespace Cert.ReferenceIdeal.RefRun

open Cert.ReferenceIdeal Idealize.ShloMosaic

/-- The buffers window 0's 84 operations write. -/
abbrev ops_part0_W : List (Ref sig .tc) :=
  [main_v0, main_v1, main_cst, main_v2, main_v3, main_v4, main_v5, main_v6, main_v7, main_v8,
   main_v9, main_v10, main_v11, main_v12, main_v13, main_v14, main_v15, main_v16, main_v17, main_v18,
   main_cst_0, main_call0_cst, main_call0_v0, main_call0_v1, main_call0_v2, main_call0_v3, main_call0_v4, main_v19, main_v20, main_v21,
   main_v22, main_v23, main_cst_1, main_call1_cst, main_call1_v0, main_call1_v1, main_call1_v2, main_call1_v3, main_call1_v4, main_v24,
   main_v25, main_v26, main_v27, main_v28, main_v29, main_v30, main_v31, main_v32, main_v33, main_v34,
   main_v35, main_v36, main_v37, main_v38, main_v39, main_v40, main_v41, main_v42, main_v43, main_v44,
   main_v45, main_cst_2, main_call2_cst, main_call2_v0, main_call2_v1, main_call2_v2, main_call2_v3, main_call2_v4, main_v46, main_v47,
   main_v48, main_v49, main_v50, main_cst_3, main_call3_cst, main_call3_v0, main_call3_v1, main_call3_v2, main_call3_v3, main_call3_v4,
   main_v51, main_v52, main_v53, main_v54]

/-- The buffers window 1's 84 operations write. -/
abbrev ops_part1_W : List (Ref sig .tc) :=
  [main_v55, main_v56, main_v57, main_v58, main_cst_4, main_v59, main_v60, main_v61, main_v62, main_v63,
   main_v64, main_v65, main_v66, main_v67, main_v68, main_v69, main_v70, main_v71, main_v72, main_v73,
   main_v74, main_v75, main_v76, main_cst_5, main_call4_cst, main_call4_v0, main_call4_v1, main_call4_v2, main_call4_v3, main_call4_v4,
   main_v77, main_v78, main_v79, main_v80, main_v81, main_cst_6, main_call5_cst, main_call5_v0, main_call5_v1, main_call5_v2,
   main_call5_v3, main_call5_v4, main_v82, main_v83, main_v84, main_v85, main_v86, main_v87, main_v88, main_v89,
   main_v90, main_v91, main_v92, main_v93, main_v94, main_v95, main_v96, main_v97, main_v98, main_v99,
   main_v100, main_v101, main_v102, main_v103, main_cst_7, main_call6_cst, main_call6_v0, main_call6_v1, main_call6_v2, main_call6_v3,
   main_call6_v4, main_v104, main_v105, main_v106, main_v107, main_v108, main_cst_8, main_call7_cst, main_call7_v0, main_call7_v1,
   main_call7_v2, main_call7_v3, main_call7_v4, main_v109]

/-- The buffers window 2's 78 operations write. -/
abbrev ops_part2_W : List (Ref sig .tc) :=
  [main_v110, main_v111, main_v112, main_v113, main_v114, main_v115, main_v116, main_cst_9, main_v117, main_v118,
   main_v119, main_v120, main_v121, main_v122, main_v123, main_v124, main_v125, main_v126, main_v127, main_v128,
   main_v129, main_v130, main_v131, main_v132, main_v133, main_v134, main_cst_10, main_call8_cst, main_call8_v0, main_call8_v1,
   main_call8_v2, main_call8_v3, main_call8_v4, main_v135, main_v136, main_v137, main_v138, main_v139, main_cst_11, main_call9_cst,
   main_call9_v0, main_call9_v1, main_call9_v2, main_call9_v3, main_call9_v4, main_v140, main_v141, main_v142, main_v143, main_v144,
   main_v145, main_v146, main_v147, main_v148, main_v149, main_v150, main_v151, main_v152, main_v153, main_v154,
   main_v155, main_v156, main_v157, main_v158, main_v159, main_v160, main_v161, main_cst_12, main_call10_cst, main_call10_v0,
   main_call10_v1, main_call10_v2, main_call10_v3, main_call10_v4, main_v162, main_v163, main_v164, main_v165]

/-- The buffers window 3's 84 operations write. -/
abbrev ops_part3_W : List (Ref sig .tc) :=
  [main_v166, main_cst_13, main_call11_cst, main_call11_v0, main_call11_v1, main_call11_v2, main_call11_v3, main_call11_v4, main_v167, main_v168,
   main_v169, main_v170, main_v171, main_v172, main_v173, main_v174, main_cst_14, main_v175, main_v176, main_v177,
   main_v178, main_v179, main_v180, main_v181, main_v182, main_v183, main_v184, main_v185, main_v186, main_v187,
   main_v188, main_v189, main_v190, main_v191, main_v192, main_cst_15, main_call12_cst, main_call12_v0, main_call12_v1, main_call12_v2,
   main_call12_v3, main_call12_v4, main_v193, main_v194, main_v195, main_v196, main_v197, main_cst_16, main_call13_cst, main_call13_v0,
   main_call13_v1, main_call13_v2, main_call13_v3, main_call13_v4, main_v198, main_v199, main_v200, main_v201, main_v202, main_v203,
   main_v204, main_v205, main_v206, main_v207, main_v208, main_v209, main_v210, main_v211, main_v212, main_v213,
   main_v214, main_v215, main_v216, main_v217, main_v218, main_v219, main_cst_17, main_call14_cst, main_call14_v0, main_call14_v1,
   main_call14_v2, main_call14_v3, main_call14_v4, main_v220]

/-- The buffers window 4's 78 operations write. -/
abbrev ops_part4_W : List (Ref sig .tc) :=
  [main_v221, main_v222, main_v223, main_v224, main_cst_18, main_call15_cst, main_call15_v0, main_call15_v1, main_call15_v2, main_call15_v3,
   main_call15_v4, main_v225, main_v226, main_v227, main_v228, main_v229, main_v230, main_v231, main_v232, main_cst_19,
   main_v233, main_v234, main_v235, main_v236, main_v237, main_v238, main_v239, main_v240, main_v241, main_v242,
   main_v243, main_v244, main_v245, main_v246, main_v247, main_v248, main_v249, main_v250, main_cst_20, main_call16_cst,
   main_call16_v0, main_call16_v1, main_call16_v2, main_call16_v3, main_call16_v4, main_v251, main_v252, main_v253, main_v254, main_v255,
   main_cst_21, main_call17_cst, main_call17_v0, main_call17_v1, main_call17_v2, main_call17_v3, main_call17_v4, main_v256, main_v257, main_v258,
   main_v259, main_v260, main_v261, main_v262, main_v263, main_v264, main_v265, main_v266, main_v267, main_v268,
   main_v269, main_v270, main_v271, main_v272, main_v273, main_v274, main_v275, main_v276]

/-- The buffers window 5's 32 operations write. -/
abbrev ops_part5_W : List (Ref sig .tc) :=
  [main_v277, main_cst_22, main_call18_cst, main_call18_v0, main_call18_v1, main_call18_v2, main_call18_v3, main_call18_v4, main_v278, main_v279,
   main_v280, main_v281, main_v282, main_cst_23, main_call19_cst, main_call19_v0, main_call19_v1, main_call19_v2, main_call19_v3, main_call19_v4,
   main_v283, main_v284, main_v285, main_v286, main_v287, main_v288, main_v289, main_v290, main_cst_24, main_v291,
   main_v292, main_v293]

end Cert.ReferenceIdeal.RefRun
-- ==== Proof.RefWrites0.lean ====
/- Window 0 of the reference program's @main writes only the buffers listed for it. -/
import proofs.«154327_j3710851744111_2_alg».proof.Proof.RefOps0
import proofs.«154327_j3710851744111_2_alg».proof.Proof.RefW

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
/-- Each operation of the window writes one buffer, its result's, and that buffer is in the window's list: a
    reference is in the image of the list exactly when it is in the list (distinct references are distinct device
    buffers), which is decided over the literal references, one operation at a time. -/
theorem ops_part0_writes : (ops_part0 : List (HloOp τ sig (Elt F))).Forall fun op =>
    op.writes ⊆ (ops_part0_W.map (Proc.devRef (τ := τ) .tc)).toFinset := by
  simp only [List.Forall, nullary_writes, unary_writes, binary_writes, ternary_writes, reshape_writes,
    Finset.singleton_subset_iff, List.mem_toFinset, List.mem_map_of_injective (Proc.devRef_injective _)]
  repeat' apply And.intro
  all_goals decide

end Cert.ReferenceIdeal.RefRun

end
-- ==== Proof.RefWrites1.lean ====
/- Window 1 of the reference program's @main writes only the buffers listed for it. -/
import proofs.«154327_j3710851744111_2_alg».proof.Proof.RefOps1
import proofs.«154327_j3710851744111_2_alg».proof.Proof.RefW

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
/-- Each operation of the window writes one buffer, its result's, and that buffer is in the window's list: a
    reference is in the image of the list exactly when it is in the list (distinct references are distinct device
    buffers), which is decided over the literal references, one operation at a time. -/
theorem ops_part1_writes : (ops_part1 : List (HloOp τ sig (Elt F))).Forall fun op =>
    op.writes ⊆ (ops_part1_W.map (Proc.devRef (τ := τ) .tc)).toFinset := by
  simp only [List.Forall, nullary_writes, unary_writes, binary_writes, ternary_writes, reshape_writes,
    Finset.singleton_subset_iff, List.mem_toFinset, List.mem_map_of_injective (Proc.devRef_injective _)]
  repeat' apply And.intro
  all_goals decide

end Cert.ReferenceIdeal.RefRun

end
-- ==== Proof.RefWrites2.lean ====
/- Window 2 of the reference program's @main writes only the buffers listed for it. -/
import proofs.«154327_j3710851744111_2_alg».proof.Proof.RefOps2
import proofs.«154327_j3710851744111_2_alg».proof.Proof.RefW

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
/-- Each operation of the window writes one buffer, its result's, and that buffer is in the window's list: a
    reference is in the image of the list exactly when it is in the list (distinct references are distinct device
    buffers), which is decided over the literal references, one operation at a time. -/
theorem ops_part2_writes : (ops_part2 : List (HloOp τ sig (Elt F))).Forall fun op =>
    op.writes ⊆ (ops_part2_W.map (Proc.devRef (τ := τ) .tc)).toFinset := by
  simp only [List.Forall, nullary_writes, unary_writes, binary_writes, ternary_writes, reshape_writes,
    Finset.singleton_subset_iff, List.mem_toFinset, List.mem_map_of_injective (Proc.devRef_injective _)]
  repeat' apply And.intro
  all_goals decide

end Cert.ReferenceIdeal.RefRun

end
-- ==== Proof.RefWrites3.lean ====
/- Window 3 of the reference program's @main writes only the buffers listed for it. -/
import proofs.«154327_j3710851744111_2_alg».proof.Proof.RefOps3
import proofs.«154327_j3710851744111_2_alg».proof.Proof.RefW

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
/-- Each operation of the window writes one buffer, its result's, and that buffer is in the window's list: a
    reference is in the image of the list exactly when it is in the list (distinct references are distinct device
    buffers), which is decided over the literal references, one operation at a time. -/
theorem ops_part3_writes : (ops_part3 : List (HloOp τ sig (Elt F))).Forall fun op =>
    op.writes ⊆ (ops_part3_W.map (Proc.devRef (τ := τ) .tc)).toFinset := by
  simp only [List.Forall, nullary_writes, unary_writes, binary_writes, ternary_writes, reshape_writes,
    Finset.singleton_subset_iff, List.mem_toFinset, List.mem_map_of_injective (Proc.devRef_injective _)]
  repeat' apply And.intro
  all_goals decide

end Cert.ReferenceIdeal.RefRun

end
-- ==== Proof.RefWrites4.lean ====
/- Window 4 of the reference program's @main writes only the buffers listed for it. -/
import proofs.«154327_j3710851744111_2_alg».proof.Proof.RefOps4
import proofs.«154327_j3710851744111_2_alg».proof.Proof.RefW

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
/-- Each operation of the window writes one buffer, its result's, and that buffer is in the window's list: a
    reference is in the image of the list exactly when it is in the list (distinct references are distinct device
    buffers), which is decided over the literal references, one operation at a time. -/
theorem ops_part4_writes : (ops_part4 : List (HloOp τ sig (Elt F))).Forall fun op =>
    op.writes ⊆ (ops_part4_W.map (Proc.devRef (τ := τ) .tc)).toFinset := by
  simp only [List.Forall, nullary_writes, unary_writes, binary_writes, ternary_writes, reshape_writes,
    Finset.singleton_subset_iff, List.mem_toFinset, List.mem_map_of_injective (Proc.devRef_injective _)]
  repeat' apply And.intro
  all_goals decide

end Cert.ReferenceIdeal.RefRun

end
-- ==== Proof.RefWrites5.lean ====
/- Window 5 of the reference program's @main writes only the buffers listed for it. -/
import proofs.«154327_j3710851744111_2_alg».proof.Proof.RefOps5
import proofs.«154327_j3710851744111_2_alg».proof.Proof.RefW

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
/-- Each operation of the window writes one buffer, its result's, and that buffer is in the window's list: a
    reference is in the image of the list exactly when it is in the list (distinct references are distinct device
    buffers), which is decided over the literal references, one operation at a time. -/
theorem ops_part5_writes : (ops_part5 : List (HloOp τ sig (Elt F))).Forall fun op =>
    op.writes ⊆ (ops_part5_W.map (Proc.devRef (τ := τ) .tc)).toFinset := by
  simp only [List.Forall, nullary_writes, unary_writes, binary_writes, ternary_writes, reshape_writes,
    Finset.singleton_subset_iff, List.mem_toFinset, List.mem_map_of_injective (Proc.devRef_injective _)]
  repeat' apply And.intro
  all_goals decide

end Cert.ReferenceIdeal.RefRun

end
-- ==== Proof.RefVal.lean ====
/- The buffer contents between the windows of the reference program's @main: the contents after the first K windows
   (K = 0 … 6) from contents V at the start, that a window leaves alone every buffer it does not write, that no
   window writes an argument buffer, and that the whole line's fold is the last of these. -/
import proofs.«154327_j3710851744111_2_alg».proof.Proof.RefRun
import proofs.«154327_j3710851744111_2_alg».proof.Proof.RefWrites0
import proofs.«154327_j3710851744111_2_alg».proof.Proof.RefWrites1
import proofs.«154327_j3710851744111_2_alg».proof.Proof.RefWrites2
import proofs.«154327_j3710851744111_2_alg».proof.Proof.RefWrites3
import proofs.«154327_j3710851744111_2_alg».proof.Proof.RefWrites4
import proofs.«154327_j3710851744111_2_alg».proof.Proof.RefWrites5
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The contents before @main's first window. -/
def val0 (V : Valuation τ sig (Elt F)) : Valuation τ sig (Elt F) := V
/-- The contents after @main's first window. -/
def val1 (V : Valuation τ sig (Elt F)) : Valuation τ sig (Elt F) := after ops_part0 (val0 V)
/-- The contents after @main's first two windows. -/
def val2 (V : Valuation τ sig (Elt F)) : Valuation τ sig (Elt F) := after ops_part1 (val1 V)
/-- The contents after @main's first three windows. -/
def val3 (V : Valuation τ sig (Elt F)) : Valuation τ sig (Elt F) := after ops_part2 (val2 V)
/-- The contents after @main's first four windows. -/
def val4 (V : Valuation τ sig (Elt F)) : Valuation τ sig (Elt F) := after ops_part3 (val3 V)
/-- The contents after @main's first five windows. -/
def val5 (V : Valuation τ sig (Elt F)) : Valuation τ sig (Elt F) := after ops_part4 (val4 V)
/-- The contents after all six windows. -/
def val6 (V : Valuation τ sig (Elt F)) : Valuation τ sig (Elt F) := after ops_part5 (val5 V)

/-- The fold of the whole line is the fold window by window. -/
theorem after_ops (V : Valuation τ sig (Elt F)) : after ops V = val6 V := by
  simp only [ops, after_append]
  rfl

/-- A buffer the first window does not write keeps its contents through it. -/
theorem val1_keep (V : Valuation τ sig (Elt F)) (r : Ref sig .tc) (h : r ∉ ops_part0_W) :
    val1 V (Proc.devRef .tc r) = val0 V (Proc.devRef .tc r) :=
  after_of_writes_sub ops_part0 _ ops_part0_writes h
/-- A buffer the second window does not write keeps its contents through it. -/
theorem val2_keep (V : Valuation τ sig (Elt F)) (r : Ref sig .tc) (h : r ∉ ops_part1_W) :
    val2 V (Proc.devRef .tc r) = val1 V (Proc.devRef .tc r) :=
  after_of_writes_sub ops_part1 _ ops_part1_writes h
/-- A buffer the third window does not write keeps its contents through it. -/
theorem val3_keep (V : Valuation τ sig (Elt F)) (r : Ref sig .tc) (h : r ∉ ops_part2_W) :
    val3 V (Proc.devRef .tc r) = val2 V (Proc.devRef .tc r) :=
  after_of_writes_sub ops_part2 _ ops_part2_writes h
/-- A buffer the fourth window does not write keeps its contents through it. -/
theorem val4_keep (V : Valuation τ sig (Elt F)) (r : Ref sig .tc) (h : r ∉ ops_part3_W) :
    val4 V (Proc.devRef .tc r) = val3 V (Proc.devRef .tc r) :=
  after_of_writes_sub ops_part3 _ ops_part3_writes h
/-- A buffer the fifth window does not write keeps its contents through it. -/
theorem val5_keep (V : Valuation τ sig (Elt F)) (r : Ref sig .tc) (h : r ∉ ops_part4_W) :
    val5 V (Proc.devRef .tc r) = val4 V (Proc.devRef .tc r) :=
  after_of_writes_sub ops_part4 _ ops_part4_writes h
/-- A buffer the sixth window does not write keeps its contents through it. -/
theorem val6_keep (V : Valuation τ sig (Elt F)) (r : Ref sig .tc) (h : r ∉ ops_part5_W) :
    val6 V (Proc.devRef .tc r) = val5 V (Proc.devRef .tc r) :=
  after_of_writes_sub ops_part5 _ ops_part5_writes h

/-- The thirteen argument buffers. -/
abbrev argRefs : List (Ref sig .tc) :=
  [main_arg0, main_arg1, main_arg2, main_arg3, main_arg4, main_arg5, main_arg6, main_arg7, main_arg8, main_arg9,
   main_arg10, main_arg11, main_arg12]

/-- No window writes an argument buffer (decided over the literal references). -/
theorem arg_not_written : ∀ r ∈ argRefs, r ∉ ops_part0_W ∧ r ∉ ops_part1_W ∧ r ∉ ops_part2_W ∧ r ∉ ops_part3_W
    ∧ r ∉ ops_part4_W ∧ r ∉ ops_part5_W := by decide

/-! An argument buffer holds, after any number of windows, what it held at the start. The reference is matched
    whole (`no_index`), as the library's result lemmas match theirs: a device reference is a structure of projections
    of the reference, which would otherwise be the key. -/

theorem val0_arg (V : Valuation τ sig (Elt F)) (r : Ref sig .tc) (_h : r ∈ argRefs) :
    val0 V (no_index (Proc.devRef .tc r)) = V (Proc.devRef .tc r) := rfl
theorem val1_arg (V : Valuation τ sig (Elt F)) (r : Ref sig .tc) (h : r ∈ argRefs) :
    val1 V (no_index (Proc.devRef .tc r)) = V (Proc.devRef .tc r) :=
  (val1_keep V r (arg_not_written r h).1).trans (val0_arg V r h)
theorem val2_arg (V : Valuation τ sig (Elt F)) (r : Ref sig .tc) (h : r ∈ argRefs) :
    val2 V (no_index (Proc.devRef .tc r)) = V (Proc.devRef .tc r) :=
  (val2_keep V r (arg_not_written r h).2.1).trans (val1_arg V r h)
theorem val3_arg (V : Valuation τ sig (Elt F)) (r : Ref sig .tc) (h : r ∈ argRefs) :
    val3 V (no_index (Proc.devRef .tc r)) = V (Proc.devRef .tc r) :=
  (val3_keep V r (arg_not_written r h).2.2.1).trans (val2_arg V r h)
theorem val4_arg (V : Valuation τ sig (Elt F)) (r : Ref sig .tc) (h : r ∈ argRefs) :
    val4 V (no_index (Proc.devRef .tc r)) = V (Proc.devRef .tc r) :=
  (val4_keep V r (arg_not_written r h).2.2.2.1).trans (val3_arg V r h)
theorem val5_arg (V : Valuation τ sig (Elt F)) (r : Ref sig .tc) (h : r ∈ argRefs) :
    val5 V (no_index (Proc.devRef .tc r)) = V (Proc.devRef .tc r) :=
  (val5_keep V r (arg_not_written r h).2.2.2.2.1).trans (val4_arg V r h)
theorem val6_arg (V : Valuation τ sig (Elt F)) (r : Ref sig .tc) (h : r ∈ argRefs) :
    val6 V (no_index (Proc.devRef .tc r)) = V (Proc.devRef .tc r) :=
  (val6_keep V r (arg_not_written r h).2.2.2.2.2).trans (val5_arg V r h)

end Cert.ReferenceIdeal.RefRun

end
-- ==== Proof.RefStep0.lean ====
/- What window 0 of the reference program's @main leaves in the buffers a later window (or the caller) reads, from
   ANY contents before it, as terms of the flow's definitions: the two halves of the batch, the zero log-determinant, layer 1's scale, and the
   last dense layer of layer 1's shift network up to its bias (the product and the bias laid out, still to be added). -/
import proofs.«154327_j3710851744111_2_alg».proof.Proof.RefOps0
import proofs.«154327_j3710851744111_2_alg».proof.Proof.HostFlow

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 2000000 in
/-- Columns 0 … 63 of the batch. -/
theorem win0_main_v0 (V : Valuation τ sig (Elt F)) :
    after ops_part0 V (no_index (Proc.devRef .tc main_v0))
      = RefFlow.x0 (V (Proc.devRef .tc main_arg0)) := by
  simp only [ops_part0]
  after_results_simp
  simp only [RefFlow.sAt, RefFlow.tAt, RefFlow.netAt, RefFlow.mlp, RefFlow.dense, RefFlow.leaky, RefFlow.page, RefFlow.rowOf, RefFlow.x0, RefFlow.x1, RefFlow.ld0, RefFlow.stepX, RefFlow.stepL] <;> rfl

set_option maxRecDepth 8192 in
set_option maxHeartbeats 2000000 in
/-- Columns 64 … 127 of the batch. -/
theorem win0_main_v1 (V : Valuation τ sig (Elt F)) :
    after ops_part0 V (no_index (Proc.devRef .tc main_v1))
      = RefFlow.x1 (V (Proc.devRef .tc main_arg0)) := by
  simp only [ops_part0]
  after_results_simp
  simp only [RefFlow.sAt, RefFlow.tAt, RefFlow.netAt, RefFlow.mlp, RefFlow.dense, RefFlow.leaky, RefFlow.page, RefFlow.rowOf, RefFlow.x0, RefFlow.x1, RefFlow.ld0, RefFlow.stepX, RefFlow.stepL] <;> rfl

set_option maxRecDepth 8192 in
set_option maxHeartbeats 2000000 in
/-- The log-determinant before the first layer: zero on every row. -/
theorem win0_main_v2 (V : Valuation τ sig (Elt F)) :
    after ops_part0 V (no_index (Proc.devRef .tc main_v2))
      = (RefFlow.ld0 : FVec F S262144 .f32) := by
  simp only [ops_part0]
  after_results_simp
  simp only [RefFlow.sAt, RefFlow.tAt, RefFlow.netAt, RefFlow.mlp, RefFlow.dense, RefFlow.leaky, RefFlow.page, RefFlow.rowOf, RefFlow.x0, RefFlow.x1, RefFlow.ld0, RefFlow.stepX, RefFlow.stepL] <;> rfl

set_option maxRecDepth 8192 in
set_option maxHeartbeats 2000000 in
/-- Layer 1's scale: tanh of the scale network on the unchanged half. -/
theorem win0_main_v29 (V : Valuation τ sig (Elt F)) :
    after ops_part0 V (no_index (Proc.devRef .tc main_v29))
      = RefFlow.sAt (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) ![0, 0, 0] ![0, 0] slices_S5x64x64_S1x64x64_0_0_0 slices_S5x64_S1x64_0_0 := by
  simp only [ops_part0]
  after_results_simp
  simp only [RefFlow.sAt, RefFlow.tAt, RefFlow.netAt, RefFlow.mlp, RefFlow.dense, RefFlow.leaky, RefFlow.page, RefFlow.rowOf, RefFlow.x0, RefFlow.x1, RefFlow.ld0, RefFlow.stepX, RefFlow.stepL] <;> rfl

set_option maxRecDepth 8192 in
set_option maxHeartbeats 2000000 in
/-- Layer 1's shift network up to the last matrix product (its bias not yet added). -/
theorem win0_main_v52 (V : Valuation τ sig (Elt F)) :
    after ops_part0 V (no_index (Proc.devRef .tc main_v52))
      = Host.dotGeneral dot_S262144x64_S64x64_S262144x64_1_0_0_1_n_n none
          (RefFlow.leaky (RefFlow.dense (RefFlow.leaky (RefFlow.dense (RefFlow.x0 (V (Proc.devRef .tc main_arg0))) (RefFlow.page (V (Proc.devRef .tc main_arg7)) ![0, 0, 0] slices_S5x64x64_S1x64x64_0_0_0) (RefFlow.rowOf (V (Proc.devRef .tc main_arg8)) ![0, 0] slices_S5x64_S1x64_0_0))) (RefFlow.page (V (Proc.devRef .tc main_arg9)) ![0, 0, 0] slices_S5x64x64_S1x64x64_0_0_0) (RefFlow.rowOf (V (Proc.devRef .tc main_arg10)) ![0, 0] slices_S5x64_S1x64_0_0)))
          (RefFlow.page (V (Proc.devRef .tc main_arg11)) ![0, 0, 0] slices_S5x64x64_S1x64x64_0_0_0) := by
  simp only [ops_part0]
  after_results_simp
  simp only [RefFlow.sAt, RefFlow.tAt, RefFlow.netAt, RefFlow.mlp, RefFlow.dense, RefFlow.leaky, RefFlow.page, RefFlow.rowOf, RefFlow.x0, RefFlow.x1, RefFlow.ld0, RefFlow.stepX, RefFlow.stepL] <;> rfl

set_option maxRecDepth 8192 in
set_option maxHeartbeats 2000000 in
/-- The last bias of layer 1's shift network, laid along every row. -/
theorem win0_main_v54 (V : Valuation τ sig (Elt F)) :
    after ops_part0 V (no_index (Proc.devRef .tc main_v54))
      = (broadcastInDim S262144x64 ![0, 1] bcast_S1x64_S262144x64_0_1 (broadcastInDim S1x64 ![1] bcast_S64_S1x64_1 (RefFlow.rowOf (V (Proc.devRef .tc main_arg12)) ![0, 0] slices_S5x64_S1x64_0_0))) := by
  simp only [ops_part0]
  after_results_simp
  simp only [RefFlow.sAt, RefFlow.tAt, RefFlow.netAt, RefFlow.mlp, RefFlow.dense, RefFlow.leaky, RefFlow.page, RefFlow.rowOf, RefFlow.x0, RefFlow.x1, RefFlow.ld0, RefFlow.stepX, RefFlow.stepL] <;> rfl

end Cert.ReferenceIdeal.RefRun

end
-- ==== Proof.RefStep1.lean ====
/- What window 1 of the reference program's @main leaves in the buffers a later window (or the caller) reads, from
   ANY contents before it, as terms of the flow's definitions: the transformed half and the log-determinant after layer 1, layer 2's scale, layer
   2's shift network through its second rectifier, and the page and row of that network's last dense layer. -/
import proofs.«154327_j3710851744111_2_alg».proof.Proof.RefOps1
import proofs.«154327_j3710851744111_2_alg».proof.Proof.HostFlow

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 2000000 in
/-- The transformed half after layer 1: x1 · exp s + t, the shift's last bias added here. -/
theorem win1_main_v58 (V : Valuation τ sig (Elt F)) :
    after ops_part1 V (no_index (Proc.devRef .tc main_v58))
      = RefFlow.stepX (V (Proc.devRef .tc main_v1)) (V (Proc.devRef .tc main_v29)) (addf (V (Proc.devRef .tc main_v52)) (V (Proc.devRef .tc main_v54))) := by
  simp only [ops_part1]
  after_results_simp
  simp only [RefFlow.sAt, RefFlow.tAt, RefFlow.netAt, RefFlow.mlp, RefFlow.dense, RefFlow.leaky, RefFlow.page, RefFlow.rowOf, RefFlow.x0, RefFlow.x1, RefFlow.ld0, RefFlow.stepX, RefFlow.stepL] <;> rfl

set_option maxRecDepth 8192 in
set_option maxHeartbeats 2000000 in
/-- The log-determinant after layer 1. -/
theorem win1_main_v60 (V : Valuation τ sig (Elt F)) :
    after ops_part1 V (no_index (Proc.devRef .tc main_v60))
      = RefFlow.stepL (V (Proc.devRef .tc main_v2)) (V (Proc.devRef .tc main_v29)) := by
  simp only [ops_part1]
  after_results_simp
  simp only [RefFlow.sAt, RefFlow.tAt, RefFlow.netAt, RefFlow.mlp, RefFlow.dense, RefFlow.leaky, RefFlow.page, RefFlow.rowOf, RefFlow.x0, RefFlow.x1, RefFlow.ld0, RefFlow.stepX, RefFlow.stepL] <;> rfl

set_option maxRecDepth 8192 in
set_option maxHeartbeats 2000000 in
/-- Layer 2's scale. -/
theorem win1_main_v87 (V : Valuation τ sig (Elt F)) :
    after ops_part1 V (no_index (Proc.devRef .tc main_v87))
      = Host.tanh (RefFlow.netAt (V (Proc.devRef .tc main_v0)) (V (Proc.devRef .tc main_arg1)) (V (Proc.devRef .tc main_arg2)) (V (Proc.devRef .tc main_arg3)) (V (Proc.devRef .tc main_arg4)) (V (Proc.devRef .tc main_arg5)) (V (Proc.devRef .tc main_arg6)) ![1, 0, 0] ![1, 0] slices_S5x64x64_S1x64x64_1_0_0 slices_S5x64_S1x64_1_0) := by
  simp only [ops_part1]
  after_results_simp
  simp only [RefFlow.sAt, RefFlow.tAt, RefFlow.netAt, RefFlow.mlp, RefFlow.dense, RefFlow.leaky, RefFlow.page, RefFlow.rowOf, RefFlow.x0, RefFlow.x1, RefFlow.ld0, RefFlow.stepX, RefFlow.stepL] <;> rfl

set_option maxRecDepth 8192 in
set_option maxHeartbeats 2000000 in
/-- Layer 2's shift network through its second rectifier. -/
theorem win1_main_v109 (V : Valuation τ sig (Elt F)) :
    after ops_part1 V (no_index (Proc.devRef .tc main_v109))
      = RefFlow.leaky (RefFlow.dense (RefFlow.leaky (RefFlow.dense (V (Proc.devRef .tc main_v0)) (RefFlow.page (V (Proc.devRef .tc main_arg7)) ![1, 0, 0] slices_S5x64x64_S1x64x64_1_0_0) (RefFlow.rowOf (V (Proc.devRef .tc main_arg8)) ![1, 0] slices_S5x64_S1x64_1_0))) (RefFlow.page (V (Proc.devRef .tc main_arg9)) ![1, 0, 0] slices_S5x64x64_S1x64x64_1_0_0) (RefFlow.rowOf (V (Proc.devRef .tc main_arg10)) ![1, 0] slices_S5x64_S1x64_1_0)) := by
  simp only [ops_part1]
  after_results_simp
  simp only [RefFlow.sAt, RefFlow.tAt, RefFlow.netAt, RefFlow.mlp, RefFlow.dense, RefFlow.leaky, RefFlow.page, RefFlow.rowOf, RefFlow.x0, RefFlow.x1, RefFlow.ld0, RefFlow.stepX, RefFlow.stepL] <;> rfl

set_option maxRecDepth 8192 in
set_option maxHeartbeats 2000000 in
/-- The last matrix of layer 2's shift network. -/
theorem win1_main_v97 (V : Valuation τ sig (Elt F)) :
    after ops_part1 V (no_index (Proc.devRef .tc main_v97))
      = RefFlow.page (V (Proc.devRef .tc main_arg11)) ![1, 0, 0] slices_S5x64x64_S1x64x64_1_0_0 := by
  simp only [ops_part1]
  after_results_simp
  simp only [RefFlow.sAt, RefFlow.tAt, RefFlow.netAt, RefFlow.mlp, RefFlow.dense, RefFlow.leaky, RefFlow.page, RefFlow.rowOf, RefFlow.x0, RefFlow.x1, RefFlow.ld0, RefFlow.stepX, RefFlow.stepL] <;> rfl

set_option maxRecDepth 8192 in
set_option maxHeartbeats 2000000 in
/-- The last bias of layer 2's shift network. -/
theorem win1_main_v99 (V : Valuation τ sig (Elt F)) :
    after ops_part1 V (no_index (Proc.devRef .tc main_v99))
      = RefFlow.rowOf (V (Proc.devRef .tc main_arg12)) ![1, 0] slices_S5x64_S1x64_1_0 := by
  simp only [ops_part1]
  after_results_simp
  simp only [RefFlow.sAt, RefFlow.tAt, RefFlow.netAt, RefFlow.mlp, RefFlow.dense, RefFlow.leaky, RefFlow.page, RefFlow.rowOf, RefFlow.x0, RefFlow.x1, RefFlow.ld0, RefFlow.stepX, RefFlow.stepL] <;> rfl

end Cert.ReferenceIdeal.RefRun

end
-- ==== Proof.RefStep2.lean ====
/- What window 2 of the reference program's @main leaves in the buffers a later window (or the caller) reads, from
   ANY contents before it, as terms of the flow's definitions: the transformed half and the log-determinant after layer 2, layer 3's scale, layer
   3's shift network up to its second matrix product (the bias laid out, still to be added), and the page and row of
   that network's last dense layer. -/
import proofs.«154327_j3710851744111_2_alg».proof.Proof.RefOps2
import proofs.«154327_j3710851744111_2_alg».proof.Proof.HostFlow

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 2000000 in
/-- The transformed half after layer 2. -/
theorem win2_main_v116 (V : Valuation τ sig (Elt F)) :
    after ops_part2 V (no_index (Proc.devRef .tc main_v116))
      = RefFlow.stepX (V (Proc.devRef .tc main_v58)) (V (Proc.devRef .tc main_v87)) (RefFlow.dense (V (Proc.devRef .tc main_v109)) (V (Proc.devRef .tc main_v97)) (V (Proc.devRef .tc main_v99))) := by
  simp only [ops_part2]
  after_results_simp
  simp only [RefFlow.sAt, RefFlow.tAt, RefFlow.netAt, RefFlow.mlp, RefFlow.dense, RefFlow.leaky, RefFlow.page, RefFlow.rowOf, RefFlow.x0, RefFlow.x1, RefFlow.ld0, RefFlow.stepX, RefFlow.stepL] <;> rfl

set_option maxRecDepth 8192 in
set_option maxHeartbeats 2000000 in
/-- The log-determinant after layer 2. -/
theorem win2_main_v118 (V : Valuation τ sig (Elt F)) :
    after ops_part2 V (no_index (Proc.devRef .tc main_v118))
      = RefFlow.stepL (V (Proc.devRef .tc main_v60)) (V (Proc.devRef .tc main_v87)) := by
  simp only [ops_part2]
  after_results_simp
  simp only [RefFlow.sAt, RefFlow.tAt, RefFlow.netAt, RefFlow.mlp, RefFlow.dense, RefFlow.leaky, RefFlow.page, RefFlow.rowOf, RefFlow.x0, RefFlow.x1, RefFlow.ld0, RefFlow.stepX, RefFlow.stepL] <;> rfl

set_option maxRecDepth 8192 in
set_option maxHeartbeats 2000000 in
/-- Layer 3's scale. -/
theorem win2_main_v145 (V : Valuation τ sig (Elt F)) :
    after ops_part2 V (no_index (Proc.devRef .tc main_v145))
      = Host.tanh (RefFlow.netAt (V (Proc.devRef .tc main_v0)) (V (Proc.devRef .tc main_arg1)) (V (Proc.devRef .tc main_arg2)) (V (Proc.devRef .tc main_arg3)) (V (Proc.devRef .tc main_arg4)) (V (Proc.devRef .tc main_arg5)) (V (Proc.devRef .tc main_arg6)) ![2, 0, 0] ![2, 0] slices_S5x64x64_S1x64x64_2_0_0 slices_S5x64_S1x64_2_0) := by
  simp only [ops_part2]
  after_results_simp
  simp only [RefFlow.sAt, RefFlow.tAt, RefFlow.netAt, RefFlow.mlp, RefFlow.dense, RefFlow.leaky, RefFlow.page, RefFlow.rowOf, RefFlow.x0, RefFlow.x1, RefFlow.ld0, RefFlow.stepX, RefFlow.stepL] <;> rfl

set_option maxRecDepth 8192 in
set_option maxHeartbeats 2000000 in
/-- Layer 3's shift network up to its second matrix product (its bias not yet added). -/
theorem win2_main_v163 (V : Valuation τ sig (Elt F)) :
    after ops_part2 V (no_index (Proc.devRef .tc main_v163))
      = Host.dotGeneral dot_S262144x64_S64x64_S262144x64_1_0_0_1_n_n none (RefFlow.leaky (RefFlow.dense (V (Proc.devRef .tc main_v0)) (RefFlow.page (V (Proc.devRef .tc main_arg7)) ![2, 0, 0] slices_S5x64x64_S1x64x64_2_0_0) (RefFlow.rowOf (V (Proc.devRef .tc main_arg8)) ![2, 0] slices_S5x64_S1x64_2_0))) (RefFlow.page (V (Proc.devRef .tc main_arg9)) ![2, 0, 0] slices_S5x64x64_S1x64x64_2_0_0) := by
  simp only [ops_part2]
  after_results_simp
  simp only [RefFlow.sAt, RefFlow.tAt, RefFlow.netAt, RefFlow.mlp, RefFlow.dense, RefFlow.leaky, RefFlow.page, RefFlow.rowOf, RefFlow.x0, RefFlow.x1, RefFlow.ld0, RefFlow.stepX, RefFlow.stepL] <;> rfl

set_option maxRecDepth 8192 in
set_option maxHeartbeats 2000000 in
/-- The second bias of layer 3's shift network, laid along every row. -/
theorem win2_main_v165 (V : Valuation τ sig (Elt F)) :
    after ops_part2 V (no_index (Proc.devRef .tc main_v165))
      = (broadcastInDim S262144x64 ![0, 1] bcast_S1x64_S262144x64_0_1 (broadcastInDim S1x64 ![1] bcast_S64_S1x64_1 (RefFlow.rowOf (V (Proc.devRef .tc main_arg10)) ![2, 0] slices_S5x64_S1x64_2_0))) := by
  simp only [ops_part2]
  after_results_simp
  simp only [RefFlow.sAt, RefFlow.tAt, RefFlow.netAt, RefFlow.mlp, RefFlow.dense, RefFlow.leaky, RefFlow.page, RefFlow.rowOf, RefFlow.x0, RefFlow.x1, RefFlow.ld0, RefFlow.stepX, RefFlow.stepL] <;> rfl

set_option maxRecDepth 8192 in
set_option maxHeartbeats 2000000 in
/-- The last matrix of layer 3's shift network. -/
theorem win2_main_v155 (V : Valuation τ sig (Elt F)) :
    after ops_part2 V (no_index (Proc.devRef .tc main_v155))
      = RefFlow.page (V (Proc.devRef .tc main_arg11)) ![2, 0, 0] slices_S5x64x64_S1x64x64_2_0_0 := by
  simp only [ops_part2]
  after_results_simp
  simp only [RefFlow.sAt, RefFlow.tAt, RefFlow.netAt, RefFlow.mlp, RefFlow.dense, RefFlow.leaky, RefFlow.page, RefFlow.rowOf, RefFlow.x0, RefFlow.x1, RefFlow.ld0, RefFlow.stepX, RefFlow.stepL] <;> rfl

set_option maxRecDepth 8192 in
set_option maxHeartbeats 2000000 in
/-- The last bias of layer 3's shift network. -/
theorem win2_main_v157 (V : Valuation τ sig (Elt F)) :
    after ops_part2 V (no_index (Proc.devRef .tc main_v157))
      = RefFlow.rowOf (V (Proc.devRef .tc main_arg12)) ![2, 0] slices_S5x64_S1x64_2_0 := by
  simp only [ops_part2]
  after_results_simp
  simp only [RefFlow.sAt, RefFlow.tAt, RefFlow.netAt, RefFlow.mlp, RefFlow.dense, RefFlow.leaky, RefFlow.page, RefFlow.rowOf, RefFlow.x0, RefFlow.x1, RefFlow.ld0, RefFlow.stepX, RefFlow.stepL] <;> rfl

end Cert.ReferenceIdeal.RefRun

end
-- ==== Proof.RefStep3.lean ====
/- What window 3 of the reference program's @main leaves in the buffers a later window (or the caller) reads, from
   ANY contents before it, as terms of the flow's definitions: the transformed half and the log-determinant after layer 3, layer 4's scale, layer
   4's shift network through its first rectifier, and the pages and rows of that network's two remaining dense layers. -/
import proofs.«154327_j3710851744111_2_alg».proof.Proof.RefOps3
import proofs.«154327_j3710851744111_2_alg».proof.Proof.HostFlow

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 2000000 in
/-- The transformed half after layer 3, the shift's second bias added here. -/
theorem win3_main_v174 (V : Valuation τ sig (Elt F)) :
    after ops_part3 V (no_index (Proc.devRef .tc main_v174))
      = RefFlow.stepX (V (Proc.devRef .tc main_v116)) (V (Proc.devRef .tc main_v145)) (RefFlow.dense (RefFlow.leaky (addf (V (Proc.devRef .tc main_v163)) (V (Proc.devRef .tc main_v165)))) (V (Proc.devRef .tc main_v155)) (V (Proc.devRef .tc main_v157))) := by
  simp only [ops_part3]
  after_results_simp
  simp only [RefFlow.sAt, RefFlow.tAt, RefFlow.netAt, RefFlow.mlp, RefFlow.dense, RefFlow.leaky, RefFlow.page, RefFlow.rowOf, RefFlow.x0, RefFlow.x1, RefFlow.ld0, RefFlow.stepX, RefFlow.stepL] <;> rfl

set_option maxRecDepth 8192 in
set_option maxHeartbeats 2000000 in
/-- The log-determinant after layer 3. -/
theorem win3_main_v176 (V : Valuation τ sig (Elt F)) :
    after ops_part3 V (no_index (Proc.devRef .tc main_v176))
      = RefFlow.stepL (V (Proc.devRef .tc main_v118)) (V (Proc.devRef .tc main_v145)) := by
  simp only [ops_part3]
  after_results_simp
  simp only [RefFlow.sAt, RefFlow.tAt, RefFlow.netAt, RefFlow.mlp, RefFlow.dense, RefFlow.leaky, RefFlow.page, RefFlow.rowOf, RefFlow.x0, RefFlow.x1, RefFlow.ld0, RefFlow.stepX, RefFlow.stepL] <;> rfl

set_option maxRecDepth 8192 in
set_option maxHeartbeats 2000000 in
/-- Layer 4's scale. -/
theorem win3_main_v203 (V : Valuation τ sig (Elt F)) :
    after ops_part3 V (no_index (Proc.devRef .tc main_v203))
      = Host.tanh (RefFlow.netAt (V (Proc.devRef .tc main_v0)) (V (Proc.devRef .tc main_arg1)) (V (Proc.devRef .tc main_arg2)) (V (Proc.devRef .tc main_arg3)) (V (Proc.devRef .tc main_arg4)) (V (Proc.devRef .tc main_arg5)) (V (Proc.devRef .tc main_arg6)) ![3, 0, 0] ![3, 0] slices_S5x64x64_S1x64x64_3_0_0 slices_S5x64_S1x64_3_0) := by
  simp only [ops_part3]
  after_results_simp
  simp only [RefFlow.sAt, RefFlow.tAt, RefFlow.netAt, RefFlow.mlp, RefFlow.dense, RefFlow.leaky, RefFlow.page, RefFlow.rowOf, RefFlow.x0, RefFlow.x1, RefFlow.ld0, RefFlow.stepX, RefFlow.stepL] <;> rfl

set_option maxRecDepth 8192 in
set_option maxHeartbeats 2000000 in
/-- Layer 4's shift network through its first rectifier. -/
theorem win3_main_v220 (V : Valuation τ sig (Elt F)) :
    after ops_part3 V (no_index (Proc.devRef .tc main_v220))
      = RefFlow.leaky (RefFlow.dense (V (Proc.devRef .tc main_v0)) (RefFlow.page (V (Proc.devRef .tc main_arg7)) ![3, 0, 0] slices_S5x64x64_S1x64x64_3_0_0) (RefFlow.rowOf (V (Proc.devRef .tc main_arg8)) ![3, 0] slices_S5x64_S1x64_3_0)) := by
  simp only [ops_part3]
  after_results_simp
  simp only [RefFlow.sAt, RefFlow.tAt, RefFlow.netAt, RefFlow.mlp, RefFlow.dense, RefFlow.leaky, RefFlow.page, RefFlow.rowOf, RefFlow.x0, RefFlow.x1, RefFlow.ld0, RefFlow.stepX, RefFlow.stepL] <;> rfl

set_option maxRecDepth 8192 in
set_option maxHeartbeats 2000000 in
/-- The second matrix of layer 4's shift network. -/
theorem win3_main_v209 (V : Valuation τ sig (Elt F)) :
    after ops_part3 V (no_index (Proc.devRef .tc main_v209))
      = RefFlow.page (V (Proc.devRef .tc main_arg9)) ![3, 0, 0] slices_S5x64x64_S1x64x64_3_0_0 := by
  simp only [ops_part3]
  after_results_simp
  simp only [RefFlow.sAt, RefFlow.tAt, RefFlow.netAt, RefFlow.mlp, RefFlow.dense, RefFlow.leaky, RefFlow.page, RefFlow.rowOf, RefFlow.x0, RefFlow.x1, RefFlow.ld0, RefFlow.stepX, RefFlow.stepL] <;> rfl

set_option maxRecDepth 8192 in
set_option maxHeartbeats 2000000 in
/-- The second bias of layer 4's shift network. -/
theorem win3_main_v211 (V : Valuation τ sig (Elt F)) :
    after ops_part3 V (no_index (Proc.devRef .tc main_v211))
      = RefFlow.rowOf (V (Proc.devRef .tc main_arg10)) ![3, 0] slices_S5x64_S1x64_3_0 := by
  simp only [ops_part3]
  after_results_simp
  simp only [RefFlow.sAt, RefFlow.tAt, RefFlow.netAt, RefFlow.mlp, RefFlow.dense, RefFlow.leaky, RefFlow.page, RefFlow.rowOf, RefFlow.x0, RefFlow.x1, RefFlow.ld0, RefFlow.stepX, RefFlow.stepL] <;> rfl

set_option maxRecDepth 8192 in
set_option maxHeartbeats 2000000 in
/-- The last matrix of layer 4's shift network. -/
theorem win3_main_v213 (V : Valuation τ sig (Elt F)) :
    after ops_part3 V (no_index (Proc.devRef .tc main_v213))
      = RefFlow.page (V (Proc.devRef .tc main_arg11)) ![3, 0, 0] slices_S5x64x64_S1x64x64_3_0_0 := by
  simp only [ops_part3]
  after_results_simp
  simp only [RefFlow.sAt, RefFlow.tAt, RefFlow.netAt, RefFlow.mlp, RefFlow.dense, RefFlow.leaky, RefFlow.page, RefFlow.rowOf, RefFlow.x0, RefFlow.x1, RefFlow.ld0, RefFlow.stepX, RefFlow.stepL] <;> rfl

set_option maxRecDepth 8192 in
set_option maxHeartbeats 2000000 in
/-- The last bias of layer 4's shift network. -/
theorem win3_main_v215 (V : Valuation τ sig (Elt F)) :
    after ops_part3 V (no_index (Proc.devRef .tc main_v215))
      = RefFlow.rowOf (V (Proc.devRef .tc main_arg12)) ![3, 0] slices_S5x64_S1x64_3_0 := by
  simp only [ops_part3]
  after_results_simp
  simp only [RefFlow.sAt, RefFlow.tAt, RefFlow.netAt, RefFlow.mlp, RefFlow.dense, RefFlow.leaky, RefFlow.page, RefFlow.rowOf, RefFlow.x0, RefFlow.x1, RefFlow.ld0, RefFlow.stepX, RefFlow.stepL] <;> rfl

end Cert.ReferenceIdeal.RefRun

end
-- ==== Proof.RefStep4.lean ====
/- What window 4 of the reference program's @main leaves in the buffers a later window (or the caller) reads, from
   ANY contents before it, as terms of the flow's definitions: the transformed half and the log-determinant after layer 4, layer 5's scale, the
   first matrix product of layer 5's shift network (its bias laid out, still to be added), and the pages and rows of
   that network's two remaining dense layers. -/
import proofs.«154327_j3710851744111_2_alg».proof.Proof.RefOps4
import proofs.«154327_j3710851744111_2_alg».proof.Proof.HostFlow

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 2000000 in
/-- The transformed half after layer 4. -/
theorem win4_main_v232 (V : Valuation τ sig (Elt F)) :
    after ops_part4 V (no_index (Proc.devRef .tc main_v232))
      = RefFlow.stepX (V (Proc.devRef .tc main_v174)) (V (Proc.devRef .tc main_v203)) (RefFlow.dense (RefFlow.leaky (RefFlow.dense (V (Proc.devRef .tc main_v220)) (V (Proc.devRef .tc main_v209)) (V (Proc.devRef .tc main_v211)))) (V (Proc.devRef .tc main_v213)) (V (Proc.devRef .tc main_v215))) := by
  simp only [ops_part4]
  after_results_simp
  simp only [RefFlow.sAt, RefFlow.tAt, RefFlow.netAt, RefFlow.mlp, RefFlow.dense, RefFlow.leaky, RefFlow.page, RefFlow.rowOf, RefFlow.x0, RefFlow.x1, RefFlow.ld0, RefFlow.stepX, RefFlow.stepL] <;> rfl

set_option maxRecDepth 8192 in
set_option maxHeartbeats 2000000 in
/-- The log-determinant after layer 4. -/
theorem win4_main_v234 (V : Valuation τ sig (Elt F)) :
    after ops_part4 V (no_index (Proc.devRef .tc main_v234))
      = RefFlow.stepL (V (Proc.devRef .tc main_v176)) (V (Proc.devRef .tc main_v203)) := by
  simp only [ops_part4]
  after_results_simp
  simp only [RefFlow.sAt, RefFlow.tAt, RefFlow.netAt, RefFlow.mlp, RefFlow.dense, RefFlow.leaky, RefFlow.page, RefFlow.rowOf, RefFlow.x0, RefFlow.x1, RefFlow.ld0, RefFlow.stepX, RefFlow.stepL] <;> rfl

set_option maxRecDepth 8192 in
set_option maxHeartbeats 2000000 in
/-- Layer 5's scale. -/
theorem win4_main_v261 (V : Valuation τ sig (Elt F)) :
    after ops_part4 V (no_index (Proc.devRef .tc main_v261))
      = Host.tanh (RefFlow.netAt (V (Proc.devRef .tc main_v0)) (V (Proc.devRef .tc main_arg1)) (V (Proc.devRef .tc main_arg2)) (V (Proc.devRef .tc main_arg3)) (V (Proc.devRef .tc main_arg4)) (V (Proc.devRef .tc main_arg5)) (V (Proc.devRef .tc main_arg6)) ![4, 0, 0] ![4, 0] slices_S5x64x64_S1x64x64_4_0_0 slices_S5x64_S1x64_4_0) := by
  simp only [ops_part4]
  after_results_simp
  simp only [RefFlow.sAt, RefFlow.tAt, RefFlow.netAt, RefFlow.mlp, RefFlow.dense, RefFlow.leaky, RefFlow.page, RefFlow.rowOf, RefFlow.x0, RefFlow.x1, RefFlow.ld0, RefFlow.stepX, RefFlow.stepL] <;> rfl

set_option maxRecDepth 8192 in
set_option maxHeartbeats 2000000 in
/-- The first matrix product of layer 5's shift network (its bias not yet added). -/
theorem win4_main_v274 (V : Valuation τ sig (Elt F)) :
    after ops_part4 V (no_index (Proc.devRef .tc main_v274))
      = Host.dotGeneral dot_S262144x64_S64x64_S262144x64_1_0_0_1_n_n none (V (Proc.devRef .tc main_v0)) (RefFlow.page (V (Proc.devRef .tc main_arg7)) ![4, 0, 0] slices_S5x64x64_S1x64x64_4_0_0) := by
  simp only [ops_part4]
  after_results_simp
  simp only [RefFlow.sAt, RefFlow.tAt, RefFlow.netAt, RefFlow.mlp, RefFlow.dense, RefFlow.leaky, RefFlow.page, RefFlow.rowOf, RefFlow.x0, RefFlow.x1, RefFlow.ld0, RefFlow.stepX, RefFlow.stepL] <;> rfl

set_option maxRecDepth 8192 in
set_option maxHeartbeats 2000000 in
/-- The first bias of layer 5's shift network, laid along every row. -/
theorem win4_main_v276 (V : Valuation τ sig (Elt F)) :
    after ops_part4 V (no_index (Proc.devRef .tc main_v276))
      = (broadcastInDim S262144x64 ![0, 1] bcast_S1x64_S262144x64_0_1 (broadcastInDim S1x64 ![1] bcast_S64_S1x64_1 (RefFlow.rowOf (V (Proc.devRef .tc main_arg8)) ![4, 0] slices_S5x64_S1x64_4_0))) := by
  simp only [ops_part4]
  after_results_simp
  simp only [RefFlow.sAt, RefFlow.tAt, RefFlow.netAt, RefFlow.mlp, RefFlow.dense, RefFlow.leaky, RefFlow.page, RefFlow.rowOf, RefFlow.x0, RefFlow.x1, RefFlow.ld0, RefFlow.stepX, RefFlow.stepL] <;> rfl

set_option maxRecDepth 8192 in
set_option maxHeartbeats 2000000 in
/-- The second matrix of layer 5's shift network. -/
theorem win4_main_v267 (V : Valuation τ sig (Elt F)) :
    after ops_part4 V (no_index (Proc.devRef .tc main_v267))
      = RefFlow.page (V (Proc.devRef .tc main_arg9)) ![4, 0, 0] slices_S5x64x64_S1x64x64_4_0_0 := by
  simp only [ops_part4]
  after_results_simp
  simp only [RefFlow.sAt, RefFlow.tAt, RefFlow.netAt, RefFlow.mlp, RefFlow.dense, RefFlow.leaky, RefFlow.page, RefFlow.rowOf, RefFlow.x0, RefFlow.x1, RefFlow.ld0, RefFlow.stepX, RefFlow.stepL] <;> rfl

set_option maxRecDepth 8192 in
set_option maxHeartbeats 2000000 in
/-- The second bias of layer 5's shift network. -/
theorem win4_main_v269 (V : Valuation τ sig (Elt F)) :
    after ops_part4 V (no_index (Proc.devRef .tc main_v269))
      = RefFlow.rowOf (V (Proc.devRef .tc main_arg10)) ![4, 0] slices_S5x64_S1x64_4_0 := by
  simp only [ops_part4]
  after_results_simp
  simp only [RefFlow.sAt, RefFlow.tAt, RefFlow.netAt, RefFlow.mlp, RefFlow.dense, RefFlow.leaky, RefFlow.page, RefFlow.rowOf, RefFlow.x0, RefFlow.x1, RefFlow.ld0, RefFlow.stepX, RefFlow.stepL] <;> rfl

set_option maxRecDepth 8192 in
set_option maxHeartbeats 2000000 in
/-- The last matrix of layer 5's shift network. -/
theorem win4_main_v271 (V : Valuation τ sig (Elt F)) :
    after ops_part4 V (no_index (Proc.devRef .tc main_v271))
      = RefFlow.page (V (Proc.devRef .tc main_arg11)) ![4, 0, 0] slices_S5x64x64_S1x64x64_4_0_0 := by
  simp only [ops_part4]
  after_results_simp
  simp only [RefFlow.sAt, RefFlow.tAt, RefFlow.netAt, RefFlow.mlp, RefFlow.dense, RefFlow.leaky, RefFlow.page, RefFlow.rowOf, RefFlow.x0, RefFlow.x1, RefFlow.ld0, RefFlow.stepX, RefFlow.stepL] <;> rfl

set_option maxRecDepth 8192 in
set_option maxHeartbeats 2000000 in
/-- The last bias of layer 5's shift network. -/
theorem win4_main_v273 (V : Valuation τ sig (Elt F)) :
    after ops_part4 V (no_index (Proc.devRef .tc main_v273))
      = RefFlow.rowOf (V (Proc.devRef .tc main_arg12)) ![4, 0] slices_S5x64_S1x64_4_0 := by
  simp only [ops_part4]
  after_results_simp
  simp only [RefFlow.sAt, RefFlow.tAt, RefFlow.netAt, RefFlow.mlp, RefFlow.dense, RefFlow.leaky, RefFlow.page, RefFlow.rowOf, RefFlow.x0, RefFlow.x1, RefFlow.ld0, RefFlow.stepX, RefFlow.stepL] <;> rfl

end Cert.ReferenceIdeal.RefRun

end
-- ==== Proof.RefStep5.lean ====
/- What window 5 of the reference program's @main leaves in the buffers a later window (or the caller) reads, from
   ANY contents before it, as terms of the flow's definitions: the two results — the log-determinant after layer 5, and the unchanged half beside
   the transformed half after layer 5 (the shift network's first bias added here). -/
import proofs.«154327_j3710851744111_2_alg».proof.Proof.RefOps5
import proofs.«154327_j3710851744111_2_alg».proof.Proof.HostFlow

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The two halves side by side: the first result's last operation, its operands plain arguments. (The operation
    packs them into a list of dependent pairs that a later argument's type mentions, under which an operand cannot
    be rewritten where it stands; applied by name they can.) -/
def zOf (a b : FVec F S262144x64 .f32) : FVec F S262144x128 .f32 :=
  concatenate S262144x128 1 [⟨S262144x64, a⟩, ⟨S262144x64, b⟩] concatenates_S262144x64_S262144x64_S262144x128_d1

set_option maxRecDepth 8192 in
set_option maxHeartbeats 2000000 in
/-- The log-determinant after layer 5: the second result. -/
theorem win5_main_v292 (V : Valuation τ sig (Elt F)) :
    after ops_part5 V (no_index (Proc.devRef .tc main_v292))
      = RefFlow.stepL (V (Proc.devRef .tc main_v234)) (V (Proc.devRef .tc main_v261)) := by
  simp only [ops_part5]
  after_results_simp
  simp only [RefFlow.sAt, RefFlow.tAt, RefFlow.netAt, RefFlow.mlp, RefFlow.dense, RefFlow.leaky, RefFlow.page, RefFlow.rowOf, RefFlow.x0, RefFlow.x1, RefFlow.ld0, RefFlow.stepX, RefFlow.stepL] <;> rfl

set_option maxRecDepth 8192 in
set_option maxHeartbeats 2000000 in
/-- The first result: the unchanged half beside the transformed half after layer 5. -/
theorem win5_main_v293 (V : Valuation τ sig (Elt F)) :
    after ops_part5 V (no_index (Proc.devRef .tc main_v293))
      = zOf (V (Proc.devRef .tc main_v0))
          (RefFlow.stepX (V (Proc.devRef .tc main_v232)) (V (Proc.devRef .tc main_v261))
              (RefFlow.dense (RefFlow.leaky (RefFlow.dense (RefFlow.leaky (addf (V (Proc.devRef .tc main_v274)) (V (Proc.devRef .tc main_v276)))) (V (Proc.devRef .tc main_v267)) (V (Proc.devRef .tc main_v269)))) (V (Proc.devRef .tc main_v271)) (V (Proc.devRef .tc main_v273)))) := by
  simp only [ops_part5]
  after_results_simp
  simp only [zOf, RefFlow.sAt, RefFlow.tAt, RefFlow.netAt, RefFlow.mlp, RefFlow.dense, RefFlow.leaky, RefFlow.page, RefFlow.rowOf, RefFlow.x0, RefFlow.x1, RefFlow.ld0, RefFlow.stepX, RefFlow.stepL] <;> rfl

end Cert.ReferenceIdeal.RefRun

end
-- ==== Proof.RefValue.lean ====
/- The reference program's run read back: from any contents V of the buffers at the start, the two result buffers
   hold the flow's two results as functions of the thirteen argument buffers' contents, and the argument buffers are
   unchanged. Window by window: each buffer a later window reads is named by its term over the argument contents —
   a window's own read-back (from any contents before it) with the earlier windows' terms put in for what it reads. -/
import proofs.«154327_j3710851744111_2_alg».proof.Proof.RefVal
import proofs.«154327_j3710851744111_2_alg».proof.Proof.RefStep0
import proofs.«154327_j3710851744111_2_alg».proof.Proof.RefStep1
import proofs.«154327_j3710851744111_2_alg».proof.Proof.RefStep2
import proofs.«154327_j3710851744111_2_alg».proof.Proof.RefStep3
import proofs.«154327_j3710851744111_2_alg».proof.Proof.RefStep4
import proofs.«154327_j3710851744111_2_alg».proof.Proof.RefStep5

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ### After the first window -/

/-- The unchanged half. -/
theorem val1_main_v0 (V : Valuation τ sig (Elt F)) :
    val1 V (no_index (Proc.devRef .tc main_v0))
      = RefFlow.x0 (V (Proc.devRef .tc main_arg0)) :=
  win0_main_v0 V
/-- The transformed half before the first layer. -/
theorem val1_main_v1 (V : Valuation τ sig (Elt F)) :
    val1 V (no_index (Proc.devRef .tc main_v1))
      = RefFlow.x1 (V (Proc.devRef .tc main_arg0)) :=
  win0_main_v1 V
/-- The log-determinant before the first layer. -/
theorem val1_main_v2 (V : Valuation τ sig (Elt F)) :
    val1 V (no_index (Proc.devRef .tc main_v2))
      = (RefFlow.ld0 : FVec F S262144 .f32) :=
  win0_main_v2 V
/-- Layer 1's scale. -/
theorem val1_main_v29 (V : Valuation τ sig (Elt F)) :
    val1 V (no_index (Proc.devRef .tc main_v29))
      = RefFlow.sAt (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) ![0, 0, 0] ![0, 0] slices_S5x64x64_S1x64x64_0_0_0 slices_S5x64_S1x64_0_0 :=
  win0_main_v29 V
/-- Layer 1's shift, before its last bias. -/
theorem val1_main_v52 (V : Valuation τ sig (Elt F)) :
    val1 V (no_index (Proc.devRef .tc main_v52))
      = Host.dotGeneral dot_S262144x64_S64x64_S262144x64_1_0_0_1_n_n none (RefFlow.leaky (RefFlow.dense (RefFlow.leaky (RefFlow.dense (RefFlow.x0 (V (Proc.devRef .tc main_arg0))) (RefFlow.page (V (Proc.devRef .tc main_arg7)) ![0, 0, 0] slices_S5x64x64_S1x64x64_0_0_0) (RefFlow.rowOf (V (Proc.devRef .tc main_arg8)) ![0, 0] slices_S5x64_S1x64_0_0))) (RefFlow.page (V (Proc.devRef .tc main_arg9)) ![0, 0, 0] slices_S5x64x64_S1x64x64_0_0_0) (RefFlow.rowOf (V (Proc.devRef .tc main_arg10)) ![0, 0] slices_S5x64_S1x64_0_0))) (RefFlow.page (V (Proc.devRef .tc main_arg11)) ![0, 0, 0] slices_S5x64x64_S1x64x64_0_0_0) :=
  win0_main_v52 V
/-- Layer 1's shift network's last bias, laid along every row. -/
theorem val1_main_v54 (V : Valuation τ sig (Elt F)) :
    val1 V (no_index (Proc.devRef .tc main_v54))
      = broadcastInDim S262144x64 ![0, 1] bcast_S1x64_S262144x64_0_1 (broadcastInDim S1x64 ![1] bcast_S64_S1x64_1 (RefFlow.rowOf (V (Proc.devRef .tc main_arg12)) ![0, 0] slices_S5x64_S1x64_0_0)) :=
  win0_main_v54 V

/-! ### After the second window -/

/-- The unchanged half, untouched by the second window. -/
theorem val2_main_v0 (V : Valuation τ sig (Elt F)) :
    val2 V (no_index (Proc.devRef .tc main_v0))
      = RefFlow.x0 (V (Proc.devRef .tc main_arg0)) :=
  (val2_keep V main_v0 (by decide)).trans (val1_main_v0 V)
/-- The transformed half after layer 1: the shift is the network's last product plus its bias, which is the dense layer. -/
theorem val2_main_v58 (V : Valuation τ sig (Elt F)) :
    val2 V (no_index (Proc.devRef .tc main_v58))
      = RefFlow.stepX (RefFlow.x1 (V (Proc.devRef .tc main_arg0)))
        (RefFlow.sAt (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) ![0, 0, 0] ![0, 0] slices_S5x64x64_S1x64x64_0_0_0 slices_S5x64_S1x64_0_0)
        (RefFlow.tAt (V (Proc.devRef .tc main_arg0)) (V (Proc.devRef .tc main_arg7)) (V (Proc.devRef .tc main_arg8)) (V (Proc.devRef .tc main_arg9)) (V (Proc.devRef .tc main_arg10)) (V (Proc.devRef .tc main_arg11)) (V (Proc.devRef .tc main_arg12)) ![0, 0, 0] ![0, 0] slices_S5x64x64_S1x64x64_0_0_0 slices_S5x64_S1x64_0_0) := by
  unfold val2
  rw [win1_main_v58]
  simp (disch := decide) only [val1_main_v1, val1_main_v29, val1_main_v52, val1_main_v54]
  simp only [RefFlow.tAt, RefFlow.netAt, RefFlow.mlp, RefFlow.dense]
/-- The log-determinant after layer 1. -/
theorem val2_main_v60 (V : Valuation τ sig (Elt F)) :
    val2 V (no_index (Proc.devRef .tc main_v60))
      = RefFlow.stepL RefFlow.ld0
        (RefFlow.sAt (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) ![0, 0, 0] ![0, 0] slices_S5x64x64_S1x64x64_0_0_0 slices_S5x64_S1x64_0_0) := by
  unfold val2
  rw [win1_main_v60]
  simp (disch := decide) only [val1_main_v2, val1_main_v29]
/-- Layer 2's scale. -/
theorem val2_main_v87 (V : Valuation τ sig (Elt F)) :
    val2 V (no_index (Proc.devRef .tc main_v87))
      = RefFlow.sAt (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) ![1, 0, 0] ![1, 0] slices_S5x64x64_S1x64x64_1_0_0 slices_S5x64_S1x64_1_0 := by
  unfold val2
  rw [win1_main_v87]
  simp (disch := decide) only [val1_main_v0, val1_arg]
  simp only [RefFlow.sAt]
/-- Layer 2's shift network through its second rectifier. -/
theorem val2_main_v109 (V : Valuation τ sig (Elt F)) :
    val2 V (no_index (Proc.devRef .tc main_v109))
      = RefFlow.leaky (RefFlow.dense (RefFlow.leaky (RefFlow.dense (RefFlow.x0 (V (Proc.devRef .tc main_arg0))) (RefFlow.page (V (Proc.devRef .tc main_arg7)) ![1, 0, 0] slices_S5x64x64_S1x64x64_1_0_0) (RefFlow.rowOf (V (Proc.devRef .tc main_arg8)) ![1, 0] slices_S5x64_S1x64_1_0))) (RefFlow.page (V (Proc.devRef .tc main_arg9)) ![1, 0, 0] slices_S5x64x64_S1x64x64_1_0_0) (RefFlow.rowOf (V (Proc.devRef .tc main_arg10)) ![1, 0] slices_S5x64_S1x64_1_0)) := by
  unfold val2
  rw [win1_main_v109]
  simp (disch := decide) only [val1_main_v0, val1_arg]
/-- The last matrix of layer 2's shift network. -/
theorem val2_main_v97 (V : Valuation τ sig (Elt F)) :
    val2 V (no_index (Proc.devRef .tc main_v97))
      = RefFlow.page (V (Proc.devRef .tc main_arg11)) ![1, 0, 0] slices_S5x64x64_S1x64x64_1_0_0 := by
  unfold val2
  rw [win1_main_v97]
  simp (disch := decide) only [val1_arg]
/-- The last bias of layer 2's shift network. -/
theorem val2_main_v99 (V : Valuation τ sig (Elt F)) :
    val2 V (no_index (Proc.devRef .tc main_v99))
      = RefFlow.rowOf (V (Proc.devRef .tc main_arg12)) ![1, 0] slices_S5x64_S1x64_1_0 := by
  unfold val2
  rw [win1_main_v99]
  simp (disch := decide) only [val1_arg]

/-! ### After the third window -/

/-- The unchanged half, untouched by the third window. -/
theorem val3_main_v0 (V : Valuation τ sig (Elt F)) :
    val3 V (no_index (Proc.devRef .tc main_v0))
      = RefFlow.x0 (V (Proc.devRef .tc main_arg0)) :=
  (val3_keep V main_v0 (by decide)).trans (val2_main_v0 V)
/-- The transformed half after layer 2. -/
theorem val3_main_v116 (V : Valuation τ sig (Elt F)) :
    val3 V (no_index (Proc.devRef .tc main_v116))
      = RefFlow.stepX (RefFlow.stepX (RefFlow.x1 (V (Proc.devRef .tc main_arg0)))
        (RefFlow.sAt (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) ![0, 0, 0] ![0, 0] slices_S5x64x64_S1x64x64_0_0_0 slices_S5x64_S1x64_0_0)
        (RefFlow.tAt (V (Proc.devRef .tc main_arg0)) (V (Proc.devRef .tc main_arg7)) (V (Proc.devRef .tc main_arg8)) (V (Proc.devRef .tc main_arg9)) (V (Proc.devRef .tc main_arg10)) (V (Proc.devRef .tc main_arg11)) (V (Proc.devRef .tc main_arg12)) ![0, 0, 0] ![0, 0] slices_S5x64x64_S1x64x64_0_0_0 slices_S5x64_S1x64_0_0))
        (RefFlow.sAt (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) ![1, 0, 0] ![1, 0] slices_S5x64x64_S1x64x64_1_0_0 slices_S5x64_S1x64_1_0)
        (RefFlow.tAt (V (Proc.devRef .tc main_arg0)) (V (Proc.devRef .tc main_arg7)) (V (Proc.devRef .tc main_arg8)) (V (Proc.devRef .tc main_arg9)) (V (Proc.devRef .tc main_arg10)) (V (Proc.devRef .tc main_arg11)) (V (Proc.devRef .tc main_arg12)) ![1, 0, 0] ![1, 0] slices_S5x64x64_S1x64x64_1_0_0 slices_S5x64_S1x64_1_0) := by
  unfold val3
  rw [win2_main_v116]
  simp (disch := decide) only [val2_main_v58, val2_main_v87, val2_main_v109, val2_main_v97, val2_main_v99]
  simp only [RefFlow.tAt, RefFlow.netAt, RefFlow.mlp]
/-- The log-determinant after layer 2. -/
theorem val3_main_v118 (V : Valuation τ sig (Elt F)) :
    val3 V (no_index (Proc.devRef .tc main_v118))
      = RefFlow.stepL (RefFlow.stepL RefFlow.ld0
        (RefFlow.sAt (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) ![0, 0, 0] ![0, 0] slices_S5x64x64_S1x64x64_0_0_0 slices_S5x64_S1x64_0_0))
        (RefFlow.sAt (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) ![1, 0, 0] ![1, 0] slices_S5x64x64_S1x64x64_1_0_0 slices_S5x64_S1x64_1_0) := by
  unfold val3
  rw [win2_main_v118]
  simp (disch := decide) only [val2_main_v60, val2_main_v87]
/-- Layer 3's scale. -/
theorem val3_main_v145 (V : Valuation τ sig (Elt F)) :
    val3 V (no_index (Proc.devRef .tc main_v145))
      = RefFlow.sAt (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) ![2, 0, 0] ![2, 0] slices_S5x64x64_S1x64x64_2_0_0 slices_S5x64_S1x64_2_0 := by
  unfold val3
  rw [win2_main_v145]
  simp (disch := decide) only [val2_main_v0, val2_arg]
  simp only [RefFlow.sAt]
/-- Layer 3's shift network up to its second product. -/
theorem val3_main_v163 (V : Valuation τ sig (Elt F)) :
    val3 V (no_index (Proc.devRef .tc main_v163))
      = Host.dotGeneral dot_S262144x64_S64x64_S262144x64_1_0_0_1_n_n none (RefFlow.leaky (RefFlow.dense (RefFlow.x0 (V (Proc.devRef .tc main_arg0))) (RefFlow.page (V (Proc.devRef .tc main_arg7)) ![2, 0, 0] slices_S5x64x64_S1x64x64_2_0_0) (RefFlow.rowOf (V (Proc.devRef .tc main_arg8)) ![2, 0] slices_S5x64_S1x64_2_0))) (RefFlow.page (V (Proc.devRef .tc main_arg9)) ![2, 0, 0] slices_S5x64x64_S1x64x64_2_0_0) := by
  unfold val3
  rw [win2_main_v163]
  simp (disch := decide) only [val2_main_v0, val2_arg]
/-- The second bias of layer 3's shift network, laid along every row. -/
theorem val3_main_v165 (V : Valuation τ sig (Elt F)) :
    val3 V (no_index (Proc.devRef .tc main_v165))
      = broadcastInDim S262144x64 ![0, 1] bcast_S1x64_S262144x64_0_1 (broadcastInDim S1x64 ![1] bcast_S64_S1x64_1 (RefFlow.rowOf (V (Proc.devRef .tc main_arg10)) ![2, 0] slices_S5x64_S1x64_2_0)) := by
  unfold val3
  rw [win2_main_v165]
  simp (disch := decide) only [val2_arg]
/-- The last matrix of layer 3's shift network. -/
theorem val3_main_v155 (V : Valuation τ sig (Elt F)) :
    val3 V (no_index (Proc.devRef .tc main_v155))
      = RefFlow.page (V (Proc.devRef .tc main_arg11)) ![2, 0, 0] slices_S5x64x64_S1x64x64_2_0_0 := by
  unfold val3
  rw [win2_main_v155]
  simp (disch := decide) only [val2_arg]
/-- The last bias of layer 3's shift network. -/
theorem val3_main_v157 (V : Valuation τ sig (Elt F)) :
    val3 V (no_index (Proc.devRef .tc main_v157))
      = RefFlow.rowOf (V (Proc.devRef .tc main_arg12)) ![2, 0] slices_S5x64_S1x64_2_0 := by
  unfold val3
  rw [win2_main_v157]
  simp (disch := decide) only [val2_arg]

/-! ### After the fourth window -/

/-- The unchanged half, untouched by the fourth window. -/
theorem val4_main_v0 (V : Valuation τ sig (Elt F)) :
    val4 V (no_index (Proc.devRef .tc main_v0))
      = RefFlow.x0 (V (Proc.devRef .tc main_arg0)) :=
  (val4_keep V main_v0 (by decide)).trans (val3_main_v0 V)
/-- The transformed half after layer 3. -/
theorem val4_main_v174 (V : Valuation τ sig (Elt F)) :
    val4 V (no_index (Proc.devRef .tc main_v174))
      = RefFlow.stepX (RefFlow.stepX (RefFlow.stepX (RefFlow.x1 (V (Proc.devRef .tc main_arg0)))
        (RefFlow.sAt (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) ![0, 0, 0] ![0, 0] slices_S5x64x64_S1x64x64_0_0_0 slices_S5x64_S1x64_0_0)
        (RefFlow.tAt (V (Proc.devRef .tc main_arg0)) (V (Proc.devRef .tc main_arg7)) (V (Proc.devRef .tc main_arg8)) (V (Proc.devRef .tc main_arg9)) (V (Proc.devRef .tc main_arg10)) (V (Proc.devRef .tc main_arg11)) (V (Proc.devRef .tc main_arg12)) ![0, 0, 0] ![0, 0] slices_S5x64x64_S1x64x64_0_0_0 slices_S5x64_S1x64_0_0))
        (RefFlow.sAt (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) ![1, 0, 0] ![1, 0] slices_S5x64x64_S1x64x64_1_0_0 slices_S5x64_S1x64_1_0)
        (RefFlow.tAt (V (Proc.devRef .tc main_arg0)) (V (Proc.devRef .tc main_arg7)) (V (Proc.devRef .tc main_arg8)) (V (Proc.devRef .tc main_arg9)) (V (Proc.devRef .tc main_arg10)) (V (Proc.devRef .tc main_arg11)) (V (Proc.devRef .tc main_arg12)) ![1, 0, 0] ![1, 0] slices_S5x64x64_S1x64x64_1_0_0 slices_S5x64_S1x64_1_0))
        (RefFlow.sAt (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) ![2, 0, 0] ![2, 0] slices_S5x64x64_S1x64x64_2_0_0 slices_S5x64_S1x64_2_0)
        (RefFlow.tAt (V (Proc.devRef .tc main_arg0)) (V (Proc.devRef .tc main_arg7)) (V (Proc.devRef .tc main_arg8)) (V (Proc.devRef .tc main_arg9)) (V (Proc.devRef .tc main_arg10)) (V (Proc.devRef .tc main_arg11)) (V (Proc.devRef .tc main_arg12)) ![2, 0, 0] ![2, 0] slices_S5x64x64_S1x64x64_2_0_0 slices_S5x64_S1x64_2_0) := by
  unfold val4
  rw [win3_main_v174]
  simp (disch := decide) only [val3_main_v116, val3_main_v145, val3_main_v163, val3_main_v165, val3_main_v155, val3_main_v157]
  simp only [RefFlow.tAt, RefFlow.netAt, RefFlow.mlp, RefFlow.dense]
/-- The log-determinant after layer 3. -/
theorem val4_main_v176 (V : Valuation τ sig (Elt F)) :
    val4 V (no_index (Proc.devRef .tc main_v176))
      = RefFlow.stepL (RefFlow.stepL (RefFlow.stepL RefFlow.ld0
        (RefFlow.sAt (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) ![0, 0, 0] ![0, 0] slices_S5x64x64_S1x64x64_0_0_0 slices_S5x64_S1x64_0_0))
        (RefFlow.sAt (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) ![1, 0, 0] ![1, 0] slices_S5x64x64_S1x64x64_1_0_0 slices_S5x64_S1x64_1_0))
        (RefFlow.sAt (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) ![2, 0, 0] ![2, 0] slices_S5x64x64_S1x64x64_2_0_0 slices_S5x64_S1x64_2_0) := by
  unfold val4
  rw [win3_main_v176]
  simp (disch := decide) only [val3_main_v118, val3_main_v145]
/-- Layer 4's scale. -/
theorem val4_main_v203 (V : Valuation τ sig (Elt F)) :
    val4 V (no_index (Proc.devRef .tc main_v203))
      = RefFlow.sAt (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) ![3, 0, 0] ![3, 0] slices_S5x64x64_S1x64x64_3_0_0 slices_S5x64_S1x64_3_0 := by
  unfold val4
  rw [win3_main_v203]
  simp (disch := decide) only [val3_main_v0, val3_arg]
  simp only [RefFlow.sAt]
/-- Layer 4's shift network through its first rectifier. -/
theorem val4_main_v220 (V : Valuation τ sig (Elt F)) :
    val4 V (no_index (Proc.devRef .tc main_v220))
      = RefFlow.leaky (RefFlow.dense (RefFlow.x0 (V (Proc.devRef .tc main_arg0))) (RefFlow.page (V (Proc.devRef .tc main_arg7)) ![3, 0, 0] slices_S5x64x64_S1x64x64_3_0_0) (RefFlow.rowOf (V (Proc.devRef .tc main_arg8)) ![3, 0] slices_S5x64_S1x64_3_0)) := by
  unfold val4
  rw [win3_main_v220]
  simp (disch := decide) only [val3_main_v0, val3_arg]
/-- The second matrix of layer 4's shift network. -/
theorem val4_main_v209 (V : Valuation τ sig (Elt F)) :
    val4 V (no_index (Proc.devRef .tc main_v209))
      = RefFlow.page (V (Proc.devRef .tc main_arg9)) ![3, 0, 0] slices_S5x64x64_S1x64x64_3_0_0 := by
  unfold val4
  rw [win3_main_v209]
  simp (disch := decide) only [val3_arg]
/-- The second bias of layer 4's shift network. -/
theorem val4_main_v211 (V : Valuation τ sig (Elt F)) :
    val4 V (no_index (Proc.devRef .tc main_v211))
      = RefFlow.rowOf (V (Proc.devRef .tc main_arg10)) ![3, 0] slices_S5x64_S1x64_3_0 := by
  unfold val4
  rw [win3_main_v211]
  simp (disch := decide) only [val3_arg]
/-- The last matrix of layer 4's shift network. -/
theorem val4_main_v213 (V : Valuation τ sig (Elt F)) :
    val4 V (no_index (Proc.devRef .tc main_v213))
      = RefFlow.page (V (Proc.devRef .tc main_arg11)) ![3, 0, 0] slices_S5x64x64_S1x64x64_3_0_0 := by
  unfold val4
  rw [win3_main_v213]
  simp (disch := decide) only [val3_arg]
/-- The last bias of layer 4's shift network. -/
theorem val4_main_v215 (V : Valuation τ sig (Elt F)) :
    val4 V (no_index (Proc.devRef .tc main_v215))
      = RefFlow.rowOf (V (Proc.devRef .tc main_arg12)) ![3, 0] slices_S5x64_S1x64_3_0 := by
  unfold val4
  rw [win3_main_v215]
  simp (disch := decide) only [val3_arg]

/-! ### After the fifth window -/

/-- The unchanged half, untouched by the fifth window. -/
theorem val5_main_v0 (V : Valuation τ sig (Elt F)) :
    val5 V (no_index (Proc.devRef .tc main_v0))
      = RefFlow.x0 (V (Proc.devRef .tc main_arg0)) :=
  (val5_keep V main_v0 (by decide)).trans (val4_main_v0 V)
/-- The transformed half after layer 4. -/
theorem val5_main_v232 (V : Valuation τ sig (Elt F)) :
    val5 V (no_index (Proc.devRef .tc main_v232))
      = RefFlow.stepX (RefFlow.stepX (RefFlow.stepX (RefFlow.stepX (RefFlow.x1 (V (Proc.devRef .tc main_arg0)))
        (RefFlow.sAt (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) ![0, 0, 0] ![0, 0] slices_S5x64x64_S1x64x64_0_0_0 slices_S5x64_S1x64_0_0)
        (RefFlow.tAt (V (Proc.devRef .tc main_arg0)) (V (Proc.devRef .tc main_arg7)) (V (Proc.devRef .tc main_arg8)) (V (Proc.devRef .tc main_arg9)) (V (Proc.devRef .tc main_arg10)) (V (Proc.devRef .tc main_arg11)) (V (Proc.devRef .tc main_arg12)) ![0, 0, 0] ![0, 0] slices_S5x64x64_S1x64x64_0_0_0 slices_S5x64_S1x64_0_0))
        (RefFlow.sAt (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) ![1, 0, 0] ![1, 0] slices_S5x64x64_S1x64x64_1_0_0 slices_S5x64_S1x64_1_0)
        (RefFlow.tAt (V (Proc.devRef .tc main_arg0)) (V (Proc.devRef .tc main_arg7)) (V (Proc.devRef .tc main_arg8)) (V (Proc.devRef .tc main_arg9)) (V (Proc.devRef .tc main_arg10)) (V (Proc.devRef .tc main_arg11)) (V (Proc.devRef .tc main_arg12)) ![1, 0, 0] ![1, 0] slices_S5x64x64_S1x64x64_1_0_0 slices_S5x64_S1x64_1_0))
        (RefFlow.sAt (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) ![2, 0, 0] ![2, 0] slices_S5x64x64_S1x64x64_2_0_0 slices_S5x64_S1x64_2_0)
        (RefFlow.tAt (V (Proc.devRef .tc main_arg0)) (V (Proc.devRef .tc main_arg7)) (V (Proc.devRef .tc main_arg8)) (V (Proc.devRef .tc main_arg9)) (V (Proc.devRef .tc main_arg10)) (V (Proc.devRef .tc main_arg11)) (V (Proc.devRef .tc main_arg12)) ![2, 0, 0] ![2, 0] slices_S5x64x64_S1x64x64_2_0_0 slices_S5x64_S1x64_2_0))
        (RefFlow.sAt (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) ![3, 0, 0] ![3, 0] slices_S5x64x64_S1x64x64_3_0_0 slices_S5x64_S1x64_3_0)
        (RefFlow.tAt (V (Proc.devRef .tc main_arg0)) (V (Proc.devRef .tc main_arg7)) (V (Proc.devRef .tc main_arg8)) (V (Proc.devRef .tc main_arg9)) (V (Proc.devRef .tc main_arg10)) (V (Proc.devRef .tc main_arg11)) (V (Proc.devRef .tc main_arg12)) ![3, 0, 0] ![3, 0] slices_S5x64x64_S1x64x64_3_0_0 slices_S5x64_S1x64_3_0) := by
  unfold val5
  rw [win4_main_v232]
  simp (disch := decide) only [val4_main_v174, val4_main_v203, val4_main_v220, val4_main_v209, val4_main_v211, val4_main_v213, val4_main_v215]
  simp only [RefFlow.tAt, RefFlow.netAt, RefFlow.mlp]
/-- The log-determinant after layer 4. -/
theorem val5_main_v234 (V : Valuation τ sig (Elt F)) :
    val5 V (no_index (Proc.devRef .tc main_v234))
      = RefFlow.stepL (RefFlow.stepL (RefFlow.stepL (RefFlow.stepL RefFlow.ld0
        (RefFlow.sAt (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) ![0, 0, 0] ![0, 0] slices_S5x64x64_S1x64x64_0_0_0 slices_S5x64_S1x64_0_0))
        (RefFlow.sAt (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) ![1, 0, 0] ![1, 0] slices_S5x64x64_S1x64x64_1_0_0 slices_S5x64_S1x64_1_0))
        (RefFlow.sAt (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) ![2, 0, 0] ![2, 0] slices_S5x64x64_S1x64x64_2_0_0 slices_S5x64_S1x64_2_0))
        (RefFlow.sAt (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) ![3, 0, 0] ![3, 0] slices_S5x64x64_S1x64x64_3_0_0 slices_S5x64_S1x64_3_0) := by
  unfold val5
  rw [win4_main_v234]
  simp (disch := decide) only [val4_main_v176, val4_main_v203]
/-- Layer 5's scale. -/
theorem val5_main_v261 (V : Valuation τ sig (Elt F)) :
    val5 V (no_index (Proc.devRef .tc main_v261))
      = RefFlow.sAt (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) ![4, 0, 0] ![4, 0] slices_S5x64x64_S1x64x64_4_0_0 slices_S5x64_S1x64_4_0 := by
  unfold val5
  rw [win4_main_v261]
  simp (disch := decide) only [val4_main_v0, val4_arg]
  simp only [RefFlow.sAt]
/-- The first product of layer 5's shift network. -/
theorem val5_main_v274 (V : Valuation τ sig (Elt F)) :
    val5 V (no_index (Proc.devRef .tc main_v274))
      = Host.dotGeneral dot_S262144x64_S64x64_S262144x64_1_0_0_1_n_n none (RefFlow.x0 (V (Proc.devRef .tc main_arg0))) (RefFlow.page (V (Proc.devRef .tc main_arg7)) ![4, 0, 0] slices_S5x64x64_S1x64x64_4_0_0) := by
  unfold val5
  rw [win4_main_v274]
  simp (disch := decide) only [val4_main_v0, val4_arg]
/-- The first bias of layer 5's shift network, laid along every row. -/
theorem val5_main_v276 (V : Valuation τ sig (Elt F)) :
    val5 V (no_index (Proc.devRef .tc main_v276))
      = broadcastInDim S262144x64 ![0, 1] bcast_S1x64_S262144x64_0_1 (broadcastInDim S1x64 ![1] bcast_S64_S1x64_1 (RefFlow.rowOf (V (Proc.devRef .tc main_arg8)) ![4, 0] slices_S5x64_S1x64_4_0)) := by
  unfold val5
  rw [win4_main_v276]
  simp (disch := decide) only [val4_arg]
/-- The second matrix of layer 5's shift network. -/
theorem val5_main_v267 (V : Valuation τ sig (Elt F)) :
    val5 V (no_index (Proc.devRef .tc main_v267))
      = RefFlow.page (V (Proc.devRef .tc main_arg9)) ![4, 0, 0] slices_S5x64x64_S1x64x64_4_0_0 := by
  unfold val5
  rw [win4_main_v267]
  simp (disch := decide) only [val4_arg]
/-- The second bias of layer 5's shift network. -/
theorem val5_main_v269 (V : Valuation τ sig (Elt F)) :
    val5 V (no_index (Proc.devRef .tc main_v269))
      = RefFlow.rowOf (V (Proc.devRef .tc main_arg10)) ![4, 0] slices_S5x64_S1x64_4_0 := by
  unfold val5
  rw [win4_main_v269]
  simp (disch := decide) only [val4_arg]
/-- The last matrix of layer 5's shift network. -/
theorem val5_main_v271 (V : Valuation τ sig (Elt F)) :
    val5 V (no_index (Proc.devRef .tc main_v271))
      = RefFlow.page (V (Proc.devRef .tc main_arg11)) ![4, 0, 0] slices_S5x64x64_S1x64x64_4_0_0 := by
  unfold val5
  rw [win4_main_v271]
  simp (disch := decide) only [val4_arg]
/-- The last bias of layer 5's shift network. -/
theorem val5_main_v273 (V : Valuation τ sig (Elt F)) :
    val5 V (no_index (Proc.devRef .tc main_v273))
      = RefFlow.rowOf (V (Proc.devRef .tc main_arg12)) ![4, 0] slices_S5x64_S1x64_4_0 := by
  unfold val5
  rw [win4_main_v273]
  simp (disch := decide) only [val4_arg]

/-! ### After the last window: the results -/

/-- The second result is the log-determinant: the five layers' row sums of the scale added up from zero. -/
theorem val6_main_v292 (V : Valuation τ sig (Elt F)) :
    val6 V (no_index (Proc.devRef .tc main_v292))
      = RefFlow.refL (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  unfold val6
  rw [win5_main_v292]
  simp (disch := decide) only [val5_main_v234, val5_main_v261]
  simp only [RefFlow.refL]
/-- The first result is the unchanged half beside the transformed half after the five layers. -/
theorem val6_main_v293 (V : Valuation τ sig (Elt F)) :
    val6 V (no_index (Proc.devRef .tc main_v293))
      = RefFlow.refZ (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  unfold val6
  rw [win5_main_v293]
  simp (disch := decide) only [val5_main_v0, val5_main_v232, val5_main_v261, val5_main_v274, val5_main_v276, val5_main_v267, val5_main_v269, val5_main_v271, val5_main_v273]
  simp only [zOf, RefFlow.refZ, RefFlow.x1Out, RefFlow.tAt, RefFlow.netAt, RefFlow.mlp, RefFlow.dense]

/-! ### The whole line -/

/-- After the whole line the first result buffer holds z. -/
theorem after_main_v293 (V : Valuation τ sig (Elt F)) :
    after ops V (no_index (Proc.devRef .tc main_v293)) = RefFlow.refZ (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  rw [after_ops]; exact val6_main_v293 V

/-- After the whole line the second result buffer holds the log-determinant. -/
theorem after_main_v292 (V : Valuation τ sig (Elt F)) :
    after ops V (no_index (Proc.devRef .tc main_v292)) = RefFlow.refL (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [after_ops]; exact val6_main_v292 V

/-! No operation of the line writes an argument buffer: each holds at the end what it held at the start. -/

theorem after_main_arg0 (V : Valuation τ sig (Elt F)) :
    after ops V (no_index (Proc.devRef .tc main_arg0)) = V (Proc.devRef .tc main_arg0) := by
  rw [after_ops]; exact val6_arg V main_arg0 (by decide)
theorem after_main_arg1 (V : Valuation τ sig (Elt F)) :
    after ops V (no_index (Proc.devRef .tc main_arg1)) = V (Proc.devRef .tc main_arg1) := by
  rw [after_ops]; exact val6_arg V main_arg1 (by decide)
theorem after_main_arg2 (V : Valuation τ sig (Elt F)) :
    after ops V (no_index (Proc.devRef .tc main_arg2)) = V (Proc.devRef .tc main_arg2) := by
  rw [after_ops]; exact val6_arg V main_arg2 (by decide)
theorem after_main_arg3 (V : Valuation τ sig (Elt F)) :
    after ops V (no_index (Proc.devRef .tc main_arg3)) = V (Proc.devRef .tc main_arg3) := by
  rw [after_ops]; exact val6_arg V main_arg3 (by decide)
theorem after_main_arg4 (V : Valuation τ sig (Elt F)) :
    after ops V (no_index (Proc.devRef .tc main_arg4)) = V (Proc.devRef .tc main_arg4) := by
  rw [after_ops]; exact val6_arg V main_arg4 (by decide)
theorem after_main_arg5 (V : Valuation τ sig (Elt F)) :
    after ops V (no_index (Proc.devRef .tc main_arg5)) = V (Proc.devRef .tc main_arg5) := by
  rw [after_ops]; exact val6_arg V main_arg5 (by decide)
theorem after_main_arg6 (V : Valuation τ sig (Elt F)) :
    after ops V (no_index (Proc.devRef .tc main_arg6)) = V (Proc.devRef .tc main_arg6) := by
  rw [after_ops]; exact val6_arg V main_arg6 (by decide)
theorem after_main_arg7 (V : Valuation τ sig (Elt F)) :
    after ops V (no_index (Proc.devRef .tc main_arg7)) = V (Proc.devRef .tc main_arg7) := by
  rw [after_ops]; exact val6_arg V main_arg7 (by decide)
theorem after_main_arg8 (V : Valuation τ sig (Elt F)) :
    after ops V (no_index (Proc.devRef .tc main_arg8)) = V (Proc.devRef .tc main_arg8) := by
  rw [after_ops]; exact val6_arg V main_arg8 (by decide)
theorem after_main_arg9 (V : Valuation τ sig (Elt F)) :
    after ops V (no_index (Proc.devRef .tc main_arg9)) = V (Proc.devRef .tc main_arg9) := by
  rw [after_ops]; exact val6_arg V main_arg9 (by decide)
theorem after_main_arg10 (V : Valuation τ sig (Elt F)) :
    after ops V (no_index (Proc.devRef .tc main_arg10)) = V (Proc.devRef .tc main_arg10) := by
  rw [after_ops]; exact val6_arg V main_arg10 (by decide)
theorem after_main_arg11 (V : Valuation τ sig (Elt F)) :
    after ops V (no_index (Proc.devRef .tc main_arg11)) = V (Proc.devRef .tc main_arg11) := by
  rw [after_ops]; exact val6_arg V main_arg11 (by decide)
theorem after_main_arg12 (V : Valuation τ sig (Elt F)) :
    after ops V (no_index (Proc.devRef .tc main_arg12)) = V (Proc.devRef .tc main_arg12) := by
  rw [after_ops]; exact val6_arg V main_arg12 (by decide)

/-- On every device, for any float values, from any memory with zero counters: every weakly fair execution of @main
    on the TensorCores terminates with the two results at the flow's terms of the arguments' launch contents and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v293) = RefFlow.refZ (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_v292) = RefFlow.refL (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c =>
    ⟨(h c main_v293).trans (after_main_v293 (launchContents m c)),
     (h c main_v292).trans (after_main_v292 (launchContents m c)),
     (h c main_arg0).trans (after_main_arg0 (launchContents m c)),
     (h c main_arg1).trans (after_main_arg1 (launchContents m c)),
     (h c main_arg2).trans (after_main_arg2 (launchContents m c)),
     (h c main_arg3).trans (after_main_arg3 (launchContents m c)),
     (h c main_arg4).trans (after_main_arg4 (launchContents m c)),
     (h c main_arg5).trans (after_main_arg5 (launchContents m c)),
     (h c main_arg6).trans (after_main_arg6 (launchContents m c)),
     (h c main_arg7).trans (after_main_arg7 (launchContents m c)),
     (h c main_arg8).trans (after_main_arg8 (launchContents m c)),
     (h c main_arg9).trans (after_main_arg9 (launchContents m c)),
     (h c main_arg10).trans (after_main_arg10 (launchContents m c)),
     (h c main_arg11).trans (after_main_arg11 (launchContents m c)),
     (h c main_arg12).trans (after_main_arg12 (launchContents m c))⟩)
    (run_after m ρ)

end Cert.ReferenceIdeal.RefRun

end
-- ==== Proof.lean ====
/-
  The certificate of the affine-coupling flow kernel against its jnp reference.

  Both programs compute, from a batch x = [x0 | x1] of 262144 rows and twelve stacked parameter arrays, five layers of
    s = tanh (net_s x0),  t = net_t x0,  x1 ← x1 · exp s + t,  logdet ← logdet + Σ_columns s,
  each net three dense layers with the leaky rectifier (slope the binary32 word 0x3C23D70A) between them, and return
  z = [x0 | x1] and logdet. The kernel does it 4096 rows at a time over a grid of 64 points, with each product's
  operands narrowed to bfloat16 and accumulated into a zero block; the reference does it on the whole batch. On the
  extended reals a change of float format is the identity, a product into a zero accumulator is the plain product, and
  every step is row-wise, so a block of rows of the result is the result of that block of rows: the two programs end
  with the same two arrays. No arithmetic law beyond 0 + x = x is used, so the precondition is never opened.

  The three frames are the generated frame runs (the reference's is its run with the results dropped); the ideal pass
  rewrote nothing, so `preserves` is trivial; `algebraic` sets the kernel's run, read through its blocks, beside the
  reference's run read back operation by operation: both state their results as the same two functions.
-/
import proofs.«154327_j3710851744111_2_alg».proof.Defs
import proofs.«154327_j3710851744111_2_alg».proof.Proof.Gen.Kernel
import proofs.«154327_j3710851744111_2_alg».proof.Proof.Gen.Kernel.Skeleton
import proofs.«154327_j3710851744111_2_alg».proof.Proof.Gen.Kernel.Launch
import proofs.«154327_j3710851744111_2_alg».proof.Proof.Gen.Kernel.Points
import proofs.«154327_j3710851744111_2_alg».proof.Proof.Gen.Kernel.Frame
import proofs.«154327_j3710851744111_2_alg».proof.Proof.Gen.KernelIdeal
import proofs.«154327_j3710851744111_2_alg».proof.Proof.Gen.KernelIdeal.Skeleton
import proofs.«154327_j3710851744111_2_alg».proof.Proof.Gen.KernelIdeal.Launch
import proofs.«154327_j3710851744111_2_alg».proof.Proof.Gen.KernelIdeal.Points
import proofs.«154327_j3710851744111_2_alg».proof.Proof.Gen.KernelIdeal.Frame
import proofs.«154327_j3710851744111_2_alg».proof.Proof.Gen.KernelIdeal.Value
import proofs.«154327_j3710851744111_2_alg».proof.Proof.Gen.ReferenceIdeal
import proofs.«154327_j3710851744111_2_alg».proof.Proof.Gen.Pre_finite_inputs
import proofs.«154327_j3710851744111_2_alg».proof.Proof.KernelValue
import proofs.«154327_j3710851744111_2_alg».proof.Proof.RefValue
import Idealize.ShloMosaic.Adequacy
import Idealize.ShloMosaic.Init

noncomputable section

namespace Cert.Proof

open Idealize.ShloMosaic Idealize.SL.Sem

/-- The word-level kernel runs and leaves its arguments as they were: the generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and leaves its arguments as they were: its run, the two results dropped. -/
theorem frame_referenceIdeal : Cert.frame_ReferenceIdeal := fun m ρ _ =>
  (θ_run Cert.ReferenceIdeal.defs _ _).mono (fun _ h c => (h c).2.2) (Cert.ReferenceIdeal.RefRun.run (F := Ideal) m ρ)

/-- The ideal pass rewrote no operation. -/
theorem preserves : Cert.preserves_Kernel_KernelIdeal := trivial

/-- From memories agreeing on the arguments both programs end with z and the log-determinant at the same two
    functions of the argument arrays: the reference's own, which the kernel's blocks tile. -/
theorem algebraic : Cert.algebraic_KernelIdeal_ReferenceIdeal := by
  intro m ρ m' ρ' _ hagree
  refine ⟨fun c => Cert.KernelIdeal.KerValue.zOf m c, fun c => Cert.KernelIdeal.KerValue.lOf m c,
    Cert.KernelIdeal.KerValue.run m ρ, ?_⟩
  refine (θ_run Cert.ReferenceIdeal.defs _ _).mono (fun _ h c => ⟨(h c).1.trans ?_, (h c).2.1.trans ?_, (h c).2.2⟩)
    (Cert.ReferenceIdeal.RefRun.run (F := Ideal) m' ρ')
  · obtain ⟨e0, e1, e2, e3, e4, e5, e6, e7, e8, e9, e10, e11, e12⟩ := hagree c
    rw [e0, e1, e2, e3, e4, e5, e6, e7, e8, e9, e10, e11, e12]
    rfl
  · obtain ⟨e0, e1, e2, e3, e4, e5, e6, e7, e8, e9, e10, e11, e12⟩ := hagree c
    rw [e0, e1, e2, e3, e4, e5, e6]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
